-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S2x256x256 : S_.BroadcastsInDim S2x256x256 (![] : Fin 0 → Fin S2x256x256.rank)
  reducesTo_S2x256x256_S_d0_1_2 : S2x256x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part3 {F : FTy → Type} [FloatOps F] (main_arg13 : FVec F S2x256 .f32) (main_arg14 : FVec F S2x256 .f32) (main_v48 : IVec S_ 1) (main_v49 : FVec F S2x256 .f32) (main_v50 : FVec F S2x256 .f32) : IVec S_ 1 :=
  let main_v51 : IVec S2x256 1 := cmpf .olt main_v49 main_v50
  let main_c_19 : IVec S_ 1 := constantI S_ 1 1#1
  let main_v52 : IVec S_ 1 := (fun x v => Host.reduce IntOp.andi x v reducesTo_S2x256_S_d0_1 h_S_) main_v51 main_c_19
  let main_v53 : IVec S_ 1 := andi main_v48 main_v52
  let main_v54 : FVec F S2x256 .f32 := Host.absf main_arg13
  let main_cst_20 : FVec F S_ .f32 := constant S_ .f32 0x7F800000#32
  let main_v55 : FVec F S2x256 .f32 := broadcastInDim S2x256 ![] bcast_S_S2x256 main_cst_20
  let main_v56 : IVec S2x256 1 := cmpf .olt main_v54 main_v55
  let main_c_21 : IVec S_ 1 := constantI S_ 1 1#1
  let main_v57 : IVec S_ 1 := (fun x v => Host.reduce IntOp.andi x v reducesTo_S2x256_S_d0_1 h_S_) main_v56 main_c_21
  let main_v58 : IVec S_ 1 := andi main_v53 main_v57
  let main_v59 : FVec F S2x256 .f32 := Host.absf main_arg14
  let main_cst_22 : FVec F S_ .f32 := constant S_ .f32 0x7F800000#32
  let main_v60 : FVec F S2x256 .f32 := broadcastInDim S2x256 ![] bcast_S_S2x256 main_cst_22
  let main_v61 : IVec S2x256 1 := cmpf .olt main_v59 main_v60
  let main_c_23 : IVec S_ 1 := constantI S_ 1 1#1
  let main_v62 : IVec S_ 1 := (fun x v => Host.reduce IntOp.andi x v reducesTo_S2x256_S_d0_1 h_S_) main_v61 main_c_23
  let main_v63 : IVec S_ 1 := andi main_v58 main_v62
  main_v63

def fn_part2 {F : FTy → Type} [FloatOps F] (main_arg9 : FVec F S2x256x256 .f32) (main_arg10 : FVec F S2x256 .f32) (main_arg11 : FVec F S2x256x256 .f32) (main_arg12 : FVec F S2x256 .f32) (main_arg13 : FVec F S2x256 .f32) (main_arg14 : FVec F S2x256 .f32) (main_v33 : IVec S_ 1) : IVec S_ 1 :=
  let main_v34 : FVec F S2x256x256 .f32 := Host.absf main_arg9
  let main_cst_12 : FVec F S_ .f32 := constant S_ .f32 0x7F800000#32
  let main_v35 : FVec F S2x256x256 .f32 := broadcastInDim S2x256x256 ![] bcast_S_S2x256x256 main_cst_12
  let main_v36 : IVec S2x256x256 1 := cmpf .olt main_v34 main_v35
  let main_c_13 : IVec S_ 1 := constantI S_ 1 1#1
  let main_v37 : IVec S_ 1 := (fun x v => Host.reduce IntOp.andi x v reducesTo_S2x256x256_S_d0_1_2 h_S_) main_v36 main_c_13
  let main_v38 : IVec S_ 1 := andi main_v33 main_v37
  let main_v39 : FVec F S2x256 .f32 := Host.absf main_arg10
  let main_cst_14 : FVec F S_ .f32 := constant S_ .f32 0x7F800000#32
  let main_v40 : FVec F S2x256 .f32 := broadcastInDim S2x256 ![] bcast_S_S2x256 main_cst_14
  let main_v41 : IVec S2x256 1 := cmpf .olt main_v39 main_v40
  let main_c_15 : IVec S_ 1 := constantI S_ 1 1#1
  let main_v42 : IVec S_ 1 := (fun x v => Host.reduce IntOp.andi x v reducesTo_S2x256_S_d0_1 h_S_) main_v41 main_c_15
  let main_v43 : IVec S_ 1 := andi main_v38 main_v42
  let main_v44 : FVec F S2x256x256 .f32 := Host.absf main_arg11
  let main_cst_16 : FVec F S_ .f32 := constant S_ .f32 0x7F800000#32
  let main_v45 : FVec F S2x256x256 .f32 := broadcastInDim S2x256x256 ![] bcast_S_S2x256x256 main_cst_16
  let main_v46 : IVec S2x256x256 1 := cmpf .olt main_v44 main_v45
  let main_c_17 : IVec S_ 1 := constantI S_ 1 1#1
  let main_v47 : IVec S_ 1 := (fun x v => Host.reduce IntOp.andi x v reducesTo_S2x256x256_S_d0_1_2 h_S_) main_v46 main_c_17
  let main_v48 : IVec S_ 1 := andi main_v43 main_v47
  let main_v49 : FVec F S2x256 .f32 := Host.absf main_arg12
  let main_cst_18 : FVec F S_ .f32 := constant S_ .f32 0x7F800000#32
  let main_v50 : FVec F S2x256 .f32 := broadcastInDim S2x256 ![] bcast_S_S2x256 main_cst_18
  fn_part3 (F := F) main_arg13 main_arg14 main_v48 main_v49 main_v50

def fn_part1 {F : FTy → Type} [FloatOps F] (main_arg6 : FVec F S256 .f32) (main_arg7 : FVec F S256 .f32) (main_arg8 : FVec F S256 .f32) (main_arg9 : FVec F S2x256x256 .f32) (main_arg10 : FVec F S2x256 .f32) (main_arg11 : FVec F S2x256x256 .f32) (main_arg12 : FVec F S2x256 .f32) (main_arg13 : FVec F S2x256 .f32) (main_arg14 : FVec F S2x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x256 .f32) (main_arg4 : FVec F S256 .f32) (main_arg5 : FVec F S256x256 .f32) (main_arg6 : FVec F S256 .f32) (main_arg7 : FVec F S256 .f32) (main_arg8 : FVec F S256 .f32) (main_arg9 : FVec F S2x256x256 .f32) (main_arg10 : FVec F S2x256 .f32) (main_arg11 : FVec F S2x256x256 .f32) (main_arg12 : FVec F S2x256 .f32) (main_arg13 : FVec F S2x256 .f32) (main_arg14 : FVec F S2x256 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S1x256x256 : Shape := ⟨3, ![1, 256, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩

abbrev nBuf : Space → Nat
  | .hbm => 170
  | .vmem => 54
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S2x256x256, .f32⟩
  | 10 => ⟨S2x256, .f32⟩
  | 11 => ⟨S2x256x256, .f32⟩
  | 12 => ⟨S2x256, .f32⟩
  | 13 => ⟨S2x256, .f32⟩
  | 14 => ⟨S2x256, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S1x256, .f32⟩
  | 34 => ⟨S1x256, .f32⟩
  | 35 => ⟨S50000x256, .f32⟩
  | 36 => ⟨S1x256, .f32⟩
  | 37 => ⟨S1x256, .f32⟩
  | 38 => ⟨S256, .f32⟩
  | 39 => ⟨S256, .f32⟩
  | 40 => ⟨S_, .f32⟩
  | 41 => ⟨S256, .f32⟩
  | 42 => ⟨S256, .f32⟩
  | 43 => ⟨S_, .f32⟩
  | 44 => ⟨S256, .f32⟩
  | 45 => ⟨S256, .f32⟩
  | 46 => ⟨S256, .f32⟩
  | 47 => ⟨S256, .f32⟩
  | 48 => ⟨S_, .f32⟩
  | 49 => ⟨S256, .f32⟩
  | 50 => ⟨S256, .f32⟩
  | 51 => ⟨S1x256, .f32⟩
  | 52 => ⟨S1x256, .f32⟩
  | 53 => ⟨S1x256, .f32⟩
  | 54 => ⟨S1x256, .f32⟩
  | 55 => ⟨S50000x256, .f32⟩
  | 56 => ⟨S1x256x256, .f32⟩
  | 57 => ⟨S256x256, .f32⟩
  | 58 => ⟨S1x256, .f32⟩
  | 59 => ⟨S256, .f32⟩
  | 60 => ⟨S1x256x256, .f32⟩
  | 61 => ⟨S256x256, .f32⟩
  | 62 => ⟨S1x256, .f32⟩
  | 63 => ⟨S256, .f32⟩
  | 64 => ⟨S1x256, .f32⟩
  | 65 => ⟨S256, .f32⟩
  | 66 => ⟨S1x256, .f32⟩
  | 67 => ⟨S256, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x256, .f32⟩
  | 77 => ⟨S_, .f32⟩
  | 78 => ⟨S50000x256, .f32⟩
  | 79 => ⟨S800000x1, .i32⟩
  | 80 => ⟨S50000x256, .f32⟩
  | 81 => ⟨S50000x256, .f32⟩
  | 82 => ⟨S1x256, .f32⟩
  | 83 => ⟨S1x256, .f32⟩
  | 84 => ⟨S50000x256, .f32⟩
  | 85 => ⟨S1x256, .f32⟩
  | 86 => ⟨S1x256, .f32⟩
  | 87 => ⟨S256, .f32⟩
  | 88 => ⟨S256, .f32⟩
  | 89 => ⟨S_, .f32⟩
  | 90 => ⟨S256, .f32⟩
  | 91 => ⟨S256, .f32⟩
  | 92 => ⟨S_, .f32⟩
  | 93 => ⟨S256, .f32⟩
  | 94 => ⟨S256, .f32⟩
  | 95 => ⟨S256, .f32⟩
  | 96 => ⟨S256, .f32⟩
  | 97 => ⟨S_, .f32⟩
  | 98 => ⟨S256, .f32⟩
  | 99 => ⟨S256, .f32⟩
  | 100 => ⟨S1x256, .f32⟩
  | 101 => ⟨S1x256, .f32⟩
  | 102 => ⟨S1x256, .f32⟩
  | 103 => ⟨S1x256, .f32⟩
  | 104 => ⟨S50000x256, .f32⟩
  | 105 => ⟨S1x256x256, .f32⟩
  | 106 => ⟨S256x256, .f32⟩
  | 107 => ⟨S1x256, .f32⟩
  | 108 => ⟨S256, .f32⟩
  | 109 => ⟨S1x256x256, .f32⟩
  | 110 => ⟨S256x256, .f32⟩
  | 111 => ⟨S1x256, .f32⟩
  | 112 => ⟨S256, .f32⟩
  | 113 => ⟨S1x256, .f32⟩
  | 114 => ⟨S256, .f32⟩
  | 115 => ⟨S1x256, .f32⟩
  | 116 => ⟨S256, .f32⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x256, .f32⟩
  | 126 => ⟨S_, .f32⟩
  | 127 => ⟨S50000x256, .f32⟩
  | _ => ⟨S50000x128, .f32⟩

abbrev hbmTy0_1 (i : Nat) : BufTy := match i % 128 with
  | 0 => ⟨S800000x1, .i32⟩
  | 1 => ⟨S50000x256, .f32⟩
  | 2 => ⟨S50000x256, .f32⟩
  | 3 => ⟨S1x256, .f32⟩
  | 4 => ⟨S1x256, .f32⟩
  | 5 => ⟨S50000x256, .f32⟩
  | 6 => ⟨S1x256, .f32⟩
  | 7 => ⟨S1x256, .f32⟩
  | 8 => ⟨S256, .f32⟩
  | 9 => ⟨S256, .f32⟩
  | 10 => ⟨S_, .f32⟩
  | 11 => ⟨S256, .f32⟩
  | 12 => ⟨S256, .f32⟩
  | 13 => ⟨S_, .f32⟩
  | 14 => ⟨S256, .f32⟩
  | 15 => ⟨S256, .f32⟩
  | 16 => ⟨S256, .f32⟩
  | 17 => ⟨S256, .f32⟩
  | 18 => ⟨S_, .f32⟩
  | 19 => ⟨S256, .f32⟩
  | 20 => ⟨S256, .f32⟩
  | 21 => ⟨S1x256, .f32⟩
  | 22 => ⟨S1x256, .f32⟩
  | 23 => ⟨S1x256, .f32⟩
  | 24 => ⟨S1x256, .f32⟩
  | 25 => ⟨S50000x256, .f32⟩
  | 26 => ⟨S_, .f32⟩
  | 27 => ⟨S512x256, .f32⟩
  | 28 => ⟨S50000x1, .i32⟩
  | 29 => ⟨S512x256, .f32⟩
  | 30 => ⟨S_, .f32⟩
  | 31 => ⟨S50000, .f32⟩
  | 32 => ⟨S_, .f32⟩
  | 33 => ⟨S512, .f32⟩
  | 34 => ⟨S50000x1, .i32⟩
  | 35 => ⟨S512, .f32⟩
  | 36 => ⟨S_, .f32⟩
  | 37 => ⟨S512, .f32⟩
  | 38 => ⟨S512, .f32⟩
  | 39 => ⟨S512x1, .f32⟩
  | 40 => ⟨S512x256, .f32⟩
  | 41 => ⟨S512x256, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | .local _ .vmem, ⟨8, _⟩ => ⟨S1x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S1x256, .f32⟩
  | .local _ .vmem, ⟨27, _⟩ => ⟨S1x256, .f32⟩
  | .local _ .vmem, ⟨28, _⟩ => ⟨S2000x256, .f32⟩
  | .local _ .vmem, ⟨29, _⟩ => ⟨S2000x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S2000x256, .f32⟩
  | .local _ .vmem, ⟨35, _⟩ => ⟨S2000x256, .f32⟩
  | .local _ .vmem, ⟨36, _⟩ => ⟨S2000x256, .f32⟩
  | .local _ .vmem, ⟨37, _⟩ => ⟨S2000x256, .f32⟩
  | .local _ .vmem, ⟨38, _⟩ => ⟨S256x256, .f32⟩
  | .local _ .vmem, ⟨39, _⟩ => ⟨S1x256, .f32⟩
  | .local _ .vmem, ⟨40, _⟩ => ⟨S256x256, .f32⟩
  | .local _ .vmem, ⟨41, _⟩ => ⟨S1x256, .f32⟩
  | .local _ .vmem, ⟨42, _⟩ => ⟨S2000x256, .f32⟩
  | .local _ .vmem, ⟨43, _⟩ => ⟨S2000x256, .f32⟩
  | .local _ .vmem, ⟨44, _⟩ => ⟨S1x256, .f32⟩
  | .local _ .vmem, ⟨45, _⟩ => ⟨S1x256, .f32⟩
  | .local _ .vmem, ⟨46, _⟩ => ⟨S2000x256, .f32⟩
  | .local _ .vmem, ⟨47, _⟩ => ⟨S2000x256, .f32⟩
  | .local _ .vmem, ⟨48, _⟩ => ⟨S1x256, .f32⟩
  | .local _ .vmem, ⟨49, _⟩ => ⟨S1x256, .f32⟩
  | .local _ .vmem, ⟨50, _⟩ => ⟨S1x256, .f32⟩
  | .local _ .vmem, ⟨51, _⟩ => ⟨S1x256, .f32⟩
  | .local _ .vmem, ⟨52, _⟩ => ⟨S2000x256, .f32⟩
  | .local _ .vmem, ⟨53, _⟩ => ⟨S2000x256, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17_0 : Ref sig .tc := ⟨.hbm, 35, rfl⟩
abbrev main_v17_1 : Ref sig .tc := ⟨.hbm, 36, rfl⟩
abbrev main_v17_2 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_4 : Ref sig .tc := ⟨.hbm, 68, rfl⟩
abbrev main_v45 : Ref sig .tc := ⟨.hbm, 69, rfl⟩
abbrev main_v46 : Ref sig .tc := ⟨.hbm, 70, rfl⟩
abbrev main_c_5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_cst_6 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58_0 : Ref sig .tc := ⟨.hbm, 84, rfl⟩
abbrev main_v58_1 : Ref sig .tc := ⟨.hbm, 85, rfl⟩
abbrev main_v58_2 : Ref sig .tc := ⟨.hbm, 86, rfl⟩
abbrev main_v59 : Ref sig .tc := ⟨.hbm, 87, rfl⟩
abbrev main_v60 : Ref sig .tc := ⟨.hbm, 88, rfl⟩
abbrev main_cst_7 : Ref sig .tc := ⟨.hbm, 89, rfl⟩
abbrev main_v61 : Ref sig .tc := ⟨.hbm, 90, rfl⟩
abbrev main_v62 : Ref sig .tc := ⟨.hbm, 91, rfl⟩
abbrev main_cst_8 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_10 : Ref sig .tc := ⟨.hbm, 117, rfl⟩
abbrev main_v86 : Ref sig .tc := ⟨.hbm, 118, rfl⟩
abbrev main_v87 : Ref sig .tc := ⟨.hbm, 119, rfl⟩
abbrev main_c_11 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_12 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99_0 : Ref sig .tc := ⟨.hbm, 133, rfl⟩
abbrev main_v99_1 : Ref sig .tc := ⟨.hbm, 134, rfl⟩
abbrev main_v99_2 : Ref sig .tc := ⟨.hbm, 135, rfl⟩
abbrev main_v100 : Ref sig .tc := ⟨.hbm, 136, rfl⟩
abbrev main_v101 : Ref sig .tc := ⟨.hbm, 137, rfl⟩
abbrev main_cst_13 : Ref sig .tc := ⟨.hbm, 138, rfl⟩
abbrev main_v102 : Ref sig .tc := ⟨.hbm, 139, rfl⟩
abbrev main_v103 : Ref sig .tc := ⟨.hbm, 140, rfl⟩
abbrev main_cst_14 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_cst_15 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_cst_16 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_cst_17 : Ref sig .tc := ⟨.hbm, 158, rfl⟩
abbrev main_v118 : Ref sig .tc := ⟨.hbm, 159, rfl⟩
abbrev main_cst_18 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_cst_19 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg7_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc4_stg6_0 : Ref sig .tc := ⟨.vmem, 44, rfl⟩
abbrev cc4_stg7_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg5_1 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem7_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem4_0 : DmaSem sig := 41
abbrev cc4_sem5_0 : DmaSem sig := 42
abbrev cc4_sem5_1 : DmaSem sig := 43
abbrev cc4_sem6_0 : DmaSem sig := 44
abbrev cc4_sem7_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem5_1 : DmaSem sig := 53

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x256 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S256_S1x256 : S256.ShapeCasts S1x256
  inb_S1x256_S1x256_0_0 : ∀ a, (![0, 0] : Fin 2 → Nat) a + S1x256.size a ≤ S1x256.size a
  h_S1x256 : 0 < S1x256.numel
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  inb_S2000x256_S2000x256_0_0 : ∀ a, (![0, 0] : Fin 2 → Nat) a + S2000x256.size a ≤ S2000x256.size a
  h_S2000x256 : 0 < S2000x256.numel
  reduces_S2000x256_S256 : S2000x256.Reduces [0] S256
  shapeCasts_S1x256_S256 : S1x256.ShapeCasts S256
  bcast_S_S256 : S_.BroadcastsInDim S256 (![] : Fin 0 → Fin S256.rank)
  shapeCasts_S2000x256_S2000x256 : S2000x256.ShapeCasts S2000x256
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  bcast_S_S50000x256 : S_.BroadcastsInDim S50000x256 (![] : Fin 0 → Fin S50000x256.rank)
  shapeCasts_S256x256_S256x256 : S256x256.ShapeCasts S256x256
  slices_S2x256x256_S1x256x256_1_0_0 : S2x256x256.Slices ![1, 0, 0] S1x256x256
  slices_S2x256_S1x256_1_0 : S2x256.Slices ![1, 0] S1x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x256.size a ≤ S1x256.size a
  hwx2_7 : ∀ i : grid2.Coords, EltTy.bits .f32 = 32 ∨ (Rect.block (s := S1x256) S1x256.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x256.size a ≤ S50000x256.size a
  hwx3_5 : ∀ i : grid3.Coords, EltTy.bits .f32 = 32 ∨ (Rect.block (s := S50000x256) S2000x256.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S50000x256.size a
  hwx4_0 : ∀ i : grid4.Coords, EltTy.bits .f32 = 32 ∨ (Rect.block (s := S50000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S50000x256.size a
  hwx4_5 : ∀ i : grid4.Coords, EltTy.bits .f32 = 32 ∨ (Rect.block (s := S50000x256) S2000x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x256.size a ≤ S1x256.size a
  hwx4_7 : ∀ i : grid4.Coords, EltTy.bits .f32 = 32 ∨ (Rect.block (s := S1x256) S1x256.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x256.size a ≤ S1x256.size a
  hwx5_1 : ∀ i : grid5.Coords, EltTy.bits .f32 = 32 ∨ (Rect.block (s := S1x256) S1x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x256.size a ≤ S50000x256.size a
  hwx5_5 : ∀ i : grid5.Coords, EltTy.bits .f32 = 32 ∨ (Rect.block (s := S50000x256) S2000x256.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

abbrev win0_0 : Pipeline.Window sig grid0 :=
  Pipeline.Window.ofSpec (Memref.whole main_v14) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17_0) S2000x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17_1) S1x256.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17_2) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58_0) S2000x256.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v58_1) S1x256.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v58_2) S1x256.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v58_0) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v70) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v71) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v72) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v73) S2000x256.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v97) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v79) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v98) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v99_0) S2000x256.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v99_1) S1x256.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v99_2) S1x256.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v99_0) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S1x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v111) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v112) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v113) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S2000x256.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x256 : Shape := ⟨2, ![256, 256]⟩
abbrev S2x256x256 : Shape := ⟨3, ![2, 256, 256]⟩
abbrev S2x256 : Shape := ⟨2, ![2, 256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩
abbrev S1x256 : Shape := ⟨2, ![1, 256]⟩
abbrev S1x256x256 : Shape := ⟨3, ![1, 256, 256]⟩
abbrev S800000x256 : Shape := ⟨2, ![800000, 256]⟩
abbrev S512x256 : Shape := ⟨2, ![512, 256]⟩
abbrev S50000x1 : Shape := ⟨2, ![50000, 1]⟩
abbrev S512 : Shape := ⟨1, ![512]⟩
abbrev S512x1 : Shape := ⟨2, ![512, 1]⟩

abbrev nBuf : Space → Nat
  | .hbm => 275
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x256, .f32⟩
  | 4 => ⟨S256, .f32⟩
  | 5 => ⟨S256x256, .f32⟩
  | 6 => ⟨S256, .f32⟩
  | 7 => ⟨S256, .f32⟩
  | 8 => ⟨S256, .f32⟩
  | 9 => ⟨S2x256x256, .f32⟩
  | 10 => ⟨S2x256, .f32⟩
  | 11 => ⟨S2x256x256, .f32⟩
  | 12 => ⟨S2x256, .f32⟩
  | 13 => ⟨S2x256, .f32⟩
  | 14 => ⟨S2x256, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S50000x256, .f32⟩
  | 39 => ⟨S50000x256, .f32⟩
  | 40 => ⟨S50000x256, .f32⟩
  | 41 => ⟨S1x256, .f32⟩
  | 42 => ⟨S50000x256, .f32⟩
  | 43 => ⟨S50000x256, .f32⟩
  | 44 => ⟨S_, .f32⟩
  | 45 => ⟨S50000x256, .f32⟩
  | 46 => ⟨S50000x256, .f32⟩
  | 47 => ⟨S_, .f32⟩
  | 48 => ⟨S256, .f32⟩
  | 49 => ⟨S_, .f32⟩
  | 50 => ⟨S256, .f32⟩
  | 51 => ⟨S256, .f32⟩
  | 52 => ⟨S_, .i32⟩
  | 53 => ⟨S_, .f32⟩
  | 54 => ⟨S256, .f32⟩
  | 55 => ⟨S1x256, .f32⟩
  | 56 => ⟨S_, .f32⟩
  | 57 => ⟨S1x256, .f32⟩
  | 58 => ⟨S1x256, .f32⟩
  | 59 => ⟨S50000x256, .f32⟩
  | 60 => ⟨S50000x256, .f32⟩
  | 61 => ⟨S50000x256, .f32⟩
  | 62 => ⟨S_, .f32⟩
  | 63 => ⟨S_, .f32⟩
  | 64 => ⟨S_, .f32⟩
  | 65 => ⟨S_, .f32⟩
  | 66 => ⟨S256, .f32⟩
  | 67 => ⟨S256, .f32⟩
  | 68 => ⟨S256, .f32⟩
  | 69 => ⟨S_, .f32⟩
  | 70 => ⟨S_, .i1⟩
  | 71 => ⟨S_, .f32⟩
  | 72 => ⟨S_, .f32⟩
  | 73 => ⟨S256, .f32⟩
  | 74 => ⟨S256, .f32⟩
  | 75 => ⟨S1x256, .f32⟩
  | 76 => ⟨S50000x256, .f32⟩
  | 77 => ⟨S50000x256, .f32⟩
  | 78 => ⟨S1x256, .f32⟩
  | 79 => ⟨S50000x256, .f32⟩
  | 80 => ⟨S50000x256, .f32⟩
  | 81 => ⟨S_, .f32⟩
  | 82 => ⟨S256, .f32⟩
  | 83 => ⟨S256, .f32⟩
  | 84 => ⟨S256, .f32⟩
  | 85 => ⟨S1x256, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S1x256x256, .f32⟩
  | 92 => ⟨S256x256, .f32⟩
  | 93 => ⟨S1x256, .f32⟩
  | 94 => ⟨S256, .f32⟩
  | 95 => ⟨S1x256x256, .f32⟩
  | 96 => ⟨S256x256, .f32⟩
  | 97 => ⟨S1x256, .f32⟩
  | 98 => ⟨S256, .f32⟩
  | 99 => ⟨S1x256, .f32⟩
  | 100 => ⟨S256, .f32⟩
  | 101 => ⟨S1x256, .f32⟩
  | 102 => ⟨S256, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S800000x256, .f32⟩
  | 112 => ⟨S_, .f32⟩
  | 113 => ⟨S50000x256, .f32⟩
  | 114 => ⟨S800000x1, .i32⟩
  | 115 => ⟨S50000x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S50000x256, .f32⟩
  | 125 => ⟨S1x256, .f32⟩
  | 126 => ⟨S50000x256, .f32⟩
  | 127 => ⟨S50000x256, .f32⟩
  | _ => ⟨S50000x128, .f32⟩

abbrev hbmTy0_1 (i : Nat) : BufTy := match i % 128 with
  | 0 => ⟨S_, .f32⟩
  | 1 => ⟨S50000x256, .f32⟩
  | 2 => ⟨S50000x256, .f32⟩
  | 3 => ⟨S_, .f32⟩
  | 4 => ⟨S256, .f32⟩
  | 5 => ⟨S_, .f32⟩
  | 6 => ⟨S256, .f32⟩
  | 7 => ⟨S256, .f32⟩
  | 8 => ⟨S_, .i32⟩
  | 9 => ⟨S_, .f32⟩
  | 10 => ⟨S256, .f32⟩
  | 11 => ⟨S1x256, .f32⟩
  | 12 => ⟨S_, .f32⟩
  | 13 => ⟨S1x256, .f32⟩
  | 14 => ⟨S1x256, .f32⟩
  | 15 => ⟨S50000x256, .f32⟩
  | 16 => ⟨S50000x256, .f32⟩
  | 17 => ⟨S50000x256, .f32⟩
  | 18 => ⟨S_, .f32⟩
  | 19 => ⟨S_, .f32⟩
  | 20 => ⟨S_, .f32⟩
  | 21 => ⟨S_, .f32⟩
  | 22 => ⟨S256, .f32⟩
  | 23 => ⟨S256, .f32⟩
  | 24 => ⟨S256, .f32⟩
  | 25 => ⟨S_, .f32⟩
  | 26 => ⟨S_, .i1⟩
  | 27 => ⟨S_, .f32⟩
  | 28 => ⟨S_, .f32⟩
  | 29 => ⟨S256, .f32⟩
  | 30 => ⟨S256, .f32⟩
  | 31 => ⟨S1x256, .f32⟩
  | 32 => ⟨S50000x256, .f32⟩
  | 33 => ⟨S50000x256, .f32⟩
  | 34 => ⟨S1x256, .f32⟩
  | 35 => ⟨S50000x256, .f32⟩
  | 36 => ⟨S50000x256, .f32⟩
  | 37 => ⟨S_, .f32⟩
  | 38 => ⟨S256, .f32⟩
  | 39 => ⟨S256, .f32⟩
  | 40 => ⟨S256, .f32⟩
  | 41 => ⟨S1x256, .f32⟩
  | 42 => ⟨S50000x256, .f32⟩
  | 43 => ⟨S50000x256, .f32⟩
  | 44 => ⟨S1x256, .f32⟩
  | 45 => ⟨S50000x256, .f32⟩
  | 46 => ⟨S50000x256, .f32⟩
  | 47 => ⟨S1x256x256, .f32⟩
  | 48 => ⟨S256x256, .f32⟩
  | 49 => ⟨S1x256, .f32⟩
  | 50 => ⟨S256, .f32⟩
  | 51 => ⟨S1x256x256, .f32⟩
  | 52 => ⟨S256x256, .f32⟩
  | 53 => ⟨S1x256, .f32⟩
  | 54 => ⟨S256, .f32⟩
  | 55 => ⟨S1x256, .f32⟩
  | 56 => ⟨S256, .f32⟩
  | 57 => ⟨S1x256, .f32⟩
  | 58 => ⟨S256, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x256, .f32⟩
  | 68 => ⟨S_, .f32⟩
  | 69 => ⟨S50000x256, .f32⟩
  | 70 => ⟨S800000x1, .i32⟩
  | 71 => ⟨S50000x256, .f32⟩
  | 72 => ⟨S50000x256, .f32⟩
  | 73 => ⟨S50000x256, .f32⟩
  | 74 => ⟨S1x256, .f32⟩
  | 75 => ⟨S50000x256, .f32⟩
  | 76 => ⟨S50000x256, .f32⟩
  | 77 => ⟨S_, .f32⟩
  | 78 => ⟨S50000x256, .f32⟩
  | 79 => ⟨S50000x256, .f32⟩
  | 80 => ⟨S50000x256, .f32⟩
  | 81 => ⟨S1x256, .f32⟩
  | 82 => ⟨S50000x256, .f32⟩
  | 83 => ⟨S50000x256, .f32⟩
  | 84 => ⟨S_, .f32⟩
  | 85 => ⟨S50000x256, .f32⟩
  | 86 => ⟨S50000x256, .f32⟩
  | 87 => ⟨S_, .f32⟩
  | 88 => ⟨S256, .f32⟩
  | 89 => ⟨S_, .f32⟩
  | 90 => ⟨S256, .f32⟩
  | 91 => ⟨S256, .f32⟩
  | 92 => ⟨S_, .i32⟩
  | 93 => ⟨S_, .f32⟩
  | 94 => ⟨S256, .f32⟩
  | 95 => ⟨S1x256, .f32⟩
  | 96 => ⟨S_, .f32⟩
  | 97 => ⟨S1x256, .f32⟩
  | 98 => ⟨S1x256, .f32⟩
  | 99 => ⟨S50000x256, .f32⟩
  | 100 => ⟨S50000x256, .f32⟩
  | 101 => ⟨S50000x256, .f32⟩
  | 102 => ⟨S_, .f32⟩
  | 103 => ⟨S_, .f32⟩
  | 104 => ⟨S_, .f32⟩
  | 105 => ⟨S_, .f32⟩
  | 106 => ⟨S256, .f32⟩
  | 107 => ⟨S256, .f32⟩
  | 108 => ⟨S256, .f32⟩
  | 109 => ⟨S_, .f32⟩
  | 110 => ⟨S_, .i1⟩
  | 111 => ⟨S_, .f32⟩
  | 112 => ⟨S_, .f32⟩
  | 113 => ⟨S256, .f32⟩
  | 114 => ⟨S256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S256, .f32⟩
  | 123 => ⟨S256, .f32⟩
  | 124 => ⟨S256, .f32⟩
  | 125 => ⟨S1x256, .f32⟩
  | 126 => ⟨S50000x256, .f32⟩
  | 127 => ⟨S50000x256, .f32⟩
  | _ => ⟨S50000x128, .f32⟩

abbrev hbmTy0_2 (i : Nat) : BufTy := match i % 128 with
  | 0 => ⟨S1x256, .f32⟩
  | 1 => ⟨S50000x256, .f32⟩
  | 2 => ⟨S50000x256, .f32⟩
  | 3 => ⟨S_, .f32⟩
  | 4 => ⟨S512x256, .f32⟩
  | 5 => ⟨S50000x1, .i32⟩
  | 6 => ⟨S512x256, .f32⟩
  | 7 => ⟨S_, .f32⟩
  | 8 => ⟨S50000, .f32⟩
  | 9 => ⟨S_, .f32⟩
  | 10 => ⟨S512, .f32⟩
  | 11 => ⟨S50000x1, .i32⟩
  | 12 => ⟨S512, .f32⟩
  | 13 => ⟨S_, .f32⟩
  | 14 => ⟨S512, .f32⟩
  | 15 => ⟨S512, .f32⟩
  | 16 => ⟨S512x1, .f32⟩
  | 17 => ⟨S512x256, .f32⟩
  | 18 => ⟨S512x256, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_call0_cst : Ref sig .tc := ⟨.hbm, 37, rfl⟩
abbrev main_call0_v0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_cst : Ref sig .tc := ⟨.hbm, 44, rfl⟩
abbrev main_call1_v0 : Ref sig .tc := ⟨.hbm, 45, rfl⟩
abbrev main_v24 : Ref sig .tc := ⟨.hbm, 46, rfl⟩
abbrev main_cst_1 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_c_3 : Ref sig .tc := ⟨.hbm, 52, rfl⟩
abbrev main_call2_cst : Ref sig .tc := ⟨.hbm, 53, rfl⟩
abbrev main_call2_v0 : Ref sig .tc := ⟨.hbm, 54, rfl⟩
abbrev main_call2_v1 : Ref sig .tc := ⟨.hbm, 55, rfl⟩
abbrev main_call2_cst_0 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_cst_1 : Ref sig .tc := ⟨.hbm, 63, rfl⟩
abbrev main_call2_v8 : Ref sig .tc := ⟨.hbm, 64, rfl⟩
abbrev main_call2_cst_2 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_cst_3 : Ref sig .tc := ⟨.hbm, 69, rfl⟩
abbrev main_call2_v12 : Ref sig .tc := ⟨.hbm, 70, rfl⟩
abbrev main_call2_cst_4 : Ref sig .tc := ⟨.hbm, 71, rfl⟩
abbrev main_call2_call0_v0 : Ref sig .tc := ⟨.hbm, 72, rfl⟩
abbrev main_call2_call0_v1 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_5 : Ref sig .tc := ⟨.hbm, 103, rfl⟩
abbrev main_v56 : Ref sig .tc := ⟨.hbm, 104, rfl⟩
abbrev main_v57 : Ref sig .tc := ⟨.hbm, 105, rfl⟩
abbrev main_c_6 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_cst_7 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call3_cst : Ref sig .tc := ⟨.hbm, 121, rfl⟩
abbrev main_call3_v0 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_call4_cst : Ref sig .tc := ⟨.hbm, 128, rfl⟩
abbrev main_call4_v0 : Ref sig .tc := ⟨.hbm, 129, rfl⟩
abbrev main_v76 : Ref sig .tc := ⟨.hbm, 130, rfl⟩
abbrev main_cst_8 : Ref sig .tc := ⟨.hbm, 131, rfl⟩
abbrev main_v77 : Ref sig .tc := ⟨.hbm, 132, rfl⟩
abbrev main_cst_9 : Ref sig .tc := ⟨.hbm, 133, rfl⟩
abbrev main_v78 : Ref sig .tc := ⟨.hbm, 134, rfl⟩
abbrev main_v79 : Ref sig .tc := ⟨.hbm, 135, rfl⟩
abbrev main_c_10 : Ref sig .tc := ⟨.hbm, 136, rfl⟩
abbrev main_call5_cst : Ref sig .tc := ⟨.hbm, 137, rfl⟩
abbrev main_call5_v0 : Ref sig .tc := ⟨.hbm, 138, rfl⟩
abbrev main_call5_v1 : Ref sig .tc := ⟨.hbm, 139, rfl⟩
abbrev main_call5_cst_0 : Ref sig .tc := ⟨.hbm, 140, rfl⟩
abbrev main_call5_v2 : Ref sig .tc := ⟨.hbm, 141, rfl⟩
abbrev main_call5_v3 : Ref sig .tc := ⟨.hbm, 142, rfl⟩
abbrev main_call5_v4 : Ref sig .tc := ⟨.hbm, 143, rfl⟩
abbrev main_call5_v5 : Ref sig .tc := ⟨.hbm, 144, rfl⟩
abbrev main_call5_v6 : Ref sig .tc := ⟨.hbm, 145, rfl⟩
abbrev main_call5_v7 : Ref sig .tc := ⟨.hbm, 146, rfl⟩
abbrev main_call5_cst_1 : Ref sig .tc := ⟨.hbm, 147, rfl⟩
abbrev main_call5_v8 : Ref sig .tc := ⟨.hbm, 148, rfl⟩
abbrev main_call5_cst_2 : Ref sig .tc := ⟨.hbm, 149, rfl⟩
abbrev main_call5_v9 : Ref sig .tc := ⟨.hbm, 150, rfl⟩
abbrev main_call5_v10 : Ref sig .tc := ⟨.hbm, 151, rfl⟩
abbrev main_call5_v11 : Ref sig .tc := ⟨.hbm, 152, rfl⟩
abbrev main_call5_cst_3 : Ref sig .tc := ⟨.hbm, 153, rfl⟩
abbrev main_call5_v12 : Ref sig .tc := ⟨.hbm, 154, rfl⟩
abbrev main_call5_cst_4 : Ref sig .tc := ⟨.hbm, 155, rfl⟩
abbrev main_call5_call0_v0 : Ref sig .tc := ⟨.hbm, 156, rfl⟩
abbrev main_call5_call0_v1 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_cst_11 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_v98 : Ref sig .tc := ⟨.hbm, 177, rfl⟩
abbrev main_v99 : Ref sig .tc := ⟨.hbm, 178, rfl⟩
abbrev main_v100 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_c_12 : Ref sig .tc := ⟨.hbm, 187, rfl⟩
abbrev main_v108 : Ref sig .tc := ⟨.hbm, 188, rfl⟩
abbrev main_v109 : Ref sig .tc := ⟨.hbm, 189, rfl⟩
abbrev main_c_13 : Ref sig .tc := ⟨.hbm, 190, rfl⟩
abbrev main_v110 : Ref sig .tc := ⟨.hbm, 191, rfl⟩
abbrev main_v111 : Ref sig .tc := ⟨.hbm, 192, rfl⟩
abbrev main_v112 : Ref sig .tc := ⟨.hbm, 193, rfl⟩
abbrev main_v113 : Ref sig .tc := ⟨.hbm, 194, rfl⟩
abbrev main_v114 : Ref sig .tc := ⟨.hbm, 195, rfl⟩
abbrev main_cst_14 : Ref sig .tc := ⟨.hbm, 196, rfl⟩
abbrev main_v115 : Ref sig .tc := ⟨.hbm, 197, rfl⟩
abbrev main_v116 : Ref sig .tc := ⟨.hbm, 198, rfl⟩
abbrev main_v117 : Ref sig .tc := ⟨.hbm, 199, rfl⟩
abbrev main_v118 : Ref sig .tc := ⟨.hbm, 200, rfl⟩
abbrev main_v119 : Ref sig .tc := ⟨.hbm, 201, rfl⟩
abbrev main_v120 : Ref sig .tc := ⟨.hbm, 202, rfl⟩
abbrev main_v121 : Ref sig .tc := ⟨.hbm, 203, rfl⟩
abbrev main_v122 : Ref sig .tc := ⟨.hbm, 204, rfl⟩
abbrev main_call6_cst : Ref sig .tc := ⟨.hbm, 205, rfl⟩
abbrev main_call6_v0 : Ref sig .tc := ⟨.hbm, 206, rfl⟩
abbrev main_v123 : Ref sig .tc := ⟨.hbm, 207, rfl⟩
abbrev main_v124 : Ref sig .tc := ⟨.hbm, 208, rfl⟩
abbrev main_v125 : Ref sig .tc := ⟨.hbm, 209, rfl⟩
abbrev main_v126 : Ref sig .tc := ⟨.hbm, 210, rfl⟩
abbrev main_v127 : Ref sig .tc := ⟨.hbm, 211, rfl⟩
abbrev main_call7_cst : Ref sig .tc := ⟨.hbm, 212, rfl⟩
abbrev main_call7_v0 : Ref sig .tc := ⟨.hbm, 213, rfl⟩
abbrev main_v128 : Ref sig .tc := ⟨.hbm, 214, rfl⟩
abbrev main_cst_15 : Ref sig .tc := ⟨.hbm, 215, rfl⟩
abbrev main_v129 : Ref sig .tc := ⟨.hbm, 216, rfl⟩
abbrev main_cst_16 : Ref sig .tc := ⟨.hbm, 217, rfl⟩
abbrev main_v130 : Ref sig .tc := ⟨.hbm, 218, rfl⟩
abbrev main_v131 : Ref sig .tc := ⟨.hbm, 219, rfl⟩
abbrev main_c_17 : Ref sig .tc := ⟨.hbm, 220, rfl⟩
abbrev main_call8_cst : Ref sig .tc := ⟨.hbm, 221, rfl⟩
abbrev main_call8_v0 : Ref sig .tc := ⟨.hbm, 222, rfl⟩
abbrev main_call8_v1 : Ref sig .tc := ⟨.hbm, 223, rfl⟩
abbrev main_call8_cst_0 : Ref sig .tc := ⟨.hbm, 224, rfl⟩
abbrev main_call8_v2 : Ref sig .tc := ⟨.hbm, 225, rfl⟩
abbrev main_call8_v3 : Ref sig .tc := ⟨.hbm, 226, rfl⟩
abbrev main_call8_v4 : Ref sig .tc := ⟨.hbm, 227, rfl⟩
abbrev main_call8_v5 : Ref sig .tc := ⟨.hbm, 228, rfl⟩
abbrev main_call8_v6 : Ref sig .tc := ⟨.hbm, 229, rfl⟩
abbrev main_call8_v7 : Ref sig .tc := ⟨.hbm, 230, rfl⟩
abbrev main_call8_cst_1 : Ref sig .tc := ⟨.hbm, 231, rfl⟩
abbrev main_call8_v8 : Ref sig .tc := ⟨.hbm, 232, rfl⟩
abbrev main_call8_cst_2 : Ref sig .tc := ⟨.hbm, 233, rfl⟩
abbrev main_call8_v9 : Ref sig .tc := ⟨.hbm, 234, rfl⟩
abbrev main_call8_v10 : Ref sig .tc := ⟨.hbm, 235, rfl⟩
abbrev main_call8_v11 : Ref sig .tc := ⟨.hbm, 236, rfl⟩
abbrev main_call8_cst_3 : Ref sig .tc := ⟨.hbm, 237, rfl⟩
abbrev main_call8_v12 : Ref sig .tc := ⟨.hbm, 238, rfl⟩
abbrev main_call8_cst_4 : Ref sig .tc := ⟨.hbm, 239, rfl⟩
abbrev main_call8_call0_v0 : Ref sig .tc := ⟨.hbm, 240, rfl⟩
abbrev main_call8_call0_v1 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_cst_18 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_cst_19 : Ref sig .tc := ⟨.hbm, 259, rfl⟩
abbrev main_v148 : Ref sig .tc := ⟨.hbm, 260, rfl⟩
abbrev main_v149 : Ref sig .tc := ⟨.hbm, 261, rfl⟩
abbrev main_v150 : Ref sig .tc := ⟨.hbm, 262, rfl⟩
abbrev main_cst_20 : Ref sig .tc := ⟨.hbm, 263, rfl⟩
abbrev main_v151 : Ref sig .tc := ⟨.hbm, 264, rfl⟩
abbrev main_cst_21 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_22 : Ref sig .tc := ⟨.hbm, 269, rfl⟩
abbrev main_v155 : Ref sig .tc := ⟨.hbm, 270, rfl⟩
abbrev main_v156 : Ref sig .tc := ⟨.hbm, 271, rfl⟩
abbrev main_v157 : Ref sig .tc := ⟨.hbm, 272, rfl⟩
abbrev main_v158 : Ref sig .tc := ⟨.hbm, 273, rfl⟩
abbrev main_v159 : Ref sig .tc := ⟨.hbm, 274, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  reducesTo_S50000x256_S256_d0 : S50000x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  slices_S2x256x256_S1x256x256_0_0_0 : S2x256x256.Slices ![0, 0, 0] S1x256x256
  shapeCasts_S1x256x256_S256x256 : S1x256x256.ShapeCasts S256x256
  slices_S2x256_S1x256_0_0 : S2x256.Slices ![0, 0] S1x256
  shapeCasts_S1x256_S256 : S1x256.ShapeCasts S256
  slices_S2x256x256_S1x256x256_1_0_0 : S2x256x256.Slices ![1, 0, 0] S1x256x256
  slices_S2x256_S1x256_1_0 : S2x256.Slices ![1, 0] S1x256
  bcast_S_S512x256 : S_.BroadcastsInDim S512x256 (![] : Fin 0 → Fin S512x256.rank)
  bcast_S50000_S50000x1_0 : S50000.BroadcastsInDim S50000x1 (![0] : Fin 1 → Fin S50000x1.rank)
  bcast_S_S50000 : S_.BroadcastsInDim S50000 (![] : Fin 0 → Fin S50000.rank)
  bcast_S_S512 : S_.BroadcastsInDim S512 (![] : Fin 0 → Fin S512.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S512x256_S50000x1_S50000x256_1_0_0_1_wf : ScatterDims.WF S512x256 S50000x1 S50000x256 [1] [0] [0] 1
  scatter_S512_S50000x1_S50000_n_0_0_1_wf : ScatterDims.WF S512 S50000x1 S50000 [] [0] [0] 1

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf

class Facts : Prop extends Facts₀ where

variable [Facts]
-- ==== Proof.KernelRun.lean ====
/-
  The idealized kernel's whole run with its result named: every weakly fair execution of the program ends with the
  result array holding what the last stretch of host operations leaves there — the fold of the thirteen segments
  (seven stretches of host operations, six kernel launches) from the launch memory, read at the result's buffer — and
  with the fifteen argument arrays as launched.
-/
import proofs.«159704_j38585986187613_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the segments launched from the launch memory, the last thread state read against the final state, the
    result's buffer at the last boundary's contents and each argument walked back to the launch memory. -/
theorem run : θ_run defs (onTc (τ := τ) (main (F := F))) ⟨m, fun _ => 0, ρ⟩ (fun r => ∀ c : Dev nD,
      r.2.mem ((c.tc : Thread nD τ).loc main_v126) = W13 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v126 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c)⟩)

end Cert.KernelIdeal.ValueRun

end
-- ==== Proof.RefRunStages.lean ====
/- The reference network as functions of its arguments, at the ideal instance (floats are extended reals): the
   stages of one layer — neighbour aggregation, the two rectified affine maps, the column mean and variance over
   the rows, the normalisation —, the slices of the stacked weights, the mean pooling, and their composition.
   Each stage is the composition of the host operations that compute it, in the program's order. -/
import proofs.«159704_j38585986187613_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The edges' source nodes: row 0 of the edge table. -/
def refSrc (ei : IVec S2x800000 32) :
    IVec S800000 32 :=
  (shapeCast S800000 (extractStridedSlice S1x800000 ![0, 0] ei slices_S2x800000_S1x800000_0_0) shapeCasts_S1x800000_S800000)

/-- The edges' destination nodes: row 1 of the edge table. -/
def refDst (ei : IVec S2x800000 32) :
    IVec S800000 32 :=
  (shapeCast S800000 (extractStridedSlice S1x800000 ![1, 0] ei slices_S2x800000_S1x800000_1_0) shapeCasts_S1x800000_S800000)

/-- A negative index counted from the end (`50000` added), as a column of start indices. -/
def refFix (src : IVec S800000 32) :
    IVec S800000x1 32 :=
  (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))

/-- Width 128: each node's row plus the sum of its in-neighbours' rows (the sources' rows gathered, then added at the destinations into zeros). -/
def refAgg128 (x : FVec Ideal S50000x128 .f32) (ei : IVec S2x800000 32) :
    FVec Ideal S50000x128 .f32 :=
  (addf (F := Ideal) x (Host.scatterAdd scatter_S50000x128_S800000x1_S800000x128_1_0_0_1 (broadcastInDim S50000x128 ![] bcast_S_S50000x128 (constant (F := Ideal) S_ .f32 0x00000000#32)) (broadcastInDim S800000x1 ![0] bcast_S800000_S800000x1_0 (refDst ei)) (Host.gather gather_S50000x128_S800000x1_S800000x128_1_0_n_n_0_1_1128 x (refFix (refSrc ei)))))

/-- Width 256: each node's row plus the sum of its in-neighbours' rows. -/
def refAgg256 (h : FVec Ideal S50000x256 .f32) (ei : IVec S2x800000 32) :
    FVec Ideal S50000x256 .f32 :=
  (addf (F := Ideal) h (Host.scatterAdd scatter_S50000x256_S800000x1_S800000x256_1_0_0_1 (broadcastInDim S50000x256 ![] bcast_S_S50000x256 (constant (F := Ideal) S_ .f32 0x00000000#32)) (broadcastInDim S800000x1 ![0] bcast_S800000_S800000x1_0 (refDst ei)) (Host.gather gather_S50000x256_S800000x1_S800000x256_1_0_n_n_0_1_1256 h (refFix (refSrc ei)))))

/-- Two rectified affine maps, input width 128: `max(max(zpre·w1 + b1, 0)·w2 + b2, 0)`. -/
def refMlp128 (zpre : FVec Ideal S50000x128 .f32) (w1 : FVec Ideal S128x256 .f32) (b1 b2 : FVec Ideal S256 .f32) (w2 : FVec Ideal S256x256 .f32) :
    FVec Ideal S50000x256 .f32 :=
  (maximumf (F := Ideal) (addf (F := Ideal) (Host.dotGeneral dot_S50000x256_S256x256_S50000x256_1_0_0_1_n_n none (maximumf (F := Ideal) (addf (F := Ideal) (Host.dotGeneral dot_S50000x128_S128x256_S50000x256_1_0_0_1_n_n none zpre w1) (broadcastInDim S50000x256 ![0, 1] bcast_S1x256_S50000x256_0_1 (broadcastInDim S1x256 ![1] bcast_S256_S1x256_1 b1))) (broadcastInDim S50000x256 ![] bcast_S_S50000x256 (constant (F := Ideal) S_ .f32 0x00000000#32))) w2) (broadcastInDim S50000x256 ![0, 1] bcast_S1x256_S50000x256_0_1 (broadcastInDim S1x256 ![1] bcast_S256_S1x256_1 b2))) (broadcastInDim S50000x256 ![] bcast_S_S50000x256 (constant (F := Ideal) S_ .f32 0x00000000#32)))

/-- Two rectified affine maps, input width 256. -/
def refMlp256 (zpre : FVec Ideal S50000x256 .f32) (w1 : FVec Ideal S256x256 .f32) (b1 b2 : FVec Ideal S256 .f32) (w2 : FVec Ideal S256x256 .f32) :
    FVec Ideal S50000x256 .f32 :=
  (maximumf (F := Ideal) (addf (F := Ideal) (Host.dotGeneral dot_S50000x256_S256x256_S50000x256_1_0_0_1_n_n none (maximumf (F := Ideal) (addf (F := Ideal) (Host.dotGeneral dot_S50000x256_S256x256_S50000x256_1_0_0_1_n_n none zpre w1) (broadcastInDim S50000x256 ![0, 1] bcast_S1x256_S50000x256_0_1 (broadcastInDim S1x256 ![1] bcast_S256_S1x256_1 b1))) (broadcastInDim S50000x256 ![] bcast_S_S50000x256 (constant (F := Ideal) S_ .f32 0x00000000#32))) w2) (broadcastInDim S50000x256 ![0, 1] bcast_S1x256_S50000x256_0_1 (broadcastInDim S1x256 ![1] bcast_S256_S1x256_1 b2))) (broadcastInDim S50000x256 ![] bcast_S_S50000x256 (constant (F := Ideal) S_ .f32 0x00000000#32)))

/-- The column means over the 50000 rows: the column sums divided by 50000. -/
def refMean (z : FVec Ideal S50000x256 .f32) :
    FVec Ideal S256 .f32 :=
  (Host.divf (F := Ideal) (Host.reduceAdd z (constant (F := Ideal) S_ .f32 0x00000000#32) reducesTo_S50000x256_S256_d0 h_S_) (broadcastInDim S256 ![] bcast_S_S256 (constant (F := Ideal) S_ .f32 0x47435000#32)))

/-- The column variances over the 50000 rows: the sums of squared deviations from the column means, divided by `50000 - 0`, selected against a NaN where `50000 - 0 > 0`. -/
def refVar (z : FVec Ideal S50000x256 .f32) :
    FVec Ideal S256 .f32 :=
  (select (broadcastInDim S256 ![] bcast_S_S256 (cmpf (F := Ideal) .ogt (subf (F := Ideal) (constant (F := Ideal) S_ .f32 0x47435000#32) (sitofp (F := Ideal) .f32 (constantI S_ 32 0#32))) (constant (F := Ideal) S_ .f32 0x00000000#32))) (Host.divf (F := Ideal) (Host.reduceAdd (mulf (F := Ideal) (subf (F := Ideal) z (broadcastInDim S50000x256 ![0, 1] bcast_S1x256_S50000x256_0_1 (Host.divf (F := Ideal) (broadcastInDim S1x256 ![1] bcast_S256_S1x256_1 (Host.reduceAdd z (constant (F := Ideal) S_ .f32 0x00000000#32) reducesTo_S50000x256_S256_d0 h_S_)) (broadcastInDim S1x256 ![] bcast_S_S1x256 (constant (F := Ideal) S_ .f32 0x47435000#32))))) (subf (F := Ideal) z (broadcastInDim S50000x256 ![0, 1] bcast_S1x256_S50000x256_0_1 (Host.divf (F := Ideal) (broadcastInDim S1x256 ![1] bcast_S256_S1x256_1 (Host.reduceAdd z (constant (F := Ideal) S_ .f32 0x00000000#32) reducesTo_S50000x256_S256_d0 h_S_)) (broadcastInDim S1x256 ![] bcast_S_S1x256 (constant (F := Ideal) S_ .f32 0x47435000#32)))))) (constant (F := Ideal) S_ .f32 0x00000000#32) reducesTo_S50000x256_S256_d0 h_S_) (broadcastInDim S256 ![] bcast_S_S256 (subf (F := Ideal) (constant (F := Ideal) S_ .f32 0x47435000#32) (sitofp (F := Ideal) .f32 (constantI S_ 32 0#32))))) (broadcastInDim S256 ![] bcast_S_S256 (constant (F := Ideal) S_ .f32 0x7FC00000#32)))

/-- The normalisation `gamma * (z - mean) * rsqrt(var + eps) + beta`, the row vectors broadcast over the rows. -/
def refNorm (z : FVec Ideal S50000x256 .f32) (gamma beta mean var : FVec Ideal S256 .f32) :
    FVec Ideal S50000x256 .f32 :=
  (addf (F := Ideal) (mulf (F := Ideal) (mulf (F := Ideal) (broadcastInDim S50000x256 ![0, 1] bcast_S1x256_S50000x256_0_1 (broadcastInDim S1x256 ![1] bcast_S256_S1x256_1 gamma)) (subf (F := Ideal) z (broadcastInDim S50000x256 ![0, 1] bcast_S1x256_S50000x256_0_1 (broadcastInDim S1x256 ![1] bcast_S256_S1x256_1 mean)))) (broadcastInDim S50000x256 ![0, 1] bcast_S1x256_S50000x256_0_1 (broadcastInDim S1x256 ![1] bcast_S256_S1x256_1 (Host.rsqrt (F := Ideal) (addf (F := Ideal) var (broadcastInDim S256 ![] bcast_S_S256 (constant (F := Ideal) S_ .f32 0x3727C5AC#32))))))) (broadcastInDim S50000x256 ![0, 1] bcast_S1x256_S50000x256_0_1 (broadcastInDim S1x256 ![1] bcast_S256_S1x256_1 beta)))

/-- Slice 0 of a stack of two weight matrices. -/
def refW0 (w : FVec Ideal S2x256x256 .f32) :
    FVec Ideal S256x256 .f32 :=
  (shapeCast S256x256 (extractStridedSlice S1x256x256 ![0, 0, 0] w slices_S2x256x256_S1x256x256_0_0_0) shapeCasts_S1x256x256_S256x256)

/-- Slice 1 of a stack of two weight matrices. -/
def refW1 (w : FVec Ideal S2x256x256 .f32) :
    FVec Ideal S256x256 .f32 :=
  (shapeCast S256x256 (extractStridedSlice S1x256x256 ![1, 0, 0] w slices_S2x256x256_S1x256x256_1_0_0) shapeCasts_S1x256x256_S256x256)

/-- Row 0 of a stack of two row vectors. -/
def refB0 (b : FVec Ideal S2x256 .f32) :
    FVec Ideal S256 .f32 :=
  (shapeCast S256 (extractStridedSlice S1x256 ![0, 0] b slices_S2x256_S1x256_0_0) shapeCasts_S1x256_S256)

/-- Row 1 of a stack of two row vectors. -/
def refB1 (b : FVec Ideal S2x256 .f32) :
    FVec Ideal S256 .f32 :=
  (shapeCast S256 (extractStridedSlice S1x256 ![1, 0] b slices_S2x256_S1x256_1_0) shapeCasts_S1x256_S256)

/-- Mean pooling over the 512 graphs: the rows summed per graph, divided by the graph's node count (at least 1). -/
def refPool (h : FVec Ideal S50000x256 .f32) (batch : IVec S50000 32) :
    FVec Ideal S512x256 .f32 :=
  (Host.divf (F := Ideal) (Host.scatterAdd scatter_S512x256_S50000x1_S50000x256_1_0_0_1 (broadcastInDim S512x256 ![] bcast_S_S512x256 (constant (F := Ideal) S_ .f32 0x00000000#32)) (broadcastInDim S50000x1 ![0] bcast_S50000_S50000x1_0 batch) h) (broadcastInDim S512x256 ![0, 1] bcast_S512x1_S512x256_0_1 (broadcastInDim S512x1 ![0] bcast_S512_S512x1_0 (maximumf (F := Ideal) (Host.scatterAdd scatter_S512_S50000x1_S50000_n_0_0_1 (broadcastInDim S512 ![] bcast_S_S512 (constant (F := Ideal) S_ .f32 0x00000000#32)) (broadcastInDim S50000x1 ![0] bcast_S50000_S50000x1_0 batch) (broadcastInDim S50000 ![] bcast_S_S50000 (constant (F := Ideal) S_ .f32 0x3F800000#32))) (broadcastInDim S512 ![] bcast_S_S512 (constant (F := Ideal) S_ .f32 0x3F800000#32))))))

/-- One layer, input width 128: aggregation, the two rectified affine maps, normalisation by the batch statistics. -/
def refLayer128 (x : FVec Ideal S50000x128 .f32) (ei : IVec S2x800000 32) (w1 : FVec Ideal S128x256 .f32) (b1 : FVec Ideal S256 .f32) (w2 : FVec Ideal S256x256 .f32) (b2 gamma beta : FVec Ideal S256 .f32) :
    FVec Ideal S50000x256 .f32 :=
  refNorm (refMlp128 (refAgg128 x ei) w1 b1 b2 w2) gamma beta (refMean (refMlp128 (refAgg128 x ei) w1 b1 b2 w2)) (refVar (refMlp128 (refAgg128 x ei) w1 b1 b2 w2))

/-- One layer, input width 256. -/
def refLayer256 (h : FVec Ideal S50000x256 .f32) (ei : IVec S2x800000 32) (w1 : FVec Ideal S256x256 .f32) (b1 : FVec Ideal S256 .f32) (w2 : FVec Ideal S256x256 .f32) (b2 gamma beta : FVec Ideal S256 .f32) :
    FVec Ideal S50000x256 .f32 :=
  refNorm (refMlp256 (refAgg256 h ei) w1 b1 b2 w2) gamma beta (refMean (refMlp256 (refAgg256 h ei) w1 b1 b2 w2)) (refVar (refMlp256 (refAgg256 h ei) w1 b1 b2 w2))

/-- The whole network, the arguments in the program's order: three layers (the first of input width 128, the other two on slices 0 and 1 of the stacked weights), then the pooling. -/
def refOut (x : FVec Ideal S50000x128 .f32) (ei : IVec S2x800000 32) (batch : IVec S50000 32) (w1 : FVec Ideal S128x256 .f32) (b1 : FVec Ideal S256 .f32) (w2 : FVec Ideal S256x256 .f32) (b2 gamma beta : FVec Ideal S256 .f32) (W1s : FVec Ideal S2x256x256 .f32) (B1s : FVec Ideal S2x256 .f32) (W2s : FVec Ideal S2x256x256 .f32) (B2s Gs Bes : FVec Ideal S2x256 .f32) :
    FVec Ideal S512x256 .f32 :=
  refPool (refLayer256 (refLayer256 (refLayer128 x ei w1 b1 w2 b2 gamma beta) ei (refW0 W1s) (refB0 B1s) (refW0 W2s) (refB0 B2s) (refB0 Gs) (refB0 Bes)) ei (refW1 W1s) (refB1 B1s) (refW1 W2s) (refB1 B2s) (refB1 Gs) (refB1 Bes)) batch

end Cert.ReferenceIdeal.RefValue

end
-- ==== Proof.LibDotIndex.lean ====
/-
  The contraction index of a rows-by-columns product, made an ordinary column index.

  For operands of shapes [A, K] and [K, B] whose dimension numbers say "no batch axes, the left operand's axis 0 and
  the right operand's axis 1 are kept, axis 1 of the left is contracted against axis 0 of the right", the contraction's
  own index set has one axis of extent K. Summing over it is summing over `Fin K`: at the result entry (p, q) and the
  contraction position k the left operand is read at (p, k) and the right operand at (k, q).
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- The left operand is read at row p of the result entry and at the contraction position. -/
theorem lhs_at (hlb : d.lhsBatch = []) (hln : d.lhsNonContracting = [0]) (hlc : d.lhsContracting = [1])
    (hr : d.contr.rank = 1) (hs : d.contr.size ⟨0, by omega⟩ = K) (p : Fin A) (q : Fin B) (k : Fin K) :
    d.lhsIdx (ix2 p q) ((contrEquiv1 d K hr hs).symm k) = ix2 p k := by
  funext a
  apply Fin.ext
  match a with
  | ⟨0, _⟩ =>
    show (d.lhsIdx (ix2 p q) ((contrEquiv1 d K hr hs).symm k) 0).val = p.val
    have key : ∀ (n : Nat) (h : n < (⟨2, ![A, B]⟩ : Shape).rank), n = 0 →
        ((ix2 p q : (⟨2, ![A, B]⟩ : Shape).Idx) ⟨n, h⟩).val = p.val := by
      intro n h e; subst e; rfl
    unfold DotDims.lhsIdx
    rw [dif_neg (by simp [hlb]), dif_pos (by simp [hln])]
    simp only [Fin.val_cast]
    exact key _ _ (by simp [hlb, hln])
  | ⟨1, _⟩ =>
    show (d.lhsIdx (ix2 p q) ((contrEquiv1 d K hr hs).symm k) 1).val = k.val
    rw [d.lhsIdx_val_of_single hlc]
    exact contrEquiv1_symm_val d K hr hs k

/-- The right operand is read at the contraction position and at column q of the result entry. -/
theorem rhs_at (hlb : d.lhsBatch = []) (hln : d.lhsNonContracting = [0])
    (hrb : d.rhsBatch = []) (hrn : d.rhsNonContracting = [1]) (hrc : d.rhsContracting = [0])
    (hr : d.contr.rank = 1) (hs : d.contr.size ⟨0, by omega⟩ = K) (p : Fin A) (q : Fin B) (k : Fin K) :
    d.rhsIdx (ix2 p q) ((contrEquiv1 d K hr hs).symm k) = ix2 k q := by
  funext a
  apply Fin.ext
  match a with
  | ⟨0, _⟩ =>
    show (d.rhsIdx (ix2 p q) ((contrEquiv1 d K hr hs).symm k) 0).val = k.val
    rw [d.rhsIdx_val_of_single hrc]
    exact contrEquiv1_symm_val d K hr hs k
  | ⟨1, _⟩ =>
    show (d.rhsIdx (ix2 p q) ((contrEquiv1 d K hr hs).symm k) 1).val = q.val
    have key : ∀ (n : Nat) (h : n < (⟨2, ![A, B]⟩ : Shape).rank), n = 1 →
        ((ix2 p q : (⟨2, ![A, B]⟩ : Shape).Idx) ⟨n, h⟩).val = q.val := by
      intro n h e; subst e; rfl
    unfold DotDims.rhsIdx
    rw [dif_neg (by simp [hrb]), dif_pos (by simp [hrn])]
    simp only [Fin.val_cast]
    exact key _ _ (by simp [hlb, hln, hrn])

/-- The sum over the contraction's index set is the sum over the columns of the left operand. -/
theorem sum_eq {φ₁ φ₂ : FTy}
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    (∑ k : d.contr.Idx, (x (d.lhsIdx (ix2 p q) k) : EReal) * (y (d.rhsIdx (ix2 p q) k) : EReal))
      = ∑ k : Fin K, (x (ix2 p k) : EReal) * (y (ix2 k q) : EReal) := by
  rw [← Equiv.sum_comp (contrEquiv1 d K hr hs).symm]
  refine Finset.sum_congr rfl fun k _ => ?_
  rw [lhs_at d hlb hln hlc hr hs p q k, rhs_at d hlb hln hrb hrn hrc hr hs p q k]

end Cert.PlainDot
-- ==== Proof.LibDotSums.lean ====
/-
  Matrix products at the exact values, read entry by entry.

  For operands of shapes [A, K] and [K, B] whose dimension numbers say "no batch axes, contract axis 1 of the left
  against axis 0 of the right", both the in-kernel product accumulated into a zero tile and the host's `dot_general`
  have, at the entry (p, q), the value `∑ k < K, x (p, k) * y (k, q)`: over the extended reals neither carries a rounding
  or an order of summation, so the two are the same finite sum. The re-indexing of the contraction's own index set to
  `Fin K` is the rows-by-columns lemma for such records.
-/
import proofs.«159704_j38585986187613_1_alg».proof.Proof.LibDotIndex

open scoped BigOperators

namespace Cert.DotSums

open Idealize.ShloMosaic Idealize.ShloMosaic.ValueIdx

variable {A K B : Nat} (d : DotDims ⟨2, ![A, K]⟩ ⟨2, ![K, B]⟩ ⟨2, ![A, B]⟩)

/-- The in-kernel product into a zero accumulator, at (p, q): the plain sum along row p and column q. -/
theorem matmul_zero_ix2 {φ₁ φ₂ : FTy} (prec : Option ContractPrecision)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.matmul d prec x y (constant ⟨2, ![A, B]⟩ .f32 0x00000000#32) (ix2 p q)
      = ∑ k : Fin K, (x (ix2 p k) : EReal) * (y (ix2 k q) : EReal) :=
  (Ideal.matmul_constant_zero_apply d prec x y (ix2 p q)).trans
    (Cert.PlainDot.sum_eq d hlb hln hlc hrb hrn hrc hr hs x y p q)

/-- The host's `dot_general`, at (p, q): the same plain sum, whatever the schedule key. -/
theorem dotGeneral_ix2 {φ₁ φ₂ : FTy} (prec : Option ContractPrecision) (sched : HostSchedule)
    (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : FVec Ideal ⟨2, ![A, K]⟩ φ₁) (y : FVec Ideal ⟨2, ![K, B]⟩ φ₂) (p : Fin A) (q : Fin B) :
    FloatOps.dotGeneral d prec sched x y (ix2 p q)
      = ∑ k : Fin K, (x (ix2 p k) : EReal) * (y (ix2 k q) : EReal) :=
  (Ideal.dotGeneral_apply d prec sched x y (ix2 p q)).trans
    (Cert.PlainDot.sum_eq d hlb hln hlc hrb hrn hrc hr hs x y p q)

end Cert.DotSums
-- ==== Proof.LibBiasRow.lean ====
/-
  A bias vector as a row, read at an index: a vector `[b]` placed as the one row of `[1, b]` reads its entry of the
  column; a row `[1, b]` repeated down `a` rows reads, at `(p, q)`, its entry `q`. (A `broadcast_in_dim` reads the
  operand's unit axes at coordinate zero and its other axes at the result's coordinate on the axis they are sent to.)
-/
import Idealize.ShloMosaic.Lib.ValueIdx
import Idealize.ShloMosaic.Lib.Pipeline.Value

noncomputable section

namespace Cert.BiasRow

open Idealize.ShloMosaic Idealize.ShloMosaic.ValueIdx

variable {α : Type}

/-- A vector `[b]` placed as the row of `[1, b]` reads, at `(u, q)`, its entry `q`. -/
theorem row_apply {b : ℕ} (x : (⟨1, ![b]⟩ : Shape).Idx → α) (h : (⟨1, ![b]⟩ : Shape).BroadcastsInDim ⟨2, ![1, b]⟩ ![1])
    (u : Fin 1) (q : Fin b) : broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

/-- A row `[1, b]` repeated down `a` rows reads, at `(p, q)`, the row's entry `q`. -/
theorem down_apply {a b : ℕ} (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 (0 : Fin 1) q) := by
  refine broadcastInDim_apply ![0, 1] h x (ix2 p q) (ix2 (0 : Fin 1) q) fun ax => ?_
  match ax with
  | ⟨0, _⟩ =>
    show (0 : ℕ) = if (1 : ℕ) = 1 then 0 else p.val
    rw [if_pos rfl]
  | ⟨1, _⟩ =>
    show q.val = if b = 1 then 0 else q.val
    split
    · have := q.isLt; omega
    · rfl

end Cert.BiasRow

end
-- ==== Proof.LibDenseLayer.lean ====
/-
  A dense layer read entry by entry at the exact values, in the form a kernel tile computes it and in the form a host
  program computes it.

  Over the extended reals a float is an exact number and a change of float format is the identity, so:

    an affine layer   x · W + b   has, at row p and column q, the value  (∑ k, x (p, k) · W (k, q)) + b q,  whether the
      product is a matrix unit's product into a zero accumulator with the bias vector recast as a one-row matrix and
      repeated down the rows, or the host's general product with the bias placed by two broadcasts;

    a leaky rectifier   z ↦ if z ≥ 0 then z else slope · z   is decided entry by entry by the ordered comparison
      against the zero word, whether the zero and the slope are splat scalars (a tile) or rank-0 arrays broadcast over the
      shape (the host, where the slope arrives through a conversion to its own type, the identity);

    the logistic   z ↦ 1 / (1 + exp (−z))   is one function whether it is one operation (a tile) or the host's
      negate, exponential, add-one, divide-into-one spelt out, the word of 1 being the number 1.

  Every statement is for any shape extents, any dimension record with the rows-by-columns numbers, any operand formats.
-/
import proofs.«159704_j38585986187613_1_alg».proof.Proof.LibDotSums
import proofs.«159704_j38585986187613_1_alg».proof.Proof.LibBiasRow
import Idealize.ShloMosaic.Lib.ValueLayout

open scoped BigOperators

noncomputable section

namespace Cert.DenseLayer

open Idealize.ShloMosaic Idealize.ShloMosaic.ValueIdx

/-- Entry `q` of one row `h` sent through an affine layer: the row against column `q` of the weights, plus the
    bias's entry `q`. -/
def affine {K B : ℕ} (h : Fin K → EReal) (W : Fin K → Fin B → EReal) (b : Fin B → EReal) (q : Fin B) : EReal :=
  (∑ k : Fin K, h k * W k q) + b q

/-- The leaky rectifier with the slope of word `sl`: `z` where the ordered comparison `z ≥ 0` holds, the slope times
    `z` elsewhere. -/
def leaky (sl : BitVec 32) (z : EReal) : EReal :=
  Scalar.select (FloatOps.cmpf (F := Ideal) (φ := .f32) .oge z (Ideal.ofBits .f32 0x00000000#32)) z
    (Ideal.ofBits .f32 sl * z)

/-- The f32 word of one is the number one. -/
theorem one_word : Ideal.ofBits .f32 0x3F800000#32 = 1 := by
  simp [Ideal.ofBits, Ideal.ieee, -EReal.coe_mul]; norm_num

/-- A rank-0 array broadcast over any shape reads its one entry everywhere. (The map from the operand's axes to the
    result's has no axis to send; it is kept a variable so that any spelling of the empty map is matched.) -/
theorem scalar_apply {α : Type} {t : Shape} (dims : Fin (⟨0, ![]⟩ : Shape).rank → Fin t.rank)
    (x : (⟨0, ![]⟩ : Shape).Idx → α) (h : (⟨0, ![]⟩ : Shape).BroadcastsInDim t dims) (j : t.Idx) :
    broadcastInDim t dims h x j = x ix0 :=
  broadcastInDim_apply dims h x j ix0 (fun a => a.elim0)

section Affine

variable {A K B : ℕ} {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)
  (x : FVec Ideal ⟨2, ![A, K]⟩ φ₁) (w : FVec Ideal ⟨2, ![K, B]⟩ φ₂) (c : FVec Ideal ⟨1, ![B]⟩ .f32)

include hlb hln hlc hrb hrn hrc hr hs

/-- The tile form: the matrix unit's product into the zero tile, plus the bias recast `[B] → [1, B]` and repeated
    down the rows. -/
theorem tile_affine_apply (h1 : (⟨1, ![B]⟩ : Shape).ShapeCasts ⟨2, ![1, B]⟩)
    (h2 : (⟨2, ![1, B]⟩ : Shape).Broadcasts ⟨2, ![A, B]⟩) (p : Fin A) (q : Fin B) :
    addf (matmul d prec x w (constant ⟨2, ![A, B]⟩ .f32 0x00000000#32))
        (broadcastTo ⟨2, ![A, B]⟩ (shapeCast ⟨2, ![1, B]⟩ c h1) h2) (ix2 p q)
      = affine (fun k => x (ix2 p k)) (fun k q => w (ix2 k q)) (fun q => c (ix1 q)) q := by
  show FloatOps.matmul d prec x w (constant ⟨2, ![A, B]⟩ .f32 0x00000000#32) (ix2 p q)
      + broadcastTo ⟨2, ![A, B]⟩ (shapeCast ⟨2, ![1, B]⟩ c h1) h2 (ix2 p q) = _
  rw [Cert.DotSums.matmul_zero_ix2 d prec hlb hln hlc hrb hrn hrc hr hs x w p q, broadcastTo_1b_ab_apply,
    shapeCast_a_1a_apply]
  rfl

/-- The host form: the general product, plus the bias placed as the row of `[1, B]` and repeated down the rows by two
    broadcasts. -/
theorem host_affine_apply (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    addf (Host.dotGeneral d prec x w)
        (broadcastInDim ⟨2, ![A, B]⟩ ![0, 1] h2 (broadcastInDim ⟨2, ![1, B]⟩ ![1] h1 c)) (ix2 p q)
      = affine (fun k => x (ix2 p k)) (fun k q => w (ix2 k q)) (fun q => c (ix1 q)) q := by
  show FloatOps.dotGeneral d prec .single x w (ix2 p q)
      + broadcastInDim ⟨2, ![A, B]⟩ ![0, 1] h2 (broadcastInDim ⟨2, ![1, B]⟩ ![1] h1 c) (ix2 p q) = _
  rw [Cert.DotSums.dotGeneral_ix2 d prec .single hlb hln hlc hrb hrn hrc hr hs x w p q, Cert.BiasRow.down_apply,
    Cert.BiasRow.row_apply]
  rfl

/-- The last layer of a tile, with no bias: the matrix unit's product into the zero tile is the plain sum. -/
theorem tile_product_apply (p : Fin A) (q : Fin B) :
    matmul d prec x w (constant ⟨2, ![A, B]⟩ .f32 0x00000000#32) (ix2 p q) = ∑ k : Fin K, x (ix2 p k) * w (ix2 k q) :=
  Cert.DotSums.matmul_zero_ix2 d prec hlb hln hlc hrb hrn hrc hr hs x w p q

/-- The host's product with no bias likewise. -/
theorem host_product_apply (p : Fin A) (q : Fin B) :
    Host.dotGeneral d prec x w (ix2 p q) = ∑ k : Fin K, x (ix2 p k) * w (ix2 k q) :=
  Cert.DotSums.dotGeneral_ix2 d prec .single hlb hln hlc hrb hrn hrc hr hs x w p q

end Affine

/-- The tile form of the leaky rectifier: the zero and the slope are scalars splat over the tile. -/
theorem tile_leaky_apply {t : Shape} (sl : BitVec 32) (v : FVec Ideal t .f32) (j : t.Idx) :
    select (cmpf .oge v (broadcast t (Scalar.ofBits (F := Ideal) .f32 0x00000000#32))) v
      (mulf (broadcast t (Scalar.ofBits (F := Ideal) .f32 sl)) v) j = leaky sl (v j) := rfl

/-- The host form of the leaky rectifier: the zero and the slope are rank-0 arrays broadcast over the shape, the slope
    first converted to its own type. -/
theorem host_leaky_apply {t : Shape} (sl : BitVec 32) (v : FVec Ideal t .f32)
    (dims : Fin (⟨0, ![]⟩ : Shape).rank → Fin t.rank) (h0 : (⟨0, ![]⟩ : Shape).BroadcastsInDim t dims) (j : t.Idx) :
    select (cmpf .oge v (broadcastInDim t dims h0 (constant (F := Ideal) ⟨0, ![]⟩ .f32 0x00000000#32))) v
      (mulf (broadcastInDim t dims h0 (id (constant (F := Ideal) ⟨0, ![]⟩ .f32 sl))) v) j = leaky sl (v j) := by
  show Scalar.select (FloatOps.cmpf (F := Ideal) (φ := .f32) .oge (v j)
      (broadcastInDim t dims h0 (constant (F := Ideal) ⟨0, ![]⟩ .f32 0x00000000#32) j)) (v j)
      (broadcastInDim t dims h0 (id (constant (F := Ideal) ⟨0, ![]⟩ .f32 sl)) j * v j) = _
  rw [scalar_apply, scalar_apply]
  rfl

/-- The tile's logistic is the logistic of the entry. -/
theorem tile_logistic_apply {t : Shape} (v : FVec Ideal t .f32) (j : t.Idx) :
    logistic v j = Ideal.logistic (v j) := rfl

/-- The host's logistic spelt out, `1 / (1 + exp (−z))` with both ones rank-0 arrays broadcast over the shape, is the
    logistic of the entry. -/
theorem host_logistic_apply {t : Shape} (v : FVec Ideal t .f32) (dims : Fin (⟨0, ![]⟩ : Shape).rank → Fin t.rank)
    (h0 : (⟨0, ![]⟩ : Shape).BroadcastsInDim t dims) (j : t.Idx) :
    Host.divf (broadcastInDim t dims h0 (constant (F := Ideal) ⟨0, ![]⟩ .f32 0x3F800000#32))
      (addf (broadcastInDim t dims h0 (constant (F := Ideal) ⟨0, ![]⟩ .f32 0x3F800000#32)) (Host.exp (Host.negf v))) j
      = Ideal.logistic (v j) := by
  show Ideal.div (broadcastInDim t dims h0 (constant (F := Ideal) ⟨0, ![]⟩ .f32 0x3F800000#32) j)
      (broadcastInDim t dims h0 (constant (F := Ideal) ⟨0, ![]⟩ .f32 0x3F800000#32) j + Ideal.exp (-(v j))) = _
  rw [scalar_apply]
  show Ideal.div (Ideal.ofBits .f32 0x3F800000#32) (Ideal.ofBits .f32 0x3F800000#32 + Ideal.exp (-(v j))) = _
  rw [one_word]
  rfl

end Cert.DenseLayer

end
-- ==== Proof.LibRectLayers.lean ====
/-
  Rectified dense layers read entry by entry at the exact values, in the form a kernel tile computes them and in the
  form a host program computes them, for any extents, any rows-by-columns dimension record, any operand formats.

  Over the extended reals a float is an exact number, a change of float format is the identity and a matrix product
  carries no rounding and no order of summation. So

    a rectified affine layer   max (x · W + b, 0)   has, at row p and column q, the value
        max ((∑ k, x (p, k) · W (k, q)) + b q, 0);

    a rectified two-product layer   max (a · Wl + h · Wr + b, 0)   has the value
        max (((∑ k, a (p, k) · Wl (k, q)) + ∑ k, h (p, k) · Wr (k, q)) + b q, 0),
      whether the bias is added after both products (a tile) or between them (the host): addition of extended reals is
      commutative and associative, infinities included, so  (s + b) + t = (s + t) + b  with no finiteness needed.

  Entry (p, q) of either layer reads row p of the row operands only (`dense_congr`, `combine_congr`): a block of rows
  of the layer of whole arrays is the layer of that block of rows — what a kernel tiled over rows needs to go from the
  blocks its grid points write to the whole result array.
-/
import proofs.«159704_j38585986187613_1_alg».proof.Proof.LibDenseLayer

open scoped BigOperators

noncomputable section

namespace Cert.RectLayers

open Idealize.ShloMosaic Idealize.ShloMosaic.ValueIdx Cert.DenseLayer

/-- The rectifier: the larger of the entry and the number of the zero word. -/
def rect (z : EReal) : EReal := max z (Ideal.ofBits .f32 0x00000000#32)

variable {A K B : ℕ}

/-- The input layer over A rows: entry (p, q) is the rectified affine image of row p. -/
def dense (x : FVec Ideal ⟨2, ![A, K]⟩ .f32) (w : FVec Ideal ⟨2, ![K, B]⟩ .f32) (b : FVec Ideal ⟨1, ![B]⟩ .f32) :
    FVec Ideal ⟨2, ![A, B]⟩ .f32 :=
  fun i => rect (affine (fun k => x (ix2 (i 0) k)) (fun k q => w (ix2 k q)) (fun q => b (ix1 q)) (i 1))

/-- One convolution layer over A rows: entry (p, q) is the rectified sum of row p of the aggregate against column q
    of the left weights, row p of the nodes' own features against column q of the right weights, and the bias. -/
def combine (a h : FVec Ideal ⟨2, ![A, K]⟩ .f32) (wl wr : FVec Ideal ⟨2, ![K, B]⟩ .f32) (b : FVec Ideal ⟨1, ![B]⟩ .f32) :
    FVec Ideal ⟨2, ![A, B]⟩ .f32 :=
  fun i => rect (((∑ k : Fin K, (a (ix2 (i 0) k) : EReal) * (wl (ix2 k (i 1)) : EReal))
      + ∑ k : Fin K, (h (ix2 (i 0) k) : EReal) * (wr (ix2 k (i 1)) : EReal)) + (b (ix1 (i 1)) : EReal))

theorem dense_ix2 (x : FVec Ideal ⟨2, ![A, K]⟩ .f32) (w : FVec Ideal ⟨2, ![K, B]⟩ .f32) (b : FVec Ideal ⟨1, ![B]⟩ .f32)
    (p : Fin A) (q : Fin B) :
    dense x w b (ix2 p q)
      = rect (affine (fun k => x (ix2 p k)) (fun k q => w (ix2 k q)) (fun q => b (ix1 q)) q) := rfl

theorem combine_ix2 (a h : FVec Ideal ⟨2, ![A, K]⟩ .f32) (wl wr : FVec Ideal ⟨2, ![K, B]⟩ .f32)
    (b : FVec Ideal ⟨1, ![B]⟩ .f32) (p : Fin A) (q : Fin B) :
    combine a h wl wr b (ix2 p q)
      = rect (((∑ k : Fin K, (a (ix2 p k) : EReal) * (wl (ix2 k q) : EReal))
          + ∑ k : Fin K, (h (ix2 p k) : EReal) * (wr (ix2 k q) : EReal)) + (b (ix1 q) : EReal)) := rfl

section Rows

variable {A' : ℕ}

/-- Entry i of the input layer over one array is entry i' of it over another when row (i 0) of the one is row (i' 0)
    of the other, the weights and the bias agree entry by entry, and the two columns are the same. -/
theorem dense_congr (x : FVec Ideal ⟨2, ![A, K]⟩ .f32) (x' : FVec Ideal ⟨2, ![A', K]⟩ .f32)
    (w w' : FVec Ideal ⟨2, ![K, B]⟩ .f32) (b b' : FVec Ideal ⟨1, ![B]⟩ .f32)
    (i : (⟨2, ![A, B]⟩ : Shape).Idx) (i' : (⟨2, ![A', B]⟩ : Shape).Idx)
    (hx : ∀ k : Fin K, x (ix2 (i 0) k) = x' (ix2 (i' 0) k))
    (hw : ∀ (k : Fin K) (q : Fin B), w (ix2 k q) = w' (ix2 k q)) (hb : ∀ q : Fin B, b (ix1 q) = b' (ix1 q))
    (hq : (i 1).val = (i' 1).val) : dense x w b i = dense x' w' b' i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have hx' : ∀ k : Fin K, x (ix2 p k) = x' (ix2 p' k) := hx
  rw [dense_ix2, dense_ix2]
  unfold affine
  simp only [hx', hw, hb]

/-- The same for a convolution layer: rows (i 0) of the aggregate and of the nodes' own features. -/
theorem combine_congr (a h : FVec Ideal ⟨2, ![A, K]⟩ .f32) (a' h' : FVec Ideal ⟨2, ![A', K]⟩ .f32)
    (wl wr wl' wr' : FVec Ideal ⟨2, ![K, B]⟩ .f32) (b b' : FVec Ideal ⟨1, ![B]⟩ .f32)
    (i : (⟨2, ![A, B]⟩ : Shape).Idx) (i' : (⟨2, ![A', B]⟩ : Shape).Idx)
    (ha : ∀ k : Fin K, a (ix2 (i 0) k) = a' (ix2 (i' 0) k)) (hh : ∀ k : Fin K, h (ix2 (i 0) k) = h' (ix2 (i' 0) k))
    (hwl : ∀ (k : Fin K) (q : Fin B), wl (ix2 k q) = wl' (ix2 k q))
    (hwr : ∀ (k : Fin K) (q : Fin B), wr (ix2 k q) = wr' (ix2 k q)) (hb : ∀ q : Fin B, b (ix1 q) = b' (ix1 q))
    (hq : (i 1).val = (i' 1).val) : combine a h wl wr b i = combine a' h' wl' wr' b' i' := by
  obtain ⟨p, q, rfl⟩ : ∃ (p : Fin A) (q : Fin B), i = ix2 p q := ⟨i 0, i 1, eq_ix2 i⟩
  obtain ⟨p', q', rfl⟩ : ∃ (p' : Fin A') (q' : Fin B), i' = ix2 p' q' := ⟨i' 0, i' 1, eq_ix2 i'⟩
  have e : q = q' := Fin.ext hq
  subst e
  have ha' : ∀ k : Fin K, a (ix2 p k) = a' (ix2 p' k) := ha
  have hh' : ∀ k : Fin K, h (ix2 p k) = h' (ix2 p' k) := hh
  rw [combine_ix2, combine_ix2]
  simp only [ha', hh', hwl, hwr, hb]

end Rows

section Forms

variable {φ₁ φ₂ : FTy} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])
  (hr : d.contr.rank = 1) (hs : d.contr.size ⟨0, by omega⟩ = K) (prec : Option ContractPrecision)

include hlb hln hlc hrb hrn hrc hr hs

/-- The input layer as a tile computes it: the matrix unit's product into the zero tile, the bias recast to one row
    and repeated down the rows, the larger of that and the splat zero. -/
theorem tile_dense_apply (x : FVec Ideal ⟨2, ![A, K]⟩ φ₁) (w : FVec Ideal ⟨2, ![K, B]⟩ φ₂) (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (matmul d prec x w (constant ⟨2, ![A, B]⟩ .f32 0x00000000#32))
        (broadcastTo ⟨2, ![A, B]⟩ (shapeCast ⟨2, ![1, B]⟩ c h1) h2))
      (broadcast ⟨2, ![A, B]⟩ (Scalar.ofBits (F := Ideal) .f32 0x00000000#32)) (ix2 p q)
      = rect (affine (fun k => x (ix2 p k)) (fun k q => w (ix2 k q)) (fun q => c (ix1 q)) q) := by
  show max (addf (matmul d prec x w (constant ⟨2, ![A, B]⟩ .f32 0x00000000#32))
        (broadcastTo ⟨2, ![A, B]⟩ (shapeCast ⟨2, ![1, B]⟩ c h1) h2) (ix2 p q)) (Ideal.ofBits .f32 0x00000000#32) = _
  rw [tile_affine_apply d hlb hln hlc hrb hrn hrc hr hs prec x w c h1 h2 p q]
  rfl

/-- The input layer as the host computes it: the general product, the bias placed by two broadcasts, the larger of
    that and the rank-0 zero broadcast over the shape. -/
theorem host_dense_apply (x : FVec Ideal ⟨2, ![A, K]⟩ φ₁) (w : FVec Ideal ⟨2, ![K, B]⟩ φ₂) (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) (p : Fin A) (q : Fin B) :
    maximumf (addf (Host.dotGeneral d prec x w)
        (broadcastInDim ⟨2, ![A, B]⟩ ![0, 1] h2 (broadcastInDim ⟨2, ![1, B]⟩ ![1] h1 c)))
      (broadcastInDim ⟨2, ![A, B]⟩ dims h0 (constant (F := Ideal) ⟨0, ![]⟩ .f32 0x00000000#32)) (ix2 p q)
      = rect (affine (fun k => x (ix2 p k)) (fun k q => w (ix2 k q)) (fun q => c (ix1 q)) q) := by
  show max (addf (Host.dotGeneral d prec x w)
        (broadcastInDim ⟨2, ![A, B]⟩ ![0, 1] h2 (broadcastInDim ⟨2, ![1, B]⟩ ![1] h1 c)) (ix2 p q))
      (broadcastInDim ⟨2, ![A, B]⟩ dims h0 (constant (F := Ideal) ⟨0, ![]⟩ .f32 0x00000000#32) (ix2 p q)) = _
  rw [host_affine_apply d hlb hln hlc hrb hrn hrc hr hs prec x w c h1 h2 p q, scalar_apply]
  rfl

/-- A convolution layer as a tile computes it: the two products into zero tiles added, then the bias row, then the
    rectifier. -/
theorem tile_combine_apply (a h : FVec Ideal ⟨2, ![A, K]⟩ φ₁) (wl wr : FVec Ideal ⟨2, ![K, B]⟩ φ₂)
    (c : FVec Ideal ⟨1, ![B]⟩ .f32)
    (h1 : (⟨1, ![B]⟩ : Shape).ShapeCasts ⟨2, ![1, B]⟩) (h2 : (⟨2, ![1, B]⟩ : Shape).Broadcasts ⟨2, ![A, B]⟩)
    (p : Fin A) (q : Fin B) :
    maximumf (addf (addf (matmul d prec a wl (constant ⟨2, ![A, B]⟩ .f32 0x00000000#32))
          (matmul d prec h wr (constant ⟨2, ![A, B]⟩ .f32 0x00000000#32)))
        (broadcastTo ⟨2, ![A, B]⟩ (shapeCast ⟨2, ![1, B]⟩ c h1) h2))
      (broadcast ⟨2, ![A, B]⟩ (Scalar.ofBits (F := Ideal) .f32 0x00000000#32)) (ix2 p q)
      = rect (((∑ k : Fin K, (a (ix2 p k) : EReal) * (wl (ix2 k q) : EReal))
          + ∑ k : Fin K, (h (ix2 p k) : EReal) * (wr (ix2 k q) : EReal)) + (c (ix1 q) : EReal)) := by
  show max ((matmul d prec a wl (constant ⟨2, ![A, B]⟩ .f32 0x00000000#32) (ix2 p q)
        + matmul d prec h wr (constant ⟨2, ![A, B]⟩ .f32 0x00000000#32) (ix2 p q))
        + broadcastTo ⟨2, ![A, B]⟩ (shapeCast ⟨2, ![1, B]⟩ c h1) h2 (ix2 p q)) (Ideal.ofBits .f32 0x00000000#32) = _
  rw [tile_product_apply d hlb hln hlc hrb hrn hrc hr hs prec a wl p q,
    tile_product_apply d hlb hln hlc hrb hrn hrc hr hs prec h wr p q, broadcastTo_1b_ab_apply, shapeCast_a_1a_apply]
  rfl

/-- A convolution layer as the host computes it: the aggregate's product, the bias placed by two broadcasts, then the
    nodes' own product, then the rectifier. The bias is moved past the second product by commutativity and
    associativity of the extended reals' addition. -/
theorem host_combine_apply (a h : FVec Ideal ⟨2, ![A, K]⟩ φ₁) (wl wr : FVec Ideal ⟨2, ![K, B]⟩ φ₂)
    (c : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![A, B]⟩ ![0, 1])
    (dims : Fin (⟨0, ![]⟩ : Shape).rank → Fin (⟨2, ![A, B]⟩ : Shape).rank)
    (h0 : (⟨0, ![]⟩ : Shape).BroadcastsInDim ⟨2, ![A, B]⟩ dims) (p : Fin A) (q : Fin B) :
    maximumf (addf (addf (Host.dotGeneral d prec a wl)
          (broadcastInDim ⟨2, ![A, B]⟩ ![0, 1] h2 (broadcastInDim ⟨2, ![1, B]⟩ ![1] h1 c)))
        (Host.dotGeneral d prec h wr))
      (broadcastInDim ⟨2, ![A, B]⟩ dims h0 (constant (F := Ideal) ⟨0, ![]⟩ .f32 0x00000000#32)) (ix2 p q)
      = rect (((∑ k : Fin K, (a (ix2 p k) : EReal) * (wl (ix2 k q) : EReal))
          + ∑ k : Fin K, (h (ix2 p k) : EReal) * (wr (ix2 k q) : EReal)) + (c (ix1 q) : EReal)) := by
  show max ((Host.dotGeneral d prec a wl (ix2 p q)
        + broadcastInDim ⟨2, ![A, B]⟩ ![0, 1] h2 (broadcastInDim ⟨2, ![1, B]⟩ ![1] h1 c) (ix2 p q))
        + Host.dotGeneral d prec h wr (ix2 p q))
      (broadcastInDim ⟨2, ![A, B]⟩ dims h0 (constant (F := Ideal) ⟨0, ![]⟩ .f32 0x00000000#32) (ix2 p q)) = _
  rw [host_product_apply d hlb hln hlc hrb hrn hrc hr hs prec a wl p q,
    host_product_apply d hlb hln hlc hrb hrn hrc hr hs prec h wr p q, Cert.BiasRow.down_apply, Cert.BiasRow.row_apply,
    scalar_apply, add_right_comm]
  rfl

end Forms

end Cert.RectLayers

end
-- ==== Proof.GinSpec.lean ====
/-
  The three-layer graph network's dense part, as functions on the extended reals.

  One node's row x (K features) goes through two rectified affine layers,
      hid q = max ((∑ k, x k · W1 (k, q)) + b1 q, 0),      z q = max ((∑ k, hid k · W2 (k, q)) + b2 q, 0),
  with the biases given as one-row matrices. Over N rows this is the array Z; a block of rows of Z is Z of that block of
  rows, because entry (p, q) reads row p only. The batch statistics are the column sums of Z and of its squares; a column
  sum over the first n rows is written as a sum over a range of naturals so that a sum over 2000·(t+1) rows splits into
  the sum over 2000·t rows and the next 2000.
-/
import proofs.«159704_j38585986187613_1_alg».proof.Proof.LibRectLayers
import Mathlib.Algebra.BigOperators.Intervals

open scoped BigOperators

noncomputable section

namespace Cert.Gin

open Idealize.ShloMosaic Idealize.ShloMosaic.ValueIdx Cert.DenseLayer Cert.RectLayers

variable {K B : ℕ}

/-- The hidden row of one node: the rectified affine image of its feature row. -/
def hid (xr : Fin K → EReal) (w1 : FVec Ideal ⟨2, ![K, B]⟩ .f32) (b1 : FVec Ideal ⟨2, ![1, B]⟩ .f32) (q : Fin B) : EReal :=
  rect (affine xr (fun k q => w1 (ix2 k q)) (fun q => b1 (ix2 (0 : Fin 1) q)) q)

/-- The output row of one node: the rectified affine image of its hidden row. -/
def zrow (xr : Fin K → EReal) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32) (q : Fin B) : EReal :=
  rect (affine (hid xr w1 b1) (fun k q => w2 (ix2 k q)) (fun q => b2 (ix2 (0 : Fin 1) q)) q)

/-- The two-layer perceptron over N rows: entry (p, q) is the output row of node p at q. -/
def Zfun {N : ℕ} (x : FVec Ideal ⟨2, ![N, K]⟩ .f32) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32) : FVec Ideal ⟨2, ![N, B]⟩ .f32 :=
  fun i => zrow (fun k => x (ix2 (i 0) k)) w1 b1 w2 b2 (i 1)

theorem Zfun_ix2 {N : ℕ} (x : FVec Ideal ⟨2, ![N, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (p : Fin N) (q : Fin B) : Zfun x w1 b1 w2 b2 (ix2 p q) = zrow (fun k => x (ix2 p k)) w1 b1 w2 b2 q := rfl

/-- Row r of an array of N rows at column q, extended by zero past the last row: the summand of a column sum written
    over a range of naturals. -/
def rowAt {N : ℕ} (z : FVec Ideal ⟨2, ![N, B]⟩ .f32) (q : Fin B) (r : ℕ) : EReal :=
  if h : r < N then z (ix2 ⟨r, h⟩ q) else 0

/-- The column sum of the first n rows. -/
def colSum {N : ℕ} (z : FVec Ideal ⟨2, ![N, B]⟩ .f32) (n : ℕ) (q : Fin B) : EReal :=
  ∑ r ∈ Finset.range n, rowAt z q r

/-- The column sum of squares of the first n rows. -/
def colSumSq {N : ℕ} (z : FVec Ideal ⟨2, ![N, B]⟩ .f32) (n : ℕ) (q : Fin B) : EReal :=
  ∑ r ∈ Finset.range n, rowAt z q r * rowAt z q r

/-- A column sum over n + m rows is the column sum over n rows plus the sum of the next m rows. -/
theorem colSum_add {N : ℕ} (z : FVec Ideal ⟨2, ![N, B]⟩ .f32) (n m : ℕ) (q : Fin B) :
    colSum z (n + m) q = colSum z n q + ∑ r : Fin m, rowAt z q (n + r.val) := by
  unfold colSum
  rw [Finset.sum_range_add, Finset.sum_range (fun r => rowAt z q (n + r))]

theorem colSumSq_add {N : ℕ} (z : FVec Ideal ⟨2, ![N, B]⟩ .f32) (n m : ℕ) (q : Fin B) :
    colSumSq z (n + m) q = colSumSq z n q + ∑ r : Fin m, rowAt z q (n + r.val) * rowAt z q (n + r.val) := by
  unfold colSumSq
  rw [Finset.sum_range_add, Finset.sum_range (fun r => rowAt z q (n + r) * rowAt z q (n + r))]

/-- Two thousand more rows: the form in which a grid point of 2000 rows extends a running column sum. -/
theorem colSum_step {N : ℕ} (z : FVec Ideal ⟨2, ![N, B]⟩ .f32) (t : ℕ) (q : Fin B) :
    colSum z (2000 * (t + 1)) q = colSum z (2000 * t) q + ∑ r : Fin 2000, rowAt z q (2000 * t + r.val) := by
  rw [show 2000 * (t + 1) = 2000 * t + 2000 from by ring]
  exact colSum_add z (2000 * t) 2000 q

theorem colSumSq_step {N : ℕ} (z : FVec Ideal ⟨2, ![N, B]⟩ .f32) (t : ℕ) (q : Fin B) :
    colSumSq z (2000 * (t + 1)) q
      = colSumSq z (2000 * t) q + ∑ r : Fin 2000, rowAt z q (2000 * t + r.val) * rowAt z q (2000 * t + r.val) := by
  rw [show 2000 * (t + 1) = 2000 * t + 2000 from by ring]
  exact colSumSq_add z (2000 * t) 2000 q

theorem colSum_zero {N : ℕ} (z : FVec Ideal ⟨2, ![N, B]⟩ .f32) (q : Fin B) : colSum z (2000 * 0) q = 0 := by
  unfold colSum; simp

theorem colSumSq_zero {N : ℕ} (z : FVec Ideal ⟨2, ![N, B]⟩ .f32) (q : Fin B) : colSumSq z (2000 * 0) q = 0 := by
  unfold colSumSq; simp

/-- The column sum over all N rows is the sum over the row indices. -/
theorem colSum_all {N : ℕ} (z : FVec Ideal ⟨2, ![N, B]⟩ .f32) (q : Fin B) :
    colSum z N q = ∑ r : Fin N, z (ix2 r q) := by
  unfold colSum
  rw [Finset.sum_range]
  exact Finset.sum_congr rfl fun r _ => by unfold rowAt; rw [dif_pos r.isLt]

theorem colSumSq_all {N : ℕ} (z : FVec Ideal ⟨2, ![N, B]⟩ .f32) (q : Fin B) :
    colSumSq z N q = ∑ r : Fin N, z (ix2 r q) * z (ix2 r q) := by
  unfold colSumSq
  rw [Finset.sum_range (fun r => rowAt z q r * rowAt z q r)]
  exact Finset.sum_congr rfl fun r _ => by unfold rowAt; rw [dif_pos r.isLt]

end Cert.Gin

end
-- ==== Proof.GinNorm.lean ====
/-
  Batch normalisation over the 50000 rows, column by column, on the extended reals.

  For an array z of 50000 rows, column q has the mean  (∑ r, z (r, q)) / 50000,  and its variance is written in two
  ways: the mean of the squared deviations from the mean (the centred form), and the larger of zero and the mean of
  the squares less the squared mean (the form computed from the two column sums). The two agree when every entry of
  the column is a real number. The normalised entry is  γ q · (z (p, q) − mean q) · (var q + ε)^(−1/2) + β q,  with ε the
  number of the word 0x3727C5AC.
-/
import proofs.«159704_j38585986187613_1_alg».proof.Proof.GinSpec

open scoped BigOperators

noncomputable section

namespace Cert.Gin

open Idealize.ShloMosaic Idealize.ShloMosaic.ValueIdx

variable {B : ℕ}

/-- The number of rows, as the host's divisor reads. -/
abbrev rows : EReal := ((50000 : ℝ) : EReal)

/-- Column q's mean. -/
def meanCol (z : FVec Ideal ⟨2, ![50000, B]⟩ .f32) (q : Fin B) : EReal :=
  Ideal.div (∑ r : Fin 50000, z (ix2 r q)) rows

/-- Column q's variance, centred form. -/
def varCol (z : FVec Ideal ⟨2, ![50000, B]⟩ .f32) (q : Fin B) : EReal :=
  Ideal.div (∑ r : Fin 50000, (z (ix2 r q) - meanCol z q) * (z (ix2 r q) - meanCol z q)) rows

/-- Column q's variance from the column sums of the entries and of their squares. -/
def varColSums (z : FVec Ideal ⟨2, ![50000, B]⟩ .f32) (q : Fin B) : EReal :=
  max (Ideal.div (∑ r : Fin 50000, z (ix2 r q) * z (ix2 r q)) rows - meanCol z q * meanCol z q) 0

/-- The normalised entry (p, q), for column statistics mu and v. -/
def normAt (z : FVec Ideal ⟨2, ![50000, B]⟩ .f32) (g be mu v : Fin B → EReal) (p : Fin 50000) (q : Fin B) : EReal :=
  g q * (z (ix2 p q) - mu q) * Ideal.rsqrt (v q + Ideal.ofBits .f32 0x3727C5AC#32) + be q

end Cert.Gin

end
-- ==== Proof.GinLayer.lean ====
/-
  One layer of the network after the neighbour aggregation, as a function of its pre-activation input: the two-layer
  perceptron Z of the input, then every column of Z normalised by its own mean and variance over the 50000 rows. The
  variance enters in two spellings, the centred one and the one from the column sums of Z and of its squares.
-/
import proofs.«159704_j38585986187613_1_alg».proof.Proof.GinNorm

open scoped BigOperators

noncomputable section

namespace Cert.Gin

open Idealize.ShloMosaic Idealize.ShloMosaic.ValueIdx

variable {K B : ℕ}

/-- The layer with the centred variance. -/
def layerSpec (zpre : FVec Ideal ⟨2, ![50000, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (g be : Fin B → EReal) : FVec Ideal ⟨2, ![50000, B]⟩ .f32 :=
  fun i => normAt (Zfun zpre w1 b1 w2 b2) g be (meanCol (Zfun zpre w1 b1 w2 b2)) (varCol (Zfun zpre w1 b1 w2 b2)) (i 0) (i 1)

/-- The layer with the variance from the column sums. -/
def layerSpecSums (zpre : FVec Ideal ⟨2, ![50000, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (g be : Fin B → EReal) : FVec Ideal ⟨2, ![50000, B]⟩ .f32 :=
  fun i => normAt (Zfun zpre w1 b1 w2 b2) g be (meanCol (Zfun zpre w1 b1 w2 b2)) (varColSums (Zfun zpre w1 b1 w2 b2)) (i 0) (i 1)

end Cert.Gin

end
-- ==== Proof.LibMaskedSquare.lean ====
/-
  A masked sum of squared differences, expanded — the one law of extended-real arithmetic that joins
  "sum of o·(c − t)²" to "sum of o·c² − 2t · sum of o·c + t² · sum of o".

  On the extended reals multiplication does not distribute over addition at the infinities, so the expansion is a
  statement about FINITE values: the weights o, the values c and the shift t are real numbers here (given as reals and
  read as extended reals), and the sums are over any finite index type. With t infinite the two sides differ in
  general: for o = 1, c = -1, t = ⊥ the left side is (-1 - ⊥)² = ⊤ and the right side is 1 - (2·⊥)(-1) + ⊥² = 1 - ⊤ + ⊤ = ⊥.
-/
import Mathlib.Data.EReal.Basic
import Mathlib.Data.EReal.Operations
import Mathlib.Algebra.BigOperators.Ring.Finset
import Mathlib.Tactic.Ring

open scoped BigOperators

namespace Cert.Lib.MaskedSquare

variable {ι : Type*}

/-- The reading of a real as an extended real commutes with a finite sum. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: a weighted sum of squared differences from a common shift is the weighted sum of squares, less twice
    the shift times the weighted sum, plus the squared shift times the total weight. -/
theorem real_expand (s : Finset ι) (o c : ι → ℝ) (t : ℝ) :
    ∑ i ∈ s, o i * ((c i - t) * (c i - t))
      = (∑ i ∈ s, o i * c i * c i) - 2 * t * (∑ i ∈ s, o i * c i) + t * t * ∑ i ∈ s, o i := by
  rw [Finset.mul_sum, Finset.mul_sum, ← Finset.sum_sub_distrib, ← Finset.sum_add_distrib]
  exact Finset.sum_congr rfl fun i _ => by ring

/-- The same on the extended reals, for real weights, values and shift, in the grouping
    (o·c)·c, (2·t)·Σ, (t·t)·Σ: every term is the reading of a real, so the law is the real one. -/
theorem expand (s : Finset ι) (o c : ι → ℝ) (t : ℝ) :
    ∑ i ∈ s, (o i : EReal) * (((c i : EReal) - (t : EReal)) * ((c i : EReal) - (t : EReal)))
      = (∑ i ∈ s, (o i : EReal) * (c i : EReal) * (c i : EReal))
          - ((2 : ℝ) : EReal) * (t : EReal) * (∑ i ∈ s, (o i : EReal) * (c i : EReal))
          + (t : EReal) * (t : EReal) * ∑ i ∈ s, (o i : EReal) := by
  simp only [← EReal.coe_sub, ← EReal.coe_mul, ← coe_sum, ← EReal.coe_add]
  exact congrArg _ (real_expand s o c t)

end Cert.Lib.MaskedSquare
-- ==== Proof.Stats.lean ====
/-
  The arithmetic on the extended reals that joins a batch normalisation computed from running column sums
  (sum of the entries, sum of their squares, mean = s / N, variance = max (q / N - mean², 0)) with one computed from
  the centred entries (mean = s / N, variance = (sum of (z - mean)²) / N), for N = 50000 rows.

  A float is an extended real here and the two spellings agree only where every entry is a real number: the
  infinities do not distribute. So every statement names its real witnesses, or says that a value is the reading of a
  real (`IsReal`), and the closure lemmas at the end say which operations keep a value real.
-/
import Idealize.ShloMosaic.PureOps.Ideal
import Idealize.ShloMosaic.PureOps.Ideal.Laws
import Idealize.ShloMosaic.Lib.ValueIdx
import proofs.«159704_j38585986187613_1_alg».proof.Proof.LibMaskedSquare

open scoped BigOperators

noncomputable section

namespace Cert.Gin.Stats

open Idealize.ShloMosaic Cert.Lib.MaskedSquare

/-- An extended real that is the reading of a real number. -/
def IsReal (x : EReal) : Prop := ∃ r : ℝ, x = (r : EReal)

/-! ### The constants -/

/-- The f32 word of fifty thousand is the number 50000: (2²³ + 4411392) · 2⁻⁸. -/
theorem n_word : Ideal.ofBits .f32 0x47435000#32 = ((50000 : ℝ) : EReal) := by
  simp [Ideal.ofBits, Ideal.ieee, -EReal.coe_mul]; norm_num

/-- The f32 zero word is the number zero. -/
theorem zero_word : Ideal.ofBits .f32 0x00000000#32 = 0 := Ideal.ofBits_zero_f32

/-- The f32 word of one is the number one. -/
theorem one_word : Ideal.ofBits .f32 0x3F800000#32 = 1 := by
  simp [Ideal.ofBits, Ideal.ieee, -EReal.coe_mul]; norm_num

/-- The f32 word nearest 10⁻⁵ is a positive real: 10995116 · 2⁻⁴⁰. -/
theorem eps_word : ∃ e : ℝ, 0 < e ∧ Ideal.ofBits .f32 0x3727C5AC#32 = (e : EReal) := by
  refine ⟨(10995116 : ℝ) * (2 : ℝ) ^ (-40 : Int), by positivity, ?_⟩
  simp [Ideal.ofBits, Ideal.ieee, -EReal.coe_mul]

/-! ### Regrouping a sum over rows into blocks of rows

No finiteness is needed: the extended reals are a commutative monoid under addition. -/

/-- A sum over a · b indices taken block by block: a blocks of b consecutive indices. -/
theorem sum_blocks {M : Type*} [AddCommMonoid M] (a b N : ℕ) (hN : a * b = N) (f : Fin N → M)
    (hlt : ∀ (t : Fin a) (r : Fin b), b * t.val + r.val < N) :
    ∑ t : Fin a, ∑ r : Fin b, f ⟨b * t.val + r.val, hlt t r⟩ = ∑ i : Fin N, f i := by
  subst hN
  rw [← Equiv.sum_comp finProdFinEquiv f, Fintype.sum_prod_type]
  refine Finset.sum_congr rfl fun t _ => Finset.sum_congr rfl fun r _ => congrArg f (Fin.ext ?_)
  rw [finProdFinEquiv_apply_val]
  exact Nat.add_comm _ _

/-- Fifty thousand rows as 25 blocks of 2000. -/
theorem sum_rows_blocks {M : Type*} [AddCommMonoid M] (f : Fin 50000 → M) :
    ∑ t : Fin 25, ∑ r : Fin 2000, f ⟨2000 * t.val + r.val, by have := t.isLt; have := r.isLt; omega⟩
      = ∑ i : Fin 50000, f i :=
  sum_blocks 25 2000 50000 (by norm_num) f _

/-- A running sum: started at the first term and stepped by one term at a time, after the last step it is the
    whole sum. -/
theorem run_sum {M : Type*} [AddCommMonoid M] (n : ℕ) (g : Fin (n + 1) → M) (a : ℕ → M)
    (h0 : a 0 = g 0) (hs : ∀ k (hk : k + 1 < n + 1), a (k + 1) = a k + g ⟨k + 1, hk⟩) :
    a n = ∑ t : Fin (n + 1), g t := by
  have key : ∀ k (hk : k < n + 1), a k = ∑ t : Fin (k + 1), g ⟨t.val, by have := t.isLt; omega⟩ := by
    intro k
    induction k with
    | zero => intro hk; rw [h0, Fin.sum_univ_one]; rfl
    | succ k ih =>
      intro hk
      rw [hs k hk, ih (by omega)]
      exact (Fin.sum_univ_castSucc (fun t : Fin (k + 1 + 1) => g ⟨t.val, by have := t.isLt; omega⟩)).symm
  exact key n (by omega)

/-- The same started from a zero: the first step adds the first term to 0. -/
theorem run_sum_zero {M : Type*} [AddCommMonoid M] (n : ℕ) (g : Fin (n + 1) → M) (a : ℕ → M)
    (h0 : a 0 = 0 + g 0) (hs : ∀ k (hk : k + 1 < n + 1), a (k + 1) = a k + g ⟨k + 1, hk⟩) :
    a n = ∑ t : Fin (n + 1), g t :=
  run_sum n g a (by rw [h0, zero_add]) hs

/-- The running column sum over 25 blocks of 2000 rows ends at the sum over the 50000 rows. -/
theorem run_rows_blocks {M : Type*} [AddCommMonoid M] (f : Fin 50000 → M) (a : ℕ → M)
    (h0 : a 0 = ∑ r : Fin 2000, f ⟨2000 * 0 + r.val, by have := r.isLt; omega⟩)
    (hs : ∀ k (hk : k + 1 < 25),
      a (k + 1) = a k + ∑ r : Fin 2000, f ⟨2000 * (k + 1) + r.val, by have := r.isLt; omega⟩) :
    a 24 = ∑ i : Fin 50000, f i := by
  rw [← sum_rows_blocks f]
  exact run_sum 24 (fun t : Fin 25 => ∑ r : Fin 2000, f ⟨2000 * t.val + r.val, by have := t.isLt; have := r.isLt; omega⟩)
    a h0 hs

/-! ### The mean and the variance of real entries

For real entries z over a finite index type of N > 0 elements, read as extended reals: the quotient of their sum by N
is the reading of the real mean; and the variance is one real number whether it is taken from the sum of squares,
max (q / N − mean², 0), or from the centred entries, (∑ (z − mean)²) / N. -/

section Variance

variable {ι : Type*} [Fintype ι]

/-- The mean of the real entries z, the division written as the product with 1 / N. -/
def meanR (N : ℝ) (z : ι → ℝ) : ℝ := (∑ r, z r) * (1 / N)

/-- The variance of the real entries z about their mean, the division written as the product with 1 / N. -/
def varR (N : ℝ) (z : ι → ℝ) : ℝ := (∑ r, (z r - meanR N z) * (z r - meanR N z)) * (1 / N)

theorem varR_nonneg {N : ℝ} (hN : 0 < N) (z : ι → ℝ) : 0 ≤ varR N z :=
  mul_nonneg (Finset.sum_nonneg fun r _ => mul_self_nonneg _) (by positivity)

/-- Over the reals: the mean of the squared deviations is the mean of the squares less the squared mean. -/
theorem varR_eq {N : ℝ} (hN : N ≠ 0) (hc : (Fintype.card ι : ℝ) = N) (z : ι → ℝ) :
    varR N z = (∑ r, z r * z r) * (1 / N) - meanR N z * meanR N z := by
  have hs : ∑ r, (z r - meanR N z) * (z r - meanR N z)
      = (∑ r, z r * z r) - 2 * meanR N z * (∑ r, z r) + N * (meanR N z * meanR N z) := by
    have h : ∀ r, (z r - meanR N z) * (z r - meanR N z)
        = z r * z r - 2 * meanR N z * z r + meanR N z * meanR N z := fun r => by ring
    simp only [h]
    rw [Finset.sum_add_distrib, Finset.sum_sub_distrib, ← Finset.mul_sum, Finset.sum_const, Finset.card_univ,
      nsmul_eq_mul, hc]
  have hS : ∑ r, z r = N * meanR N z := by unfold meanR; field_simp
  unfold varR
  rw [hs, hS]
  field_simp
  ring

/-- The quotient of the sum of the entries by N is the reading of the real mean. -/
theorem mean_eq {N : ℝ} (hN : N ≠ 0) (z : ι → ℝ) :
    Ideal.div (∑ r, (z r : EReal)) (N : EReal) = (meanR N z : EReal) := by
  rw [Ideal.div_coe hN, ← coe_sum, ← EReal.coe_mul]
  rfl

/-- The variance from the centred entries. -/
theorem var_centred_eq {N : ℝ} (hN : N ≠ 0) (z : ι → ℝ) :
    Ideal.div (∑ r, ((z r : EReal) - (meanR N z : EReal)) * ((z r : EReal) - (meanR N z : EReal))) (N : EReal)
      = (varR N z : EReal) := by
  rw [Ideal.div_coe hN]
  simp only [← EReal.coe_sub, ← EReal.coe_mul, ← coe_sum]
  rfl

/-- The variance from the sum of squares, cut off at zero: the cut never acts, the difference being a variance. -/
theorem var_sums_eq {N : ℝ} (hN : 0 < N) (hc : (Fintype.card ι : ℝ) = N) (z : ι → ℝ) :
    max (Ideal.div (∑ r, (z r : EReal) * (z r : EReal)) (N : EReal) - (meanR N z : EReal) * (meanR N z : EReal)) 0
      = (varR N z : EReal) := by
  rw [Ideal.div_coe hN.ne']
  simp only [← EReal.coe_mul, ← coe_sum, ← EReal.coe_sub]
  rw [← varR_eq hN.ne' hc z]
  exact max_eq_left (EReal.coe_nonneg.mpr (varR_nonneg hN z))

end Variance

/-- The mean of 50000 real entries. -/
abbrev mean (z : Fin 50000 → ℝ) : ℝ := meanR 50000 z

/-- The variance of 50000 real entries. -/
abbrev var (z : Fin 50000 → ℝ) : ℝ := varR 50000 z

theorem var_nonneg (z : Fin 50000 → ℝ) : 0 ≤ var z := varR_nonneg (by norm_num) z

/-- The host's quotient of the column sum by 50000 is the reading of the real mean. -/
theorem mean_rows (z : Fin 50000 → ℝ) :
    Ideal.div (∑ r, (z r : EReal)) ((50000 : ℝ) : EReal) = (mean z : EReal) :=
  mean_eq (by norm_num) z

/-- The variance as the running sums give it: max (q / 50000 − mean², 0). -/
theorem var_sums_rows (z : Fin 50000 → ℝ) :
    max (Ideal.div (∑ r, (z r : EReal) * (z r : EReal)) ((50000 : ℝ) : EReal) - (mean z : EReal) * (mean z : EReal)) 0
      = (var z : EReal) :=
  var_sums_eq (by norm_num) (by simp) z

/-- The variance as the centred entries give it: (∑ (z − mean)²) / 50000. -/
theorem var_centred_rows (z : Fin 50000 → ℝ) :
    Ideal.div (∑ r, ((z r : EReal) - (mean z : EReal)) * ((z r : EReal) - (mean z : EReal))) ((50000 : ℝ) : EReal)
      = (var z : EReal) :=
  var_centred_eq (by norm_num) z

/-- The two spellings of the variance agree, each with its own spelling of the mean inside. -/
theorem variance_eq (z : Fin 50000 → ℝ) :
    max (Ideal.div (∑ r, (z r : EReal) * (z r : EReal)) ((50000 : ℝ) : EReal)
        - Ideal.div (∑ r, (z r : EReal)) ((50000 : ℝ) : EReal) * Ideal.div (∑ r, (z r : EReal)) ((50000 : ℝ) : EReal)) 0
      = Ideal.div (∑ r, ((z r : EReal) - Ideal.div (∑ r, (z r : EReal)) ((50000 : ℝ) : EReal))
          * ((z r : EReal) - Ideal.div (∑ r, (z r : EReal)) ((50000 : ℝ) : EReal))) ((50000 : ℝ) : EReal) := by
  rw [mean_rows, var_sums_rows, var_centred_rows]

/-! ### The guard of the centred variance

The centred variance divides by 50000 − (the integer 0 read as a float) and is kept only where that divisor is above
zero. The integer 0 reads as the number 0, so the divisor is 50000, the comparison holds and the quotient is kept. -/

/-- The 32-bit integer zero, read signed as a float, is the number zero. -/
theorem sitofp_zero : FloatOps.sitofp (F := Ideal) .f32 (0#32) = 0 := by
  show ((((0#32 : BitVec 32).toInt : ℤ) : ℝ) : EReal) = 0
  simp

/-- Fifty thousand less that zero is fifty thousand. -/
theorem count_eq : ((50000 : ℝ) : EReal) - FloatOps.sitofp (F := Ideal) .f32 (0#32) = ((50000 : ℝ) : EReal) := by
  rw [sitofp_zero, sub_zero]

/-- Fifty thousand is above zero: the ordered comparison answers the true bit. -/
theorem count_pos : FloatOps.cmpf (F := Ideal) (φ := .f32) .ogt ((50000 : ℝ) : EReal) 0 = 1#1 := by
  rw [Ideal.cmpf_def]
  show BitVec.ofBool (decide ((0 : EReal) < ((50000 : ℝ) : EReal))) = 1#1
  rw [decide_eq_true (EReal.coe_pos.mpr (by norm_num))]
  rfl

/-- So a selection on that comparison, written over the words of the constants, keeps its first branch. -/
theorem guard_select {α : Type} (a b : α) :
    Scalar.select (FloatOps.cmpf (F := Ideal) (φ := .f32) .ogt
        (Ideal.ofBits .f32 0x47435000#32 - FloatOps.sitofp (F := Ideal) .f32 (0#32))
        (Ideal.ofBits .f32 0x00000000#32)) a b = a := by
  rw [n_word, count_eq, zero_word, count_pos]
  rfl

/-! ### Which operations keep a value real -/

namespace IsReal

theorem coe (r : ℝ) : IsReal (r : EReal) := ⟨r, rfl⟩

theorem zero : IsReal 0 := ⟨0, EReal.coe_zero.symm⟩

theorem one : IsReal 1 := ⟨1, EReal.coe_one.symm⟩

theorem ne_top {a : EReal} (ha : IsReal a) : a ≠ ⊤ := by
  obtain ⟨x, rfl⟩ := ha; exact EReal.coe_ne_top x

theorem ne_bot {a : EReal} (ha : IsReal a) : a ≠ ⊥ := by
  obtain ⟨x, rfl⟩ := ha; exact EReal.coe_ne_bot x

theorem add {a b : EReal} (ha : IsReal a) (hb : IsReal b) : IsReal (a + b) := by
  obtain ⟨x, rfl⟩ := ha; obtain ⟨y, rfl⟩ := hb; exact ⟨x + y, (EReal.coe_add x y).symm⟩

theorem sub {a b : EReal} (ha : IsReal a) (hb : IsReal b) : IsReal (a - b) := by
  obtain ⟨x, rfl⟩ := ha; obtain ⟨y, rfl⟩ := hb; exact ⟨x - y, (EReal.coe_sub x y).symm⟩

theorem mul {a b : EReal} (ha : IsReal a) (hb : IsReal b) : IsReal (a * b) := by
  obtain ⟨x, rfl⟩ := ha; obtain ⟨y, rfl⟩ := hb; exact ⟨x * y, (EReal.coe_mul x y).symm⟩

theorem neg {a : EReal} (ha : IsReal a) : IsReal (-a) := by
  obtain ⟨x, rfl⟩ := ha; exact ⟨-x, (EReal.coe_neg x).symm⟩

theorem max {a b : EReal} (ha : IsReal a) (hb : IsReal b) : IsReal (max a b) := by
  rcases max_choice a b with h | h <;> rw [h] <;> assumption

theorem min {a b : EReal} (ha : IsReal a) (hb : IsReal b) : IsReal (min a b) := by
  rcases min_choice a b with h | h <;> rw [h] <;> assumption

/-- A finite sum of reals is real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A sum over a whole finite type. -/
theorem sum_univ {ι : Type*} [Fintype ι] (f : ι → EReal) (h : ∀ i, IsReal (f i)) : IsReal (∑ i, f i) :=
  sum _ f fun i _ => h i

/-- The quotient of a real by a nonzero real is real. -/
theorem div_coe {a : EReal} (ha : IsReal a) {y : ℝ} (hy : y ≠ 0) : IsReal (Ideal.div a (y : EReal)) := by
  rw [Ideal.div_coe hy]; exact mul ha (coe _)

/-- The quotient of a real by fifty thousand is real. -/
theorem div_count {a : EReal} (ha : IsReal a) : IsReal (Ideal.div a ((50000 : ℝ) : EReal)) :=
  div_coe ha (by norm_num)

/-- The reciprocal square root at a positive real is the reading of 1 / √x. -/
theorem rsqrt_pos_eq {x : ℝ} (hx : 0 < x) : Ideal.rsqrt (x : EReal) = (((Real.sqrt x)⁻¹ : ℝ) : EReal) := by
  rw [Ideal.rsqrt_coe, if_neg (not_lt.mpr hx.le), if_neg hx.ne']

/-- The reciprocal square root of a nonnegative real plus a positive real is real. -/
theorem rsqrt_add {v : EReal} (hv : IsReal v) (h0 : 0 ≤ v) {e : ℝ} (he : 0 < e) :
    IsReal (Ideal.rsqrt (v + (e : EReal))) := by
  obtain ⟨x, rfl⟩ := hv
  have hx : 0 ≤ x := EReal.coe_nonneg.mp h0
  rw [← EReal.coe_add, rsqrt_pos_eq (add_pos_of_nonneg_of_pos hx he)]
  exact coe _

/-- The normalised entry, scale · (z − mean) · rsqrt (var + e) + shift, is real. -/
theorem normalise {g z m v b : EReal} (hg : IsReal g) (hz : IsReal z) (hm : IsReal m) (hv : IsReal v) (h0 : 0 ≤ v)
    (hb : IsReal b) {e : ℝ} (he : 0 < e) : IsReal (g * (z - m) * Ideal.rsqrt (v + (e : EReal)) + b) :=
  add (mul (mul hg (sub hz hm)) (rsqrt_add hv h0 he)) hb

end IsReal

/-- The mean of real entries is real, the variance is real and not below zero, in both spellings. -/
theorem mean_isReal (z : Fin 50000 → ℝ) : IsReal (Ideal.div (∑ r, (z r : EReal)) ((50000 : ℝ) : EReal)) :=
  ⟨mean z, mean_rows z⟩

theorem var_isReal (z : Fin 50000 → ℝ) : IsReal ((var z : ℝ) : EReal) ∧ (0 : EReal) ≤ ((var z : ℝ) : EReal) :=
  ⟨IsReal.coe _, EReal.coe_nonneg.mpr (var_nonneg z)⟩

/-! ### The same for extended reals known to be real

The entries are given as extended reals, each the reading of a real; the real witnesses are chosen inside. -/

/-- Entries that are each the reading of a real are, together, the reading of a real-valued function. -/
theorem IsReal.exists_fun {ι : Type*} {x : ι → EReal} (hx : ∀ i, IsReal (x i)) :
    ∃ z : ι → ℝ, x = fun i => (z i : EReal) :=
  ⟨fun i => (hx i).choose, funext fun i => (hx i).choose_spec⟩

/-- The mean of real entries is real. -/
theorem mean_isReal_of (x : Fin 50000 → EReal) (hx : ∀ r, IsReal (x r)) :
    IsReal (Ideal.div (∑ r, x r) ((50000 : ℝ) : EReal)) := by
  obtain ⟨z, rfl⟩ := IsReal.exists_fun hx
  exact mean_isReal z

/-- The two spellings of the variance agree on real entries. -/
theorem variance_eq_of (x : Fin 50000 → EReal) (hx : ∀ r, IsReal (x r)) :
    max (Ideal.div (∑ r, x r * x r) ((50000 : ℝ) : EReal)
        - Ideal.div (∑ r, x r) ((50000 : ℝ) : EReal) * Ideal.div (∑ r, x r) ((50000 : ℝ) : EReal)) 0
      = Ideal.div (∑ r, (x r - Ideal.div (∑ r, x r) ((50000 : ℝ) : EReal))
          * (x r - Ideal.div (∑ r, x r) ((50000 : ℝ) : EReal))) ((50000 : ℝ) : EReal) := by
  obtain ⟨z, rfl⟩ := IsReal.exists_fun hx
  exact variance_eq z

/-- The variance from the running sums is real and not below zero. -/
theorem var_sums_isReal_of (x : Fin 50000 → EReal) (hx : ∀ r, IsReal (x r)) :
    IsReal (max (Ideal.div (∑ r, x r * x r) ((50000 : ℝ) : EReal)
        - Ideal.div (∑ r, x r) ((50000 : ℝ) : EReal) * Ideal.div (∑ r, x r) ((50000 : ℝ) : EReal)) 0)
    ∧ (0 : EReal) ≤ max (Ideal.div (∑ r, x r * x r) ((50000 : ℝ) : EReal)
        - Ideal.div (∑ r, x r) ((50000 : ℝ) : EReal) * Ideal.div (∑ r, x r) ((50000 : ℝ) : EReal)) 0 := by
  obtain ⟨z, rfl⟩ := IsReal.exists_fun hx
  refine ⟨?_, le_max_right _ _⟩
  rw [mean_rows, var_sums_rows]
  exact IsReal.coe _

/-- The variance from the centred entries is real and not below zero. -/
theorem var_centred_isReal_of (x : Fin 50000 → EReal) (hx : ∀ r, IsReal (x r)) :
    IsReal (Ideal.div (∑ r, (x r - Ideal.div (∑ r, x r) ((50000 : ℝ) : EReal))
          * (x r - Ideal.div (∑ r, x r) ((50000 : ℝ) : EReal))) ((50000 : ℝ) : EReal))
    ∧ (0 : EReal) ≤ Ideal.div (∑ r, (x r - Ideal.div (∑ r, x r) ((50000 : ℝ) : EReal))
          * (x r - Ideal.div (∑ r, x r) ((50000 : ℝ) : EReal))) ((50000 : ℝ) : EReal) := by
  rw [← variance_eq_of x hx]
  exact var_sums_isReal_of x hx

/-! ### Finite inputs are real

A float whose absolute value is below +∞ is neither infinity, so it is the reading of a real. -/

/-- The f32 word of +∞ is the top of the extended reals. -/
theorem inf_word : Ideal.ofBits .f32 0x7F800000#32 = ⊤ := by
  simp [Ideal.ofBits, Ideal.ieee]

/-- An extended real that is neither infinity is real. -/
theorem isReal_of_ne_top_bot {x : EReal} (ht : x ≠ ⊤) (hb : x ≠ ⊥) : IsReal x := by
  induction x using EReal.rec with
  | bot => exact absurd rfl hb
  | top => exact absurd rfl ht
  | coe r => exact ⟨r, rfl⟩

/-- An extended real whose absolute value, max x (−x), is below +∞ is real. -/
theorem isReal_of_abs_lt_top {x : EReal} (h : max x (-x) < ⊤) : IsReal x := by
  refine isReal_of_ne_top_bot ?_ ?_
  · rintro rfl; simp at h
  · rintro rfl; simp at h

/-- The same as the comparison prints it: the ordered "less than" of the host's absolute value against the word
    of +∞ answering the true bit. -/
theorem isReal_of_finite_bit {x : EReal}
    (h : FloatOps.cmpf (F := Ideal) (φ := .f32) .olt (FloatOps.hostAbsf (F := Ideal) (φ := .f32) x)
      (Ideal.ofBits .f32 0x7F800000#32) = 1#1) : IsReal x := by
  rw [Ideal.cmpf_def, inf_word] at h
  change BitVec.ofBool (decide (max x (-x) < ⊤)) = 1#1 at h
  by_cases hlt : max x (-x) < ⊤
  · exact isReal_of_abs_lt_top hlt
  · rw [decide_eq_false hlt] at h; exact absurd h (by decide)

end Cert.Gin.Stats

end
-- ==== Proof.StatsLayers.lean ====
/-
  Which array operations keep every entry a real number: a rectified affine layer of real entries, taking rows by an
  index list, and adding rows into segments.

  An entry of a gather IS an entry of its operand, whatever the indices; an entry of an accumulating scatter is the
  operand's entry plus the finite sum of the updates that land on it, whichever they are. So neither needs to know where
  an index points: real operands give real results.
-/
import proofs.«159704_j38585986187613_1_alg».proof.Proof.Stats
import proofs.«159704_j38585986187613_1_alg».proof.Proof.LibRectLayers

open scoped BigOperators

noncomputable section

namespace Cert.Gin.Stats

open Idealize.ShloMosaic Idealize.ShloMosaic.ValueIdx

namespace IsReal

/-- An affine image of a real row under real weights and a real bias is real. -/
theorem affine {K B : ℕ} (h : Fin K → EReal) (W : Fin K → Fin B → EReal) (b : Fin B → EReal) (q : Fin B)
    (hh : ∀ k, IsReal (h k)) (hW : ∀ k q, IsReal (W k q)) (hb : ∀ q, IsReal (b q)) :
    IsReal (Cert.DenseLayer.affine h W b q) :=
  add (sum_univ _ fun k => mul (hh k) (hW k q)) (hb q)

/-- The rectifier keeps a real real. -/
theorem rect {z : EReal} (hz : IsReal z) : IsReal (Cert.RectLayers.rect z) := by
  unfold Cert.RectLayers.rect
  rw [Ideal.ofBits_zero_f32]
  exact max hz zero

/-- The rectifier's value is not below zero. -/
theorem rect_nonneg (z : EReal) : 0 ≤ Cert.RectLayers.rect z := by
  unfold Cert.RectLayers.rect
  rw [Ideal.ofBits_zero_f32]
  exact le_max_right _ _

/-- A rectified affine layer of real entries, real weights and a real bias has real entries. -/
theorem dense {A K B : ℕ} (x : FVec Ideal ⟨2, ![A, K]⟩ .f32) (w : FVec Ideal ⟨2, ![K, B]⟩ .f32)
    (b : FVec Ideal ⟨1, ![B]⟩ .f32) (hx : ∀ i, IsReal (x i)) (hw : ∀ i, IsReal (w i)) (hb : ∀ i, IsReal (b i))
    (i : (⟨2, ![A, B]⟩ : Shape).Idx) : IsReal (Cert.RectLayers.dense x w b i) :=
  rect (affine _ _ _ _ (fun _ => hx _) (fun _ _ => hw _) (fun _ => hb _))

/-- Every entry of a gather is an entry of the operand: real operands give real results, at any dimension numbers
    and any indices. -/
theorem gather {s si t : Shape} {w : ℕ} (d : GatherDims s si t) (x : s.Idx → EReal) (idx : IVec si w)
    (hx : ∀ i, IsReal (x i)) (j : t.Idx) : IsReal (Host.gather d x idx j) :=
  hx _

/-- Every entry of an accumulating scatter is the operand's entry plus a finite sum of update entries: real operand
    and real updates give real results, at any dimension numbers and any indices. -/
theorem scatterAdd {s si u : Shape} {w : ℕ} {φ : FTy} (d : ScatterDims s si u) (x : FVec Ideal s φ) (idx : IVec si w)
    (upd : FVec Ideal u φ) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact add (hx i) (sum _ _ fun j _ => hu j)

end IsReal

end Cert.Gin.Stats

end
-- ==== Proof.RefRead.lean ====
/- The reference network's stages read entry by entry on the extended reals: the two rectified affine maps of a layer are
   the two-layer perceptron of each node's row; the column mean over the 50000 rows is the column sum divided by 50000;
   the column variance is the mean of the squared deviations from that mean, the guard of its divisor always open; the
   normalisation is  γ q · (z (p, q) − mean q) · (var q + ε)^(−1/2) + β q. -/
import proofs.«159704_j38585986187613_1_alg».proof.Proof.RefRunStages
import proofs.«159704_j38585986187613_1_alg».proof.Proof.GinLayer
import proofs.«159704_j38585986187613_1_alg».proof.Proof.StatsLayers
import Idealize.ShloMosaic.Lib.ValueLayout
import Idealize.ShloMosaic.PureOps.Ideal.Laws

open scoped BigOperators

noncomputable section

namespace Cert.ReferenceIdeal.RefValue

open Cert.ReferenceIdeal Cert.ReferenceIdeal.Gen Idealize.ShloMosaic Idealize.ShloMosaic.ValueIdx
open Cert.DenseLayer Cert.RectLayers Cert.Gin

/-- A vector of B entries as the one row of a [1, B] matrix. -/
def row {B : ℕ} (b : FVec Ideal ⟨1, ![B]⟩ .f32) : FVec Ideal ⟨2, ![1, B]⟩ .f32 := fun j => b (ix1 (j 1))

theorem row_ix2 {B : ℕ} (b : FVec Ideal ⟨1, ![B]⟩ .f32) (u : Fin 1) (q : Fin B) : row b (ix2 u q) = b (ix1 q) := rfl

/-- The two rectified affine maps at input width 128 are the two-layer perceptron of each node's row, the biases read
    as one-row matrices. -/
theorem refMlp128_eq (zpre : FVec Ideal S50000x128 .f32) (w1 : FVec Ideal S128x256 .f32) (b1 b2 : FVec Ideal S256 .f32)
    (w2 : FVec Ideal S256x256 .f32) :
    refMlp128 zpre w1 b1 b2 w2 = Zfun (N := 50000) (K := 128) (B := 256) zpre w1 (row b1) w2 (row b2) := by
  funext i
  obtain ⟨p, q, rfl⟩ : ∃ (p : Fin 50000) (q : Fin 256), i = ix2 p q := ⟨i 0, i 1, eq_ix2 i⟩
  rw [Zfun_ix2]
  unfold refMlp128
  refine (host_dense_apply dot_S50000x256_S256x256_S50000x256_1_0_0_1_n_n rfl rfl rfl rfl rfl rfl rfl rfl none _ w2 b2
    bcast_S256_S1x256_1 bcast_S1x256_S50000x256_0_1 ![] bcast_S_S50000x256 p q).trans ?_
  unfold zrow
  refine congrArg (fun h => rect (affine h (fun k q => w2 (ix2 k q)) (fun q => b2 (ix1 q)) q)) (funext fun k => ?_)
  exact host_dense_apply dot_S50000x128_S128x256_S50000x256_1_0_0_1_n_n rfl rfl rfl rfl rfl rfl rfl rfl none zpre w1 b1
    bcast_S256_S1x256_1 bcast_S1x256_S50000x256_0_1 ![] bcast_S_S50000x256 p k

/-- The same at input width 256. -/
theorem refMlp256_eq (zpre : FVec Ideal S50000x256 .f32) (w1 : FVec Ideal S256x256 .f32) (b1 b2 : FVec Ideal S256 .f32)
    (w2 : FVec Ideal S256x256 .f32) :
    refMlp256 zpre w1 b1 b2 w2 = Zfun (N := 50000) (K := 256) (B := 256) zpre w1 (row b1) w2 (row b2) := by
  funext i
  obtain ⟨p, q, rfl⟩ : ∃ (p : Fin 50000) (q : Fin 256), i = ix2 p q := ⟨i 0, i 1, eq_ix2 i⟩
  rw [Zfun_ix2]
  unfold refMlp256
  refine (host_dense_apply dot_S50000x256_S256x256_S50000x256_1_0_0_1_n_n rfl rfl rfl rfl rfl rfl rfl rfl none _ w2 b2
    bcast_S256_S1x256_1 bcast_S1x256_S50000x256_0_1 ![] bcast_S_S50000x256 p q).trans ?_
  unfold zrow
  refine congrArg (fun h => rect (affine h (fun k q => w2 (ix2 k q)) (fun q => b2 (ix1 q)) q)) (funext fun k => ?_)
  exact host_dense_apply dot_S50000x256_S256x256_S50000x256_1_0_0_1_n_n rfl rfl rfl rfl rfl rfl rfl rfl none zpre w1 b1
    bcast_S256_S1x256_1 bcast_S1x256_S50000x256_0_1 ![] bcast_S_S50000x256 p k

/-- The column-sum reduction's source index: row k of column q. -/
theorem lift_col (h : S50000x256.Reduces [0] S256) (q : Fin 256) (k : Fin 50000) : h.lift (ix1 q) k = ix2 k q := by
  funext a
  apply Fin.ext
  match a with
  | ⟨0, _⟩ => rfl
  | ⟨1, _⟩ => rfl

/-- The host's sum over the rows from the zero word, at column q: the sum over the 50000 row indices. -/
theorem colsum_apply (z : FVec Ideal S50000x256 .f32) (q : Fin 256) :
    Host.reduceAdd z (constant (F := Ideal) S_ .f32 0x00000000#32) reducesTo_S50000x256_S256_d0 h_S_ (ix1 q)
      = ∑ r : Fin 50000, z (ix2 r q) := by
  have hR : S50000x256.Reduces [0] S256 := by decide
  show Ideal.hostReduceAdd reducesTo_S50000x256_S256_d0 z (Ideal.ofBits .f32 0x00000000#32) (ix1 q) = _
  rw [Ideal.hostReduceAdd_single reducesTo_S50000x256_S256_d0 hR z _ (ix1 q), Stats.zero_word, zero_add]
  exact Finset.sum_congr rfl fun k _ => congrArg z (lift_col hR q k)

/-- A vector placed as a row and repeated down the 50000 rows reads, at (p, q), its entry q. -/
theorem rows_of_apply (c : FVec Ideal S256 .f32) (p : Fin 50000) (q : Fin 256) :
    broadcastInDim S50000x256 ![0, 1] bcast_S1x256_S50000x256_0_1 (broadcastInDim S1x256 ![1] bcast_S256_S1x256_1 c) (ix2 p q)
      = c (ix1 q) := by
  rw [Cert.BiasRow.down_apply, Cert.BiasRow.row_apply]

/-- The column means: the column sums divided by 50000. -/
theorem refMean_apply (z : FVec Ideal S50000x256 .f32) (q : Fin 256) : refMean z (ix1 q) = meanCol z q := by
  unfold refMean meanCol
  show Ideal.div (Host.reduceAdd z (constant (F := Ideal) S_ .f32 0x00000000#32) reducesTo_S50000x256_S256_d0 h_S_ (ix1 q))
      (broadcastInDim S256 ![] bcast_S_S256 (constant (F := Ideal) S_ .f32 0x47435000#32) (ix1 q)) = _
  rw [colsum_apply, scalar_apply]
  show Ideal.div _ (Ideal.ofBits .f32 0x47435000#32) = _
  rw [Stats.n_word]

/-- The mean the variance is centred on, placed over the rows: at (r, q) it is column q's mean. -/
theorem centre_apply (z : FVec Ideal S50000x256 .f32) (r : Fin 50000) (q : Fin 256) :
    broadcastInDim S50000x256 ![0, 1] bcast_S1x256_S50000x256_0_1
        (Host.divf (F := Ideal) (broadcastInDim S1x256 ![1] bcast_S256_S1x256_1
            (Host.reduceAdd z (constant (F := Ideal) S_ .f32 0x00000000#32) reducesTo_S50000x256_S256_d0 h_S_))
          (broadcastInDim S1x256 ![] bcast_S_S1x256 (constant (F := Ideal) S_ .f32 0x47435000#32))) (ix2 r q)
      = meanCol z q := by
  rw [Cert.BiasRow.down_apply]
  show Ideal.div (broadcastInDim S1x256 ![1] bcast_S256_S1x256_1
        (Host.reduceAdd z (constant (F := Ideal) S_ .f32 0x00000000#32) reducesTo_S50000x256_S256_d0 h_S_) (ix2 (0 : Fin 1) q))
      (broadcastInDim S1x256 ![] bcast_S_S1x256 (constant (F := Ideal) S_ .f32 0x47435000#32) (ix2 (0 : Fin 1) q)) = _
  rw [Cert.BiasRow.row_apply, colsum_apply, scalar_apply]
  show Ideal.div _ (Ideal.ofBits .f32 0x47435000#32) = _
  rw [Stats.n_word]
  rfl

/-- The column variances: the mean of the squared deviations from the column mean; the divisor 50000 − 0 is 50000 and
    above zero, so the selection keeps the quotient. -/
theorem refVar_apply (z : FVec Ideal S50000x256 .f32) (q : Fin 256) : refVar z (ix1 q) = varCol z q := by
  unfold refVar
  rw [select_apply, scalar_apply]
  show Scalar.select (FloatOps.cmpf (F := Ideal) (φ := .f32) .ogt
      (Ideal.ofBits .f32 0x47435000#32 - FloatOps.sitofp (F := Ideal) .f32 (0#32)) (Ideal.ofBits .f32 0x00000000#32)) _ _ = _
  rw [Stats.guard_select]
  show Ideal.div (Host.reduceAdd _ (constant (F := Ideal) S_ .f32 0x00000000#32) reducesTo_S50000x256_S256_d0 h_S_ (ix1 q))
      (broadcastInDim S256 ![] bcast_S_S256 (subf (F := Ideal) (constant (F := Ideal) S_ .f32 0x47435000#32)
        (sitofp (F := Ideal) .f32 (constantI S_ 32 0#32))) (ix1 q)) = _
  rw [colsum_apply, scalar_apply]
  show Ideal.div _ (Ideal.ofBits .f32 0x47435000#32 - FloatOps.sitofp (F := Ideal) .f32 (0#32)) = _
  rw [Stats.n_word, Stats.count_eq]
  unfold varCol
  refine congrArg (fun s => Ideal.div s rows) (Finset.sum_congr rfl fun r _ => ?_)
  show (z (ix2 r q) - _) * (z (ix2 r q) - _) = _
  rw [centre_apply]

/-- The normalised entry. -/
theorem refNorm_apply (z : FVec Ideal S50000x256 .f32) (g be mu v : FVec Ideal S256 .f32) (p : Fin 50000) (q : Fin 256) :
    refNorm z g be mu v (ix2 p q)
      = normAt z (fun q => g (ix1 q)) (fun q => be (ix1 q)) (fun q => mu (ix1 q)) (fun q => v (ix1 q)) p q := by
  unfold refNorm normAt
  show broadcastInDim S50000x256 ![0, 1] bcast_S1x256_S50000x256_0_1 (broadcastInDim S1x256 ![1] bcast_S256_S1x256_1 g) (ix2 p q)
        * (z (ix2 p q)
          - broadcastInDim S50000x256 ![0, 1] bcast_S1x256_S50000x256_0_1 (broadcastInDim S1x256 ![1] bcast_S256_S1x256_1 mu) (ix2 p q))
        * broadcastInDim S50000x256 ![0, 1] bcast_S1x256_S50000x256_0_1 (broadcastInDim S1x256 ![1] bcast_S256_S1x256_1
            (Host.rsqrt (F := Ideal) (addf (F := Ideal) v (broadcastInDim S256 ![] bcast_S_S256 (constant (F := Ideal) S_ .f32 0x3727C5AC#32))))) (ix2 p q)
      + broadcastInDim S50000x256 ![0, 1] bcast_S1x256_S50000x256_0_1 (broadcastInDim S1x256 ![1] bcast_S256_S1x256_1 be) (ix2 p q) = _
  rw [rows_of_apply, rows_of_apply, rows_of_apply, rows_of_apply]
  show g (ix1 q) * (z (ix2 p q) - mu (ix1 q))
      * Ideal.rsqrt (v (ix1 q) + broadcastInDim S256 ![] bcast_S_S256 (constant (F := Ideal) S_ .f32 0x3727C5AC#32) (ix1 q))
      + be (ix1 q) = _
  rw [scalar_apply]
  rfl

/-- One layer at input width 128, entry (p, q): the normalisation of the perceptron's output array by its own column
    means and variances. -/
theorem refLayer128_apply (x : FVec Ideal S50000x128 .f32) (ei : IVec S2x800000 32) (w1 : FVec Ideal S128x256 .f32)
    (b1 : FVec Ideal S256 .f32) (w2 : FVec Ideal S256x256 .f32) (b2 gamma beta : FVec Ideal S256 .f32)
    (p : Fin 50000) (q : Fin 256) :
    refLayer128 x ei w1 b1 w2 b2 gamma beta (ix2 p q)
      = normAt (Zfun (N := 50000) (K := 128) (B := 256) (refAgg128 x ei) w1 (row b1) w2 (row b2))
          (fun q => gamma (ix1 q)) (fun q => beta (ix1 q))
          (meanCol (Zfun (N := 50000) (K := 128) (B := 256) (refAgg128 x ei) w1 (row b1) w2 (row b2)))
          (varCol (Zfun (N := 50000) (K := 128) (B := 256) (refAgg128 x ei) w1 (row b1) w2 (row b2))) p q := by
  unfold refLayer128
  rw [refNorm_apply]
  simp only [refMean_apply, refVar_apply, refMlp128_eq]

/-- One layer at input width 256, entry (p, q). -/
theorem refLayer256_apply (h : FVec Ideal S50000x256 .f32) (ei : IVec S2x800000 32) (w1 : FVec Ideal S256x256 .f32)
    (b1 : FVec Ideal S256 .f32) (w2 : FVec Ideal S256x256 .f32) (b2 gamma beta : FVec Ideal S256 .f32)
    (p : Fin 50000) (q : Fin 256) :
    refLayer256 h ei w1 b1 w2 b2 gamma beta (ix2 p q)
      = normAt (Zfun (N := 50000) (K := 256) (B := 256) (refAgg256 h ei) w1 (row b1) w2 (row b2))
          (fun q => gamma (ix1 q)) (fun q => beta (ix1 q))
          (meanCol (Zfun (N := 50000) (K := 256) (B := 256) (refAgg256 h ei) w1 (row b1) w2 (row b2)))
          (varCol (Zfun (N := 50000) (K := 256) (B := 256) (refAgg256 h ei) w1 (row b1) w2 (row b2))) p q := by
  unfold refLayer256
  rw [refNorm_apply]
  simp only [refMean_apply, refVar_apply, refMlp256_eq]

/-- One layer at input width 128 is the layer of its aggregated input: the perceptron's output array, every column
    normalised by its own mean and variance over the rows. -/
theorem refLayer128_eq (x : FVec Ideal S50000x128 .f32) (ei : IVec S2x800000 32) (w1 : FVec Ideal S128x256 .f32)
    (b1 : FVec Ideal S256 .f32) (w2 : FVec Ideal S256x256 .f32) (b2 gamma beta : FVec Ideal S256 .f32) :
    refLayer128 x ei w1 b1 w2 b2 gamma beta
      = layerSpec (K := 128) (B := 256) (refAgg128 x ei) w1 (row b1) w2 (row b2)
          (fun q => gamma (ix1 q)) (fun q => beta (ix1 q)) := by
  funext i
  obtain ⟨p, q, rfl⟩ : ∃ (p : Fin 50000) (q : Fin 256), i = ix2 p q := ⟨i 0, i 1, eq_ix2 i⟩
  exact refLayer128_apply x ei w1 b1 w2 b2 gamma beta p q

/-- The same at input width 256. -/
theorem refLayer256_eq (h : FVec Ideal S50000x256 .f32) (ei : IVec S2x800000 32) (w1 : FVec Ideal S256x256 .f32)
    (b1 : FVec Ideal S256 .f32) (w2 : FVec Ideal S256x256 .f32) (b2 gamma beta : FVec Ideal S256 .f32) :
    refLayer256 h ei w1 b1 w2 b2 gamma beta
      = layerSpec (K := 256) (B := 256) (refAgg256 h ei) w1 (row b1) w2 (row b2)
          (fun q => gamma (ix1 q)) (fun q => beta (ix1 q)) := by
  funext i
  obtain ⟨p, q, rfl⟩ : ∃ (p : Fin 50000) (q : Fin 256), i = ix2 p q := ⟨i 0, i 1, eq_ix2 i⟩
  exact refLayer256_apply h ei w1 b1 w2 b2 gamma beta p q

/-! ### Which stages keep every entry a real number -/

open Cert.Gin.Stats in
/-- An entry of a sum of two arrays is real when the two entries are. -/
theorem isReal_addf {s : Shape} (a b : FVec Ideal s .f32) (i : s.Idx) (ha : IsReal (a i)) (hb : IsReal (b i)) :
    IsReal (addf a b i) :=
  IsReal.add ha hb

open Cert.Gin.Stats in
/-- The rank-0 zero broadcast over any shape is real everywhere. -/
theorem isReal_zeros {t : Shape} (dims : Fin (⟨0, ![]⟩ : Shape).rank → Fin t.rank)
    (h : (⟨0, ![]⟩ : Shape).BroadcastsInDim t dims) (j : t.Idx) :
    IsReal (broadcastInDim t dims h (constant (F := Ideal) ⟨0, ![]⟩ .f32 0x00000000#32) j) := by
  rw [scalar_apply]
  show IsReal (Ideal.ofBits .f32 0x00000000#32)
  rw [Stats.zero_word]
  exact IsReal.zero

open Cert.Gin.Stats in
/-- The aggregation of real rows is real, whatever the edges: a node's own row plus a finite sum of gathered rows. -/
theorem refAgg128_isReal (x : FVec Ideal S50000x128 .f32) (ei : IVec S2x800000 32) (hx : ∀ i, IsReal (x i))
    (i : S50000x128.Idx) : IsReal (refAgg128 x ei i) := by
  unfold refAgg128
  exact isReal_addf _ _ i (hx i)
    (IsReal.scatterAdd _ _ _ _ (fun j => isReal_zeros _ _ j) (IsReal.gather _ x _ hx) i)

open Cert.Gin.Stats in
/-- The same at width 256. -/
theorem refAgg256_isReal (h : FVec Ideal S50000x256 .f32) (ei : IVec S2x800000 32) (hh : ∀ i, IsReal (h i))
    (i : S50000x256.Idx) : IsReal (refAgg256 h ei i) := by
  unfold refAgg256
  exact isReal_addf _ _ i (hh i)
    (IsReal.scatterAdd _ _ _ _ (fun j => isReal_zeros _ _ j) (IsReal.gather _ h _ hh) i)

open Cert.Gin.Stats in
/-- An entry of a slice of the stacked weights is an entry of the stack. -/
theorem refW0_isReal (w : FVec Ideal S2x256x256 .f32) (h : ∀ i, IsReal (w i)) (i : S256x256.Idx) : IsReal (refW0 w i) := by
  unfold refW0 shapeCast extractStridedSlice
  exact h _

open Cert.Gin.Stats in
theorem refW1_isReal (w : FVec Ideal S2x256x256 .f32) (h : ∀ i, IsReal (w i)) (i : S256x256.Idx) : IsReal (refW1 w i) := by
  unfold refW1 shapeCast extractStridedSlice
  exact h _

open Cert.Gin.Stats in
theorem refB0_isReal (b : FVec Ideal S2x256 .f32) (h : ∀ i, IsReal (b i)) (i : S256.Idx) : IsReal (refB0 b i) := by
  unfold refB0 shapeCast extractStridedSlice
  exact h _

open Cert.Gin.Stats in
theorem refB1_isReal (b : FVec Ideal S2x256 .f32) (h : ∀ i, IsReal (b i)) (i : S256.Idx) : IsReal (refB1 b i) := by
  unfold refB1 shapeCast extractStridedSlice
  exact h _

end Cert.ReferenceIdeal.RefValue

end
-- ==== Proof.GinReal.lean ====
/-
  The dense part of the graph network and its batch normalisation keep real numbers real, and on real columns the two
  spellings of a column's variance are one number.

  A rectified affine layer of real entries under real weights and a real bias is real and not below zero, so the
  two-layer perceptron's output array is. On a column of reals the variance from the column sums, max (q / n − mean², 0),
  is the variance of the centred entries, (∑ (z − mean)²) / n; both are real and not below zero, the mean is real, and the
  normalised entry γ · (z − μ) · (v + ε)^(−1/2) + β is real for real γ, z, μ, β and real v ≥ 0.
-/
import proofs.«159704_j38585986187613_1_alg».proof.Proof.GinLayer
import proofs.«159704_j38585986187613_1_alg».proof.Proof.Stats
import proofs.«159704_j38585986187613_1_alg».proof.Proof.StatsLayers

open scoped BigOperators

noncomputable section

namespace Cert.Gin

open Idealize.ShloMosaic Idealize.ShloMosaic.ValueIdx Cert.Gin.Stats

variable {K B : ℕ}

/-! ### The perceptron keeps reals real -/

/-- The hidden row of a real feature row under real weights and a real bias is real. -/
theorem hid_isReal (xr : Fin K → EReal) (w1 : FVec Ideal ⟨2, ![K, B]⟩ .f32) (b1 : FVec Ideal ⟨2, ![1, B]⟩ .f32)
    (hx : ∀ k, IsReal (xr k)) (hw1 : ∀ i, IsReal (w1 i)) (hb1 : ∀ i, IsReal (b1 i)) (q : Fin B) :
    IsReal (hid xr w1 b1 q) :=
  IsReal.rect (IsReal.affine _ _ _ _ hx (fun _ _ => hw1 _) (fun _ => hb1 _))

/-- The output row likewise. -/
theorem zrow_isReal (xr : Fin K → EReal) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32)
    (hx : ∀ k, IsReal (xr k)) (hw1 : ∀ i, IsReal (w1 i)) (hb1 : ∀ i, IsReal (b1 i))
    (hw2 : ∀ i, IsReal (w2 i)) (hb2 : ∀ i, IsReal (b2 i)) (q : Fin B) :
    IsReal (zrow xr w1 b1 w2 b2 q) :=
  IsReal.rect (IsReal.affine _ _ _ _ (hid_isReal xr w1 b1 hx hw1 hb1) (fun _ _ => hw2 _) (fun _ => hb2 _))

/-- An output row's entries are not below zero: they leave a rectifier. -/
theorem zrow_nonneg (xr : Fin K → EReal) (w1 : FVec Ideal ⟨2, ![K, B]⟩ .f32) (b1 : FVec Ideal ⟨2, ![1, B]⟩ .f32)
    (w2 : FVec Ideal ⟨2, ![B, B]⟩ .f32) (b2 : FVec Ideal ⟨2, ![1, B]⟩ .f32) (q : Fin B) :
    0 ≤ zrow xr w1 b1 w2 b2 q :=
  IsReal.rect_nonneg _

/-- Every entry of the perceptron's output over N real rows is real. -/
theorem Zfun_isReal {N : ℕ} (x : FVec Ideal ⟨2, ![N, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (hx : ∀ i, IsReal (x i)) (hw1 : ∀ i, IsReal (w1 i)) (hb1 : ∀ i, IsReal (b1 i))
    (hw2 : ∀ i, IsReal (w2 i)) (hb2 : ∀ i, IsReal (b2 i)) (i : (⟨2, ![N, B]⟩ : Shape).Idx) :
    IsReal (Zfun x w1 b1 w2 b2 i) :=
  zrow_isReal _ w1 b1 w2 b2 (fun _ => hx _) hw1 hb1 hw2 hb2 _

/-- Every entry of the perceptron's output is not below zero. -/
theorem Zfun_nonneg {N : ℕ} (x : FVec Ideal ⟨2, ![N, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (i : (⟨2, ![N, B]⟩ : Shape).Idx) : 0 ≤ Zfun x w1 b1 w2 b2 i :=
  zrow_nonneg _ w1 b1 w2 b2 _

/-! ### The column statistics of a real column -/

/-- On a column of reals the variance from the column sums is the variance of the centred entries. -/
theorem varColSums_eq_varCol (z : FVec Ideal ⟨2, ![50000, B]⟩ .f32) (q : Fin B)
    (hz : ∀ r : Fin 50000, IsReal (z (ix2 r q))) : varColSums z q = varCol z q :=
  variance_eq_of (fun r => z (ix2 r q)) hz

/-- The mean of a column of reals is real. -/
theorem meanCol_isReal (z : FVec Ideal ⟨2, ![50000, B]⟩ .f32) (q : Fin B)
    (hz : ∀ r : Fin 50000, IsReal (z (ix2 r q))) : IsReal (meanCol z q) :=
  mean_isReal_of (fun r => z (ix2 r q)) hz

/-- The centred variance of a column of reals is real and not below zero. -/
theorem varCol_isReal (z : FVec Ideal ⟨2, ![50000, B]⟩ .f32) (q : Fin B)
    (hz : ∀ r : Fin 50000, IsReal (z (ix2 r q))) : IsReal (varCol z q) ∧ 0 ≤ varCol z q :=
  var_centred_isReal_of (fun r => z (ix2 r q)) hz

/-- The variance from the column sums likewise. -/
theorem varColSums_isReal (z : FVec Ideal ⟨2, ![50000, B]⟩ .f32) (q : Fin B)
    (hz : ∀ r : Fin 50000, IsReal (z (ix2 r q))) : IsReal (varColSums z q) ∧ 0 ≤ varColSums z q :=
  var_sums_isReal_of (fun r => z (ix2 r q)) hz

/-- The normalised entry is real for a real entry, real scale, shift and mean, and a real variance not below zero. -/
theorem normAt_isReal (z : FVec Ideal ⟨2, ![50000, B]⟩ .f32) (g be mu v : Fin B → EReal) (p : Fin 50000) (q : Fin B)
    (hz : IsReal (z (ix2 p q))) (hg : IsReal (g q)) (hbe : IsReal (be q)) (hmu : IsReal (mu q)) (hv : IsReal (v q))
    (h0 : 0 ≤ v q) : IsReal (normAt z g be mu v p q) := by
  obtain ⟨e, he, hw⟩ := eps_word
  unfold normAt
  rw [hw]
  exact IsReal.normalise hg hz hmu hv h0 hbe he

/-! ### One whole layer -/

/-- On real inputs the layer with the variance from the column sums is the layer with the centred variance: every
    column of the perceptron's output is a column of reals. -/
theorem layerSpecSums_eq (zpre : FVec Ideal ⟨2, ![50000, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (g be : Fin B → EReal) (hx : ∀ i, IsReal (zpre i)) (hw1 : ∀ i, IsReal (w1 i)) (hb1 : ∀ i, IsReal (b1 i))
    (hw2 : ∀ i, IsReal (w2 i)) (hb2 : ∀ i, IsReal (b2 i)) :
    layerSpecSums zpre w1 b1 w2 b2 g be = layerSpec zpre w1 b1 w2 b2 g be := by
  have hv : varColSums (Zfun zpre w1 b1 w2 b2) = varCol (Zfun zpre w1 b1 w2 b2) :=
    funext fun q => varColSums_eq_varCol _ q fun _ => Zfun_isReal zpre w1 b1 w2 b2 hx hw1 hb1 hw2 hb2 _
  unfold layerSpecSums layerSpec
  rw [hv]

/-- On real inputs, a real scale and a real shift, every entry of the layer is real. -/
theorem layerSpec_isReal (zpre : FVec Ideal ⟨2, ![50000, K]⟩ .f32) (w1 : FVec Ideal ⟨2, ![K, B]⟩ .f32)
    (b1 : FVec Ideal ⟨2, ![1, B]⟩ .f32) (w2 : FVec Ideal ⟨2, ![B, B]⟩ .f32) (b2 : FVec Ideal ⟨2, ![1, B]⟩ .f32)
    (g be : Fin B → EReal) (hx : ∀ i, IsReal (zpre i)) (hw1 : ∀ i, IsReal (w1 i)) (hb1 : ∀ i, IsReal (b1 i))
    (hw2 : ∀ i, IsReal (w2 i)) (hb2 : ∀ i, IsReal (b2 i)) (hg : ∀ q, IsReal (g q)) (hbe : ∀ q, IsReal (be q))
    (i : (⟨2, ![50000, B]⟩ : Shape).Idx) : IsReal (layerSpec zpre w1 b1 w2 b2 g be i) := by
  have hZ : ∀ j, IsReal (Zfun zpre w1 b1 w2 b2 j) := Zfun_isReal zpre w1 b1 w2 b2 hx hw1 hb1 hw2 hb2
  have hcol : ∀ r : Fin 50000, IsReal (Zfun zpre w1 b1 w2 b2 (ix2 r (i 1))) := fun _ => hZ _
  exact normAt_isReal _ g be _ _ (i 0) (i 1) (hZ _) (hg _) (hbe _) (meanCol_isReal _ _ hcol)
    (varCol_isReal _ _ hcol).1 (varCol_isReal _ _ hcol).2

end Cert.Gin

end
-- ==== Proof.RefChain.lean ====
/- The reference network as a chain of three layers, each the layer of its aggregated input, in the two spellings of
   the column variance: on real arguments the two chains are one array, so the network is the pooling of the third layer
   in either spelling. -/
import proofs.«159704_j38585986187613_1_alg».proof.Proof.RefRead
import proofs.«159704_j38585986187613_1_alg».proof.Proof.GinReal

open scoped BigOperators

noncomputable section

namespace Cert.ReferenceIdeal.RefValue

open Cert.ReferenceIdeal Cert.ReferenceIdeal.Gen Idealize.ShloMosaic Idealize.ShloMosaic.ValueIdx
open Cert.DenseLayer Cert.RectLayers Cert.Gin

open Cert.Gin.Stats

/-- The first layer of its aggregated input, the variance in the centred spelling. -/
def refL1 (x : FVec Ideal S50000x128 .f32) (ei : IVec S2x800000 32) (w1a : FVec Ideal S128x256 .f32) (b1a : FVec Ideal S256 .f32) (w2a : FVec Ideal S256x256 .f32) (b2a ga ba : FVec Ideal S256 .f32) : FVec Ideal S50000x256 .f32 :=
  layerSpec (K := 128) (B := 256) (refAgg128 x ei) w1a (row b1a) w2a (row b2a)
    (fun q => ga (ix1 q)) (fun q => ba (ix1 q))

/-- The second layer, on slice 0 of the stacked weights. -/
def refL2 (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32) : FVec Ideal S50000x256 .f32 :=
  layerSpec (K := 256) (B := 256) (refAgg256 (refL1 x ei w1a b1a w2a b2a ga ba) ei) (refW0 w1s) (row (refB0 b1s)) (refW0 w2s) (row (refB0 b2s))
    (fun q => refB0 gs (ix1 q)) (fun q => refB0 bs (ix1 q))

/-- The third layer, on slice 1 of the stacked weights. -/
def refL3 (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32) : FVec Ideal S50000x256 .f32 :=
  layerSpec (K := 256) (B := 256) (refAgg256 (refL2 x ei w1a b1a w2a b2a ga ba w1s b1s w2s b2s gs bs) ei) (refW1 w1s) (row (refB1 b1s)) (refW1 w2s) (row (refB1 b2s))
    (fun q => refB1 gs (ix1 q)) (fun q => refB1 bs (ix1 q))

/-- The first layer, the variance from the column sums. -/
def refS1 (x : FVec Ideal S50000x128 .f32) (ei : IVec S2x800000 32) (w1a : FVec Ideal S128x256 .f32) (b1a : FVec Ideal S256 .f32) (w2a : FVec Ideal S256x256 .f32) (b2a ga ba : FVec Ideal S256 .f32) : FVec Ideal S50000x256 .f32 :=
  layerSpecSums (K := 128) (B := 256) (refAgg128 x ei) w1a (row b1a) w2a (row b2a)
    (fun q => ga (ix1 q)) (fun q => ba (ix1 q))

/-- The second layer over that first layer, the variance from the column sums. -/
def refS2 (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32) : FVec Ideal S50000x256 .f32 :=
  layerSpecSums (K := 256) (B := 256) (refAgg256 (refS1 x ei w1a b1a w2a b2a ga ba) ei) (refW0 w1s) (row (refB0 b1s)) (refW0 w2s) (row (refB0 b2s))
    (fun q => refB0 gs (ix1 q)) (fun q => refB0 bs (ix1 q))

/-- The third layer over that second layer, the variance from the column sums. -/
def refS3 (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32) : FVec Ideal S50000x256 .f32 :=
  layerSpecSums (K := 256) (B := 256) (refAgg256 (refS2 x ei w1a b1a w2a b2a ga ba w1s b1s w2s b2s gs bs) ei) (refW1 w1s) (row (refB1 b1s)) (refW1 w2s) (row (refB1 b2s))
    (fun q => refB1 gs (ix1 q)) (fun q => refB1 bs (ix1 q))

/-- The whole network is the pooling of the third layer, each layer the layer of its aggregated input. -/
theorem refOut_eq_layers (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32) (batch : IVec S50000 32) :
    refOut x ei batch w1a b1a w2a b2a ga ba w1s b1s w2s b2s gs bs = refPool (refL3 x ei w1a b1a w2a b2a ga ba w1s b1s w2s b2s gs bs) batch := by
  unfold refOut refL3 refL2 refL1
  rw [refLayer128_eq, refLayer256_eq, refLayer256_eq]

/-- A vector of reals placed as a row is a row of reals. -/
theorem row_isReal {B : ℕ} (b : FVec Ideal ⟨1, ![B]⟩ .f32) (h : ∀ i, IsReal (b i)) (j : (⟨2, ![1, B]⟩ : Shape).Idx) :
    IsReal (row b j) :=
  h _

/-- On real arguments the first layer's two spellings agree: its aggregated input is real. -/
theorem refS1_eq (x : FVec Ideal S50000x128 .f32) (ei : IVec S2x800000 32) (w1a : FVec Ideal S128x256 .f32) (b1a : FVec Ideal S256 .f32) (w2a : FVec Ideal S256x256 .f32) (b2a ga ba : FVec Ideal S256 .f32)
    (hx : ∀ i, IsReal (x i)) (hw1a : ∀ i, IsReal (w1a i)) (hb1a : ∀ i, IsReal (b1a i)) (hw2a : ∀ i, IsReal (w2a i))
    (hb2a : ∀ i, IsReal (b2a i)) (hga : ∀ i, IsReal (ga i)) (hba : ∀ i, IsReal (ba i)) :
    refS1 x ei w1a b1a w2a b2a ga ba = refL1 x ei w1a b1a w2a b2a ga ba :=
  layerSpecSums_eq (refAgg128 x ei) w1a (row b1a) w2a (row b2a) _ _ (refAgg128_isReal x ei hx) hw1a (row_isReal b1a hb1a)
    hw2a (row_isReal b2a hb2a)

/-- On real arguments every entry of the first layer is real. -/
theorem refL1_isReal (x : FVec Ideal S50000x128 .f32) (ei : IVec S2x800000 32) (w1a : FVec Ideal S128x256 .f32) (b1a : FVec Ideal S256 .f32) (w2a : FVec Ideal S256x256 .f32) (b2a ga ba : FVec Ideal S256 .f32)
    (hx : ∀ i, IsReal (x i)) (hw1a : ∀ i, IsReal (w1a i)) (hb1a : ∀ i, IsReal (b1a i)) (hw2a : ∀ i, IsReal (w2a i))
    (hb2a : ∀ i, IsReal (b2a i)) (hga : ∀ i, IsReal (ga i)) (hba : ∀ i, IsReal (ba i)) (i : S50000x256.Idx) :
    IsReal (refL1 x ei w1a b1a w2a b2a ga ba i) :=
  layerSpec_isReal (refAgg128 x ei) w1a (row b1a) w2a (row b2a) _ _ (refAgg128_isReal x ei hx) hw1a (row_isReal b1a hb1a)
    hw2a (row_isReal b2a hb2a) (fun _ => hga _) (fun _ => hba _) i

/-- On real arguments the second layer's two spellings agree. -/
theorem refS2_eq (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32)
    (hx : ∀ i, IsReal (x i)) (hw1a : ∀ i, IsReal (w1a i)) (hb1a : ∀ i, IsReal (b1a i)) (hw2a : ∀ i, IsReal (w2a i))
    (hb2a : ∀ i, IsReal (b2a i)) (hga : ∀ i, IsReal (ga i)) (hba : ∀ i, IsReal (ba i)) (hw1s : ∀ i, IsReal (w1s i))
    (hb1s : ∀ i, IsReal (b1s i)) (hw2s : ∀ i, IsReal (w2s i)) (hb2s : ∀ i, IsReal (b2s i)) (hgs : ∀ i, IsReal (gs i))
    (hbs : ∀ i, IsReal (bs i)) :
    refS2 x ei w1a b1a w2a b2a ga ba w1s b1s w2s b2s gs bs = refL2 x ei w1a b1a w2a b2a ga ba w1s b1s w2s b2s gs bs := by
  unfold refS2 refL2
  rw [refS1_eq x ei w1a b1a w2a b2a ga ba hx hw1a hb1a hw2a hb2a hga hba]
  exact layerSpecSums_eq _ _ _ _ _ _ _ (refAgg256_isReal _ ei (refL1_isReal x ei w1a b1a w2a b2a ga ba hx hw1a hb1a hw2a hb2a hga hba))
    (refW0_isReal w1s hw1s) (row_isReal _ (refB0_isReal b1s hb1s)) (refW0_isReal w2s hw2s)
    (row_isReal _ (refB0_isReal b2s hb2s))

/-- On real arguments every entry of the second layer is real. -/
theorem refL2_isReal (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32)
    (hx : ∀ i, IsReal (x i)) (hw1a : ∀ i, IsReal (w1a i)) (hb1a : ∀ i, IsReal (b1a i)) (hw2a : ∀ i, IsReal (w2a i))
    (hb2a : ∀ i, IsReal (b2a i)) (hga : ∀ i, IsReal (ga i)) (hba : ∀ i, IsReal (ba i)) (hw1s : ∀ i, IsReal (w1s i))
    (hb1s : ∀ i, IsReal (b1s i)) (hw2s : ∀ i, IsReal (w2s i)) (hb2s : ∀ i, IsReal (b2s i)) (hgs : ∀ i, IsReal (gs i))
    (hbs : ∀ i, IsReal (bs i)) (i : S50000x256.Idx) :
    IsReal (refL2 x ei w1a b1a w2a b2a ga ba w1s b1s w2s b2s gs bs i) :=
  layerSpec_isReal _ _ _ _ _ _ _ (refAgg256_isReal _ ei (refL1_isReal x ei w1a b1a w2a b2a ga ba hx hw1a hb1a hw2a hb2a hga hba))
    (refW0_isReal w1s hw1s) (row_isReal _ (refB0_isReal b1s hb1s)) (refW0_isReal w2s hw2s)
    (row_isReal _ (refB0_isReal b2s hb2s)) (fun _ => refB0_isReal gs hgs _) (fun _ => refB0_isReal bs hbs _) i

/-- On real arguments the third layer's two spellings agree. -/
theorem refS3_eq (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32)
    (hx : ∀ i, IsReal (x i)) (hw1a : ∀ i, IsReal (w1a i)) (hb1a : ∀ i, IsReal (b1a i)) (hw2a : ∀ i, IsReal (w2a i))
    (hb2a : ∀ i, IsReal (b2a i)) (hga : ∀ i, IsReal (ga i)) (hba : ∀ i, IsReal (ba i)) (hw1s : ∀ i, IsReal (w1s i))
    (hb1s : ∀ i, IsReal (b1s i)) (hw2s : ∀ i, IsReal (w2s i)) (hb2s : ∀ i, IsReal (b2s i)) (hgs : ∀ i, IsReal (gs i))
    (hbs : ∀ i, IsReal (bs i)) :
    refS3 x ei w1a b1a w2a b2a ga ba w1s b1s w2s b2s gs bs = refL3 x ei w1a b1a w2a b2a ga ba w1s b1s w2s b2s gs bs := by
  unfold refS3 refL3
  rw [refS2_eq x ei w1a b1a w2a b2a ga ba w1s b1s w2s b2s gs bs hx hw1a hb1a hw2a hb2a hga hba hw1s hb1s hw2s hb2s hgs hbs]
  exact layerSpecSums_eq _ _ _ _ _ _ _ (refAgg256_isReal _ ei (refL2_isReal x ei w1a b1a w2a b2a ga ba w1s b1s w2s b2s gs bs hx hw1a hb1a hw2a hb2a hga hba hw1s hb1s hw2s hb2s hgs hbs))
    (refW1_isReal w1s hw1s) (row_isReal _ (refB1_isReal b1s hb1s)) (refW1_isReal w2s hw2s)
    (row_isReal _ (refB1_isReal b2s hb2s))

/-- On real arguments every entry of the third layer is real. -/
theorem refL3_isReal (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32)
    (hx : ∀ i, IsReal (x i)) (hw1a : ∀ i, IsReal (w1a i)) (hb1a : ∀ i, IsReal (b1a i)) (hw2a : ∀ i, IsReal (w2a i))
    (hb2a : ∀ i, IsReal (b2a i)) (hga : ∀ i, IsReal (ga i)) (hba : ∀ i, IsReal (ba i)) (hw1s : ∀ i, IsReal (w1s i))
    (hb1s : ∀ i, IsReal (b1s i)) (hw2s : ∀ i, IsReal (w2s i)) (hb2s : ∀ i, IsReal (b2s i)) (hgs : ∀ i, IsReal (gs i))
    (hbs : ∀ i, IsReal (bs i)) (i : S50000x256.Idx) :
    IsReal (refL3 x ei w1a b1a w2a b2a ga ba w1s b1s w2s b2s gs bs i) :=
  layerSpec_isReal _ _ _ _ _ _ _ (refAgg256_isReal _ ei (refL2_isReal x ei w1a b1a w2a b2a ga ba w1s b1s w2s b2s gs bs hx hw1a hb1a hw2a hb2a hga hba hw1s hb1s hw2s hb2s hgs hbs))
    (refW1_isReal w1s hw1s) (row_isReal _ (refB1_isReal b1s hb1s)) (refW1_isReal w2s hw2s)
    (row_isReal _ (refB1_isReal b2s hb2s)) (fun _ => refB1_isReal gs hgs _) (fun _ => refB1_isReal bs hbs _) i

/-- On real arguments the whole network is the pooling of the third layer in the column-sums spelling. -/
theorem refOut_eq_sums (x : FVec Ideal S50000x128 .f32) (ei : IVec S2x800000 32) (w1a : FVec Ideal S128x256 .f32) (b1a : FVec Ideal S256 .f32) (w2a : FVec Ideal S256x256 .f32) (b2a ga ba : FVec Ideal S256 .f32)
    (w1s : FVec Ideal S2x256x256 .f32) (b1s : FVec Ideal S2x256 .f32) (w2s : FVec Ideal S2x256x256 .f32) (b2s gs bs : FVec Ideal S2x256 .f32) (batch : IVec S50000 32)
    (h : (∀ i, IsReal (x i)) ∧ (∀ i, IsReal (w1a i)) ∧ (∀ i, IsReal (b1a i)) ∧ (∀ i, IsReal (w2a i)) ∧ (∀ i, IsReal (b2a i))
      ∧ (∀ i, IsReal (ga i)) ∧ (∀ i, IsReal (ba i)) ∧ (∀ i, IsReal (w1s i)) ∧ (∀ i, IsReal (b1s i))
      ∧ (∀ i, IsReal (w2s i)) ∧ (∀ i, IsReal (b2s i)) ∧ (∀ i, IsReal (gs i)) ∧ (∀ i, IsReal (bs i))) :
    refOut x ei batch w1a b1a w2a b2a ga ba w1s b1s w2s b2s gs bs = refPool (refS3 x ei w1a b1a w2a b2a ga ba w1s b1s w2s b2s gs bs) batch := by
  obtain ⟨hx, hw1a, hb1a, hw2a, hb2a, hga, hba, hw1s, hb1s, hw2s, hb2s, hgs, hbs⟩ := h
  rw [refOut_eq_layers, refS3_eq x ei w1a b1a w2a b2a ga ba w1s b1s w2s b2s gs bs hx hw1a hb1a hw2a hb2a hga hba hw1s hb1s hw2s hb2s hgs hbs]

end Cert.ReferenceIdeal.RefValue

end
-- ==== Proof.KernelInv.lean ====
/-
  What the kernel's buffers hold at the three boundaries between its layers, and at its end, stated against the
  reference network's stage functions.

  After the first layer's two launches the layer's output buffer holds the first layer of the launch arrays (variance
  from the column sums), the two edge-index buffers hold the sources and the destinations, and the arguments the later
  layers and the pooling still read hold what the launch gave them. After the second and the third layers likewise; at
  the end the result buffer holds the pooled third layer.
-/
import proofs.«159704_j38585986187613_1_alg».proof.Proof.Gen.KernelIdeal.Frame
import proofs.«159704_j38585986187613_1_alg».proof.Proof.RefChain

noncomputable section

namespace Cert.KernelIdeal.Chain

open Cert.KernelIdeal Cert.KernelIdeal.Gen Idealize.ShloMosaic Idealize.ShloMosaic.TcCoe Idealize.SL.Sem
open Cert.ReferenceIdeal.RefValue (refSrc refDst refS1 refS2 refS3 refPool)

variable (m : (ℓ : Loc nD τ sig) → Buf (Elt Ideal) ℓ) (ρ : Dev nD → PrngReg)

/-- After the first layer (region 1's exit). -/
def Inv4 (c : Dev nD) : Prop :=
  W4 m ρ c (Proc.devRef .tc main_v32)
      = refS1 (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
  ∧ W4 m ρ c (Proc.devRef .tc main_v1) = refSrc (m ((c : Thread nD τ).loc main_arg1))
  ∧ W4 m ρ c (Proc.devRef .tc main_v3) = refDst (m ((c : Thread nD τ).loc main_arg1))
  ∧ W4 m ρ c (Proc.devRef .tc main_arg2) = m ((c : Thread nD τ).loc main_arg2)
  ∧ W4 m ρ c (Proc.devRef .tc main_arg9) = m ((c : Thread nD τ).loc main_arg9)
  ∧ W4 m ρ c (Proc.devRef .tc main_arg10) = m ((c : Thread nD τ).loc main_arg10)
  ∧ W4 m ρ c (Proc.devRef .tc main_arg11) = m ((c : Thread nD τ).loc main_arg11)
  ∧ W4 m ρ c (Proc.devRef .tc main_arg12) = m ((c : Thread nD τ).loc main_arg12)
  ∧ W4 m ρ c (Proc.devRef .tc main_arg13) = m ((c : Thread nD τ).loc main_arg13)
  ∧ W4 m ρ c (Proc.devRef .tc main_arg14) = m ((c : Thread nD τ).loc main_arg14)

/-- After the second layer (region 3's exit). -/
def Inv8 (c : Dev nD) : Prop :=
  W8 m ρ c (Proc.devRef .tc main_v73)
      = refS2 (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
  ∧ W8 m ρ c (Proc.devRef .tc main_v1) = refSrc (m ((c : Thread nD τ).loc main_arg1))
  ∧ W8 m ρ c (Proc.devRef .tc main_v3) = refDst (m ((c : Thread nD τ).loc main_arg1))
  ∧ W8 m ρ c (Proc.devRef .tc main_arg2) = m ((c : Thread nD τ).loc main_arg2)
  ∧ W8 m ρ c (Proc.devRef .tc main_arg9) = m ((c : Thread nD τ).loc main_arg9)
  ∧ W8 m ρ c (Proc.devRef .tc main_arg10) = m ((c : Thread nD τ).loc main_arg10)
  ∧ W8 m ρ c (Proc.devRef .tc main_arg11) = m ((c : Thread nD τ).loc main_arg11)
  ∧ W8 m ρ c (Proc.devRef .tc main_arg12) = m ((c : Thread nD τ).loc main_arg12)
  ∧ W8 m ρ c (Proc.devRef .tc main_arg13) = m ((c : Thread nD τ).loc main_arg13)
  ∧ W8 m ρ c (Proc.devRef .tc main_arg14) = m ((c : Thread nD τ).loc main_arg14)

/-- After the third layer (region 5's exit). -/
def Inv12 (c : Dev nD) : Prop :=
  W12 m ρ c (Proc.devRef .tc main_v114)
      = refS3 (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14))
  ∧ W12 m ρ c (Proc.devRef .tc main_arg2) = m ((c : Thread nD τ).loc main_arg2)

/-- At the end: the result buffer holds the pooled third layer. -/
def Final (c : Dev nD) : Prop :=
  W13 m ρ c (Proc.devRef .tc main_v126)
    = refPool (refS3 (m ((c : Thread nD τ).loc main_arg0)) (m ((c : Thread nD τ).loc main_arg1))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8))
          (m ((c : Thread nD τ).loc main_arg9)) (m ((c : Thread nD τ).loc main_arg10))
          (m ((c : Thread nD τ).loc main_arg11)) (m ((c : Thread nD τ).loc main_arg12))
          (m ((c : Thread nD τ).loc main_arg13)) (m ((c : Thread nD τ).loc main_arg14)))
        (m ((c : Thread nD τ).loc main_arg2))

end Cert.KernelIdeal.Chain

end
-- ==== Proof.MlpPay.lean ====
/-
  What one grid point of the perceptron-with-statistics kernel (the first layer's, 128 input features) computes, read
  entry by entry on the extended reals.

  The body loads a block of 2000 feature rows, the two weight matrices and the two one-row biases, and stores
    the block of outputs    z (p, q) = max ((∑ k, hid (p, k) · W2 (k, q)) + b2 q, 0),  hid = max (x · W1 + b1, 0),
    the running column sums   s q + ∑ p, z (p, q)   and   ss q + ∑ p, z (p, q) · z (p, q).
  The roundings to a narrower float on the way into each product are the identity at the exact values, and each product
  goes into a zero accumulator, so it is the plain sum over the contracted axis; a sum over the rows of a block from the
  zero word is the plain sum over the block's 2000 row indices.
-/
import proofs.«159704_j38585986187613_1_alg».proof.Proof.Gen.KernelIdeal.Skeleton
import proofs.«159704_j38585986187613_1_alg».proof.Proof.GinSpec
import Idealize.ShloMosaic.Lib.ValueLayout
import Idealize.ShloMosaic.Lib.Pipeline.Value
import Idealize.ShloMosaic.PureOps.Ideal.Laws

open scoped BigOperators

noncomputable section

namespace Cert.KernelIdeal.MlpValue

open Cert.KernelIdeal Cert.KernelIdeal.Gen Idealize.ShloMosaic Idealize.ShloMosaic.ValueIdx
open Cert.DenseLayer Cert.RectLayers Cert.Gin

/-- The source index of a column's row sum: row k of column q. -/
theorem lift_col (q : Fin 256) (k : Fin 2000) :
    (reduces_S2000x256_S256 : S2000x256.Reduces [0] S256).lift (ix1 q) k = ix2 k q := by
  funext a
  apply Fin.ext
  match a with
  | ⟨0, _⟩ => rfl
  | ⟨1, _⟩ => rfl

/-- A sum over the rows of a [2000, 256] block from the zero word, at column q: the sum over the 2000 row indices. -/
theorem rowsum_apply (v : FVec Ideal S2000x256 .f32) (hφ : FKind.Formats FTy.f32)
    (hacc : (0x00000000#32 : BitVec 32) = 0x00000000#32) (q : Fin 256) :
    multiReduction .add [0] S256 v 0x00000000#32 reduces_S2000x256_S256 hφ hacc (ix1 q) = ∑ p : Fin 2000, v (ix2 p q) := by
  refine (Ideal.multiReduction_add_single v 0x00000000#32 reduces_S2000x256_S256 hφ hacc (ix1 q)).trans ?_
  exact Finset.sum_congr rfl fun k _ => congrArg v (lift_col q k)

/-- The first layer's tile at (p, q): the hidden row of row p of the block. -/
theorem hid0_apply (x0 : FVec Ideal S2000x128 .f32) (x1 : FVec Ideal S128x256 .f32) (x2 : FVec Ideal S1x256 .f32)
    (p : Fin 2000) (q : Fin 256) :
    maximumf (addf (matmul dot_S2000x128_S128x256_S2000x256_1_0_0_1_n_n none
          (truncf .bf16 x0 bitsLt_bf16_f32)
          (truncf .bf16 x1 bitsLt_bf16_f32) (constant S2000x256 .f32 0x00000000#32))
        (broadcastTo S2000x256 x2 broadcasts_S1x256_S2000x256))
      (broadcast S2000x256 (Scalar.ofBits (F := Ideal) .f32 0x00000000#32)) (ix2 p q)
      = hid (fun k => x0 (ix2 p k)) x1 x2 q := by
  show max (matmul dot_S2000x128_S128x256_S2000x256_1_0_0_1_n_n none
          (truncf .bf16 x0 bitsLt_bf16_f32)
          (truncf .bf16 x1 bitsLt_bf16_f32) (constant S2000x256 .f32 0x00000000#32) (ix2 p q)
        + broadcastTo S2000x256 x2 broadcasts_S1x256_S2000x256 (ix2 p q))
      (Ideal.ofBits .f32 0x00000000#32) = _
  rw [tile_product_apply dot_S2000x128_S128x256_S2000x256_1_0_0_1_n_n rfl rfl rfl rfl rfl rfl rfl rfl none _ _ p q,
    broadcastTo_1b_ab_apply]
  rfl

/-- The stored output block at (p, q): the output row of row p of the feature block. -/
theorem pay4_apply (x0 : Vec Ideal S2000x128 .f32) (x1 : Vec Ideal S128x256 .f32) (x2 : Vec Ideal S1x256 .f32)
    (x3 : Vec Ideal S256x256 .f32) (x4 : Vec Ideal S1x256 .f32) (p : Fin 2000) (q : Fin 256) :
    k0_pay4 x0 x1 x2 x3 x4 (ix2 p q) = zrow (fun k => x0 (ix2 p k)) x1 x2 x3 x4 q := by
  unfold k0_pay4
  simp only [shapeCast_self]
  show max (matmul dot_S2000x256_S256x256_S2000x256_1_0_0_1_n_n none
          (truncf .bf16 (maximumf (addf (matmul dot_S2000x128_S128x256_S2000x256_1_0_0_1_n_n none
              (truncf .bf16 x0 bitsLt_bf16_f32)
              (truncf .bf16 x1 bitsLt_bf16_f32) (constant S2000x256 .f32 0x00000000#32))
            (broadcastTo S2000x256 x2 broadcasts_S1x256_S2000x256))
          (broadcast S2000x256 (Scalar.ofBits (F := Ideal) .f32 0x00000000#32))) bitsLt_bf16_f32)
          (truncf .bf16 x3 bitsLt_bf16_f32) (constant S2000x256 .f32 0x00000000#32) (ix2 p q)
        + broadcastTo S2000x256 x4 broadcasts_S1x256_S2000x256 (ix2 p q))
      (Ideal.ofBits .f32 0x00000000#32) = _
  rw [tile_product_apply dot_S2000x256_S256x256_S2000x256_1_0_0_1_n_n rfl rfl rfl rfl rfl rfl rfl rfl none _ _ p q,
    broadcastTo_1b_ab_apply]
  unfold zrow rect affine
  dsimp only
  refine congrArg (fun s => max (s + x4 (ix2 (0 : Fin 1) q)) (Ideal.ofBits .f32 0x00000000#32))
    (Finset.sum_congr rfl fun k _ => ?_)
  exact congrArg (· * x3 (ix2 k q)) (hid0_apply x0 x1 x2 p k)

/-- The running column sum the body stores, at column q: the carried sum plus the block's column sum. -/
theorem pay5_apply (x0 : Vec Ideal S2000x128 .f32) (x1 : Vec Ideal S128x256 .f32) (x2 : Vec Ideal S1x256 .f32)
    (x3 : Vec Ideal S256x256 .f32) (x4 : Vec Ideal S1x256 .f32) (s : Vec Ideal S1x256 .f32) (u : Fin 1) (q : Fin 256) :
    k0_pay5 x0 x1 x2 x3 x4 s (ix2 u q)
      = s (ix2 u q) + ∑ p : Fin 2000, k0_pay4 x0 x1 x2 x3 x4 (ix2 p q) := by
  unfold k0_pay5
  show shapeCast S1x256 s shapeCasts_S1x256_S1x256 (ix2 u q)
      + shapeCast S1x256 (multiReduction .add [0] S256 (k0_pay4 x0 x1 x2 x3 x4) 0x00000000#32 reduces_S2000x256_S256 (.inl rfl) rfl)
          shapeCasts_S256_S1x256 (ix2 u q) = _
  rw [shapeCast_self, shapeCast_a_1a_apply, rowsum_apply]

/-- The running column sum of squares the body stores, at column q. -/
theorem pay1_apply (z : FVec Ideal S2000x256 .f32) (ss : Vec Ideal S1x256 .f32) (u : Fin 1) (q : Fin 256) :
    k0_pay1 z ss (ix2 u q) = ss (ix2 u q) + ∑ p : Fin 2000, z (ix2 p q) * z (ix2 p q) := by
  unfold k0_pay1
  show shapeCast S1x256 ss shapeCasts_S1x256_S1x256 (ix2 u q)
      + shapeCast S1x256 (multiReduction .add [0] S256 (mulf z z) 0x00000000#32 reduces_S2000x256_S256 (.inl rfl) rfl)
          shapeCasts_S256_S1x256 (ix2 u q) = _
  rw [shapeCast_self, shapeCast_a_1a_apply, rowsum_apply]
  rfl

/-- The reset stores the zero word in every entry of the two running sums. -/
theorem pay2_apply (j : S1x256.Idx) : k0_pay2 (F := Ideal) j = Ideal.ofBits .f32 0x00000000#32 := rfl
theorem pay3_apply (j : S1x256.Idx) : k0_pay3 (F := Ideal) j = Ideal.ofBits .f32 0x00000000#32 := rfl

end Cert.KernelIdeal.MlpValue

end
-- ==== Proof.MlpRegion0.lean ====
/-
  The first perceptron-with-statistics launch (25 grid points, 2000 rows each) as whole arrays.

  With X the [50000, 128] feature array, W1, W2 the weights and b1, b2 the one-row biases as the launch finds them,
  Z = the two-layer perceptron of X (Cert.Gin.Zfun). Grid point t reads rows 2000·t … 2000·t + 1999 of X and the whole
  of every other operand, so the output block it stores is rows 2000·t … of Z (entry (p, q) of the perceptron reads row
  p only). The two one-row outputs are carried from point to point: point 0 resets them to the zero word and adds its
  block's column sums, every later point adds its own, so after point t they hold the column sums of Z and of its
  squares over the first 2000·(t+1) rows — by induction on the point. The output array is written back block by block
  at every point and ends as Z; each running sum is written back once, after the last point, and ends as the column sum
  over all 50000 rows.
-/
import proofs.«159704_j38585986187613_1_alg».proof.Proof.Gen.KernelIdeal.Frame
import proofs.«159704_j38585986187613_1_alg».proof.Proof.MlpPay
import Idealize.ShloMosaic.Lib.Pipeline.Value
import Idealize.ShloMosaic.Lib.Tactic

open scoped BigOperators

noncomputable section

namespace Cert.KernelIdeal.MlpValue

open Cert.KernelIdeal Cert.KernelIdeal.Gen Idealize.ShloMosaic Idealize.ShloMosaic.TcCoe Idealize.SL.Sem
open Idealize.ShloMosaic.ValueIdx
open Idealize.ShloMosaic.Pipeline (Dat)
open Cert.DenseLayer Cert.RectLayers Cert.Gin

variable (V : (c : Dev nD) → (b : Ref sig .tc) → Buf (Elt Ideal) ((c : Thread nD τ).loc b))

theorem hz2 : (![0, 0] : Fin 2 → Nat) = fun _ => 0 := funext fun a => by fin_cases a <;> rfl

/-! ## What each case of the body leaves in the three output buffers -/

/-- Later points: the output block is the perceptron of the loaded blocks. -/
theorem outB5 (c : Dev nD) (i : grid0.Coords) (a1 : Memref sig .tc .vmem S2000x128 .f32) (h1 : a1.IsWhole)
    (a2 : Memref sig .tc .vmem S128x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond0_0 i)
    (x0 : Vec Ideal S2000x128 .f32) (x1 : Vec Ideal S128x256 .f32) (x2 : Vec Ideal S1x256 .f32)
    (x3 : Vec Ideal S256x256 .f32) (x4 : Vec Ideal S1x256 .f32) (xo6 xo7 : Vec Ideal S1x256 .f32) :
    out0_B_5 c i a1 h1 a2 h2 a3 h3 a4 h4 a5 h5 a6 h6 a7 h7 a8 h8 hc x0 x1 x2 x3 x4 xo6 xo7 = k0_pay4 x0 x1 x2 x3 x4 := by
  unfold out0_B_5
  rw [View.read_writes_eq_canon _ _ _ (cover0_B_5 c i a1 h1 a2 h2 a3 h3 a4 h4 a5 h5 a6 h6 a7 h7 a8 h8 hc x0 x1 x2 x3 x4 xo6 xo7)]
  unfold kernelRun0_B
  dsimp only
  rw [View.canon_unit_zero hz2]
  simp only [View.readAt_eq_ld, h1.read_unread, h2.read_unread, h3.read_unread, h4.read_unread, h5.read_unread, h7.read_unread, h8.read_unread, View.ld_unit_zero (S := S2000x128) hz2, View.ld_unit_zero (S := S128x256) hz2, View.ld_unit_zero (S := S1x256) hz2, View.ld_unit_zero (S := S256x256) hz2, View.ld_unit_zero (S := S2000x256) hz2]

/-- Later points: the running sum is the carried one plus the block's column sums. -/
theorem outB6 (c : Dev nD) (i : grid0.Coords) (a1 : Memref sig .tc .vmem S2000x128 .f32) (h1 : a1.IsWhole)
    (a2 : Memref sig .tc .vmem S128x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond0_0 i)
    (x0 : Vec Ideal S2000x128 .f32) (x1 : Vec Ideal S128x256 .f32) (x2 : Vec Ideal S1x256 .f32)
    (x3 : Vec Ideal S256x256 .f32) (x4 : Vec Ideal S1x256 .f32) (xo6 xo7 : Vec Ideal S1x256 .f32) :
    out0_B_6 c i a1 h1 a2 h2 a3 h3 a4 h4 a5 h5 a6 h6 a7 h7 a8 h8 hc x0 x1 x2 x3 x4 xo6 xo7 = k0_pay5 x0 x1 x2 x3 x4 xo6 := by
  unfold out0_B_6
  rw [View.read_writes_eq_canon _ _ _ (cover0_B_6 c i a1 h1 a2 h2 a3 h3 a4 h4 a5 h5 a6 h6 a7 h7 a8 h8 hc x0 x1 x2 x3 x4 xo6 xo7)]
  unfold kernelRun0_B
  dsimp only
  rw [View.canon_unit_zero hz2]
  simp only [View.readAt_eq_ld, h1.read_unread, h2.read_unread, h3.read_unread, h4.read_unread, h5.read_unread, h7.read_unread, h8.read_unread, View.ld_unit_zero (S := S2000x128) hz2, View.ld_unit_zero (S := S128x256) hz2, View.ld_unit_zero (S := S1x256) hz2, View.ld_unit_zero (S := S256x256) hz2, View.ld_unit_zero (S := S2000x256) hz2]

/-- Later points: the running sum of squares is the carried one plus the block's column sums of squares. -/
theorem outB7 (c : Dev nD) (i : grid0.Coords) (a1 : Memref sig .tc .vmem S2000x128 .f32) (h1 : a1.IsWhole)
    (a2 : Memref sig .tc .vmem S128x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond0_0 i)
    (x0 : Vec Ideal S2000x128 .f32) (x1 : Vec Ideal S128x256 .f32) (x2 : Vec Ideal S1x256 .f32)
    (x3 : Vec Ideal S256x256 .f32) (x4 : Vec Ideal S1x256 .f32) (xo6 xo7 : Vec Ideal S1x256 .f32) :
    out0_B_7 c i a1 h1 a2 h2 a3 h3 a4 h4 a5 h5 a6 h6 a7 h7 a8 h8 hc x0 x1 x2 x3 x4 xo6 xo7 = k0_pay1 (k0_pay4 x0 x1 x2 x3 x4) xo7 := by
  unfold out0_B_7
  rw [View.read_writes_eq_canon _ _ _ (cover0_B_7 c i a1 h1 a2 h2 a3 h3 a4 h4 a5 h5 a6 h6 a7 h7 a8 h8 hc x0 x1 x2 x3 x4 xo6 xo7)]
  unfold kernelRun0_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S2000x128) hz2, View.ld_unit_zero (S := S128x256) hz2, View.ld_unit_zero (S := S1x256) hz2, View.ld_unit_zero (S := S256x256) hz2, View.ld_unit_zero (S := S2000x256) hz2]

/-- The first point: the output block is the perceptron of the loaded blocks. -/
theorem outA5 (c : Dev nD) (i : grid0.Coords) (a1 : Memref sig .tc .vmem S2000x128 .f32) (h1 : a1.IsWhole)
    (a2 : Memref sig .tc .vmem S128x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond0_0 i)
    (x0 : Vec Ideal S2000x128 .f32) (x1 : Vec Ideal S128x256 .f32) (x2 : Vec Ideal S1x256 .f32)
    (x3 : Vec Ideal S256x256 .f32) (x4 : Vec Ideal S1x256 .f32) :
    out0_A_5 c i a1 h1 a2 h2 a3 h3 a4 h4 a5 h5 a6 h6 a7 h7 a8 h8 hc x0 x1 x2 x3 x4 = k0_pay4 x0 x1 x2 x3 x4 := by
  unfold out0_A_5
  rw [View.read_writes_eq_canon _ _ _ (cover0_A_5 c i a1 h1 a2 h2 a3 h3 a4 h4 a5 h5 a6 h6 a7 h7 a8 h8 hc x0 x1 x2 x3 x4)]
  unfold kernelRun0_A
  dsimp only
  rw [View.canon_unit_zero hz2]
  simp only [View.readAt_eq_ld, h1.read_unread, h2.read_unread, h3.read_unread, h4.read_unread, h5.read_unread, h7.read_unread, h8.read_unread, View.ld_unit_zero (S := S2000x128) hz2, View.ld_unit_zero (S := S128x256) hz2, View.ld_unit_zero (S := S1x256) hz2, View.ld_unit_zero (S := S256x256) hz2, View.ld_unit_zero (S := S2000x256) hz2]

/-- The first point: the running sum is reset to the zero word, then the block's column sums are added. -/
theorem outA6 (c : Dev nD) (i : grid0.Coords) (a1 : Memref sig .tc .vmem S2000x128 .f32) (h1 : a1.IsWhole)
    (a2 : Memref sig .tc .vmem S128x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond0_0 i)
    (x0 : Vec Ideal S2000x128 .f32) (x1 : Vec Ideal S128x256 .f32) (x2 : Vec Ideal S1x256 .f32)
    (x3 : Vec Ideal S256x256 .f32) (x4 : Vec Ideal S1x256 .f32) :
    out0_A_6 c i a1 h1 a2 h2 a3 h3 a4 h4 a5 h5 a6 h6 a7 h7 a8 h8 hc x0 x1 x2 x3 x4 = k0_pay5 x0 x1 x2 x3 x4 (k0_pay2 (F := Ideal)) := by
  unfold out0_A_6
  rw [View.read_writes_eq_canon _ _ _ (cover0_A_6 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread, h8.read_unread, View.ld_unit_zero (S := S2000x128) hz2, View.ld_unit_zero (S := S128x256) hz2, View.ld_unit_zero (S := S1x256) hz2, View.ld_unit_zero (S := S256x256) hz2, View.ld_unit_zero (S := S2000x256) hz2]

/-- The first point: the running sum of squares is reset to the zero word, then the block's is added. -/
theorem outA7 (c : Dev nD) (i : grid0.Coords) (a1 : Memref sig .tc .vmem S2000x128 .f32) (h1 : a1.IsWhole)
    (a2 : Memref sig .tc .vmem S128x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond0_0 i)
    (x0 : Vec Ideal S2000x128 .f32) (x1 : Vec Ideal S128x256 .f32) (x2 : Vec Ideal S1x256 .f32)
    (x3 : Vec Ideal S256x256 .f32) (x4 : Vec Ideal S1x256 .f32) :
    out0_A_7 c i a1 h1 a2 h2 a3 h3 a4 h4 a5 h5 a6 h6 a7 h7 a8 h8 hc x0 x1 x2 x3 x4 = k0_pay1 (k0_pay4 x0 x1 x2 x3 x4) (k0_pay3 (F := Ideal)) := by
  unfold out0_A_7
  rw [View.read_writes_eq_canon _ _ _ (cover0_A_7 c i a1 h1 a2 h2 a3 h3 a4 h4 a5 h5 a6 h6 a7 h7 a8 h8 hc x0 x1 x2 x3 x4)]
  unfold kernelRun0_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread, h8.read_unread, View.ld_unit_zero (S := S2000x128) hz2, View.ld_unit_zero (S := S128x256) hz2, View.ld_unit_zero (S := S1x256) hz2, View.ld_unit_zero (S := S256x256) hz2, View.ld_unit_zero (S := S2000x256) hz2]

/-! ## The blocks the points read -/

/-- The printed index maps over the grid: the feature window and the output window are at row block t, every other
    window at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Row p of the feature block at point t is row 2000·t + p of the feature array. -/
theorem blk0_apply (c : Dev nD) (t : Fin cfg0.N) (p : Fin 2000) (k : Fin 128) (h : 2000 * t.val + p.val < 50000) :
    iblk0 V c 0 t (ix2 p k) = V c main_v14 (ix2 ⟨2000 * t.val + p.val, h⟩ k) := by
  unfold iblk0
  rw [View.read_apply]
  show V c main_v14 (((cfg0.win 0).blk t).view.emb (ix2 p k)) = _
  refine congrArg (V c main_v14) ?_
  obtain ⟨e0, e1, -⟩ := idx_facts t
  funext a; apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The first weight matrix's one block is the whole matrix, at every point. -/
theorem blk1_eq (c : Dev nD) (t : Fin cfg0.N) : (iblk0 V c 1 t : Vec Ideal S128x256 .f32) = V c main_arg3 := by
  funext j
  unfold iblk0
  rw [View.read_apply]
  show V c main_arg3 (((cfg0.win 1).blk t).view.emb j) = _
  refine congrArg (V c main_arg3) ?_
  obtain ⟨-, -, e0, e1, -⟩ := idx_facts t
  funext a; apply Fin.ext
  match a with
  | ⟨0, _⟩ => show win0_1.index t (0 : Fin 2) * 128 + 1 * (j 0).val = (j 0).val; rw [e0]; omega
  | ⟨1, _⟩ => show win0_1.index t (1 : Fin 2) * 256 + 1 * (j 1).val = (j 1).val; rw [e1]; omega

theorem blk2_eq (c : Dev nD) (t : Fin cfg0.N) : (iblk0 V c 2 t : Vec Ideal S1x256 .f32) = V c main_v15 := by
  funext j
  unfold iblk0
  rw [View.read_apply]
  show V c main_v15 (((cfg0.win 2).blk t).view.emb j) = _
  refine congrArg (V c main_v15) ?_
  obtain ⟨-, -, -, -, e0, e1, -⟩ := idx_facts t
  funext a; apply Fin.ext
  match a with
  | ⟨0, _⟩ => show win0_2.index t (0 : Fin 2) * 1 + 1 * (j 0).val = (j 0).val; rw [e0]; omega
  | ⟨1, _⟩ => show win0_2.index t (1 : Fin 2) * 256 + 1 * (j 1).val = (j 1).val; rw [e1]; omega

theorem blk3_eq (c : Dev nD) (t : Fin cfg0.N) : (iblk0 V c 3 t : Vec Ideal S256x256 .f32) = V c main_arg5 := by
  funext j
  unfold iblk0
  rw [View.read_apply]
  show V c main_arg5 (((cfg0.win 3).blk t).view.emb j) = _
  refine congrArg (V c main_arg5) ?_
  obtain ⟨-, -, -, -, -, -, e0, e1, -⟩ := idx_facts t
  funext a; apply Fin.ext
  match a with
  | ⟨0, _⟩ => show win0_3.index t (0 : Fin 2) * 256 + 1 * (j 0).val = (j 0).val; rw [e0]; omega
  | ⟨1, _⟩ => show win0_3.index t (1 : Fin 2) * 256 + 1 * (j 1).val = (j 1).val; rw [e1]; omega

theorem blk4_eq (c : Dev nD) (t : Fin cfg0.N) : (iblk0 V c 4 t : Vec Ideal S1x256 .f32) = V c main_v16 := by
  funext j
  unfold iblk0
  rw [View.read_apply]
  show V c main_v16 (((cfg0.win 4).blk t).view.emb j) = _
  refine congrArg (V c main_v16) ?_
  obtain ⟨-, -, -, -, -, -, -, -, e0, e1, -⟩ := idx_facts t
  funext a; apply Fin.ext
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

/-! ## The arrays the launch finds, and what every point computes of them -/

/-- The two-layer perceptron of the whole feature array as the launch finds it. -/
def Zarr0 (c : Dev nD) : FVec Ideal S50000x256 .f32 :=
  Zfun (N := 50000) (K := 128) (B := 256) (V c main_v14) (V c main_arg3) (V c main_v15) (V c main_arg5) (V c main_v16)

/-- The output block point t stores, at (p, q), is entry (2000·t + p, q) of the perceptron of the whole array. -/
theorem pay4_blk (c : Dev nD) (t : Fin cfg0.N) (p : Fin 2000) (q : Fin 256) :
    k0_pay4 (iblk0 V c 0 t) (iblk0 V c 1 t) (iblk0 V c 2 t) (iblk0 V c 3 t) (iblk0 V c 4 t) (ix2 p q)
      = rowAt (Zarr0 V c) q (2000 * t.val + p.val) := by
  have hN : cfg0.N = 25 := N_0
  have ht : t.val < 25 := hN ▸ t.isLt
  have hlt : 2000 * t.val + p.val < 50000 := by have := p.isLt; omega
  rw [pay4_apply, blk1_eq, blk2_eq, blk3_eq, blk4_eq]
  unfold rowAt
  rw [dif_pos hlt]
  unfold Zarr0
  rw [Zfun_ix2]
  exact congrArg (fun xr => zrow xr (V c main_arg3) (V c main_v15) (V c main_arg5) (V c main_v16) q)
    (funext fun k => blk0_apply V c t p k hlt)

/-- After point n the two carried rows hold the column sums of the perceptron, and of its squares, over the first
    2000·(n+1) rows: point 0 starts them from the zero word, every later point adds its block's sums. -/
theorem outsAt_sums (c : Dev nD) : ∀ (n : ℕ) (hn : n < cfg0.N) (u : Fin 1) (q : Fin 256),
    (outsAt0 V c n hn).2.1 (ix2 u q) = colSum (Zarr0 V c) (2000 * (n + 1)) q
      ∧ (outsAt0 V c n hn).2.2 (ix2 u q) = colSumSq (Zarr0 V c) (2000 * (n + 1)) q
  | 0, hn, u, q => by
    rw [outsAt0_A V c ⟨0, hn⟩ rfl]
    dsimp only
    rw [outA6, outA7, pay5_apply, pay1_apply, pay2_apply, pay3_apply, colSum_step, colSumSq_step, colSum_zero,
      colSumSq_zero, Ideal.ofBits_zero_f32]
    constructor
    · exact congrArg (0 + ·) (Finset.sum_congr rfl fun p _ => pay4_blk V c ⟨0, hn⟩ p q)
    · exact congrArg (0 + ·) (Finset.sum_congr rfl fun p _ => by rw [pay4_blk V c ⟨0, hn⟩ p q])
  | n + 1, hn, u, q => by
    have hN : cfg0.N = 25 := N_0
    have hB : ¬(⟨n + 1, hn⟩ : Fin cfg0.N).val % 25 = 0 := by dsimp only; omega
    obtain ⟨ih1, ih2⟩ := outsAt_sums c n (Nat.lt_of_succ_lt hn) u q
    rw [outsAt0_B V c ⟨n + 1, hn⟩ hB]
    dsimp only
    rw [outB6, outB7, pay5_apply, pay1_apply, colSum_step, colSumSq_step]
    constructor
    · show (outsAt0 V c n _).2.1 (ix2 u q) + _ = _
      rw [ih1]
      exact congrArg (colSum (Zarr0 V c) (2000 * (n + 1)) q + ·) (Finset.sum_congr rfl fun p _ => pay4_blk V c ⟨n + 1, hn⟩ p q)
    · show (outsAt0 V c n _).2.2 (ix2 u q) + _ = _
      rw [ih2]
      exact congrArg (colSumSq (Zarr0 V c) (2000 * (n + 1)) q + ·)
        (Finset.sum_congr rfl fun p _ => by rw [pay4_blk V c ⟨n + 1, hn⟩ p q])

/-! ## The write-backs and the final arrays -/

/-- The output block every point stores is the perceptron of the blocks it loaded, whichever case the point is. -/
theorem outsAt_block (c : Dev nD) (t : Fin cfg0.N) :
    (outsAt0 V c t.val t.isLt).1
      = k0_pay4 (iblk0 V c 0 t) (iblk0 V c 1 t) (iblk0 V c 2 t) (iblk0 V c 3 t) (iblk0 V c 4 t) := by
  by_cases h0 : t.val % 25 = 0
  · rw [outsAt0_A V c t h0]
    dsimp only
    rw [outA5]
  · rw [outsAt0_B V c t h0]
    dsimp only
    rw [outB5]

/-- An index of the output array is in point t's block iff each coordinate is in the block's range on its axis. -/
theorem mem_blk5 (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v17_0).slice (win0_5.rect t)).set ↔ _
  rw [View.set_slice_whole, Rect.mem_set_unit]
  exact Iff.rfl

theorem mem_blk6 (t : Fin cfg0.N) (i : S1x256.Idx) :
    i ∈ ((cfg0.win 6).blk t).view.set ↔ ∀ a : Fin 2, win0_6.index t a * S1x256.size a ≤ (i a).val
      ∧ (i a).val < win0_6.index t a * S1x256.size a + S1x256.size a := by
  show i ∈ ((View.whole main_v17_1).slice (win0_6.rect t)).set ↔ _
  rw [View.set_slice_whole, Rect.mem_set_unit]
  exact Iff.rfl

theorem mem_blk7 (t : Fin cfg0.N) (i : S1x256.Idx) :
    i ∈ ((cfg0.win 7).blk t).view.set ↔ ∀ a : Fin 2, win0_7.index t a * S1x256.size a ≤ (i a).val
      ∧ (i a).val < win0_7.index t a * S1x256.size a + S1x256.size a := by
  show i ∈ ((View.whole main_v17_2).slice (win0_7.rect t)).set ↔ _
  rw [View.set_slice_whole, Rect.mem_set_unit]
  exact Iff.rfl

/-- What point t writes back to the output array is block t of the perceptron of the whole feature array. -/
theorem flushed5_eq (c : Dev nD) (t : Fin cfg0.N) :
    (dat0 V c).flushed 5 t = ((cfg0.win 5).blk t).view.read (Elt Ideal) (Zarr0 V c) := by
  show (cfg0.win 5).cut (grid0.coords t) ((dat0 V c).after 5 t) = _
  rw [after0_5, outsAt_block]
  have hN : cfg0.N = 25 := N_0
  have ht : t.val < 25 := hN ▸ t.isLt
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  show k0_pay4 (iblk0 V c 0 t) (iblk0 V c 1 t) (iblk0 V c 2 t) (iblk0 V c 3 t) (iblk0 V c 4 t) (ix2 p q)
    = Zarr0 V c (((cfg0.win 5).blk t).view.emb (ix2 p q))
  rw [pay4_blk]
  have hlt : 2000 * t.val + p.val < 50000 := by have := p.isLt; omega
  unfold rowAt
  rw [dif_pos hlt]
  refine congrArg (Zarr0 V c) ?_
  funext a; apply Fin.ext
  match a with
  | ⟨0, _⟩ => show 2000 * t.val + p.val = win0_5.index t (0 : Fin 2) * 2000 + 1 * p.val; rw [e0]; omega
  | ⟨1, _⟩ => show q.val = win0_5.index t (1 : Fin 2) * 256 + 1 * q.val; rw [e1]; omega

/-- Every row of the output array is in the block of the point its row block names. -/
theorem cover5 (i : S50000x256.Idx) :
    ∃ t : Fin cfg0.N, (cfg0.win 5).flush t = true ∧ i ∈ ((cfg0.win 5).blk t).view.set := by
  have hN : cfg0.N = 25 := N_0
  have hi0 : (i 0).val < 50000 := (i 0).isLt
  have hi1 : (i 1).val < 256 := (i 1).isLt
  have hq : (i 0).val / 2000 < cfg0.N := by rw [hN]; omega
  refine ⟨⟨(i 0).val / 2000, hq⟩, flush0_5 _, ?_⟩
  rw [mem_blk5]
  obtain ⟨-, -, -, -, -, -, -, -, -, -, e0, e1, -⟩ := idx_facts ⟨(i 0).val / 2000, hq⟩
  intro a
  match a with
  | ⟨0, _⟩ =>
    show win0_5.index ⟨(i 0).val / 2000, hq⟩ (0 : Fin 2) * 2000 ≤ (i 0).val
      ∧ (i 0).val < win0_5.index ⟨(i 0).val / 2000, hq⟩ (0 : Fin 2) * 2000 + 2000
    rw [e0]; dsimp only; omega
  | ⟨1, _⟩ =>
    show win0_5.index ⟨(i 0).val / 2000, hq⟩ (1 : Fin 2) * 256 ≤ (i 1).val
      ∧ (i 1).val < win0_5.index ⟨(i 0).val / 2000, hq⟩ (1 : Fin 2) * 256 + 256
    rw [e1]; omega

/-- The output array ends as the perceptron of the whole feature array. -/
theorem final0_5 (c : Dev nD) : (dat0 (F := Ideal) V c).arrAt 5 cfg0.N = Zarr0 V c :=
  (dat0 V c).arrAt_eq_of_cover 5 (Zarr0 V c) (fun t _ => flushed5_eq V c t) cover5

/-- The one write-back of the running column sums, after the last point, writes the column sums over all rows. -/
theorem flushed6_eq (c : Dev nD) (t : Fin cfg0.N) (hf : (cfg0.win 6).flush t = true) :
    (dat0 V c).flushed 6 t
      = ((cfg0.win 6).blk t).view.read (Elt Ideal) (fun j : S1x256.Idx => colSum (Zarr0 V c) 50000 (j 1)) := by
  have h24 : t.val % 25 = 24 := (flush0_6 t).mp hf
  have hN : cfg0.N = 25 := N_0
  have ht : t.val < 25 := hN ▸ t.isLt
  have hv : t.val = 24 := by omega
  obtain ⟨-, -, -, -, -, -, -, -, -, -, -, -, e0, e1, -⟩ := idx_facts t
  show (cfg0.win 6).cut (grid0.coords t) ((dat0 V c).after 6 t) = _
  rw [after0_6]
  funext j
  obtain ⟨u, q, rfl⟩ : ∃ (u : Fin 1) (q : Fin 256), j = ix2 u q := ⟨j 0, j 1, eq_ix2 j⟩
  rw [View.read_apply]
  show (outsAt0 V c t.val t.isLt).2.1 (ix2 u q) = _
  rw [(outsAt_sums V c t.val t.isLt u q).1, hv, show 2000 * (24 + 1) = 50000 from rfl]
  have hq : (((cfg0.win 6).blk t).view.emb (ix2 u q)) 1 = q :=
    Fin.ext (by show win0_6.index t (1 : Fin 2) * 256 + 1 * q.val = q.val; rw [e1]; omega)
  generalize colSum (Zarr0 V c) 50000 = f
  exact congrArg f hq.symm

theorem flushed7_eq (c : Dev nD) (t : Fin cfg0.N) (hf : (cfg0.win 7).flush t = true) :
    (dat0 V c).flushed 7 t
      = ((cfg0.win 7).blk t).view.read (Elt Ideal) (fun j : S1x256.Idx => colSumSq (Zarr0 V c) 50000 (j 1)) := by
  have h24 : t.val % 25 = 24 := (flush0_7 t).mp hf
  have hN : cfg0.N = 25 := N_0
  have ht : t.val < 25 := hN ▸ t.isLt
  have hv : t.val = 24 := by omega
  obtain ⟨-, -, -, -, -, -, -, -, -, -, -, -, -, -, e0, e1⟩ := idx_facts t
  show (cfg0.win 7).cut (grid0.coords t) ((dat0 V c).after 7 t) = _
  rw [after0_7]
  funext j
  obtain ⟨u, q, rfl⟩ : ∃ (u : Fin 1) (q : Fin 256), j = ix2 u q := ⟨j 0, j 1, eq_ix2 j⟩
  rw [View.read_apply]
  show (outsAt0 V c t.val t.isLt).2.2 (ix2 u q) = _
  rw [(outsAt_sums V c t.val t.isLt u q).2, hv, show 2000 * (24 + 1) = 50000 from rfl]
  have hq : (((cfg0.win 7).blk t).view.emb (ix2 u q)) 1 = q :=
    Fin.ext (by show win0_7.index t (1 : Fin 2) * 256 + 1 * q.val = q.val; rw [e1]; omega)
  generalize colSumSq (Zarr0 V c) 50000 = f
  exact congrArg f hq.symm

/-- The last point's block of a one-row output is the whole row. -/
theorem cover6 (i : S1x256.Idx) :
    ∃ t : Fin cfg0.N, (cfg0.win 6).flush t = true ∧ i ∈ ((cfg0.win 6).blk t).view.set := by
  have hN : cfg0.N = 25 := N_0
  have hi0 : (i 0).val < 1 := (i 0).isLt
  have hi1 : (i 1).val < 256 := (i 1).isLt
  have hq : 24 < cfg0.N := by rw [hN]; omega
  refine ⟨⟨24, hq⟩, (flush0_6 _).mpr rfl, ?_⟩
  rw [mem_blk6]
  obtain ⟨-, -, -, -, -, -, -, -, -, -, -, -, e0, e1, -⟩ := idx_facts ⟨24, hq⟩
  intro a
  match a with
  | ⟨0, _⟩ =>
    show win0_6.index ⟨24, hq⟩ (0 : Fin 2) * 1 ≤ (i 0).val ∧ (i 0).val < win0_6.index ⟨24, hq⟩ (0 : Fin 2) * 1 + 1
    rw [e0]; omega
  | ⟨1, _⟩ =>
    show win0_6.index ⟨24, hq⟩ (1 : Fin 2) * 256 ≤ (i 1).val ∧ (i 1).val < win0_6.index ⟨24, hq⟩ (1 : Fin 2) * 256 + 256
    rw [e1]; omega

theorem cover7 (i : S1x256.Idx) :
    ∃ t : Fin cfg0.N, (cfg0.win 7).flush t = true ∧ i ∈ ((cfg0.win 7).blk t).view.set := by
  have hN : cfg0.N = 25 := N_0
  have hi0 : (i 0).val < 1 := (i 0).isLt
  have hi1 : (i 1).val < 256 := (i 1).isLt
  have hq : 24 < cfg0.N := by rw [hN]; omega
  refine ⟨⟨24, hq⟩, (flush0_7 _).mpr rfl, ?_⟩
  rw [mem_blk7]
  obtain ⟨-, -, -, -, -, -, -, -, -, -, -, -, -, -, e0, e1⟩ := idx_facts ⟨24, hq⟩
  intro a
  match a with
  | ⟨0, _⟩ =>
    show win0_7.index ⟨24, hq⟩ (0 : Fin 2) * 1 ≤ (i 0).val ∧ (i 0).val < win0_7.index ⟨24, hq⟩ (0 : Fin 2) * 1 + 1
    rw [e0]; omega
  | ⟨1, _⟩ =>
    show win0_7.index ⟨24, hq⟩ (1 : Fin 2) * 256 ≤ (i 1).val ∧ (i 1).val < win0_7.index ⟨24, hq⟩ (1 : Fin 2) * 256 + 256
    rw [e1]; omega

/-- The column-sum output ends as the column sums of the perceptron over all 50000 rows. -/
theorem final0_6 (c : Dev nD) :
    (dat0 (F := Ideal) V c).arrAt 6 cfg0.N = fun j : S1x256.Idx => colSum (Zarr0 V c) 50000 (j 1) :=
  (dat0 V c).arrAt_eq_of_cover 6 _ (flushed6_eq V c) cover6

/-- The sum-of-squares output ends as the column sums of squares over all 50000 rows. -/
theorem final0_7 (c : Dev nD) :
    (dat0 (F := Ideal) V c).arrAt 7 cfg0.N = fun j : S1x256.Idx => colSumSq (Zarr0 V c) 50000 (j 1) :=
  (dat0 V c).arrAt_eq_of_cover 7 _ (flushed7_eq V c) cover7

/-- The five input arrays end as the launch found them. -/
theorem kept0 (c : Dev nD) (w : Fin cfg0.W) (hw : w.val < 5) :
    (dat0 (F := Ideal) V c).arrAt w cfg0.N = V c (Pipeline.arrRef spec0 w) := by
  have h : (dat0 (F := Ideal) V c).arrAt w cfg0.N = (dat0 (F := Ideal) V c).A w := by
    match w, hw with
    | ⟨0, _⟩, _ => exact (dat0 V c).arrAt_in 0 rfl _
    | ⟨1, _⟩, _ => exact (dat0 V c).arrAt_in 1 rfl _
    | ⟨2, _⟩, _ => exact (dat0 V c).arrAt_in 2 rfl _
    | ⟨3, _⟩, _ => exact (dat0 V c).arrAt_in 3 rfl _
    | ⟨4, _⟩, _ => exact (dat0 V c).arrAt_in 4 rfl _
  rw [h, A_eq0]

end Cert.KernelIdeal.MlpValue

end
-- ==== Proof.BnSpec.lean ====
import proofs.«159704_j38585986187613_1_alg».proof.Proof.Gen.KernelIdeal.Skeleton
import Idealize.ShloMosaic.Lib.Pipeline.Value
import Idealize.ShloMosaic.Lib.ValueIdx
import Idealize.ShloMosaic.Lib.ValueLayout

/-! # Batch normalisation applied, as one function of the arrays, and the block body's arithmetic read entry by entry

The function bn of the activations z and the four one-row parameter arrays g, b, mu, v is the array whose entry (r, k)
is g k * (z (r, k) - mu k) * rsqrt (v k + eps) + b k, each parameter indexed by the column. Each of the three
normalising regions' bodies stores, at entry (p, q) of its 2000-row block, that expression of the block's entry and of
column q of the four parameter rows. -/

noncomputable section

open Idealize.ShloMosaic Idealize.ShloMosaic.TcCoe Idealize.SL.Sem
open Idealize.ShloMosaic.ValueIdx

namespace Cert.KernelIdeal.BnValue

open Cert.KernelIdeal Cert.KernelIdeal.Gen

/-- Batch normalisation applied: entry (r, k) of the activations, centred at column k's mean, scaled by column k's
    gain and by the reciprocal square root of column k's variance plus the stabiliser, shifted by column k's offset. -/
def bn (z : FVec Ideal S50000x256 .f32) (g b mu v : FVec Ideal S1x256 .f32) : FVec Ideal S50000x256 .f32 :=
  fun i => (g (ix2 (0 : Fin 1) (i 1)) * (z i - mu (ix2 (0 : Fin 1) (i 1)))) * Ideal.rsqrt (v (ix2 (0 : Fin 1) (i 1)) + Ideal.ofBits .f32 0x3727C5AC#32) + b (ix2 (0 : Fin 1) (i 1))

/-- The normalisation's entry from its five ingredients: whatever equals the activations' entry and column k of each
    parameter row combines to the normalised entry. -/
theorem bn_of_entries (z : FVec Ideal S50000x256 .f32) (g b mu v : FVec Ideal S1x256 .f32) (i : S50000x256.Idx)
    (a0 a1 a2 a3 a4 : Ideal .f32) (h0 : a0 = z i) (h1 : a1 = g (ix2 (0 : Fin 1) (i 1))) (h2 : a2 = b (ix2 (0 : Fin 1) (i 1)))
    (h3 : a3 = mu (ix2 (0 : Fin 1) (i 1))) (h4 : a4 = v (ix2 (0 : Fin 1) (i 1))) :
    (a1 * (a0 - a3)) * Ideal.rsqrt (a4 + Ideal.ofBits .f32 0x3727C5AC#32) + a2 = bn z g b mu v i := by
  subst h0 h1 h2 h3 h4; rfl

/-- The offsets (0, 0) are the zero offsets. -/
theorem zero_offsets : (![0, 0] : Fin 2 → Nat) = fun _ => 0 := funext fun a => by fin_cases a <;> rfl

/-- Region 1's stored value at entry (p, q) of a block: the normalisation of the activations' entry by column q of
    the four parameter rows (the rows are repeated down the block's 2000 rows). -/
theorem pay1_apply (x0 : Vec Ideal S2000x256 .f32) (xv xg xm xb : Vec Ideal S1x256 .f32) (p : Fin 2000) (q : Fin 256) :
    k1_pay1 (F := Ideal) x0 xv xg xm xb (ix2 p q) = (xg (ix2 (0 : Fin 1) q) * (x0 (ix2 p q) - xm (ix2 (0 : Fin 1) q))) * Ideal.rsqrt (xv (ix2 (0 : Fin 1) q) + Ideal.ofBits .f32 0x3727C5AC#32) + xb (ix2 (0 : Fin 1) q) := by
  unfold k1_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The same at any index of the block. -/
theorem pay1_apply_idx (x0 : Vec Ideal S2000x256 .f32) (xv xg xm xb : Vec Ideal S1x256 .f32) (j : S2000x256.Idx) :
    k1_pay1 (F := Ideal) x0 xv xg xm xb j = (xg (ix2 (0 : Fin 1) (j 1)) * (x0 j - xm (ix2 (0 : Fin 1) (j 1)))) * Ideal.rsqrt (xv (ix2 (0 : Fin 1) (j 1)) + Ideal.ofBits .f32 0x3727C5AC#32) + xb (ix2 (0 : Fin 1) (j 1)) := by
  obtain ⟨p, q, rfl⟩ : ∃ (p : Fin 2000) (q : Fin 256), j = ix2 p q := ⟨j 0, j 1, eq_ix2 j⟩
  exact pay1_apply x0 xv xg xm xb p q

/-- Region 3's stored value at entry (p, q) of a block: the normalisation of the activations' entry by column q of
    the four parameter rows (the rows are repeated down the block's 2000 rows). -/
theorem pay3_apply (x0 : Vec Ideal S2000x256 .f32) (xv xg xm xb : Vec Ideal S1x256 .f32) (p : Fin 2000) (q : Fin 256) :
    k3_pay1 (F := Ideal) x0 xv xg xm xb (ix2 p q) = (xg (ix2 (0 : Fin 1) q) * (x0 (ix2 p q) - xm (ix2 (0 : Fin 1) q))) * Ideal.rsqrt (xv (ix2 (0 : Fin 1) q) + Ideal.ofBits .f32 0x3727C5AC#32) + xb (ix2 (0 : Fin 1) q) := by
  unfold k3_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The same at any index of the block. -/
theorem pay3_apply_idx (x0 : Vec Ideal S2000x256 .f32) (xv xg xm xb : Vec Ideal S1x256 .f32) (j : S2000x256.Idx) :
    k3_pay1 (F := Ideal) x0 xv xg xm xb j = (xg (ix2 (0 : Fin 1) (j 1)) * (x0 j - xm (ix2 (0 : Fin 1) (j 1)))) * Ideal.rsqrt (xv (ix2 (0 : Fin 1) (j 1)) + Ideal.ofBits .f32 0x3727C5AC#32) + xb (ix2 (0 : Fin 1) (j 1)) := by
  obtain ⟨p, q, rfl⟩ : ∃ (p : Fin 2000) (q : Fin 256), j = ix2 p q := ⟨j 0, j 1, eq_ix2 j⟩
  exact pay3_apply x0 xv xg xm xb p q

/-- Region 5's stored value at entry (p, q) of a block: the normalisation of the activations' entry by column q of
    the four parameter rows (the rows are repeated down the block's 2000 rows). -/
theorem pay5_apply (x0 : Vec Ideal S2000x256 .f32) (xv xg xm xb : Vec Ideal S1x256 .f32) (p : Fin 2000) (q : Fin 256) :
    k5_pay1 (F := Ideal) x0 xv xg xm xb (ix2 p q) = (xg (ix2 (0 : Fin 1) q) * (x0 (ix2 p q) - xm (ix2 (0 : Fin 1) q))) * Ideal.rsqrt (xv (ix2 (0 : Fin 1) q) + Ideal.ofBits .f32 0x3727C5AC#32) + xb (ix2 (0 : Fin 1) q) := by
  unfold k5_pay1
  simp only [shapeCast_self]
  rw [addf_apply, mulf_apply, mulf_apply, subf_apply]
  rw [broadcastTo_1b_ab_apply, broadcastTo_1b_ab_apply, broadcastTo_1b_ab_apply, broadcastTo_1b_ab_apply]
  rfl

/-- The same at any index of the block. -/
theorem pay5_apply_idx (x0 : Vec Ideal S2000x256 .f32) (xv xg xm xb : Vec Ideal S1x256 .f32) (j : S2000x256.Idx) :
    k5_pay1 (F := Ideal) x0 xv xg xm xb j = (xg (ix2 (0 : Fin 1) (j 1)) * (x0 j - xm (ix2 (0 : Fin 1) (j 1)))) * Ideal.rsqrt (xv (ix2 (0 : Fin 1) (j 1)) + Ideal.ofBits .f32 0x3727C5AC#32) + xb (ix2 (0 : Fin 1) (j 1)) := by
  obtain ⟨p, q, rfl⟩ : ∃ (p : Fin 2000) (q : Fin 256), j = ix2 p q := ⟨j 0, j 1, eq_ix2 j⟩
  exact pay5_apply x0 xv xg xm xb p q

end Cert.KernelIdeal.BnValue

end
-- ==== Proof.BnValue1.lean ====
import proofs.«159704_j38585986187613_1_alg».proof.Proof.Gen.KernelIdeal.Frame
import proofs.«159704_j38585986187613_1_alg».proof.Proof.BnSpec

/-! # Region 1: the array the normalising region leaves

At every grid point the region's body stores the normalisation of its block; the 25 blocks of 2000 rows tile the
50000 rows, so the output array ends holding the normalisation of the five input arrays as the region finds them, and
the input arrays end unchanged. -/

noncomputable section

open Idealize.ShloMosaic Idealize.ShloMosaic.TcCoe Idealize.SL.Sem
open Idealize.ShloMosaic.Pipeline (Dat)
open Idealize.ShloMosaic.ValueIdx

namespace Cert.KernelIdeal.BnValue

open Cert.KernelIdeal Cert.KernelIdeal.Gen

-- the buffer contents when the region is entered
variable (V : (c : Dev nD) → (b : Ref sig .tc) → Buf (Elt Ideal) ((c : Thread nD τ).loc b))

/-! ## Region 1: the normalisation applied block by block -/

section Region1

/-- The printed index maps of region 1, decided over its 25 grid points: the activations' block and the output's block
    are both row block `t`, column block 0; each of the four parameter rows is its array's one block at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The activations' block at point `t` sits at the rows and columns of the output's block at `t`. -/
theorem iblk1_0_at (c : Dev nD) (t : Fin cfg1.N) (j : S2000x256.Idx) :
    iblk1 V c 0 t j = V c (Pipeline.arrRef spec1 0) (((cfg1.win 5).blk t).view.emb j) := by
  obtain ⟨e00, e01, e10, e11, e20, e21, e30, e31, e40, e41, e50, e51⟩ := idx_facts1 t
  show V c (Pipeline.arrRef spec1 0) (((cfg1.win 0).blk t).view.emb j) = V c (Pipeline.arrRef spec1 0) (((cfg1.win 5).blk t).view.emb j)
  refine congrArg _ (funext fun a => Fin.ext ?_)
  match a with
  | ⟨0, _⟩ => show win1_0.index t (0 : Fin 2) * 2000 + 1 * (j 0).val = win1_5.index t (0 : Fin 2) * 2000 + 1 * (j 0).val; rw [e00, e50]
  | ⟨1, _⟩ => show win1_0.index t (1 : Fin 2) * 256 + 1 * (j 1).val = win1_5.index t (1 : Fin 2) * 256 + 1 * (j 1).val; rw [e01, e51]

/-- Parameter row 1's one block is the whole row: read at column q it is the row's entry at the output block's column q. -/
theorem iblk1_1_at (c : Dev nD) (t : Fin cfg1.N) (j : S2000x256.Idx) :
    iblk1 V c 1 t (ix2 (0 : Fin 1) (j 1)) = V c (Pipeline.arrRef spec1 1) (ix2 (0 : Fin 1) ((((cfg1.win 5).blk t).view.emb j) 1)) := by
  obtain ⟨e00, e01, e10, e11, e20, e21, e30, e31, e40, e41, e50, e51⟩ := idx_facts1 t
  show V c (Pipeline.arrRef spec1 1) (((cfg1.win 1).blk t).view.emb (ix2 (0 : Fin 1) (j 1))) = _
  refine congrArg _ (funext fun a => Fin.ext ?_)
  match a with
  | ⟨0, _⟩ => show win1_1.index t (0 : Fin 2) * 1 + 1 * 0 = 0; rw [e10]
  | ⟨1, _⟩ => show win1_1.index t (1 : Fin 2) * 256 + 1 * (j 1).val = win1_5.index t (1 : Fin 2) * 256 + 1 * (j 1).val; rw [e11, e51]

/-- Parameter row 2's one block is the whole row: read at column q it is the row's entry at the output block's column q. -/
theorem iblk1_2_at (c : Dev nD) (t : Fin cfg1.N) (j : S2000x256.Idx) :
    iblk1 V c 2 t (ix2 (0 : Fin 1) (j 1)) = V c (Pipeline.arrRef spec1 2) (ix2 (0 : Fin 1) ((((cfg1.win 5).blk t).view.emb j) 1)) := by
  obtain ⟨e00, e01, e10, e11, e20, e21, e30, e31, e40, e41, e50, e51⟩ := idx_facts1 t
  show V c (Pipeline.arrRef spec1 2) (((cfg1.win 2).blk t).view.emb (ix2 (0 : Fin 1) (j 1))) = _
  refine congrArg _ (funext fun a => Fin.ext ?_)
  match a with
  | ⟨0, _⟩ => show win1_2.index t (0 : Fin 2) * 1 + 1 * 0 = 0; rw [e20]
  | ⟨1, _⟩ => show win1_2.index t (1 : Fin 2) * 256 + 1 * (j 1).val = win1_5.index t (1 : Fin 2) * 256 + 1 * (j 1).val; rw [e21, e51]

/-- Parameter row 3's one block is the whole row: read at column q it is the row's entry at the output block's column q. -/
theorem iblk1_3_at (c : Dev nD) (t : Fin cfg1.N) (j : S2000x256.Idx) :
    iblk1 V c 3 t (ix2 (0 : Fin 1) (j 1)) = V c (Pipeline.arrRef spec1 3) (ix2 (0 : Fin 1) ((((cfg1.win 5).blk t).view.emb j) 1)) := by
  obtain ⟨e00, e01, e10, e11, e20, e21, e30, e31, e40, e41, e50, e51⟩ := idx_facts1 t
  show V c (Pipeline.arrRef spec1 3) (((cfg1.win 3).blk t).view.emb (ix2 (0 : Fin 1) (j 1))) = _
  refine congrArg _ (funext fun a => Fin.ext ?_)
  match a with
  | ⟨0, _⟩ => show win1_3.index t (0 : Fin 2) * 1 + 1 * 0 = 0; rw [e30]
  | ⟨1, _⟩ => show win1_3.index t (1 : Fin 2) * 256 + 1 * (j 1).val = win1_5.index t (1 : Fin 2) * 256 + 1 * (j 1).val; rw [e31, e51]

/-- Parameter row 4's one block is the whole row: read at column q it is the row's entry at the output block's column q. -/
theorem iblk1_4_at (c : Dev nD) (t : Fin cfg1.N) (j : S2000x256.Idx) :
    iblk1 V c 4 t (ix2 (0 : Fin 1) (j 1)) = V c (Pipeline.arrRef spec1 4) (ix2 (0 : Fin 1) ((((cfg1.win 5).blk t).view.emb j) 1)) := by
  obtain ⟨e00, e01, e10, e11, e20, e21, e30, e31, e40, e41, e50, e51⟩ := idx_facts1 t
  show V c (Pipeline.arrRef spec1 4) (((cfg1.win 4).blk t).view.emb (ix2 (0 : Fin 1) (j 1))) = _
  refine congrArg _ (funext fun a => Fin.ext ?_)
  match a with
  | ⟨0, _⟩ => show win1_4.index t (0 : Fin 2) * 1 + 1 * 0 = 0; rw [e40]
  | ⟨1, _⟩ => show win1_4.index t (1 : Fin 2) * 256 + 1 * (j 1).val = win1_5.index t (1 : Fin 2) * 256 + 1 * (j 1).val; rw [e41, e51]

/-- What point `t` writes back is row block `t` of the normalised array: the activations' block sits at the same rows
    as the output's block, and each parameter row is read whole. -/
theorem flushed1_eq (c : Dev nD) (t : Fin cfg1.N) :
    (dat1 (F := Ideal) V c).flushed 5 t = ((cfg1.win 5).blk t).view.read (Elt Ideal)
      (bn (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero zero_offsets]
  simp only [View.ld_unit_zero (S := S2000x256) zero_offsets, View.ld_unit_zero (S := S1x256) zero_offsets]
  funext j
  refine (pay1_apply_idx (iblk1 V c 0 t) (iblk1 V c 4 t) (iblk1 V c 1 t) (iblk1 V c 3 t) (iblk1 V c 2 t) j).trans ?_
  exact bn_of_entries (V c (Pipeline.arrRef spec1 0)) (V c (Pipeline.arrRef spec1 1)) (V c (Pipeline.arrRef spec1 2)) (V c (Pipeline.arrRef spec1 3)) (V c (Pipeline.arrRef spec1 4))
    (((cfg1.win 5).blk t).view.emb j) _ _ _ _ _
    (iblk1_0_at V c t j) (iblk1_1_at V c t j) (iblk1_2_at V c t j) (iblk1_3_at V c t j) (iblk1_4_at V c t j)

/-- An index of the array is in point `t`'s block iff each coordinate is in the block's range on its axis. -/
theorem mem_blk1 (t : Fin cfg1.N) (i : S50000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v32).slice (win1_5.rect t)).set ↔ _
  rw [View.set_slice_whole, Rect.mem_set_unit]
  exact Iff.rfl

/-- Row `r` of the array lies in the block of point `r / 2000`: the 25 row blocks of 2000 rows tile the 50000 rows. -/
theorem cover1 (i : S50000x256.Idx) : ∃ t : Fin cfg1.N, (cfg1.win 5).flush t = true ∧ i ∈ ((cfg1.win 5).blk t).view.set := by
  have hi0 : (i 0).val < 50000 := (i 0).isLt
  have hi1 : (i 1).val < 256 := (i 1).isLt
  have hN : grid1.N = 25 := N_1
  have hlt : (i 0).val / 2000 < cfg1.N := Nat.lt_of_lt_of_eq (by omega : (i 0).val / 2000 < 25) hN.symm
  obtain ⟨e00, e01, e10, e11, e20, e21, e30, e31, e40, e41, e50, e51⟩ := idx_facts1 ⟨(i 0).val / 2000, hlt⟩
  refine ⟨⟨(i 0).val / 2000, hlt⟩, flush1_5 _, ?_⟩
  rw [mem_blk1]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    rw [e51]; omega

/-- THE ARRAY after region 1: the normalisation of the activations by the four parameter rows, all as the region finds them. -/
theorem final1 (c : Dev nD) : (dat1 (F := Ideal) V c).arrAt 5 cfg1.N
    = bn (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed1_eq V c t) cover1

/-- The five input arrays of region 1 end as the region finds them: an input window is never written back. -/
theorem kept1 (c : Dev nD) (w : Fin cfg1.W) (hw : w ≠ 5) : (dat1 (F := Ideal) V c).arrAt w cfg1.N = V c (Pipeline.arrRef spec1 w) := by
  have hin : (cfg1.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat1 V c).arrAt_in w hin _).trans (A_eq1 V c w)

end Region1

end Cert.KernelIdeal.BnValue

end
-- ==== Proof.BnLayer.lean ====
import proofs.«159704_j38585986187613_1_alg».proof.Proof.BnSpec
import proofs.«159704_j38585986187613_1_alg».proof.Proof.RefRead
import proofs.«159704_j38585986187613_1_alg».proof.Proof.GinLayer
import proofs.«159704_j38585986187613_1_alg».proof.Proof.Stats
import Idealize.ShloMosaic.Lib.ValueLayout

/-! # The normalising region's array is the layer's specification

The kernel's host computes, from the two one-row arrays of column sums, the column means (the sums divided by 50000)
and the column variances (the larger of zero and the mean of the squares less the squared mean), and places them and the
gain and offset vectors as one-row arrays. The batch normalisation of the perceptron's output by those four rows is the
layer whose variance is written from the column sums. -/

open scoped BigOperators

noncomputable section

open Idealize.ShloMosaic Idealize.ShloMosaic.TcCoe Idealize.SL.Sem
open Idealize.ShloMosaic.ValueIdx

namespace Cert.KernelIdeal.BnValue

open Cert.KernelIdeal Cert.KernelIdeal.Gen Cert.Gin Cert.DenseLayer
open Cert.ReferenceIdeal.RefValue (row row_ix2)

/-- A vector of 256 entries reshaped to one row is that vector as the one row of a matrix. -/
theorem reshape_row (b : FVec Ideal S256 .f32) : shapeCast S1x256 b shapeCasts_S256_S1x256 = row b := by
  funext j
  obtain ⟨u, q, rfl⟩ : ∃ (u : Fin 1) (q : Fin 256), j = ix2 u q := ⟨j 0, j 1, eq_ix2 j⟩
  exact shapeCast_a_1a_apply b shapeCasts_S256_S1x256 u q

/-- The column means as the host computes them: the one-row array of column sums read as a vector, divided by 50000. -/
def meanVec (s : FVec Ideal S1x256 .f32) : FVec Ideal S256 .f32 :=
  Host.divf (F := Ideal) (shapeCast S256 s shapeCasts_S1x256_S256)
    (broadcastInDim S256 ![] bcast_S_S256 (constant (F := Ideal) S_ .f32 0x47435000#32))

/-- The column variances as the host computes them: the larger of zero and the mean of the squares less the squared mean. -/
def varVec (s ss : FVec Ideal S1x256 .f32) : FVec Ideal S256 .f32 :=
  maximumf (F := Ideal)
    (subf (F := Ideal)
      (Host.divf (F := Ideal) (shapeCast S256 ss shapeCasts_S1x256_S256)
        (broadcastInDim S256 ![] bcast_S_S256 (constant (F := Ideal) S_ .f32 0x47435000#32)))
      (mulf (F := Ideal) (meanVec s) (meanVec s)))
    (broadcastInDim S256 ![] bcast_S_S256 (constant (F := Ideal) S_ .f32 0x00000000#32))

/-- Entry q of the host's mean vector is column q's mean, when the one-row array holds the column sums. -/
theorem meanVec_apply (z : FVec Ideal S50000x256 .f32) (s : FVec Ideal S1x256 .f32)
    (hs : ∀ q : Fin 256, s (ix2 (0 : Fin 1) q) = colSum z 50000 q) (q : Fin 256) : meanVec s (ix1 q) = meanCol z q := by
  unfold meanVec meanCol
  show Ideal.div (shapeCast S256 s shapeCasts_S1x256_S256 (ix1 q))
      (broadcastInDim S256 ![] bcast_S_S256 (constant (F := Ideal) S_ .f32 0x47435000#32) (ix1 q)) = _
  rw [shapeCast_1a_a_apply, scalar_apply, hs, colSum_all]
  show Ideal.div _ (Ideal.ofBits .f32 0x47435000#32) = _
  rw [Stats.n_word]

/-- Entry q of the host's variance vector is column q's variance written from the column sums. -/
theorem varVec_apply (z : FVec Ideal S50000x256 .f32) (s ss : FVec Ideal S1x256 .f32)
    (hs : ∀ q : Fin 256, s (ix2 (0 : Fin 1) q) = colSum z 50000 q)
    (hss : ∀ q : Fin 256, ss (ix2 (0 : Fin 1) q) = colSumSq z 50000 q) (q : Fin 256) :
    varVec s ss (ix1 q) = varColSums z q := by
  unfold varVec varColSums
  show max (Ideal.div (shapeCast S256 ss shapeCasts_S1x256_S256 (ix1 q))
        (broadcastInDim S256 ![] bcast_S_S256 (constant (F := Ideal) S_ .f32 0x47435000#32) (ix1 q))
      - meanVec s (ix1 q) * meanVec s (ix1 q))
      (broadcastInDim S256 ![] bcast_S_S256 (constant (F := Ideal) S_ .f32 0x00000000#32) (ix1 q)) = _
  rw [shapeCast_1a_a_apply, scalar_apply, scalar_apply, hss, colSumSq_all, meanVec_apply z s hs q]
  show max (Ideal.div _ (Ideal.ofBits .f32 0x47435000#32) - _) (Ideal.ofBits .f32 0x00000000#32) = _
  rw [Stats.n_word, Stats.zero_word]

/-- The batch normalisation of the perceptron's output by the host's four rows is the layer with the variance from
    the column sums. -/
theorem bn_eq_layer {K : ℕ} (zpre : FVec Ideal ⟨2, ![50000, K]⟩ .f32) (w1 : FVec Ideal ⟨2, ![K, 256]⟩ .f32)
    (b1 : FVec Ideal ⟨2, ![1, 256]⟩ .f32) (w2 : FVec Ideal ⟨2, ![256, 256]⟩ .f32) (b2 : FVec Ideal ⟨2, ![1, 256]⟩ .f32)
    (ga ba : FVec Ideal S256 .f32) (s ss : FVec Ideal S1x256 .f32)
    (hs : ∀ q : Fin 256, s (ix2 (0 : Fin 1) q) = colSum (Zfun zpre w1 b1 w2 b2) 50000 q)
    (hss : ∀ q : Fin 256, ss (ix2 (0 : Fin 1) q) = colSumSq (Zfun zpre w1 b1 w2 b2) 50000 q) :
    bn (Zfun zpre w1 b1 w2 b2) (row ga) (row ba) (row (meanVec s)) (row (varVec s ss))
      = layerSpecSums (K := K) (B := 256) zpre w1 b1 w2 b2 (fun q => ga (ix1 q)) (fun q => ba (ix1 q)) := by
  funext i
  obtain ⟨p, q, rfl⟩ : ∃ (p : Fin 50000) (q : Fin 256), i = ix2 p q := ⟨i 0, i 1, eq_ix2 i⟩
  unfold bn layerSpecSums normAt
  show (row ga (ix2 (0 : Fin 1) q) * (Zfun zpre w1 b1 w2 b2 (ix2 p q) - row (meanVec s) (ix2 (0 : Fin 1) q)))
        * Ideal.rsqrt (row (varVec s ss) (ix2 (0 : Fin 1) q) + Ideal.ofBits .f32 0x3727C5AC#32) + row ba (ix2 (0 : Fin 1) q)
      = ga (ix1 q) * (Zfun zpre w1 b1 w2 b2 (ix2 p q) - meanCol (Zfun zpre w1 b1 w2 b2) q)
        * Ideal.rsqrt (varColSums (Zfun zpre w1 b1 w2 b2) q + Ideal.ofBits .f32 0x3727C5AC#32) + ba (ix1 q)
  rw [row_ix2, row_ix2, row_ix2, row_ix2, meanVec_apply _ s hs q, varVec_apply _ s ss hs hss q]

end Cert.KernelIdeal.BnValue

end
-- ==== Proof.KernelChain1.lean ====
import proofs.«159704_j38585986187613_1_alg».proof.Proof.Gen.KernelIdeal.Frame
import proofs.«159704_j38585986187613_1_alg».proof.Proof.RefRunStages
import proofs.«159704_j38585986187613_1_alg».proof.Proof.RefRead
import proofs.«159704_j38585986187613_1_alg».proof.Proof.MlpRegion0
import proofs.«159704_j38585986187613_1_alg».proof.Proof.BnValue1
import proofs.«159704_j38585986187613_1_alg».proof.Proof.BnLayer
import proofs.«159704_j38585986187613_1_alg».proof.Proof.KernelInv
import Idealize.ShloMosaic.Lib.StableHlo.Run
import Idealize.ShloMosaic.Lib.ValueIdx

/-! # From the launch to the first layer's end

The first host stretch aggregates the neighbours' rows and reshapes the biases; the first region leaves the
perceptron's output array and its two rows of column sums; the second stretch turns the sums into the column means and
variances and reshapes the gain and the offset; the second region normalises. Composed, the layer's output buffer
holds the first layer of the launch arrays, the two edge-index buffers hold the sources and the destinations, and the
arguments the later layers read are as launched. -/

noncomputable section

open Idealize.ShloMosaic Idealize.ShloMosaic.TcCoe Idealize.SL.Sem
open Idealize.ShloMosaic.ValueIdx

namespace Cert.KernelIdeal.Chain

open Cert.KernelIdeal Cert.KernelIdeal.Gen
open Cert.ReferenceIdeal.RefValue (refSrc refDst refAgg128 row)
open Cert.KernelIdeal.BnValue (bn meanVec varVec reshape_row bn_eq_layer final1)
open Cert.KernelIdeal.MlpValue (Zarr0 final0_5 final0_6 final0_7)

/-- A buffer that no operation of a stretch writes keeps its contents over the stretch. -/
macro "first_layer_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## The two host stretches of the first layer, over any contents -/

section Stretches

variable (W : Valuation τ sig (Elt Ideal))

/-- The first stretch leaves, in the aggregation's buffer, each node's row plus the sum of its in-neighbours' rows. -/
theorem host0_v14 : StableHlo.after (hostOps0 (F := Ideal)) W (Proc.devRef .tc main_v14)
    = refAgg128 (W (Proc.devRef .tc main_arg0)) (W (Proc.devRef .tc main_arg1)) := by
  after_results_simp; rfl

/-- It leaves the edges' sources and destinations in their two buffers. -/
theorem host0_v1 : StableHlo.after (hostOps0 (F := Ideal)) W (Proc.devRef .tc main_v1) = refSrc (W (Proc.devRef .tc main_arg1)) := by
  after_results; rfl

theorem host0_v3 : StableHlo.after (hostOps0 (F := Ideal)) W (Proc.devRef .tc main_v3) = refDst (W (Proc.devRef .tc main_arg1)) := by
  after_results; rfl

/-- It leaves each bias vector as a one-row matrix. -/
theorem host0_v15 : StableHlo.after (hostOps0 (F := Ideal)) W (Proc.devRef .tc main_v15) = row (W (Proc.devRef .tc main_arg4)) := by
  rw [← reshape_row]; after_results; rfl

theorem host0_v16 : StableHlo.after (hostOps0 (F := Ideal)) W (Proc.devRef .tc main_v16) = row (W (Proc.devRef .tc main_arg6)) := by
  rw [← reshape_row]; after_results; rfl

/-- The second stretch leaves the gain and the offset as one-row matrices, -/
theorem host1_v28 : StableHlo.after (hostOps1 (F := Ideal)) W (Proc.devRef .tc main_v28) = row (W (Proc.devRef .tc main_arg7)) := by
  rw [← reshape_row]; after_results; rfl

theorem host1_v29 : StableHlo.after (hostOps1 (F := Ideal)) W (Proc.devRef .tc main_v29) = row (W (Proc.devRef .tc main_arg8)) := by
  rw [← reshape_row]; after_results; rfl

/-- and the column means and variances computed from the two rows of column sums, as one-row matrices. -/
theorem host1_v30 : StableHlo.after (hostOps1 (F := Ideal)) W (Proc.devRef .tc main_v30) = row (meanVec (W (Proc.devRef .tc main_v17_1))) := by
  rw [← reshape_row]; after_results; rfl

theorem host1_v31 : StableHlo.after (hostOps1 (F := Ideal)) W (Proc.devRef .tc main_v31)
    = row (varVec (W (Proc.devRef .tc main_v17_1)) (W (Proc.devRef .tc main_v17_2))) := by
  rw [← reshape_row]; after_results_simp; rfl

end Stretches

/-! ## The buffers from the launch to the first layer's end -/

variable (m : (ℓ : Loc nD τ sig) → Buf (Elt Ideal) ℓ) (ρ : Dev nD → PrngReg)

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := by first_layer_keeps hostOps0
    _ = m ((c : Thread nD τ).loc main_arg3) := rfl

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := by first_layer_keeps hostOps0
    _ = m ((c : Thread nD τ).loc main_arg5) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by first_layer_keeps hostOps0
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by first_layer_keeps hostOps0
    _ = m ((c : Thread nD τ).loc main_arg8) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by first_layer_keeps hostOps1
    _ = W1 m ρ c (Proc.devRef .tc main_arg2) := W2_of_ne m ρ c main_arg2 (by decide)
    _ = W0 m ρ c (Proc.devRef .tc main_arg2) := by first_layer_keeps hostOps0
    _ = m ((c : Thread nD τ).loc main_arg2) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by first_layer_keeps hostOps1
    _ = W1 m ρ c (Proc.devRef .tc main_arg9) := W2_of_ne m ρ c main_arg9 (by decide)
    _ = W0 m ρ c (Proc.devRef .tc main_arg9) := by first_layer_keeps hostOps0
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by first_layer_keeps hostOps1
    _ = W1 m ρ c (Proc.devRef .tc main_arg10) := W2_of_ne m ρ c main_arg10 (by decide)
    _ = W0 m ρ c (Proc.devRef .tc main_arg10) := by first_layer_keeps hostOps0
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by first_layer_keeps hostOps1
    _ = W1 m ρ c (Proc.devRef .tc main_arg11) := W2_of_ne m ρ c main_arg11 (by decide)
    _ = W0 m ρ c (Proc.devRef .tc main_arg11) := by first_layer_keeps hostOps0
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by first_layer_keeps hostOps1
    _ = W1 m ρ c (Proc.devRef .tc main_arg12) := W2_of_ne m ρ c main_arg12 (by decide)
    _ = W0 m ρ c (Proc.devRef .tc main_arg12) := by first_layer_keeps hostOps0
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := W4_of_ne m ρ c main_arg13 (by decide)
    _ = W2 m ρ c (Proc.devRef .tc main_arg13) := by first_layer_keeps hostOps1
    _ = W1 m ρ c (Proc.devRef .tc main_arg13) := W2_of_ne m ρ c main_arg13 (by decide)
    _ = W0 m ρ c (Proc.devRef .tc main_arg13) := by first_layer_keeps hostOps0
    _ = m ((c : Thread nD τ).loc main_arg13) := rfl

theorem W4_main_arg14 (c : Dev nD) : W4 m ρ c (Proc.devRef .tc main_arg14) = m ((c : Thread nD τ).loc main_arg14) :=
  calc W4 m ρ c (Proc.devRef .tc main_arg14)
    _ = W3 m ρ c (Proc.devRef .tc main_arg14) := W4_of_ne m ρ c main_arg14 (by decide)
    _ = W2 m ρ c (Proc.devRef .tc main_arg14) := by first_layer_keeps hostOps1
    _ = W1 m ρ c (Proc.devRef .tc main_arg14) := W2_of_ne m ρ c main_arg14 (by decide)
    _ = W0 m ρ c (Proc.devRef .tc main_arg14) := by first_layer_keeps hostOps0
    _ = m ((c : Thread nD τ).loc main_arg14) := rfl

theorem W4_main_v1 (c : Dev nD) : W4 m ρ c (Proc.devRef .tc main_v1) = refSrc (m ((c : Thread nD τ).loc main_arg1)) :=
  calc W4 m ρ c (Proc.devRef .tc main_v1)
    _ = W3 m ρ c (Proc.devRef .tc main_v1) := W4_of_ne m ρ c main_v1 (by decide)
    _ = W2 m ρ c (Proc.devRef .tc main_v1) := by first_layer_keeps hostOps1
    _ = W1 m ρ c (Proc.devRef .tc main_v1) := W2_of_ne m ρ c main_v1 (by decide)
    _ = refSrc (m ((c : Thread nD τ).loc main_arg1)) := host0_v1 (W0 m ρ c)

theorem W4_main_v3 (c : Dev nD) : W4 m ρ c (Proc.devRef .tc main_v3) = refDst (m ((c : Thread nD τ).loc main_arg1)) :=
  calc W4 m ρ c (Proc.devRef .tc main_v3)
    _ = W3 m ρ c (Proc.devRef .tc main_v3) := W4_of_ne m ρ c main_v3 (by decide)
    _ = W2 m ρ c (Proc.devRef .tc main_v3) := by first_layer_keeps hostOps1
    _ = W1 m ρ c (Proc.devRef .tc main_v3) := W2_of_ne m ρ c main_v3 (by decide)
    _ = refDst (m ((c : Thread nD τ).loc main_arg1)) := host0_v3 (W0 m ρ c)

/-- The perceptron's output array the first region leaves is that of the aggregated launch features under the launch weights. -/
theorem zarr0_eq (c : Dev nD) : Zarr0 (V1 m ρ) c = (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) := by
  have h14 : V1 m ρ c main_v14 = refAgg128 (m ((c : Thread nD τ).loc main_arg0)) (m ((c : Thread nD τ).loc main_arg1)) := host0_v14 (W0 m ρ c)
  have h3 : V1 m ρ c main_arg3 = m ((c : Thread nD τ).loc main_arg3) := W1_main_arg3 m ρ c
  have h15 : V1 m ρ c main_v15 = row (m ((c : Thread nD τ).loc main_arg4)) := host0_v15 (W0 m ρ c)
  have h5 : V1 m ρ c main_arg5 = m ((c : Thread nD τ).loc main_arg5) := W1_main_arg5 m ρ c
  have h16 : V1 m ρ c main_v16 = row (m ((c : Thread nD τ).loc main_arg6)) := host0_v16 (W0 m ρ c)
  unfold Zarr0
  rw [h14, h3, h15, h5, h16]

/-- At the first region's exit its three output arrays hold the perceptron's output and its two rows of column sums. -/
theorem W2_v17_0 (c : Dev nD) : W2 m ρ c (Proc.devRef .tc main_v17_0) = (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) :=
  ((W2_arr m ρ c 5).trans (final0_5 (V1 m ρ) c)).trans (zarr0_eq m ρ c)

theorem W2_v17_1 (c : Dev nD) : W2 m ρ c (Proc.devRef .tc main_v17_1) = fun j => Cert.Gin.colSum (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) 50000 (j 1) :=
  ((W2_arr m ρ c 6).trans (final0_6 (V1 m ρ) c)).trans (by rw [zarr0_eq]; rfl)

theorem W2_v17_2 (c : Dev nD) : W2 m ρ c (Proc.devRef .tc main_v17_2) = fun j => Cert.Gin.colSumSq (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) 50000 (j 1) :=
  ((W2_arr m ρ c 7).trans (final0_7 (V1 m ρ) c)).trans (by rw [zarr0_eq]; rfl)

/-- The second stretch does not touch the perceptron's output. -/
theorem W3_v17_0 (c : Dev nD) : W3 m ρ c (Proc.devRef .tc main_v17_0) = (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) :=
  calc W3 m ρ c (Proc.devRef .tc main_v17_0)
    _ = W2 m ρ c (Proc.devRef .tc main_v17_0) := by first_layer_keeps hostOps1
    _ = _ := W2_v17_0 m ρ c

/-- THE FIRST LAYER: at the second region's exit its output array holds the first layer of the launch arrays. -/
theorem W4_v32 (c : Dev nD) : W4 m ρ c (Proc.devRef .tc main_v32) = Cert.ReferenceIdeal.RefValue.refS1 (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  have e0 : V3 m ρ c (Pipeline.arrRef spec1 0) = (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) := W3_v17_0 m ρ c
  have e1 : V3 m ρ c (Pipeline.arrRef spec1 1) = row (m ((c : Thread nD τ).loc main_arg7)) := (host1_v28 (W2 m ρ c)).trans (congrArg row (W2_main_arg7 m ρ c))
  have e2 : V3 m ρ c (Pipeline.arrRef spec1 2) = row (m ((c : Thread nD τ).loc main_arg8)) := (host1_v29 (W2 m ρ c)).trans (congrArg row (W2_main_arg8 m ρ c))
  have e3 : V3 m ρ c (Pipeline.arrRef spec1 3) = row (meanVec (fun j => Cert.Gin.colSum (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) 50000 (j 1))) :=
    (host1_v30 (W2 m ρ c)).trans (congrArg (fun s => row (meanVec s)) (W2_v17_1 m ρ c))
  have e4 : V3 m ρ c (Pipeline.arrRef spec1 4) = row (varVec (fun j => Cert.Gin.colSum (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) 50000 (j 1)) (fun j => Cert.Gin.colSumSq (Cert.Gin.Zfun (N := 50000) (K := 128) (B := 256) (refAgg128 (m ((c : Thread nD τ).loc main_arg0)) (m ((c : Thread nD τ).loc main_arg1))) (m ((c : Thread nD τ).loc main_arg3)) (row (m ((c : Thread nD τ).loc main_arg4))) (m ((c : Thread nD τ).loc main_arg5)) (row (m ((c : Thread nD τ).loc main_arg6)))) 50000 (j 1))) :=
    (host1_v31 (W2 m ρ c)).trans (congrArg₂ (fun s ss => row (varVec s ss)) (W2_v17_1 m ρ c) (W2_v17_2 m ρ c))
  refine ((W4_arr m ρ c 5).trans (final1 (V3 m ρ) c)).trans ?_
  rw [e0, e1, e2, e3, e4]
  exact bn_eq_layer (K := 128) _ _ _ _ _ _ _ _ _ (fun q => rfl) (fun q => rfl)

/-- After the first layer: the layer's output, the edge indices, and the arguments still to be read. -/
theorem inv4 (c : Dev nD) : Inv4 m ρ c :=
  ⟨W4_v32 m ρ c, W4_main_v1 m ρ c, W4_main_v3 m ρ c, W4_main_arg2 m ρ c, W4_main_arg9 m ρ c, W4_main_arg10 m ρ c,
    W4_main_arg11 m ρ c, W4_main_arg12 m ρ c, W4_main_arg13 m ρ c, W4_main_arg14 m ρ c⟩

end Cert.KernelIdeal.Chain

end
-- ==== Proof.MlpPay2.lean ====
/-
  What one grid point of the perceptron-with-statistics kernel (the second layer's, 256 input features) computes, read
  entry by entry on the extended reals.

  The body loads a block of 2000 feature rows, the two weight matrices and the two one-row biases, and stores
    the block of outputs    z (p, q) = max ((∑ k, hid (p, k) · W2 (k, q)) + b2 q, 0),  hid = max (x · W1 + b1, 0),
    the running column sums   s q + ∑ p, z (p, q)   and   ss q + ∑ p, z (p, q) · z (p, q).
  The roundings to a narrower float on the way into each product are the identity at the exact values, and each product
  goes into a zero accumulator, so it is the plain sum over the contracted axis; a sum over the rows of a block from the
  zero word is the plain sum over the block's 2000 row indices.
-/
import proofs.«159704_j38585986187613_1_alg».proof.Proof.Gen.KernelIdeal.Skeleton
import proofs.«159704_j38585986187613_1_alg».proof.Proof.GinSpec
import Idealize.ShloMosaic.Lib.ValueLayout
import Idealize.ShloMosaic.Lib.Pipeline.Value
import Idealize.ShloMosaic.PureOps.Ideal.Laws

open scoped BigOperators

noncomputable section

namespace Cert.KernelIdeal.MlpValue2

open Cert.KernelIdeal Cert.KernelIdeal.Gen Idealize.ShloMosaic Idealize.ShloMosaic.ValueIdx
open Cert.DenseLayer Cert.RectLayers Cert.Gin

/-- The source index of a column's row sum: row k of column q. -/
theorem lift_col (q : Fin 256) (k : Fin 2000) :
    (reduces_S2000x256_S256 : S2000x256.Reduces [0] S256).lift (ix1 q) k = ix2 k q := by
  funext a
  apply Fin.ext
  match a with
  | ⟨0, _⟩ => rfl
  | ⟨1, _⟩ => rfl

/-- A sum over the rows of a [2000, 256] block from the zero word, at column q: the sum over the 2000 row indices. -/
theorem rowsum_apply (v : FVec Ideal S2000x256 .f32) (hφ : FKind.Formats FTy.f32)
    (hacc : (0x00000000#32 : BitVec 32) = 0x00000000#32) (q : Fin 256) :
    multiReduction .add [0] S256 v 0x00000000#32 reduces_S2000x256_S256 hφ hacc (ix1 q) = ∑ p : Fin 2000, v (ix2 p q) := by
  refine (Ideal.multiReduction_add_single v 0x00000000#32 reduces_S2000x256_S256 hφ hacc (ix1 q)).trans ?_
  exact Finset.sum_congr rfl fun k _ => congrArg v (lift_col q k)

/-- The first layer's tile at (p, q): the hidden row of row p of the block. -/
theorem hid0_apply (x0 : FVec Ideal S2000x256 .f32) (x1 : FVec Ideal S256x256 .f32) (x2 : FVec Ideal S1x256 .f32)
    (p : Fin 2000) (q : Fin 256) :
    maximumf (addf (matmul dot_S2000x256_S256x256_S2000x256_1_0_0_1_n_n none
          (truncf .bf16 x0 bitsLt_bf16_f32)
          (truncf .bf16 x1 bitsLt_bf16_f32) (constant S2000x256 .f32 0x00000000#32))
        (broadcastTo S2000x256 x2 broadcasts_S1x256_S2000x256))
      (broadcast S2000x256 (Scalar.ofBits (F := Ideal) .f32 0x00000000#32)) (ix2 p q)
      = hid (fun k => x0 (ix2 p k)) x1 x2 q := by
  show max (matmul dot_S2000x256_S256x256_S2000x256_1_0_0_1_n_n none
          (truncf .bf16 x0 bitsLt_bf16_f32)
          (truncf .bf16 x1 bitsLt_bf16_f32) (constant S2000x256 .f32 0x00000000#32) (ix2 p q)
        + broadcastTo S2000x256 x2 broadcasts_S1x256_S2000x256 (ix2 p q))
      (Ideal.ofBits .f32 0x00000000#32) = _
  rw [tile_product_apply dot_S2000x256_S256x256_S2000x256_1_0_0_1_n_n rfl rfl rfl rfl rfl rfl rfl rfl none _ _ p q,
    broadcastTo_1b_ab_apply]
  rfl

/-- The stored output block at (p, q): the output row of row p of the feature block. -/
theorem pay4_apply (x0 : Vec Ideal S2000x256 .f32) (x1 : Vec Ideal S256x256 .f32) (x2 : Vec Ideal S1x256 .f32)
    (x3 : Vec Ideal S256x256 .f32) (x4 : Vec Ideal S1x256 .f32) (p : Fin 2000) (q : Fin 256) :
    k2_pay4 x0 x1 x2 x3 x4 (ix2 p q) = zrow (fun k => x0 (ix2 p k)) x1 x2 x3 x4 q := by
  unfold k2_pay4
  simp only [shapeCast_self]
  show max (matmul dot_S2000x256_S256x256_S2000x256_1_0_0_1_n_n none
          (truncf .bf16 (maximumf (addf (matmul dot_S2000x256_S256x256_S2000x256_1_0_0_1_n_n none
              (truncf .bf16 x0 bitsLt_bf16_f32)
              (truncf .bf16 x1 bitsLt_bf16_f32) (constant S2000x256 .f32 0x00000000#32))
            (broadcastTo S2000x256 x2 broadcasts_S1x256_S2000x256))
          (broadcast S2000x256 (Scalar.ofBits (F := Ideal) .f32 0x00000000#32))) bitsLt_bf16_f32)
          (truncf .bf16 x3 bitsLt_bf16_f32) (constant S2000x256 .f32 0x00000000#32) (ix2 p q)
        + broadcastTo S2000x256 x4 broadcasts_S1x256_S2000x256 (ix2 p q))
      (Ideal.ofBits .f32 0x00000000#32) = _
  rw [tile_product_apply dot_S2000x256_S256x256_S2000x256_1_0_0_1_n_n rfl rfl rfl rfl rfl rfl rfl rfl none _ _ p q,
    broadcastTo_1b_ab_apply]
  unfold zrow rect affine
  dsimp only
  refine congrArg (fun s => max (s + x4 (ix2 (0 : Fin 1) q)) (Ideal.ofBits .f32 0x00000000#32))
    (Finset.sum_congr rfl fun k _ => ?_)
  exact congrArg (· * x3 (ix2 k q)) (hid0_apply x0 x1 x2 p k)

/-- The running column sum the body stores, at column q: the carried sum plus the block's column sum. -/
theorem pay5_apply (x0 : Vec Ideal S2000x256 .f32) (x1 : Vec Ideal S256x256 .f32) (x2 : Vec Ideal S1x256 .f32)
    (x3 : Vec Ideal S256x256 .f32) (x4 : Vec Ideal S1x256 .f32) (s : Vec Ideal S1x256 .f32) (u : Fin 1) (q : Fin 256) :
    k2_pay5 x0 x1 x2 x3 x4 s (ix2 u q)
      = s (ix2 u q) + ∑ p : Fin 2000, k2_pay4 x0 x1 x2 x3 x4 (ix2 p q) := by
  unfold k2_pay5
  show shapeCast S1x256 s shapeCasts_S1x256_S1x256 (ix2 u q)
      + shapeCast S1x256 (multiReduction .add [0] S256 (k2_pay4 x0 x1 x2 x3 x4) 0x00000000#32 reduces_S2000x256_S256 (.inl rfl) rfl)
          shapeCasts_S256_S1x256 (ix2 u q) = _
  rw [shapeCast_self, shapeCast_a_1a_apply, rowsum_apply]

/-- The running column sum of squares the body stores, at column q. -/
theorem pay1_apply (z : FVec Ideal S2000x256 .f32) (ss : Vec Ideal S1x256 .f32) (u : Fin 1) (q : Fin 256) :
    k2_pay1 z ss (ix2 u q) = ss (ix2 u q) + ∑ p : Fin 2000, z (ix2 p q) * z (ix2 p q) := by
  unfold k2_pay1
  show shapeCast S1x256 ss shapeCasts_S1x256_S1x256 (ix2 u q)
      + shapeCast S1x256 (multiReduction .add [0] S256 (mulf z z) 0x00000000#32 reduces_S2000x256_S256 (.inl rfl) rfl)
          shapeCasts_S256_S1x256 (ix2 u q) = _
  rw [shapeCast_self, shapeCast_a_1a_apply, rowsum_apply]
  rfl

/-- The reset stores the zero word in every entry of the two running sums. -/
theorem pay2_apply (j : S1x256.Idx) : k2_pay2 (F := Ideal) j = Ideal.ofBits .f32 0x00000000#32 := rfl
theorem pay3_apply (j : S1x256.Idx) : k2_pay3 (F := Ideal) j = Ideal.ofBits .f32 0x00000000#32 := rfl

end Cert.KernelIdeal.MlpValue2

end
-- ==== Proof.MlpRegion2.lean ====
/-
  The second perceptron-with-statistics launch (25 grid points, 2000 rows each) as whole arrays.

  With X the [50000, 256] feature array, W1, W2 the weights and b1, b2 the one-row biases as the launch finds them,
  Z = the two-layer perceptron of X (Cert.Gin.Zfun). Grid point t reads rows 2000·t … 2000·t + 1999 of X and the whole
  of every other operand, so the output block it stores is rows 2000·t … of Z (entry (p, q) of the perceptron reads row
  p only). The two one-row outputs are carried from point to point: point 0 resets them to the zero word and adds its
  block's column sums, every later point adds its own, so after point t they hold the column sums of Z and of its
  squares over the first 2000·(t+1) rows — by induction on the point. The output array is written back block by block
  at every point and ends as Z; each running sum is written back once, after the last point, and ends as the column sum
  over all 50000 rows.
-/
import proofs.«159704_j38585986187613_1_alg».proof.Proof.Gen.KernelIdeal.Frame
import proofs.«159704_j38585986187613_1_alg».proof.Proof.MlpPay2
import Idealize.ShloMosaic.Lib.Pipeline.Value
import Idealize.ShloMosaic.Lib.Tactic

open scoped BigOperators

noncomputable section

namespace Cert.KernelIdeal.MlpValue2

open Cert.KernelIdeal Cert.KernelIdeal.Gen Idealize.ShloMosaic Idealize.ShloMosaic.TcCoe Idealize.SL.Sem
open Idealize.ShloMosaic.ValueIdx
open Idealize.ShloMosaic.Pipeline (Dat)
open Cert.DenseLayer Cert.RectLayers Cert.Gin

variable (V : (c : Dev nD) → (b : Ref sig .tc) → Buf (Elt Ideal) ((c : Thread nD τ).loc b))

theorem hz2 : (![0, 0] : Fin 2 → Nat) = fun _ => 0 := funext fun a => by fin_cases a <;> rfl

/-! ## What each case of the body leaves in the three output buffers -/

/-- Later points: the output block is the perceptron of the loaded blocks. -/
theorem outB5 (c : Dev nD) (i : grid2.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond2_0 i)
    (x0 : Vec Ideal S2000x256 .f32) (x1 : Vec Ideal S256x256 .f32) (x2 : Vec Ideal S1x256 .f32)
    (x3 : Vec Ideal S256x256 .f32) (x4 : Vec Ideal S1x256 .f32) (xo6 xo7 : Vec Ideal S1x256 .f32) :
    out2_B_5 c i a1 h1 a2 h2 a3 h3 a4 h4 a5 h5 a6 h6 a7 h7 a8 h8 hc x0 x1 x2 x3 x4 xo6 xo7 = k2_pay4 x0 x1 x2 x3 x4 := by
  unfold out2_B_5
  rw [View.read_writes_eq_canon _ _ _ (cover2_B_5 c i a1 h1 a2 h2 a3 h3 a4 h4 a5 h5 a6 h6 a7 h7 a8 h8 hc x0 x1 x2 x3 x4 xo6 xo7)]
  unfold kernelRun2_B
  dsimp only
  try sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- Later points: the running sum is the carried one plus the block's column sums. -/
theorem outB6 (c : Dev nD) (i : grid2.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond2_0 i)
    (x0 : Vec Ideal S2000x256 .f32) (x1 : Vec Ideal S256x256 .f32) (x2 : Vec Ideal S1x256 .f32)
    (x3 : Vec Ideal S256x256 .f32) (x4 : Vec Ideal S1x256 .f32) (xo6 xo7 : Vec Ideal S1x256 .f32) :
    out2_B_6 c i a1 h1 a2 h2 a3 h3 a4 h4 a5 h5 a6 h6 a7 h7 a8 h8 hc x0 x1 x2 x3 x4 xo6 xo7 = k2_pay5 x0 x1 x2 x3 x4 xo6 := by
  unfold out2_B_6
  rw [View.read_writes_eq_canon _ _ _ (cover2_B_6 c i a1 h1 a2 h2 a3 h3 a4 h4 a5 h5 a6 h6 a7 h7 a8 h8 hc x0 x1 x2 x3 x4 xo6 xo7)]
  unfold kernelRun2_B
  dsimp only
  try sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- Later points: the running sum of squares is the carried one plus the block's column sums of squares. -/
theorem outB7 (c : Dev nD) (i : grid2.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond2_0 i)
    (x0 : Vec Ideal S2000x256 .f32) (x1 : Vec Ideal S256x256 .f32) (x2 : Vec Ideal S1x256 .f32)
    (x3 : Vec Ideal S256x256 .f32) (x4 : Vec Ideal S1x256 .f32) (xo6 xo7 : Vec Ideal S1x256 .f32) :
    out2_B_7 c i a1 h1 a2 h2 a3 h3 a4 h4 a5 h5 a6 h6 a7 h7 a8 h8 hc x0 x1 x2 x3 x4 xo6 xo7 = k2_pay1 (k2_pay4 x0 x1 x2 x3 x4) xo7 := by
  unfold out2_B_7
  rw [View.read_writes_eq_canon _ _ _ (cover2_B_7 c i a1 h1 a2 h2 a3 h3 a4 h4 a5 h5 a6 h6 a7 h7 a8 h8 hc x0 x1 x2 x3 x4 xo6 xo7)]
  unfold kernelRun2_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- The first point: the output block is the perceptron of the loaded blocks. -/
theorem outA5 (c : Dev nD) (i : grid2.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond2_0 i)
    (x0 : Vec Ideal S2000x256 .f32) (x1 : Vec Ideal S256x256 .f32) (x2 : Vec Ideal S1x256 .f32)
    (x3 : Vec Ideal S256x256 .f32) (x4 : Vec Ideal S1x256 .f32) :
    out2_A_5 c i a1 h1 a2 h2 a3 h3 a4 h4 a5 h5 a6 h6 a7 h7 a8 h8 hc x0 x1 x2 x3 x4 = k2_pay4 x0 x1 x2 x3 x4 := by
  unfold out2_A_5
  rw [View.read_writes_eq_canon _ _ _ (cover2_A_5 c i a1 h1 a2 h2 a3 h3 a4 h4 a5 h5 a6 h6 a7 h7 a8 h8 hc x0 x1 x2 x3 x4)]
  unfold kernelRun2_A
  dsimp only
  try sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- The first point: the running sum is reset to the zero word, then the block's column sums are added. -/
theorem outA6 (c : Dev nD) (i : grid2.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond2_0 i)
    (x0 : Vec Ideal S2000x256 .f32) (x1 : Vec Ideal S256x256 .f32) (x2 : Vec Ideal S1x256 .f32)
    (x3 : Vec Ideal S256x256 .f32) (x4 : Vec Ideal S1x256 .f32) :
    out2_A_6 c i a1 h1 a2 h2 a3 h3 a4 h4 a5 h5 a6 h6 a7 h7 a8 h8 hc x0 x1 x2 x3 x4 = k2_pay5 x0 x1 x2 x3 x4 (k2_pay2 (F := Ideal)) := by
  unfold out2_A_6
  rw [View.read_writes_eq_canon _ _ _ (cover2_A_6 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- The first point: the running sum of squares is reset to the zero word, then the block's is added. -/
theorem outA7 (c : Dev nD) (i : grid2.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond2_0 i)
    (x0 : Vec Ideal S2000x256 .f32) (x1 : Vec Ideal S256x256 .f32) (x2 : Vec Ideal S1x256 .f32)
    (x3 : Vec Ideal S256x256 .f32) (x4 : Vec Ideal S1x256 .f32) :
    out2_A_7 c i a1 h1 a2 h2 a3 h3 a4 h4 a5 h5 a6 h6 a7 h7 a8 h8 hc x0 x1 x2 x3 x4 = k2_pay1 (k2_pay4 x0 x1 x2 x3 x4) (k2_pay3 (F := Ideal)) := by
  unfold out2_A_7
  rw [View.read_writes_eq_canon _ _ _ (cover2_A_7 c i a1 h1 a2 h2 a3 h3 a4 h4 a5 h5 a6 h6 a7 h7 a8 h8 hc x0 x1 x2 x3 x4)]
  unfold kernelRun2_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-! ## The blocks the points read -/

/-- The printed index maps over the grid: the feature window and the output window are at row block t, every other
    window at its one block. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

/-- Row p of the feature block at point t is row 2000·t + p of the feature array. -/
theorem blk0_apply (c : Dev nD) (t : Fin cfg2.N) (p : Fin 2000) (k : Fin 256) (h : 2000 * t.val + p.val < 50000) :
    iblk2 V c 0 t (ix2 p k) = V c main_v55 (ix2 ⟨2000 * t.val + p.val, h⟩ k) := by
  unfold iblk2
  rw [View.read_apply]
  show V c main_v55 (((cfg2.win 0).blk t).view.emb (ix2 p k)) = _
  refine congrArg (V c main_v55) ?_
  obtain ⟨e0, e1, -⟩ := idx_facts t
  funext a; apply Fin.ext
  match a with
  | ⟨0, _⟩ => show win2_0.index t (0 : Fin 2) * 2000 + 1 * p.val = 2000 * t.val + p.val; rw [e0]; omega
  | ⟨1, _⟩ => show win2_0.index t (1 : Fin 2) * 256 + 1 * k.val = k.val; rw [e1]; omega

/-- The first weight matrix's one block is the whole matrix, at every point. -/
theorem blk1_eq (c : Dev nD) (t : Fin cfg2.N) : (iblk2 V c 1 t : Vec Ideal S256x256 .f32) = V c main_v34 := by
  funext j
  unfold iblk2
  rw [View.read_apply]
  show V c main_v34 (((cfg2.win 1).blk t).view.emb j) = _
  refine congrArg (V c main_v34) ?_
  obtain ⟨-, -, e0, e1, -⟩ := idx_facts t
  funext a; apply Fin.ext
  match a with
  | ⟨0, _⟩ => show win2_1.index t (0 : Fin 2) * 256 + 1 * (j 0).val = (j 0).val; rw [e0]; omega
  | ⟨1, _⟩ => show win2_1.index t (1 : Fin 2) * 256 + 1 * (j 1).val = (j 1).val; rw [e1]; omega

theorem blk2_eq (c : Dev nD) (t : Fin cfg2.N) : (iblk2 V c 2 t : Vec Ideal S1x256 .f32) = V c main_v56 := by
  funext j
  unfold iblk2
  rw [View.read_apply]
  show V c main_v56 (((cfg2.win 2).blk t).view.emb j) = _
  refine congrArg (V c main_v56) ?_
  obtain ⟨-, -, -, -, e0, e1, -⟩ := idx_facts t
  funext a; apply Fin.ext
  match a with
  | ⟨0, _⟩ => show win2_2.index t (0 : Fin 2) * 1 + 1 * (j 0).val = (j 0).val; rw [e0]; omega
  | ⟨1, _⟩ => show win2_2.index t (1 : Fin 2) * 256 + 1 * (j 1).val = (j 1).val; rw [e1]; omega

theorem blk3_eq (c : Dev nD) (t : Fin cfg2.N) : (iblk2 V c 3 t : Vec Ideal S256x256 .f32) = V c main_v38 := by
  funext j
  unfold iblk2
  rw [View.read_apply]
  show V c main_v38 (((cfg2.win 3).blk t).view.emb j) = _
  refine congrArg (V c main_v38) ?_
  obtain ⟨-, -, -, -, -, -, e0, e1, -⟩ := idx_facts t
  funext a; apply Fin.ext
  match a with
  | ⟨0, _⟩ => show win2_3.index t (0 : Fin 2) * 256 + 1 * (j 0).val = (j 0).val; rw [e0]; omega
  | ⟨1, _⟩ => show win2_3.index t (1 : Fin 2) * 256 + 1 * (j 1).val = (j 1).val; rw [e1]; omega

theorem blk4_eq (c : Dev nD) (t : Fin cfg2.N) : (iblk2 V c 4 t : Vec Ideal S1x256 .f32) = V c main_v57 := by
  funext j
  unfold iblk2
  rw [View.read_apply]
  show V c main_v57 (((cfg2.win 4).blk t).view.emb j) = _
  refine congrArg (V c main_v57) ?_
  obtain ⟨-, -, -, -, -, -, -, -, e0, e1, -⟩ := idx_facts t
  funext a; apply Fin.ext
  match a with
  | ⟨0, _⟩ => show win2_4.index t (0 : Fin 2) * 1 + 1 * (j 0).val = (j 0).val; rw [e0]; omega
  | ⟨1, _⟩ => show win2_4.index t (1 : Fin 2) * 256 + 1 * (j 1).val = (j 1).val; rw [e1]; omega

/-! ## The arrays the launch finds, and what every point computes of them -/

/-- The two-layer perceptron of the whole feature array as the launch finds it. -/
def Zarr2 (c : Dev nD) : FVec Ideal S50000x256 .f32 :=
  Zfun (N := 50000) (K := 256) (B := 256) (V c main_v55) (V c main_v34) (V c main_v56) (V c main_v38) (V c main_v57)

/-- The output block point t stores, at (p, q), is entry (2000·t + p, q) of the perceptron of the whole array. -/
theorem pay4_blk (c : Dev nD) (t : Fin cfg2.N) (p : Fin 2000) (q : Fin 256) :
    k2_pay4 (iblk2 V c 0 t) (iblk2 V c 1 t) (iblk2 V c 2 t) (iblk2 V c 3 t) (iblk2 V c 4 t) (ix2 p q)
      = rowAt (Zarr2 V c) q (2000 * t.val + p.val) := by
  have hN : cfg2.N = 25 := N_2
  have ht : t.val < 25 := hN ▸ t.isLt
  have hlt : 2000 * t.val + p.val < 50000 := by have := p.isLt; omega
  rw [pay4_apply, blk1_eq, blk2_eq, blk3_eq, blk4_eq]
  unfold rowAt
  rw [dif_pos hlt]
  unfold Zarr2
  rw [Zfun_ix2]
  exact congrArg (fun xr => zrow xr (V c main_v34) (V c main_v56) (V c main_v38) (V c main_v57) q)
    (funext fun k => blk0_apply V c t p k hlt)

/-- After point n the two carried rows hold the column sums of the perceptron, and of its squares, over the first
    2000·(n+1) rows: point 0 starts them from the zero word, every later point adds its block's sums. -/
theorem outsAt_sums (c : Dev nD) : ∀ (n : ℕ) (hn : n < cfg2.N) (u : Fin 1) (q : Fin 256),
    (outsAt2 V c n hn).2.1 (ix2 u q) = colSum (Zarr2 V c) (2000 * (n + 1)) q
      ∧ (outsAt2 V c n hn).2.2 (ix2 u q) = colSumSq (Zarr2 V c) (2000 * (n + 1)) q
  | 0, hn, u, q => by
    rw [outsAt2_A V c ⟨0, hn⟩ rfl]
    dsimp only
    rw [outA6, outA7, pay5_apply, pay1_apply, pay2_apply, pay3_apply, colSum_step, colSumSq_step, colSum_zero,
      colSumSq_zero, Ideal.ofBits_zero_f32]
    constructor
    · exact congrArg (0 + ·) (Finset.sum_congr rfl fun p _ => pay4_blk V c ⟨0, hn⟩ p q)
    · exact congrArg (0 + ·) (Finset.sum_congr rfl fun p _ => by rw [pay4_blk V c ⟨0, hn⟩ p q])
  | n + 1, hn, u, q => by
    have hN : cfg2.N = 25 := N_2
    have hB : ¬(⟨n + 1, hn⟩ : Fin cfg2.N).val % 25 = 0 := by dsimp only; omega
    obtain ⟨ih1, ih2⟩ := outsAt_sums c n (Nat.lt_of_succ_lt hn) u q
    rw [outsAt2_B V c ⟨n + 1, hn⟩ hB]
    dsimp only
    rw [outB6, outB7, pay5_apply, pay1_apply, colSum_step, colSumSq_step]
    constructor
    · show (outsAt2 V c n _).2.1 (ix2 u q) + _ = _
      rw [ih1]
      exact congrArg (colSum (Zarr2 V c) (2000 * (n + 1)) q + ·) (Finset.sum_congr rfl fun p _ => pay4_blk V c ⟨n + 1, hn⟩ p q)
    · show (outsAt2 V c n _).2.2 (ix2 u q) + _ = _
      rw [ih2]
      exact congrArg (colSumSq (Zarr2 V c) (2000 * (n + 1)) q + ·)
        (Finset.sum_congr rfl fun p _ => by rw [pay4_blk V c ⟨n + 1, hn⟩ p q])

/-! ## The write-backs and the final arrays -/

/-- The output block every point stores is the perceptron of the blocks it loaded, whichever case the point is. -/
theorem outsAt_block (c : Dev nD) (t : Fin cfg2.N) :
    (outsAt2 V c t.val t.isLt).1
      = k2_pay4 (iblk2 V c 0 t) (iblk2 V c 1 t) (iblk2 V c 2 t) (iblk2 V c 3 t) (iblk2 V c 4 t) := by
  by_cases h0 : t.val % 25 = 0
  · rw [outsAt2_A V c t h0]
    dsimp only
    rw [outA5]
  · rw [outsAt2_B V c t h0]
    dsimp only
    rw [outB5]

/-- An index of the output array is in point t's block iff each coordinate is in the block's range on its axis. -/
theorem mem_blk5 (t : Fin cfg2.N) (i : S50000x256.Idx) :
    i ∈ ((cfg2.win 5).blk t).view.set ↔ ∀ a : Fin 2, win2_5.index t a * S2000x256.size a ≤ (i a).val
      ∧ (i a).val < win2_5.index t a * S2000x256.size a + S2000x256.size a := by
  show i ∈ ((View.whole main_v58_0).slice (win2_5.rect t)).set ↔ _
  rw [View.set_slice_whole, Rect.mem_set_unit]
  exact Iff.rfl

theorem mem_blk6 (t : Fin cfg2.N) (i : S1x256.Idx) :
    i ∈ ((cfg2.win 6).blk t).view.set ↔ ∀ a : Fin 2, win2_6.index t a * S1x256.size a ≤ (i a).val
      ∧ (i a).val < win2_6.index t a * S1x256.size a + S1x256.size a := by
  show i ∈ ((View.whole main_v58_1).slice (win2_6.rect t)).set ↔ _
  rw [View.set_slice_whole, Rect.mem_set_unit]
  exact Iff.rfl

theorem mem_blk7 (t : Fin cfg2.N) (i : S1x256.Idx) :
    i ∈ ((cfg2.win 7).blk t).view.set ↔ ∀ a : Fin 2, win2_7.index t a * S1x256.size a ≤ (i a).val
      ∧ (i a).val < win2_7.index t a * S1x256.size a + S1x256.size a := by
  show i ∈ ((View.whole main_v58_2).slice (win2_7.rect t)).set ↔ _
  rw [View.set_slice_whole, Rect.mem_set_unit]
  exact Iff.rfl

/-- What point t writes back to the output array is block t of the perceptron of the whole feature array. -/
theorem flushed5_eq (c : Dev nD) (t : Fin cfg2.N) :
    (dat2 V c).flushed 5 t = ((cfg2.win 5).blk t).view.read (Elt Ideal) (Zarr2 V c) := by
  show (cfg2.win 5).cut (grid2.coords t) ((dat2 V c).after 5 t) = _
  rw [after2_5, outsAt_block]
  have hN : cfg2.N = 25 := N_2
  have ht : t.val < 25 := hN ▸ t.isLt
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  show k2_pay4 (iblk2 V c 0 t) (iblk2 V c 1 t) (iblk2 V c 2 t) (iblk2 V c 3 t) (iblk2 V c 4 t) (ix2 p q)
    = Zarr2 V c (((cfg2.win 5).blk t).view.emb (ix2 p q))
  rw [pay4_blk]
  have hlt : 2000 * t.val + p.val < 50000 := by have := p.isLt; omega
  unfold rowAt
  rw [dif_pos hlt]
  refine congrArg (Zarr2 V c) ?_
  funext a; apply Fin.ext
  match a with
  | ⟨0, _⟩ => show 2000 * t.val + p.val = win2_5.index t (0 : Fin 2) * 2000 + 1 * p.val; rw [e0]; omega
  | ⟨1, _⟩ => show q.val = win2_5.index t (1 : Fin 2) * 256 + 1 * q.val; rw [e1]; omega

/-- Every row of the output array is in the block of the point its row block names. -/
theorem cover5 (i : S50000x256.Idx) :
    ∃ t : Fin cfg2.N, (cfg2.win 5).flush t = true ∧ i ∈ ((cfg2.win 5).blk t).view.set := by
  have hN : cfg2.N = 25 := N_2
  have hi0 : (i 0).val < 50000 := (i 0).isLt
  have hi1 : (i 1).val < 256 := (i 1).isLt
  have hq : (i 0).val / 2000 < cfg2.N := by rw [hN]; omega
  refine ⟨⟨(i 0).val / 2000, hq⟩, flush2_5 _, ?_⟩
  rw [mem_blk5]
  obtain ⟨-, -, -, -, -, -, -, -, -, -, e0, e1, -⟩ := idx_facts ⟨(i 0).val / 2000, hq⟩
  intro a
  match a with
  | ⟨0, _⟩ =>
    show win2_5.index ⟨(i 0).val / 2000, hq⟩ (0 : Fin 2) * 2000 ≤ (i 0).val
      ∧ (i 0).val < win2_5.index ⟨(i 0).val / 2000, hq⟩ (0 : Fin 2) * 2000 + 2000
    rw [e0]; dsimp only; omega
  | ⟨1, _⟩ =>
    show win2_5.index ⟨(i 0).val / 2000, hq⟩ (1 : Fin 2) * 256 ≤ (i 1).val
      ∧ (i 1).val < win2_5.index ⟨(i 0).val / 2000, hq⟩ (1 : Fin 2) * 256 + 256
    rw [e1]; omega

/-- The output array ends as the perceptron of the whole feature array. -/
theorem final2_5 (c : Dev nD) : (dat2 (F := Ideal) V c).arrAt 5 cfg2.N = Zarr2 V c :=
  (dat2 V c).arrAt_eq_of_cover 5 (Zarr2 V c) (fun t _ => flushed5_eq V c t) cover5

/-- The one write-back of the running column sums, after the last point, writes the column sums over all rows. -/
theorem flushed6_eq (c : Dev nD) (t : Fin cfg2.N) (hf : (cfg2.win 6).flush t = true) :
    (dat2 V c).flushed 6 t
      = ((cfg2.win 6).blk t).view.read (Elt Ideal) (fun j : S1x256.Idx => colSum (Zarr2 V c) 50000 (j 1)) := by
  have h24 : t.val % 25 = 24 := (flush2_6 t).mp hf
  have hN : cfg2.N = 25 := N_2
  have ht : t.val < 25 := hN ▸ t.isLt
  have hv : t.val = 24 := by omega
  obtain ⟨-, -, -, -, -, -, -, -, -, -, -, -, e0, e1, -⟩ := idx_facts t
  show (cfg2.win 6).cut (grid2.coords t) ((dat2 V c).after 6 t) = _
  rw [after2_6]
  funext j
  obtain ⟨u, q, rfl⟩ : ∃ (u : Fin 1) (q : Fin 256), j = ix2 u q := ⟨j 0, j 1, eq_ix2 j⟩
  rw [View.read_apply]
  show (outsAt2 V c t.val t.isLt).2.1 (ix2 u q) = _
  rw [(outsAt_sums V c t.val t.isLt u q).1, hv, show 2000 * (24 + 1) = 50000 from rfl]
  have hq : (((cfg2.win 6).blk t).view.emb (ix2 u q)) 1 = q :=
    Fin.ext (by show win2_6.index t (1 : Fin 2) * 256 + 1 * q.val = q.val; rw [e1]; omega)
  generalize colSum (Zarr2 V c) 50000 = f
  exact congrArg f hq.symm

theorem flushed7_eq (c : Dev nD) (t : Fin cfg2.N) (hf : (cfg2.win 7).flush t = true) :
    (dat2 V c).flushed 7 t
      = ((cfg2.win 7).blk t).view.read (Elt Ideal) (fun j : S1x256.Idx => colSumSq (Zarr2 V c) 50000 (j 1)) := by
  have h24 : t.val % 25 = 24 := (flush2_7 t).mp hf
  have hN : cfg2.N = 25 := N_2
  have ht : t.val < 25 := hN ▸ t.isLt
  have hv : t.val = 24 := by omega
  obtain ⟨-, -, -, -, -, -, -, -, -, -, -, -, -, -, e0, e1⟩ := idx_facts t
  show (cfg2.win 7).cut (grid2.coords t) ((dat2 V c).after 7 t) = _
  rw [after2_7]
  funext j
  obtain ⟨u, q, rfl⟩ : ∃ (u : Fin 1) (q : Fin 256), j = ix2 u q := ⟨j 0, j 1, eq_ix2 j⟩
  rw [View.read_apply]
  show (outsAt2 V c t.val t.isLt).2.2 (ix2 u q) = _
  rw [(outsAt_sums V c t.val t.isLt u q).2, hv, show 2000 * (24 + 1) = 50000 from rfl]
  have hq : (((cfg2.win 7).blk t).view.emb (ix2 u q)) 1 = q :=
    Fin.ext (by show win2_7.index t (1 : Fin 2) * 256 + 1 * q.val = q.val; rw [e1]; omega)
  generalize colSumSq (Zarr2 V c) 50000 = f
  exact congrArg f hq.symm

/-- The last point's block of a one-row output is the whole row. -/
theorem cover6 (i : S1x256.Idx) :
    ∃ t : Fin cfg2.N, (cfg2.win 6).flush t = true ∧ i ∈ ((cfg2.win 6).blk t).view.set := by
  have hN : cfg2.N = 25 := N_2
  have hi0 : (i 0).val < 1 := (i 0).isLt
  have hi1 : (i 1).val < 256 := (i 1).isLt
  have hq : 24 < cfg2.N := by rw [hN]; omega
  refine ⟨⟨24, hq⟩, (flush2_6 _).mpr rfl, ?_⟩
  rw [mem_blk6]
  obtain ⟨-, -, -, -, -, -, -, -, -, -, -, -, e0, e1, -⟩ := idx_facts ⟨24, hq⟩
  intro a
  match a with
  | ⟨0, _⟩ =>
    show win2_6.index ⟨24, hq⟩ (0 : Fin 2) * 1 ≤ (i 0).val ∧ (i 0).val < win2_6.index ⟨24, hq⟩ (0 : Fin 2) * 1 + 1
    rw [e0]; omega
  | ⟨1, _⟩ =>
    show win2_6.index ⟨24, hq⟩ (1 : Fin 2) * 256 ≤ (i 1).val ∧ (i 1).val < win2_6.index ⟨24, hq⟩ (1 : Fin 2) * 256 + 256
    rw [e1]; omega

theorem cover7 (i : S1x256.Idx) :
    ∃ t : Fin cfg2.N, (cfg2.win 7).flush t = true ∧ i ∈ ((cfg2.win 7).blk t).view.set := by
  have hN : cfg2.N = 25 := N_2
  have hi0 : (i 0).val < 1 := (i 0).isLt
  have hi1 : (i 1).val < 256 := (i 1).isLt
  have hq : 24 < cfg2.N := by rw [hN]; omega
  refine ⟨⟨24, hq⟩, (flush2_7 _).mpr rfl, ?_⟩
  rw [mem_blk7]
  obtain ⟨-, -, -, -, -, -, -, -, -, -, -, -, -, -, e0, e1⟩ := idx_facts ⟨24, hq⟩
  intro a
  match a with
  | ⟨0, _⟩ =>
    show win2_7.index ⟨24, hq⟩ (0 : Fin 2) * 1 ≤ (i 0).val ∧ (i 0).val < win2_7.index ⟨24, hq⟩ (0 : Fin 2) * 1 + 1
    rw [e0]; omega
  | ⟨1, _⟩ =>
    show win2_7.index ⟨24, hq⟩ (1 : Fin 2) * 256 ≤ (i 1).val ∧ (i 1).val < win2_7.index ⟨24, hq⟩ (1 : Fin 2) * 256 + 256
    rw [e1]; omega

/-- The column-sum output ends as the column sums of the perceptron over all 50000 rows. -/
theorem final2_6 (c : Dev nD) :
    (dat2 (F := Ideal) V c).arrAt 6 cfg2.N = fun j : S1x256.Idx => colSum (Zarr2 V c) 50000 (j 1) :=
  (dat2 V c).arrAt_eq_of_cover 6 _ (flushed6_eq V c) cover6

/-- The sum-of-squares output ends as the column sums of squares over all 50000 rows. -/
theorem final2_7 (c : Dev nD) :
    (dat2 (F := Ideal) V c).arrAt 7 cfg2.N = fun j : S1x256.Idx => colSumSq (Zarr2 V c) 50000 (j 1) :=
  (dat2 V c).arrAt_eq_of_cover 7 _ (flushed7_eq V c) cover7

/-- The five input arrays end as the launch found them. -/
theorem kept2 (c : Dev nD) (w : Fin cfg2.W) (hw : w.val < 5) :
    (dat2 (F := Ideal) V c).arrAt w cfg2.N = V c (Pipeline.arrRef spec2 w) := by
  have h : (dat2 (F := Ideal) V c).arrAt w cfg2.N = (dat2 (F := Ideal) V c).A w := by
    match w, hw with
    | ⟨0, _⟩, _ => exact (dat2 V c).arrAt_in 0 rfl _
    | ⟨1, _⟩, _ => exact (dat2 V c).arrAt_in 1 rfl _
    | ⟨2, _⟩, _ => exact (dat2 V c).arrAt_in 2 rfl _
    | ⟨3, _⟩, _ => exact (dat2 V c).arrAt_in 3 rfl _
    | ⟨4, _⟩, _ => exact (dat2 V c).arrAt_in 4 rfl _
  rw [h, A_eq2]

end Cert.KernelIdeal.MlpValue2

end
-- ==== Proof.BnValue3.lean ====
import proofs.«159704_j38585986187613_1_alg».proof.Proof.Gen.KernelIdeal.Frame
import proofs.«159704_j38585986187613_1_alg».proof.Proof.BnSpec

/-! # Region 3: the array the normalising region leaves

At every grid point the region's body stores the normalisation of its block; the 25 blocks of 2000 rows tile the
50000 rows, so the output array ends holding the normalisation of the five input arrays as the region finds them, and
the input arrays end unchanged. -/

noncomputable section

open Idealize.ShloMosaic Idealize.ShloMosaic.TcCoe Idealize.SL.Sem
open Idealize.ShloMosaic.Pipeline (Dat)
open Idealize.ShloMosaic.ValueIdx

namespace Cert.KernelIdeal.BnValue

open Cert.KernelIdeal Cert.KernelIdeal.Gen

-- the buffer contents when the region is entered
variable (V : (c : Dev nD) → (b : Ref sig .tc) → Buf (Elt Ideal) ((c : Thread nD τ).loc b))

/-! ## Region 3: the normalisation applied block by block -/

section Region3

/-- The printed index maps of region 3, decided over its 25 grid points: the activations' block and the output's block
    are both row block `t`, column block 0; each of the four parameter rows is its array's one block at every point. -/
theorem idx_facts3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The activations' block at point `t` sits at the rows and columns of the output's block at `t`. -/
theorem iblk3_0_at (c : Dev nD) (t : Fin cfg3.N) (j : S2000x256.Idx) :
    iblk3 V c 0 t j = V c (Pipeline.arrRef spec3 0) (((cfg3.win 5).blk t).view.emb j) := by
  obtain ⟨e00, e01, e10, e11, e20, e21, e30, e31, e40, e41, e50, e51⟩ := idx_facts3 t
  show V c (Pipeline.arrRef spec3 0) (((cfg3.win 0).blk t).view.emb j) = V c (Pipeline.arrRef spec3 0) (((cfg3.win 5).blk t).view.emb j)
  refine congrArg _ (funext fun a => Fin.ext ?_)
  match a with
  | ⟨0, _⟩ => show win3_0.index t (0 : Fin 2) * 2000 + 1 * (j 0).val = win3_5.index t (0 : Fin 2) * 2000 + 1 * (j 0).val; rw [e00, e50]
  | ⟨1, _⟩ => show win3_0.index t (1 : Fin 2) * 256 + 1 * (j 1).val = win3_5.index t (1 : Fin 2) * 256 + 1 * (j 1).val; rw [e01, e51]

/-- Parameter row 1's one block is the whole row: read at column q it is the row's entry at the output block's column q. -/
theorem iblk3_1_at (c : Dev nD) (t : Fin cfg3.N) (j : S2000x256.Idx) :
    iblk3 V c 1 t (ix2 (0 : Fin 1) (j 1)) = V c (Pipeline.arrRef spec3 1) (ix2 (0 : Fin 1) ((((cfg3.win 5).blk t).view.emb j) 1)) := by
  obtain ⟨e00, e01, e10, e11, e20, e21, e30, e31, e40, e41, e50, e51⟩ := idx_facts3 t
  show V c (Pipeline.arrRef spec3 1) (((cfg3.win 1).blk t).view.emb (ix2 (0 : Fin 1) (j 1))) = _
  refine congrArg _ (funext fun a => Fin.ext ?_)
  match a with
  | ⟨0, _⟩ => show win3_1.index t (0 : Fin 2) * 1 + 1 * 0 = 0; rw [e10]
  | ⟨1, _⟩ => show win3_1.index t (1 : Fin 2) * 256 + 1 * (j 1).val = win3_5.index t (1 : Fin 2) * 256 + 1 * (j 1).val; rw [e11, e51]

/-- Parameter row 2's one block is the whole row: read at column q it is the row's entry at the output block's column q. -/
theorem iblk3_2_at (c : Dev nD) (t : Fin cfg3.N) (j : S2000x256.Idx) :
    iblk3 V c 2 t (ix2 (0 : Fin 1) (j 1)) = V c (Pipeline.arrRef spec3 2) (ix2 (0 : Fin 1) ((((cfg3.win 5).blk t).view.emb j) 1)) := by
  obtain ⟨e00, e01, e10, e11, e20, e21, e30, e31, e40, e41, e50, e51⟩ := idx_facts3 t
  show V c (Pipeline.arrRef spec3 2) (((cfg3.win 2).blk t).view.emb (ix2 (0 : Fin 1) (j 1))) = _
  refine congrArg _ (funext fun a => Fin.ext ?_)
  match a with
  | ⟨0, _⟩ => show win3_2.index t (0 : Fin 2) * 1 + 1 * 0 = 0; rw [e20]
  | ⟨1, _⟩ => show win3_2.index t (1 : Fin 2) * 256 + 1 * (j 1).val = win3_5.index t (1 : Fin 2) * 256 + 1 * (j 1).val; rw [e21, e51]

/-- Parameter row 3's one block is the whole row: read at column q it is the row's entry at the output block's column q. -/
theorem iblk3_3_at (c : Dev nD) (t : Fin cfg3.N) (j : S2000x256.Idx) :
    iblk3 V c 3 t (ix2 (0 : Fin 1) (j 1)) = V c (Pipeline.arrRef spec3 3) (ix2 (0 : Fin 1) ((((cfg3.win 5).blk t).view.emb j) 1)) := by
  obtain ⟨e00, e01, e10, e11, e20, e21, e30, e31, e40, e41, e50, e51⟩ := idx_facts3 t
  show V c (Pipeline.arrRef spec3 3) (((cfg3.win 3).blk t).view.emb (ix2 (0 : Fin 1) (j 1))) = _
  refine congrArg _ (funext fun a => Fin.ext ?_)
  match a with
  | ⟨0, _⟩ => show win3_3.index t (0 : Fin 2) * 1 + 1 * 0 = 0; rw [e30]
  | ⟨1, _⟩ => show win3_3.index t (1 : Fin 2) * 256 + 1 * (j 1).val = win3_5.index t (1 : Fin 2) * 256 + 1 * (j 1).val; rw [e31, e51]

/-- Parameter row 4's one block is the whole row: read at column q it is the row's entry at the output block's column q. -/
theorem iblk3_4_at (c : Dev nD) (t : Fin cfg3.N) (j : S2000x256.Idx) :
    iblk3 V c 4 t (ix2 (0 : Fin 1) (j 1)) = V c (Pipeline.arrRef spec3 4) (ix2 (0 : Fin 1) ((((cfg3.win 5).blk t).view.emb j) 1)) := by
  obtain ⟨e00, e01, e10, e11, e20, e21, e30, e31, e40, e41, e50, e51⟩ := idx_facts3 t
  show V c (Pipeline.arrRef spec3 4) (((cfg3.win 4).blk t).view.emb (ix2 (0 : Fin 1) (j 1))) = _
  refine congrArg _ (funext fun a => Fin.ext ?_)
  match a with
  | ⟨0, _⟩ => show win3_4.index t (0 : Fin 2) * 1 + 1 * 0 = 0; rw [e40]
  | ⟨1, _⟩ => show win3_4.index t (1 : Fin 2) * 256 + 1 * (j 1).val = win3_5.index t (1 : Fin 2) * 256 + 1 * (j 1).val; rw [e41, e51]

/-- What point `t` writes back is row block `t` of the normalised array: the activations' block sits at the same rows
    as the output's block, and each parameter row is read whole. -/
theorem flushed3_eq (c : Dev nD) (t : Fin cfg3.N) :
    (dat3 (F := Ideal) V c).flushed 5 t = ((cfg3.win 5).blk t).view.read (Elt Ideal)
      (bn (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 V c).after 5 t) = _
  rw [after3_5]
  unfold out3_5
  rw [View.canon_unit_zero zero_offsets]
  simp only [View.ld_unit_zero (S := S2000x256) zero_offsets, View.ld_unit_zero (S := S1x256) zero_offsets]
  funext j
  refine (pay3_apply_idx (iblk3 V c 0 t) (iblk3 V c 4 t) (iblk3 V c 1 t) (iblk3 V c 3 t) (iblk3 V c 2 t) j).trans ?_
  exact bn_of_entries (V c (Pipeline.arrRef spec3 0)) (V c (Pipeline.arrRef spec3 1)) (V c (Pipeline.arrRef spec3 2)) (V c (Pipeline.arrRef spec3 3)) (V c (Pipeline.arrRef spec3 4))
    (((cfg3.win 5).blk t).view.emb j) _ _ _ _ _
    (iblk3_0_at V c t j) (iblk3_1_at V c t j) (iblk3_2_at V c t j) (iblk3_3_at V c t j) (iblk3_4_at V c t j)

/-- An index of the array is in point `t`'s block iff each coordinate is in the block's range on its axis. -/
theorem mem_blk3 (t : Fin cfg3.N) (i : S50000x256.Idx) :
    i ∈ ((cfg3.win 5).blk t).view.set ↔ ∀ a : Fin 2, win3_5.index t a * S2000x256.size a ≤ (i a).val ∧ (i a).val < win3_5.index t a * S2000x256.size a + S2000x256.size a := by
  show i ∈ ((View.whole main_v73).slice (win3_5.rect t)).set ↔ _
  rw [View.set_slice_whole, Rect.mem_set_unit]
  exact Iff.rfl

/-- Row `r` of the array lies in the block of point `r / 2000`: the 25 row blocks of 2000 rows tile the 50000 rows. -/
theorem cover3 (i : S50000x256.Idx) : ∃ t : Fin cfg3.N, (cfg3.win 5).flush t = true ∧ i ∈ ((cfg3.win 5).blk t).view.set := by
  have hi0 : (i 0).val < 50000 := (i 0).isLt
  have hi1 : (i 1).val < 256 := (i 1).isLt
  have hN : grid3.N = 25 := N_3
  have hlt : (i 0).val / 2000 < cfg3.N := Nat.lt_of_lt_of_eq (by omega : (i 0).val / 2000 < 25) hN.symm
  obtain ⟨e00, e01, e10, e11, e20, e21, e30, e31, e40, e41, e50, e51⟩ := idx_facts3 ⟨(i 0).val / 2000, hlt⟩
  refine ⟨⟨(i 0).val / 2000, hlt⟩, flush3_5 _, ?_⟩
  rw [mem_blk3]
  intro a
  match a with
  | ⟨0, _⟩ =>
    show win3_5.index ⟨(i 0).val / 2000, hlt⟩ (0 : Fin 2) * 2000 ≤ (i 0).val ∧ (i 0).val < win3_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win3_5.index ⟨(i 0).val / 2000, hlt⟩ (1 : Fin 2) * 256 ≤ (i 1).val ∧ (i 1).val < win3_5.index ⟨(i 0).val / 2000, hlt⟩ (1 : Fin 2) * 256 + 256
    rw [e51]; omega

/-- THE ARRAY after region 3: the normalisation of the activations by the four parameter rows, all as the region finds them. -/
theorem final3 (c : Dev nD) : (dat3 (F := Ideal) V c).arrAt 5 cfg3.N
    = bn (V c (Pipeline.arrRef spec3 0)) (V c (Pipeline.arrRef spec3 1)) (V c (Pipeline.arrRef spec3 2)) (V c (Pipeline.arrRef spec3 3)) (V c (Pipeline.arrRef spec3 4)) :=
  (dat3 V c).arrAt_eq_of_cover 5 _ (fun t _ => flushed3_eq V c t) cover3

/-- The five input arrays of region 3 end as the region finds them: an input window is never written back. -/
theorem kept3 (c : Dev nD) (w : Fin cfg3.W) (hw : w ≠ 5) : (dat3 (F := Ideal) V c).arrAt w cfg3.N = V c (Pipeline.arrRef spec3 w) := by
  have hin : (cfg3.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat3 V c).arrAt_in w hin _).trans (A_eq3 V c w)

end Region3

end Cert.KernelIdeal.BnValue

end
-- ==== Proof.KernelChain2.lean ====
/-
  The second layer of the kernel: from what the buffers hold after the first layer to what they hold after the second.

  The host operations before the second perceptron launch aggregate the first layer's output over the edges and cut
  slice 0 out of each stacked parameter array; the launch leaves the perceptron of the aggregate and its two column
  sums; the host operations after it turn the sums into the column means and variances and place the gain and the
  offset as rows; the normalising launch leaves the normalisation, which is the layer's specification with the variance
  written from the column sums. Buffers no operation writes and no launch owns are carried through unchanged.
-/
import proofs.«159704_j38585986187613_1_alg».proof.Proof.KernelInv
import proofs.«159704_j38585986187613_1_alg».proof.Proof.MlpRegion2
import proofs.«159704_j38585986187613_1_alg».proof.Proof.BnValue3
import proofs.«159704_j38585986187613_1_alg».proof.Proof.BnLayer

set_option maxRecDepth 16384

open scoped BigOperators

noncomputable section

namespace Cert.KernelIdeal.Chain

open Cert.KernelIdeal Cert.KernelIdeal.Gen Idealize.ShloMosaic Idealize.ShloMosaic.TcCoe Idealize.SL.Sem
open Idealize.ShloMosaic.ValueIdx
open Cert.ReferenceIdeal.RefValue (refSrc refDst refFix refAgg256 refW0 refB0 refS1 refS2 row)
open Cert.KernelIdeal.BnValue (bn reshape_row meanVec varVec bn_eq_layer)
open Cert.KernelIdeal.MlpValue2 (Zarr2)
open Cert.Gin

variable (m : (ℓ : Loc nD τ sig) → Buf (Elt Ideal) ℓ) (ρ : Dev nD → PrngReg)

section Layer2

variable (c : Dev nD)

/-! ## The host operations before the perceptron launch -/

/-- The aggregate of the first layer's output over the edges. -/
theorem e55 (h : FVec Ideal S50000x256 .f32) (ei : IVec S2x800000 32)
    (h32 : W4 m ρ c (Proc.devRef .tc main_v32) = h) (h1 : W4 m ρ c (Proc.devRef .tc main_v1) = refSrc ei)
    (h3 : W4 m ρ c (Proc.devRef .tc main_v3) = refDst ei) :
    W5 m ρ c (Proc.devRef .tc main_v55) = refAgg256 h ei := by
  show StableHlo.after hostOps2 (W4 m ρ c) (Proc.devRef .tc main_v55) = _
  after_results_simp
  rw [h32, h1, h3]
  rfl

/-- Slice 0 of the stacked first weights. -/
theorem e34 (w1s : FVec Ideal S2x256x256 .f32) (h9 : W4 m ρ c (Proc.devRef .tc main_arg9) = w1s) :
    W5 m ρ c (Proc.devRef .tc main_v34) = refW0 w1s := by
  show StableHlo.after hostOps2 (W4 m ρ c) (Proc.devRef .tc main_v34) = _
  after_results
  rw [h9]
  rfl

/-- Row 0 of the stacked first biases, as a one-row matrix. -/
theorem e56 (b1s : FVec Ideal S2x256 .f32) (h10 : W4 m ρ c (Proc.devRef .tc main_arg10) = b1s) :
    W5 m ρ c (Proc.devRef .tc main_v56) = row (refB0 b1s) := by
  rw [← reshape_row]
  show StableHlo.after hostOps2 (W4 m ρ c) (Proc.devRef .tc main_v56) = _
  after_results
  rw [h10]
  rfl

/-- Slice 0 of the stacked second weights. -/
theorem e38 (w2s : FVec Ideal S2x256x256 .f32) (h11 : W4 m ρ c (Proc.devRef .tc main_arg11) = w2s) :
    W5 m ρ c (Proc.devRef .tc main_v38) = refW0 w2s := by
  show StableHlo.after hostOps2 (W4 m ρ c) (Proc.devRef .tc main_v38) = _
  after_results
  rw [h11]
  rfl

/-- Row 0 of the stacked second biases, as a one-row matrix. -/
theorem e57 (b2s : FVec Ideal S2x256 .f32) (h12 : W4 m ρ c (Proc.devRef .tc main_arg12) = b2s) :
    W5 m ρ c (Proc.devRef .tc main_v57) = row (refB0 b2s) := by
  rw [← reshape_row]
  show StableHlo.after hostOps2 (W4 m ρ c) (Proc.devRef .tc main_v57) = _
  after_results
  rw [h12]
  rfl

/-- Row 0 of the stacked gains. -/
theorem e42 (gs : FVec Ideal S2x256 .f32) (h13 : W4 m ρ c (Proc.devRef .tc main_arg13) = gs) :
    W5 m ρ c (Proc.devRef .tc main_v42) = refB0 gs := by
  show StableHlo.after hostOps2 (W4 m ρ c) (Proc.devRef .tc main_v42) = _
  after_results
  rw [h13]
  rfl

/-- Row 0 of the stacked offsets. -/
theorem e44 (bs : FVec Ideal S2x256 .f32) (h14 : W4 m ρ c (Proc.devRef .tc main_arg14) = bs) :
    W5 m ρ c (Proc.devRef .tc main_v44) = refB0 bs := by
  show StableHlo.after hostOps2 (W4 m ρ c) (Proc.devRef .tc main_v44) = _
  after_results
  rw [h14]
  rfl

/-- What the first stretch does not write it leaves as it was. -/
theorem keep5_v1 : W5 m ρ c (Proc.devRef .tc main_v1) = W4 m ρ c (Proc.devRef .tc main_v1) := by
  show StableHlo.after hostOps2 (W4 m ρ c) (Proc.devRef .tc main_v1) = _
  after_results_simp
theorem keep5_v3 : W5 m ρ c (Proc.devRef .tc main_v3) = W4 m ρ c (Proc.devRef .tc main_v3) := by
  show StableHlo.after hostOps2 (W4 m ρ c) (Proc.devRef .tc main_v3) = _
  after_results_simp
theorem keep5_arg2 : W5 m ρ c (Proc.devRef .tc main_arg2) = W4 m ρ c (Proc.devRef .tc main_arg2) := by
  show StableHlo.after hostOps2 (W4 m ρ c) (Proc.devRef .tc main_arg2) = _
  after_results_simp
theorem keep5_arg9 : W5 m ρ c (Proc.devRef .tc main_arg9) = W4 m ρ c (Proc.devRef .tc main_arg9) := by
  show StableHlo.after hostOps2 (W4 m ρ c) (Proc.devRef .tc main_arg9) = _
  after_results_simp
theorem keep5_arg10 : W5 m ρ c (Proc.devRef .tc main_arg10) = W4 m ρ c (Proc.devRef .tc main_arg10) := by
  show StableHlo.after hostOps2 (W4 m ρ c) (Proc.devRef .tc main_arg10) = _
  after_results_simp
theorem keep5_arg11 : W5 m ρ c (Proc.devRef .tc main_arg11) = W4 m ρ c (Proc.devRef .tc main_arg11) := by
  show StableHlo.after hostOps2 (W4 m ρ c) (Proc.devRef .tc main_arg11) = _
  after_results_simp
theorem keep5_arg12 : W5 m ρ c (Proc.devRef .tc main_arg12) = W4 m ρ c (Proc.devRef .tc main_arg12) := by
  show StableHlo.after hostOps2 (W4 m ρ c) (Proc.devRef .tc main_arg12) = _
  after_results_simp
theorem keep5_arg13 : W5 m ρ c (Proc.devRef .tc main_arg13) = W4 m ρ c (Proc.devRef .tc main_arg13) := by
  show StableHlo.after hostOps2 (W4 m ρ c) (Proc.devRef .tc main_arg13) = _
  after_results_simp
theorem keep5_arg14 : W5 m ρ c (Proc.devRef .tc main_arg14) = W4 m ρ c (Proc.devRef .tc main_arg14) := by
  show StableHlo.after hostOps2 (W4 m ρ c) (Proc.devRef .tc main_arg14) = _
  after_results_simp

/-! ## The perceptron launch -/

/-- The launch leaves the perceptron of the arrays it finds, and its two column sums. -/
theorem r58_0 : W6 m ρ c (Proc.devRef .tc main_v58_0) = Zarr2 (V5 m ρ) c :=
  (W6_arr m ρ c 5).trans (Cert.KernelIdeal.MlpValue2.final2_5 (V5 m ρ) c)
theorem r58_1 : W6 m ρ c (Proc.devRef .tc main_v58_1)
    = fun j : S1x256.Idx => colSum (Zarr2 (V5 m ρ) c) 50000 (j 1) :=
  (W6_arr m ρ c 6).trans (Cert.KernelIdeal.MlpValue2.final2_6 (V5 m ρ) c)
theorem r58_2 : W6 m ρ c (Proc.devRef .tc main_v58_2)
    = fun j : S1x256.Idx => colSumSq (Zarr2 (V5 m ρ) c) 50000 (j 1) :=
  (W6_arr m ρ c 7).trans (Cert.KernelIdeal.MlpValue2.final2_7 (V5 m ρ) c)

/-- A buffer the launch does not own is left as it was. -/
theorem keep6_v42 : W6 m ρ c (Proc.devRef .tc main_v42) = W5 m ρ c (Proc.devRef .tc main_v42) :=
  W6_of_ne m ρ c main_v42 (by decide)
theorem keep6_v44 : W6 m ρ c (Proc.devRef .tc main_v44) = W5 m ρ c (Proc.devRef .tc main_v44) :=
  W6_of_ne m ρ c main_v44 (by decide)
theorem keep6_v1 : W6 m ρ c (Proc.devRef .tc main_v1) = W5 m ρ c (Proc.devRef .tc main_v1) :=
  W6_of_ne m ρ c main_v1 (by decide)
theorem keep6_v3 : W6 m ρ c (Proc.devRef .tc main_v3) = W5 m ρ c (Proc.devRef .tc main_v3) :=
  W6_of_ne m ρ c main_v3 (by decide)
theorem keep6_arg2 : W6 m ρ c (Proc.devRef .tc main_arg2) = W5 m ρ c (Proc.devRef .tc main_arg2) :=
  W6_of_ne m ρ c main_arg2 (by decide)
theorem keep6_arg9 : W6 m ρ c (Proc.devRef .tc main_arg9) = W5 m ρ c (Proc.devRef .tc main_arg9) :=
  W6_of_ne m ρ c main_arg9 (by decide)
theorem keep6_arg10 : W6 m ρ c (Proc.devRef .tc main_arg10) = W5 m ρ c (Proc.devRef .tc main_arg10) :=
  W6_of_ne m ρ c main_arg10 (by decide)
theorem keep6_arg11 : W6 m ρ c (Proc.devRef .tc main_arg11) = W5 m ρ c (Proc.devRef .tc main_arg11) :=
  W6_of_ne m ρ c main_arg11 (by decide)
theorem keep6_arg12 : W6 m ρ c (Proc.devRef .tc main_arg12) = W5 m ρ c (Proc.devRef .tc main_arg12) :=
  W6_of_ne m ρ c main_arg12 (by decide)
theorem keep6_arg13 : W6 m ρ c (Proc.devRef .tc main_arg13) = W5 m ρ c (Proc.devRef .tc main_arg13) :=
  W6_of_ne m ρ c main_arg13 (by decide)
theorem keep6_arg14 : W6 m ρ c (Proc.devRef .tc main_arg14) = W5 m ρ c (Proc.devRef .tc main_arg14) :=
  W6_of_ne m ρ c main_arg14 (by decide)

/-! ## The host operations between the two launches -/

/-- The gain and the offset placed as rows, the column means and the column variances as rows. -/
theorem e69 : W7 m ρ c (Proc.devRef .tc main_v69) = row (W6 m ρ c (Proc.devRef .tc main_v42)) := by
  rw [← reshape_row]
  show StableHlo.after hostOps3 (W6 m ρ c) (Proc.devRef .tc main_v69) = _
  after_results
  rfl
theorem e70 : W7 m ρ c (Proc.devRef .tc main_v70) = row (W6 m ρ c (Proc.devRef .tc main_v44)) := by
  rw [← reshape_row]
  show StableHlo.after hostOps3 (W6 m ρ c) (Proc.devRef .tc main_v70) = _
  after_results
  rfl
theorem e71 : W7 m ρ c (Proc.devRef .tc main_v71) = row (meanVec (W6 m ρ c (Proc.devRef .tc main_v58_1))) := by
  rw [← reshape_row]
  show StableHlo.after hostOps3 (W6 m ρ c) (Proc.devRef .tc main_v71) = _
  after_results
  rfl
theorem e72 : W7 m ρ c (Proc.devRef .tc main_v72)
    = row (varVec (W6 m ρ c (Proc.devRef .tc main_v58_1)) (W6 m ρ c (Proc.devRef .tc main_v58_2))) := by
  rw [← reshape_row]
  show StableHlo.after hostOps3 (W6 m ρ c) (Proc.devRef .tc main_v72) = _
  after_results_simp
  rfl

theorem keep7_v58_0 : W7 m ρ c (Proc.devRef .tc main_v58_0) = W6 m ρ c (Proc.devRef .tc main_v58_0) := by
  show StableHlo.after hostOps3 (W6 m ρ c) (Proc.devRef .tc main_v58_0) = _
  after_results_simp
theorem keep7_v1 : W7 m ρ c (Proc.devRef .tc main_v1) = W6 m ρ c (Proc.devRef .tc main_v1) := by
  show StableHlo.after hostOps3 (W6 m ρ c) (Proc.devRef .tc main_v1) = _
  after_results_simp
theorem keep7_v3 : W7 m ρ c (Proc.devRef .tc main_v3) = W6 m ρ c (Proc.devRef .tc main_v3) := by
  show StableHlo.after hostOps3 (W6 m ρ c) (Proc.devRef .tc main_v3) = _
  after_results_simp
theorem keep7_arg2 : W7 m ρ c (Proc.devRef .tc main_arg2) = W6 m ρ c (Proc.devRef .tc main_arg2) := by
  show StableHlo.after hostOps3 (W6 m ρ c) (Proc.devRef .tc main_arg2) = _
  after_results_simp
theorem keep7_arg9 : W7 m ρ c (Proc.devRef .tc main_arg9) = W6 m ρ c (Proc.devRef .tc main_arg9) := by
  show StableHlo.after hostOps3 (W6 m ρ c) (Proc.devRef .tc main_arg9) = _
  after_results_simp
theorem keep7_arg10 : W7 m ρ c (Proc.devRef .tc main_arg10) = W6 m ρ c (Proc.devRef .tc main_arg10) := by
  show StableHlo.after hostOps3 (W6 m ρ c) (Proc.devRef .tc main_arg10) = _
  after_results_simp
theorem keep7_arg11 : W7 m ρ c (Proc.devRef .tc main_arg11) = W6 m ρ c (Proc.devRef .tc main_arg11) := by
  show StableHlo.after hostOps3 (W6 m ρ c) (Proc.devRef .tc main_arg11) = _
  after_results_simp
theorem keep7_arg12 : W7 m ρ c (Proc.devRef .tc main_arg12) = W6 m ρ c (Proc.devRef .tc main_arg12) := by
  show StableHlo.after hostOps3 (W6 m ρ c) (Proc.devRef .tc main_arg12) = _
  after_results_simp
theorem keep7_arg13 : W7 m ρ c (Proc.devRef .tc main_arg13) = W6 m ρ c (Proc.devRef .tc main_arg13) := by
  show StableHlo.after hostOps3 (W6 m ρ c) (Proc.devRef .tc main_arg13) = _
  after_results_simp
theorem keep7_arg14 : W7 m ρ c (Proc.devRef .tc main_arg14) = W6 m ρ c (Proc.devRef .tc main_arg14) := by
  show StableHlo.after hostOps3 (W6 m ρ c) (Proc.devRef .tc main_arg14) = _
  after_results_simp

/-! ## The normalising launch -/

/-- The launch leaves the normalisation of the arrays it finds. -/
theorem r73 : W8 m ρ c (Proc.devRef .tc main_v73)
    = bn (W7 m ρ c (Proc.devRef .tc main_v58_0)) (W7 m ρ c (Proc.devRef .tc main_v69))
        (W7 m ρ c (Proc.devRef .tc main_v70)) (W7 m ρ c (Proc.devRef .tc main_v71))
        (W7 m ρ c (Proc.devRef .tc main_v72)) :=
  (W8_arr m ρ c 5).trans (Cert.KernelIdeal.BnValue.final3 (V7 m ρ) c)

theorem keep8_v1 : W8 m ρ c (Proc.devRef .tc main_v1) = W7 m ρ c (Proc.devRef .tc main_v1) :=
  W8_of_ne m ρ c main_v1 (by decide)
theorem keep8_v3 : W8 m ρ c (Proc.devRef .tc main_v3) = W7 m ρ c (Proc.devRef .tc main_v3) :=
  W8_of_ne m ρ c main_v3 (by decide)
theorem keep8_arg2 : W8 m ρ c (Proc.devRef .tc main_arg2) = W7 m ρ c (Proc.devRef .tc main_arg2) :=
  W8_of_ne m ρ c main_arg2 (by decide)
theorem keep8_arg9 : W8 m ρ c (Proc.devRef .tc main_arg9) = W7 m ρ c (Proc.devRef .tc main_arg9) :=
  W8_of_ne m ρ c main_arg9 (by decide)
theorem keep8_arg10 : W8 m ρ c (Proc.devRef .tc main_arg10) = W7 m ρ c (Proc.devRef .tc main_arg10) :=
  W8_of_ne m ρ c main_arg10 (by decide)
theorem keep8_arg11 : W8 m ρ c (Proc.devRef .tc main_arg11) = W7 m ρ c (Proc.devRef .tc main_arg11) :=
  W8_of_ne m ρ c main_arg11 (by decide)
theorem keep8_arg12 : W8 m ρ c (Proc.devRef .tc main_arg12) = W7 m ρ c (Proc.devRef .tc main_arg12) :=
  W8_of_ne m ρ c main_arg12 (by decide)
theorem keep8_arg13 : W8 m ρ c (Proc.devRef .tc main_arg13) = W7 m ρ c (Proc.devRef .tc main_arg13) :=
  W8_of_ne m ρ c main_arg13 (by decide)
theorem keep8_arg14 : W8 m ρ c (Proc.devRef .tc main_arg14) = W7 m ρ c (Proc.devRef .tc main_arg14) :=
  W8_of_ne m ρ c main_arg14 (by decide)

/-! ## The layer -/

/-- From the first layer's boundary to the second's. -/
theorem inv8_of_inv4 (h4 : Inv4 m ρ c) : Inv8 m ρ c := by
  obtain ⟨h32, h1, h3, h2, h9, h10, h11, h12, h13, h14⟩ := h4
  refine ⟨?_, ?_, ?_, ?_, ?_, ?_, ?_, ?_, ?_, ?_⟩
  · -- the layer's output
    rw [r73, keep7_v58_0, r58_0, e69, e70, e71, e72, keep6_v42, keep6_v44, r58_1, r58_2]
    unfold Zarr2
    rw [show V5 m ρ c main_v55 = W5 m ρ c (Proc.devRef .tc main_v55) from rfl,
      show V5 m ρ c main_v34 = W5 m ρ c (Proc.devRef .tc main_v34) from rfl,
      show V5 m ρ c main_v56 = W5 m ρ c (Proc.devRef .tc main_v56) from rfl,
      show V5 m ρ c main_v38 = W5 m ρ c (Proc.devRef .tc main_v38) from rfl,
      show V5 m ρ c main_v57 = W5 m ρ c (Proc.devRef .tc main_v57) from rfl,
      e55 m ρ c _ _ h32 h1 h3, e34 m ρ c _ h9, e56 m ρ c _ h10, e38 m ρ c _ h11, e57 m ρ c _ h12, e42 m ρ c _ h13,
      e44 m ρ c _ h14]
    exact bn_eq_layer (K := 256) _ _ _ _ _ _ _ _ _ (fun _ => rfl) (fun _ => rfl)
  · rw [keep8_v1, keep7_v1, keep6_v1, keep5_v1]; exact h1
  · rw [keep8_v3, keep7_v3, keep6_v3, keep5_v3]; exact h3
  · rw [keep8_arg2, keep7_arg2, keep6_arg2, keep5_arg2]; exact h2
  · rw [keep8_arg9, keep7_arg9, keep6_arg9, keep5_arg9]; exact h9
  · rw [keep8_arg10, keep7_arg10, keep6_arg10, keep5_arg10]; exact h10
  · rw [keep8_arg11, keep7_arg11, keep6_arg11, keep5_arg11]; exact h11
  · rw [keep8_arg12, keep7_arg12, keep6_arg12, keep5_arg12]; exact h12
  · rw [keep8_arg13, keep7_arg13, keep6_arg13, keep5_arg13]; exact h13
  · rw [keep8_arg14, keep7_arg14, keep6_arg14, keep5_arg14]; exact h14

end Layer2

end Cert.KernelIdeal.Chain

end
-- ==== Proof.MlpPay4.lean ====
/-
  What one grid point of the perceptron-with-statistics kernel (the third layer's, 256 input features) computes, read
  entry by entry on the extended reals.

  The body loads a block of 2000 feature rows, the two weight matrices and the two one-row biases, and stores
    the block of outputs    z (p, q) = max ((∑ k, hid (p, k) · W2 (k, q)) + b2 q, 0),  hid = max (x · W1 + b1, 0),
    the running column sums   s q + ∑ p, z (p, q)   and   ss q + ∑ p, z (p, q) · z (p, q).
  The roundings to a narrower float on the way into each product are the identity at the exact values, and each product
  goes into a zero accumulator, so it is the plain sum over the contracted axis; a sum over the rows of a block from the
  zero word is the plain sum over the block's 2000 row indices.
-/
import proofs.«159704_j38585986187613_1_alg».proof.Proof.Gen.KernelIdeal.Skeleton
import proofs.«159704_j38585986187613_1_alg».proof.Proof.GinSpec
import Idealize.ShloMosaic.Lib.ValueLayout
import Idealize.ShloMosaic.Lib.Pipeline.Value
import Idealize.ShloMosaic.PureOps.Ideal.Laws

open scoped BigOperators

noncomputable section

namespace Cert.KernelIdeal.MlpValue4

open Cert.KernelIdeal Cert.KernelIdeal.Gen Idealize.ShloMosaic Idealize.ShloMosaic.ValueIdx
open Cert.DenseLayer Cert.RectLayers Cert.Gin

/-- The source index of a column's row sum: row k of column q. -/
theorem lift_col (q : Fin 256) (k : Fin 2000) :
    (reduces_S2000x256_S256 : S2000x256.Reduces [0] S256).lift (ix1 q) k = ix2 k q := by
  funext a
  apply Fin.ext
  match a with
  | ⟨0, _⟩ => rfl
  | ⟨1, _⟩ => rfl

/-- A sum over the rows of a [2000, 256] block from the zero word, at column q: the sum over the 2000 row indices. -/
theorem rowsum_apply (v : FVec Ideal S2000x256 .f32) (hφ : FKind.Formats FTy.f32)
    (hacc : (0x00000000#32 : BitVec 32) = 0x00000000#32) (q : Fin 256) :
    multiReduction .add [0] S256 v 0x00000000#32 reduces_S2000x256_S256 hφ hacc (ix1 q) = ∑ p : Fin 2000, v (ix2 p q) := by
  refine (Ideal.multiReduction_add_single v 0x00000000#32 reduces_S2000x256_S256 hφ hacc (ix1 q)).trans ?_
  exact Finset.sum_congr rfl fun k _ => congrArg v (lift_col q k)

/-- The first layer's tile at (p, q): the hidden row of row p of the block. -/
theorem hid0_apply (x0 : FVec Ideal S2000x256 .f32) (x1 : FVec Ideal S256x256 .f32) (x2 : FVec Ideal S1x256 .f32)
    (p : Fin 2000) (q : Fin 256) :
    maximumf (addf (matmul dot_S2000x256_S256x256_S2000x256_1_0_0_1_n_n none
          (truncf .bf16 x0 bitsLt_bf16_f32)
          (truncf .bf16 x1 bitsLt_bf16_f32) (constant S2000x256 .f32 0x00000000#32))
        (broadcastTo S2000x256 x2 broadcasts_S1x256_S2000x256))
      (broadcast S2000x256 (Scalar.ofBits (F := Ideal) .f32 0x00000000#32)) (ix2 p q)
      = hid (fun k => x0 (ix2 p k)) x1 x2 q := by
  show max (matmul dot_S2000x256_S256x256_S2000x256_1_0_0_1_n_n none
          (truncf .bf16 x0 bitsLt_bf16_f32)
          (truncf .bf16 x1 bitsLt_bf16_f32) (constant S2000x256 .f32 0x00000000#32) (ix2 p q)
        + broadcastTo S2000x256 x2 broadcasts_S1x256_S2000x256 (ix2 p q))
      (Ideal.ofBits .f32 0x00000000#32) = _
  rw [tile_product_apply dot_S2000x256_S256x256_S2000x256_1_0_0_1_n_n rfl rfl rfl rfl rfl rfl rfl rfl none _ _ p q,
    broadcastTo_1b_ab_apply]
  rfl

/-- The stored output block at (p, q): the output row of row p of the feature block. -/
theorem pay4_apply (x0 : Vec Ideal S2000x256 .f32) (x1 : Vec Ideal S256x256 .f32) (x2 : Vec Ideal S1x256 .f32)
    (x3 : Vec Ideal S256x256 .f32) (x4 : Vec Ideal S1x256 .f32) (p : Fin 2000) (q : Fin 256) :
    k4_pay4 x0 x1 x2 x3 x4 (ix2 p q) = zrow (fun k => x0 (ix2 p k)) x1 x2 x3 x4 q := by
  unfold k4_pay4
  simp only [shapeCast_self]
  show max (matmul dot_S2000x256_S256x256_S2000x256_1_0_0_1_n_n none
          (truncf .bf16 (maximumf (addf (matmul dot_S2000x256_S256x256_S2000x256_1_0_0_1_n_n none
              (truncf .bf16 x0 bitsLt_bf16_f32)
              (truncf .bf16 x1 bitsLt_bf16_f32) (constant S2000x256 .f32 0x00000000#32))
            (broadcastTo S2000x256 x2 broadcasts_S1x256_S2000x256))
          (broadcast S2000x256 (Scalar.ofBits (F := Ideal) .f32 0x00000000#32))) bitsLt_bf16_f32)
          (truncf .bf16 x3 bitsLt_bf16_f32) (constant S2000x256 .f32 0x00000000#32) (ix2 p q)
        + broadcastTo S2000x256 x4 broadcasts_S1x256_S2000x256 (ix2 p q))
      (Ideal.ofBits .f32 0x00000000#32) = _
  rw [tile_product_apply dot_S2000x256_S256x256_S2000x256_1_0_0_1_n_n rfl rfl rfl rfl rfl rfl rfl rfl none _ _ p q,
    broadcastTo_1b_ab_apply]
  unfold zrow rect affine
  dsimp only
  refine congrArg (fun s => max (s + x4 (ix2 (0 : Fin 1) q)) (Ideal.ofBits .f32 0x00000000#32))
    (Finset.sum_congr rfl fun k _ => ?_)
  exact congrArg (· * x3 (ix2 k q)) (hid0_apply x0 x1 x2 p k)

/-- The running column sum the body stores, at column q: the carried sum plus the block's column sum. -/
theorem pay5_apply (x0 : Vec Ideal S2000x256 .f32) (x1 : Vec Ideal S256x256 .f32) (x2 : Vec Ideal S1x256 .f32)
    (x3 : Vec Ideal S256x256 .f32) (x4 : Vec Ideal S1x256 .f32) (s : Vec Ideal S1x256 .f32) (u : Fin 1) (q : Fin 256) :
    k4_pay5 x0 x1 x2 x3 x4 s (ix2 u q)
      = s (ix2 u q) + ∑ p : Fin 2000, k4_pay4 x0 x1 x2 x3 x4 (ix2 p q) := by
  unfold k4_pay5
  show shapeCast S1x256 s shapeCasts_S1x256_S1x256 (ix2 u q)
      + shapeCast S1x256 (multiReduction .add [0] S256 (k4_pay4 x0 x1 x2 x3 x4) 0x00000000#32 reduces_S2000x256_S256 (.inl rfl) rfl)
          shapeCasts_S256_S1x256 (ix2 u q) = _
  rw [shapeCast_self, shapeCast_a_1a_apply, rowsum_apply]

/-- The running column sum of squares the body stores, at column q. -/
theorem pay1_apply (z : FVec Ideal S2000x256 .f32) (ss : Vec Ideal S1x256 .f32) (u : Fin 1) (q : Fin 256) :
    k4_pay1 z ss (ix2 u q) = ss (ix2 u q) + ∑ p : Fin 2000, z (ix2 p q) * z (ix2 p q) := by
  unfold k4_pay1
  show shapeCast S1x256 ss shapeCasts_S1x256_S1x256 (ix2 u q)
      + shapeCast S1x256 (multiReduction .add [0] S256 (mulf z z) 0x00000000#32 reduces_S2000x256_S256 (.inl rfl) rfl)
          shapeCasts_S256_S1x256 (ix2 u q) = _
  rw [shapeCast_self, shapeCast_a_1a_apply, rowsum_apply]
  rfl

/-- The reset stores the zero word in every entry of the two running sums. -/
theorem pay2_apply (j : S1x256.Idx) : k4_pay2 (F := Ideal) j = Ideal.ofBits .f32 0x00000000#32 := rfl
theorem pay3_apply (j : S1x256.Idx) : k4_pay3 (F := Ideal) j = Ideal.ofBits .f32 0x00000000#32 := rfl

end Cert.KernelIdeal.MlpValue4

end
-- ==== Proof.MlpRegion4.lean ====
/-
  The third perceptron-with-statistics launch (25 grid points, 2000 rows each) as whole arrays.

  With X the [50000, 256] feature array, W1, W2 the weights and b1, b2 the one-row biases as the launch finds them,
  Z = the two-layer perceptron of X (Cert.Gin.Zfun). Grid point t reads rows 2000·t … 2000·t + 1999 of X and the whole
  of every other operand, so the output block it stores is rows 2000·t … of Z (entry (p, q) of the perceptron reads row
  p only). The two one-row outputs are carried from point to point: point 0 resets them to the zero word and adds its
  block's column sums, every later point adds its own, so after point t they hold the column sums of Z and of its
  squares over the first 2000·(t+1) rows — by induction on the point. The output array is written back block by block
  at every point and ends as Z; each running sum is written back once, after the last point, and ends as the column sum
  over all 50000 rows.
-/
import proofs.«159704_j38585986187613_1_alg».proof.Proof.Gen.KernelIdeal.Frame
import proofs.«159704_j38585986187613_1_alg».proof.Proof.MlpPay4
import Idealize.ShloMosaic.Lib.Pipeline.Value
import Idealize.ShloMosaic.Lib.Tactic

open scoped BigOperators

noncomputable section

namespace Cert.KernelIdeal.MlpValue4

open Cert.KernelIdeal Cert.KernelIdeal.Gen Idealize.ShloMosaic Idealize.ShloMosaic.TcCoe Idealize.SL.Sem
open Idealize.ShloMosaic.ValueIdx
open Idealize.ShloMosaic.Pipeline (Dat)
open Cert.DenseLayer Cert.RectLayers Cert.Gin

variable (V : (c : Dev nD) → (b : Ref sig .tc) → Buf (Elt Ideal) ((c : Thread nD τ).loc b))

theorem hz2 : (![0, 0] : Fin 2 → Nat) = fun _ => 0 := funext fun a => by fin_cases a <;> rfl

/-! ## What each case of the body leaves in the three output buffers -/

/-- Later points: the output block is the perceptron of the loaded blocks. -/
theorem outB5 (c : Dev nD) (i : grid4.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond4_0 i)
    (x0 : Vec Ideal S2000x256 .f32) (x1 : Vec Ideal S256x256 .f32) (x2 : Vec Ideal S1x256 .f32)
    (x3 : Vec Ideal S256x256 .f32) (x4 : Vec Ideal S1x256 .f32) (xo6 xo7 : Vec Ideal S1x256 .f32) :
    out4_B_5 c i a1 h1 a2 h2 a3 h3 a4 h4 a5 h5 a6 h6 a7 h7 a8 h8 hc x0 x1 x2 x3 x4 xo6 xo7 = k4_pay4 x0 x1 x2 x3 x4 := by
  unfold out4_B_5
  rw [View.read_writes_eq_canon _ _ _ (cover4_B_5 c i a1 h1 a2 h2 a3 h3 a4 h4 a5 h5 a6 h6 a7 h7 a8 h8 hc x0 x1 x2 x3 x4 xo6 xo7)]
  unfold kernelRun4_B
  dsimp only
  try sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- Later points: the running sum is the carried one plus the block's column sums. -/
theorem outB6 (c : Dev nD) (i : grid4.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond4_0 i)
    (x0 : Vec Ideal S2000x256 .f32) (x1 : Vec Ideal S256x256 .f32) (x2 : Vec Ideal S1x256 .f32)
    (x3 : Vec Ideal S256x256 .f32) (x4 : Vec Ideal S1x256 .f32) (xo6 xo7 : Vec Ideal S1x256 .f32) :
    out4_B_6 c i a1 h1 a2 h2 a3 h3 a4 h4 a5 h5 a6 h6 a7 h7 a8 h8 hc x0 x1 x2 x3 x4 xo6 xo7 = k4_pay5 x0 x1 x2 x3 x4 xo6 := by
  unfold out4_B_6
  rw [View.read_writes_eq_canon _ _ _ (cover4_B_6 c i a1 h1 a2 h2 a3 h3 a4 h4 a5 h5 a6 h6 a7 h7 a8 h8 hc x0 x1 x2 x3 x4 xo6 xo7)]
  unfold kernelRun4_B
  dsimp only
  try sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- Later points: the running sum of squares is the carried one plus the block's column sums of squares. -/
theorem outB7 (c : Dev nD) (i : grid4.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : ¬cond4_0 i)
    (x0 : Vec Ideal S2000x256 .f32) (x1 : Vec Ideal S256x256 .f32) (x2 : Vec Ideal S1x256 .f32)
    (x3 : Vec Ideal S256x256 .f32) (x4 : Vec Ideal S1x256 .f32) (xo6 xo7 : Vec Ideal S1x256 .f32) :
    out4_B_7 c i a1 h1 a2 h2 a3 h3 a4 h4 a5 h5 a6 h6 a7 h7 a8 h8 hc x0 x1 x2 x3 x4 xo6 xo7 = k4_pay1 (k4_pay4 x0 x1 x2 x3 x4) xo7 := by
  unfold out4_B_7
  rw [View.read_writes_eq_canon _ _ _ (cover4_B_7 c i a1 h1 a2 h2 a3 h3 a4 h4 a5 h5 a6 h6 a7 h7 a8 h8 hc x0 x1 x2 x3 x4 xo6 xo7)]
  unfold kernelRun4_B
  dsimp only
  sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- The first point: the output block is the perceptron of the loaded blocks. -/
theorem outA5 (c : Dev nD) (i : grid4.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond4_0 i)
    (x0 : Vec Ideal S2000x256 .f32) (x1 : Vec Ideal S256x256 .f32) (x2 : Vec Ideal S1x256 .f32)
    (x3 : Vec Ideal S256x256 .f32) (x4 : Vec Ideal S1x256 .f32) :
    out4_A_5 c i a1 h1 a2 h2 a3 h3 a4 h4 a5 h5 a6 h6 a7 h7 a8 h8 hc x0 x1 x2 x3 x4 = k4_pay4 x0 x1 x2 x3 x4 := by
  unfold out4_A_5
  rw [View.read_writes_eq_canon _ _ _ (cover4_A_5 c i a1 h1 a2 h2 a3 h3 a4 h4 a5 h5 a6 h6 a7 h7 a8 h8 hc x0 x1 x2 x3 x4)]
  unfold kernelRun4_A
  dsimp only
  try sl_unfold_words
  rw [View.canon_unit_zero hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- The first point: the running sum is reset to the zero word, then the block's column sums are added. -/
theorem outA6 (c : Dev nD) (i : grid4.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond4_0 i)
    (x0 : Vec Ideal S2000x256 .f32) (x1 : Vec Ideal S256x256 .f32) (x2 : Vec Ideal S1x256 .f32)
    (x3 : Vec Ideal S256x256 .f32) (x4 : Vec Ideal S1x256 .f32) :
    out4_A_6 c i a1 h1 a2 h2 a3 h3 a4 h4 a5 h5 a6 h6 a7 h7 a8 h8 hc x0 x1 x2 x3 x4 = k4_pay5 x0 x1 x2 x3 x4 (k4_pay2 (F := Ideal)) := by
  unfold out4_A_6
  rw [View.read_writes_eq_canon _ _ _ (cover4_A_6 c i a1 h1 a2 h2 a3 h3 a4 h4 a5 h5 a6 h6 a7 h7 a8 h8 hc x0 x1 x2 x3 x4)]
  unfold kernelRun4_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-- The first point: the running sum of squares is reset to the zero word, then the block's is added. -/
theorem outA7 (c : Dev nD) (i : grid4.Coords) (a1 : Memref sig .tc .vmem S2000x256 .f32) (h1 : a1.IsWhole)
    (a2 : Memref sig .tc .vmem S256x256 .f32) (h2 : a2.IsWhole) (a3 : Memref sig .tc .vmem S1x256 .f32) (h3 : a3.IsWhole)
    (a4 : Memref sig .tc .vmem S256x256 .f32) (h4 : a4.IsWhole) (a5 : Memref sig .tc .vmem S1x256 .f32) (h5 : a5.IsWhole)
    (a6 : Memref sig .tc .vmem S2000x256 .f32) (h6 : a6.IsWhole) (a7 : Memref sig .tc .vmem S1x256 .f32) (h7 : a7.IsWhole)
    (a8 : Memref sig .tc .vmem S1x256 .f32) (h8 : a8.IsWhole) (hc : cond4_0 i)
    (x0 : Vec Ideal S2000x256 .f32) (x1 : Vec Ideal S256x256 .f32) (x2 : Vec Ideal S1x256 .f32)
    (x3 : Vec Ideal S256x256 .f32) (x4 : Vec Ideal S1x256 .f32) :
    out4_A_7 c i a1 h1 a2 h2 a3 h3 a4 h4 a5 h5 a6 h6 a7 h7 a8 h8 hc x0 x1 x2 x3 x4 = k4_pay1 (k4_pay4 x0 x1 x2 x3 x4) (k4_pay3 (F := Ideal)) := by
  unfold out4_A_7
  rw [View.read_writes_eq_canon _ _ _ (cover4_A_7 c i a1 h1 a2 h2 a3 h3 a4 h4 a5 h5 a6 h6 a7 h7 a8 h8 hc x0 x1 x2 x3 x4)]
  unfold kernelRun4_A
  dsimp only
  sl_unfold_words
  rw [View.canon_cons_unit_zero (S := S1x256) hz2, View.readCov_unit_zero (S := S1x256) _ hz2]
  simp only [View.readAt_eq_ld, h1.read_unread, h2.read_unread, h3.read_unread, h4.read_unread, h5.read_unread, h7.read_unread, h8.read_unread, View.ld_unit_zero (S := S2000x256) hz2, View.ld_unit_zero (S := S256x256) hz2, View.ld_unit_zero (S := S1x256) hz2, View.ld_unit_zero (S := S256x256) hz2, View.ld_unit_zero (S := S2000x256) hz2]

/-! ## The blocks the points read -/

/-- The printed index maps over the grid: the feature window and the output window are at row block t, every other
    window at its one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

/-- Row p of the feature block at point t is row 2000·t + p of the feature array. -/
theorem blk0_apply (c : Dev nD) (t : Fin cfg4.N) (p : Fin 2000) (k : Fin 256) (h : 2000 * t.val + p.val < 50000) :
    iblk4 V c 0 t (ix2 p k) = V c main_v96 (ix2 ⟨2000 * t.val + p.val, h⟩ k) := by
  unfold iblk4
  rw [View.read_apply]
  show V c main_v96 (((cfg4.win 0).blk t).view.emb (ix2 p k)) = _
  refine congrArg (V c main_v96) ?_
  obtain ⟨e0, e1, -⟩ := idx_facts t
  funext a; apply Fin.ext
  match a with
  | ⟨0, _⟩ => show win4_0.index t (0 : Fin 2) * 2000 + 1 * p.val = 2000 * t.val + p.val; rw [e0]; omega
  | ⟨1, _⟩ => show win4_0.index t (1 : Fin 2) * 256 + 1 * k.val = k.val; rw [e1]; omega

/-- The first weight matrix's one block is the whole matrix, at every point. -/
theorem blk1_eq (c : Dev nD) (t : Fin cfg4.N) : (iblk4 V c 1 t : Vec Ideal S256x256 .f32) = V c main_v75 := by
  funext j
  unfold iblk4
  rw [View.read_apply]
  show V c main_v75 (((cfg4.win 1).blk t).view.emb j) = _
  refine congrArg (V c main_v75) ?_
  obtain ⟨-, -, e0, e1, -⟩ := idx_facts t
  funext a; apply Fin.ext
  match a with
  | ⟨0, _⟩ => show win4_1.index t (0 : Fin 2) * 256 + 1 * (j 0).val = (j 0).val; rw [e0]; omega
  | ⟨1, _⟩ => show win4_1.index t (1 : Fin 2) * 256 + 1 * (j 1).val = (j 1).val; rw [e1]; omega

theorem blk2_eq (c : Dev nD) (t : Fin cfg4.N) : (iblk4 V c 2 t : Vec Ideal S1x256 .f32) = V c main_v97 := by
  funext j
  unfold iblk4
  rw [View.read_apply]
  show V c main_v97 (((cfg4.win 2).blk t).view.emb j) = _
  refine congrArg (V c main_v97) ?_
  obtain ⟨-, -, -, -, e0, e1, -⟩ := idx_facts t
  funext a; apply Fin.ext
  match a with
  | ⟨0, _⟩ => show win4_2.index t (0 : Fin 2) * 1 + 1 * (j 0).val = (j 0).val; rw [e0]; omega
  | ⟨1, _⟩ => show win4_2.index t (1 : Fin 2) * 256 + 1 * (j 1).val = (j 1).val; rw [e1]; omega

theorem blk3_eq (c : Dev nD) (t : Fin cfg4.N) : (iblk4 V c 3 t : Vec Ideal S256x256 .f32) = V c main_v79 := by
  funext j
  unfold iblk4
  rw [View.read_apply]
  show V c main_v79 (((cfg4.win 3).blk t).view.emb j) = _
  refine congrArg (V c main_v79) ?_
  obtain ⟨-, -, -, -, -, -, e0, e1, -⟩ := idx_facts t
  funext a; apply Fin.ext
  match a with
  | ⟨0, _⟩ => show win4_3.index t (0 : Fin 2) * 256 + 1 * (j 0).val = (j 0).val; rw [e0]; omega
  | ⟨1, _⟩ => show win4_3.index t (1 : Fin 2) * 256 + 1 * (j 1).val = (j 1).val; rw [e1]; omega

theorem blk4_eq (c : Dev nD) (t : Fin cfg4.N) : (iblk4 V c 4 t : Vec Ideal S1x256 .f32) = V c main_v98 := by
  funext j
  unfold iblk4
  rw [View.read_apply]
  show V c main_v98 (((cfg4.win 4).blk t).view.emb j) = _
  refine congrArg (V c main_v98) ?_
  obtain ⟨-, -, -, -, -, -, -, -, e0, e1, -⟩ := idx_facts t
  funext a; apply Fin.ext
  match a with
  | ⟨0, _⟩ => show win4_4.index t (0 : Fin 2) * 1 + 1 * (j 0).val = (j 0).val; rw [e0]; omega
  | ⟨1, _⟩ => show win4_4.index t (1 : Fin 2) * 256 + 1 * (j 1).val = (j 1).val; rw [e1]; omega

/-! ## The arrays the launch finds, and what every point computes of them -/

/-- The two-layer perceptron of the whole feature array as the launch finds it. -/
def Zarr4 (c : Dev nD) : FVec Ideal S50000x256 .f32 :=
  Zfun (N := 50000) (K := 256) (B := 256) (V c main_v96) (V c main_v75) (V c main_v97) (V c main_v79) (V c main_v98)

/-- The output block point t stores, at (p, q), is entry (2000·t + p, q) of the perceptron of the whole array. -/
theorem pay4_blk (c : Dev nD) (t : Fin cfg4.N) (p : Fin 2000) (q : Fin 256) :
    k4_pay4 (iblk4 V c 0 t) (iblk4 V c 1 t) (iblk4 V c 2 t) (iblk4 V c 3 t) (iblk4 V c 4 t) (ix2 p q)
      = rowAt (Zarr4 V c) q (2000 * t.val + p.val) := by
  have hN : cfg4.N = 25 := N_4
  have ht : t.val < 25 := hN ▸ t.isLt
  have hlt : 2000 * t.val + p.val < 50000 := by have := p.isLt; omega
  rw [pay4_apply, blk1_eq, blk2_eq, blk3_eq, blk4_eq]
  unfold rowAt
  rw [dif_pos hlt]
  unfold Zarr4
  rw [Zfun_ix2]
  exact congrArg (fun xr => zrow xr (V c main_v75) (V c main_v97) (V c main_v79) (V c main_v98) q)
    (funext fun k => blk0_apply V c t p k hlt)

/-- After point n the two carried rows hold the column sums of the perceptron, and of its squares, over the first
    2000·(n+1) rows: point 0 starts them from the zero word, every later point adds its block's sums. -/
theorem outsAt_sums (c : Dev nD) : ∀ (n : ℕ) (hn : n < cfg4.N) (u : Fin 1) (q : Fin 256),
    (outsAt4 V c n hn).2.1 (ix2 u q) = colSum (Zarr4 V c) (2000 * (n + 1)) q
      ∧ (outsAt4 V c n hn).2.2 (ix2 u q) = colSumSq (Zarr4 V c) (2000 * (n + 1)) q
  | 0, hn, u, q => by
    rw [outsAt4_A V c ⟨0, hn⟩ rfl]
    dsimp only
    rw [outA6, outA7, pay5_apply, pay1_apply, pay2_apply, pay3_apply, colSum_step, colSumSq_step, colSum_zero,
      colSumSq_zero, Ideal.ofBits_zero_f32]
    constructor
    · exact congrArg (0 + ·) (Finset.sum_congr rfl fun p _ => pay4_blk V c ⟨0, hn⟩ p q)
    · exact congrArg (0 + ·) (Finset.sum_congr rfl fun p _ => by rw [pay4_blk V c ⟨0, hn⟩ p q])
  | n + 1, hn, u, q => by
    have hN : cfg4.N = 25 := N_4
    have hB : ¬(⟨n + 1, hn⟩ : Fin cfg4.N).val % 25 = 0 := by dsimp only; omega
    obtain ⟨ih1, ih2⟩ := outsAt_sums c n (Nat.lt_of_succ_lt hn) u q
    rw [outsAt4_B V c ⟨n + 1, hn⟩ hB]
    dsimp only
    rw [outB6, outB7, pay5_apply, pay1_apply, colSum_step, colSumSq_step]
    constructor
    · show (outsAt4 V c n _).2.1 (ix2 u q) + _ = _
      rw [ih1]
      exact congrArg (colSum (Zarr4 V c) (2000 * (n + 1)) q + ·) (Finset.sum_congr rfl fun p _ => pay4_blk V c ⟨n + 1, hn⟩ p q)
    · show (outsAt4 V c n _).2.2 (ix2 u q) + _ = _
      rw [ih2]
      exact congrArg (colSumSq (Zarr4 V c) (2000 * (n + 1)) q + ·)
        (Finset.sum_congr rfl fun p _ => by rw [pay4_blk V c ⟨n + 1, hn⟩ p q])

/-! ## The write-backs and the final arrays -/

/-- The output block every point stores is the perceptron of the blocks it loaded, whichever case the point is. -/
theorem outsAt_block (c : Dev nD) (t : Fin cfg4.N) :
    (outsAt4 V c t.val t.isLt).1
      = k4_pay4 (iblk4 V c 0 t) (iblk4 V c 1 t) (iblk4 V c 2 t) (iblk4 V c 3 t) (iblk4 V c 4 t) := by
  by_cases h0 : t.val % 25 = 0
  · rw [outsAt4_A V c t h0]
    dsimp only
    rw [outA5]
  · rw [outsAt4_B V c t h0]
    dsimp only
    rw [outB5]

/-- An index of the output array is in point t's block iff each coordinate is in the block's range on its axis. -/
theorem mem_blk5 (t : Fin cfg4.N) (i : S50000x256.Idx) :
    i ∈ ((cfg4.win 5).blk t).view.set ↔ ∀ a : Fin 2, win4_5.index t a * S2000x256.size a ≤ (i a).val
      ∧ (i a).val < win4_5.index t a * S2000x256.size a + S2000x256.size a := by
  show i ∈ ((View.whole main_v99_0).slice (win4_5.rect t)).set ↔ _
  rw [View.set_slice_whole, Rect.mem_set_unit]
  exact Iff.rfl

theorem mem_blk6 (t : Fin cfg4.N) (i : S1x256.Idx) :
    i ∈ ((cfg4.win 6).blk t).view.set ↔ ∀ a : Fin 2, win4_6.index t a * S1x256.size a ≤ (i a).val
      ∧ (i a).val < win4_6.index t a * S1x256.size a + S1x256.size a := by
  show i ∈ ((View.whole main_v99_1).slice (win4_6.rect t)).set ↔ _
  rw [View.set_slice_whole, Rect.mem_set_unit]
  exact Iff.rfl

theorem mem_blk7 (t : Fin cfg4.N) (i : S1x256.Idx) :
    i ∈ ((cfg4.win 7).blk t).view.set ↔ ∀ a : Fin 2, win4_7.index t a * S1x256.size a ≤ (i a).val
      ∧ (i a).val < win4_7.index t a * S1x256.size a + S1x256.size a := by
  show i ∈ ((View.whole main_v99_2).slice (win4_7.rect t)).set ↔ _
  rw [View.set_slice_whole, Rect.mem_set_unit]
  exact Iff.rfl

/-- What point t writes back to the output array is block t of the perceptron of the whole feature array. -/
theorem flushed5_eq (c : Dev nD) (t : Fin cfg4.N) :
    (dat4 V c).flushed 5 t = ((cfg4.win 5).blk t).view.read (Elt Ideal) (Zarr4 V c) := by
  show (cfg4.win 5).cut (grid4.coords t) ((dat4 V c).after 5 t) = _
  rw [after4_5, outsAt_block]
  have hN : cfg4.N = 25 := N_4
  have ht : t.val < 25 := hN ▸ t.isLt
  obtain ⟨-, -, -, -, -, -, -, -, -, -, e0, e1, -⟩ := idx_facts t
  funext j
  obtain ⟨p, q, rfl⟩ : ∃ (p : Fin 2000) (q : Fin 256), j = ix2 p q := ⟨j 0, j 1, eq_ix2 j⟩
  show k4_pay4 (iblk4 V c 0 t) (iblk4 V c 1 t) (iblk4 V c 2 t) (iblk4 V c 3 t) (iblk4 V c 4 t) (ix2 p q)
    = Zarr4 V c (((cfg4.win 5).blk t).view.emb (ix2 p q))
  rw [pay4_blk]
  have hlt : 2000 * t.val + p.val < 50000 := by have := p.isLt; omega
  unfold rowAt
  rw [dif_pos hlt]
  refine congrArg (Zarr4 V c) ?_
  funext a; apply Fin.ext
  match a with
  | ⟨0, _⟩ => show 2000 * t.val + p.val = win4_5.index t (0 : Fin 2) * 2000 + 1 * p.val; rw [e0]; omega
  | ⟨1, _⟩ => show q.val = win4_5.index t (1 : Fin 2) * 256 + 1 * q.val; rw [e1]; omega

/-- Every row of the output array is in the block of the point its row block names. -/
theorem cover5 (i : S50000x256.Idx) :
    ∃ t : Fin cfg4.N, (cfg4.win 5).flush t = true ∧ i ∈ ((cfg4.win 5).blk t).view.set := by
  have hN : cfg4.N = 25 := N_4
  have hi0 : (i 0).val < 50000 := (i 0).isLt
  have hi1 : (i 1).val < 256 := (i 1).isLt
  have hq : (i 0).val / 2000 < cfg4.N := by rw [hN]; omega
  refine ⟨⟨(i 0).val / 2000, hq⟩, flush4_5 _, ?_⟩
  rw [mem_blk5]
  obtain ⟨-, -, -, -, -, -, -, -, -, -, e0, e1, -⟩ := idx_facts ⟨(i 0).val / 2000, hq⟩
  intro a
  match a with
  | ⟨0, _⟩ =>
    show win4_5.index ⟨(i 0).val / 2000, hq⟩ (0 : Fin 2) * 2000 ≤ (i 0).val
      ∧ (i 0).val < win4_5.index ⟨(i 0).val / 2000, hq⟩ (0 : Fin 2) * 2000 + 2000
    rw [e0]; dsimp only; omega
  | ⟨1, _⟩ =>
    show win4_5.index ⟨(i 0).val / 2000, hq⟩ (1 : Fin 2) * 256 ≤ (i 1).val
      ∧ (i 1).val < win4_5.index ⟨(i 0).val / 2000, hq⟩ (1 : Fin 2) * 256 + 256
    rw [e1]; omega

/-- The output array ends as the perceptron of the whole feature array. -/
theorem final4_5 (c : Dev nD) : (dat4 (F := Ideal) V c).arrAt 5 cfg4.N = Zarr4 V c :=
  (dat4 V c).arrAt_eq_of_cover 5 (Zarr4 V c) (fun t _ => flushed5_eq V c t) cover5

/-- The one write-back of the running column sums, after the last point, writes the column sums over all rows. -/
theorem flushed6_eq (c : Dev nD) (t : Fin cfg4.N) (hf : (cfg4.win 6).flush t = true) :
    (dat4 V c).flushed 6 t
      = ((cfg4.win 6).blk t).view.read (Elt Ideal) (fun j : S1x256.Idx => colSum (Zarr4 V c) 50000 (j 1)) := by
  have h24 : t.val % 25 = 24 := (flush4_6 t).mp hf
  have hN : cfg4.N = 25 := N_4
  have ht : t.val < 25 := hN ▸ t.isLt
  have hv : t.val = 24 := by omega
  obtain ⟨-, -, -, -, -, -, -, -, -, -, -, -, e0, e1, -⟩ := idx_facts t
  show (cfg4.win 6).cut (grid4.coords t) ((dat4 V c).after 6 t) = _
  rw [after4_6]
  funext j
  obtain ⟨u, q, rfl⟩ : ∃ (u : Fin 1) (q : Fin 256), j = ix2 u q := ⟨j 0, j 1, eq_ix2 j⟩
  rw [View.read_apply]
  show (outsAt4 V c t.val t.isLt).2.1 (ix2 u q) = _
  rw [(outsAt_sums V c t.val t.isLt u q).1, hv, show 2000 * (24 + 1) = 50000 from rfl]
  have hq : (((cfg4.win 6).blk t).view.emb (ix2 u q)) 1 = q :=
    Fin.ext (by show win4_6.index t (1 : Fin 2) * 256 + 1 * q.val = q.val; rw [e1]; omega)
  generalize colSum (Zarr4 V c) 50000 = f
  exact congrArg f hq.symm

theorem flushed7_eq (c : Dev nD) (t : Fin cfg4.N) (hf : (cfg4.win 7).flush t = true) :
    (dat4 V c).flushed 7 t
      = ((cfg4.win 7).blk t).view.read (Elt Ideal) (fun j : S1x256.Idx => colSumSq (Zarr4 V c) 50000 (j 1)) := by
  have h24 : t.val % 25 = 24 := (flush4_7 t).mp hf
  have hN : cfg4.N = 25 := N_4
  have ht : t.val < 25 := hN ▸ t.isLt
  have hv : t.val = 24 := by omega
  obtain ⟨-, -, -, -, -, -, -, -, -, -, -, -, -, -, e0, e1⟩ := idx_facts t
  show (cfg4.win 7).cut (grid4.coords t) ((dat4 V c).after 7 t) = _
  rw [after4_7]
  funext j
  obtain ⟨u, q, rfl⟩ : ∃ (u : Fin 1) (q : Fin 256), j = ix2 u q := ⟨j 0, j 1, eq_ix2 j⟩
  rw [View.read_apply]
  show (outsAt4 V c t.val t.isLt).2.2 (ix2 u q) = _
  rw [(outsAt_sums V c t.val t.isLt u q).2, hv, show 2000 * (24 + 1) = 50000 from rfl]
  have hq : (((cfg4.win 7).blk t).view.emb (ix2 u q)) 1 = q :=
    Fin.ext (by show win4_7.index t (1 : Fin 2) * 256 + 1 * q.val = q.val; rw [e1]; omega)
  generalize colSumSq (Zarr4 V c) 50000 = f
  exact congrArg f hq.symm

/-- The last point's block of a one-row output is the whole row. -/
theorem cover6 (i : S1x256.Idx) :
    ∃ t : Fin cfg4.N, (cfg4.win 6).flush t = true ∧ i ∈ ((cfg4.win 6).blk t).view.set := by
  have hN : cfg4.N = 25 := N_4
  have hi0 : (i 0).val < 1 := (i 0).isLt
  have hi1 : (i 1).val < 256 := (i 1).isLt
  have hq : 24 < cfg4.N := by rw [hN]; omega
  refine ⟨⟨24, hq⟩, (flush4_6 _).mpr rfl, ?_⟩
  rw [mem_blk6]
  obtain ⟨-, -, -, -, -, -, -, -, -, -, -, -, e0, e1, -⟩ := idx_facts ⟨24, hq⟩
  intro a
  match a with
  | ⟨0, _⟩ =>
    show win4_6.index ⟨24, hq⟩ (0 : Fin 2) * 1 ≤ (i 0).val ∧ (i 0).val < win4_6.index ⟨24, hq⟩ (0 : Fin 2) * 1 + 1
    rw [e0]; omega
  | ⟨1, _⟩ =>
    show win4_6.index ⟨24, hq⟩ (1 : Fin 2) * 256 ≤ (i 1).val ∧ (i 1).val < win4_6.index ⟨24, hq⟩ (1 : Fin 2) * 256 + 256
    rw [e1]; omega

theorem cover7 (i : S1x256.Idx) :
    ∃ t : Fin cfg4.N, (cfg4.win 7).flush t = true ∧ i ∈ ((cfg4.win 7).blk t).view.set := by
  have hN : cfg4.N = 25 := N_4
  have hi0 : (i 0).val < 1 := (i 0).isLt
  have hi1 : (i 1).val < 256 := (i 1).isLt
  have hq : 24 < cfg4.N := by rw [hN]; omega
  refine ⟨⟨24, hq⟩, (flush4_7 _).mpr rfl, ?_⟩
  rw [mem_blk7]
  obtain ⟨-, -, -, -, -, -, -, -, -, -, -, -, -, -, e0, e1⟩ := idx_facts ⟨24, hq⟩
  intro a
  match a with
  | ⟨0, _⟩ =>
    show win4_7.index ⟨24, hq⟩ (0 : Fin 2) * 1 ≤ (i 0).val ∧ (i 0).val < win4_7.index ⟨24, hq⟩ (0 : Fin 2) * 1 + 1
    rw [e0]; omega
  | ⟨1, _⟩ =>
    show win4_7.index ⟨24, hq⟩ (1 : Fin 2) * 256 ≤ (i 1).val ∧ (i 1).val < win4_7.index ⟨24, hq⟩ (1 : Fin 2) * 256 + 256
    rw [e1]; omega

/-- The column-sum output ends as the column sums of the perceptron over all 50000 rows. -/
theorem final4_6 (c : Dev nD) :
    (dat4 (F := Ideal) V c).arrAt 6 cfg4.N = fun j : S1x256.Idx => colSum (Zarr4 V c) 50000 (j 1) :=
  (dat4 V c).arrAt_eq_of_cover 6 _ (flushed6_eq V c) cover6

/-- The sum-of-squares output ends as the column sums of squares over all 50000 rows. -/
theorem final4_7 (c : Dev nD) :
    (dat4 (F := Ideal) V c).arrAt 7 cfg4.N = fun j : S1x256.Idx => colSumSq (Zarr4 V c) 50000 (j 1) :=
  (dat4 V c).arrAt_eq_of_cover 7 _ (flushed7_eq V c) cover7

/-- The five input arrays end as the launch found them. -/
theorem kept4 (c : Dev nD) (w : Fin cfg4.W) (hw : w.val < 5) :
    (dat4 (F := Ideal) V c).arrAt w cfg4.N = V c (Pipeline.arrRef spec4 w) := by
  have h : (dat4 (F := Ideal) V c).arrAt w cfg4.N = (dat4 (F := Ideal) V c).A w := by
    match w, hw with
    | ⟨0, _⟩, _ => exact (dat4 V c).arrAt_in 0 rfl _
    | ⟨1, _⟩, _ => exact (dat4 V c).arrAt_in 1 rfl _
    | ⟨2, _⟩, _ => exact (dat4 V c).arrAt_in 2 rfl _
    | ⟨3, _⟩, _ => exact (dat4 V c).arrAt_in 3 rfl _
    | ⟨4, _⟩, _ => exact (dat4 V c).arrAt_in 4 rfl _
  rw [h, A_eq4]

end Cert.KernelIdeal.MlpValue4

end
-- ==== Proof.BnValue5.lean ====
import proofs.«159704_j38585986187613_1_alg».proof.Proof.Gen.KernelIdeal.Frame
import proofs.«159704_j38585986187613_1_alg».proof.Proof.BnSpec

/-! # Region 5: the array the normalising region leaves

At every grid point the region's body stores the normalisation of its block; the 25 blocks of 2000 rows tile the
50000 rows, so the output array ends holding the normalisation of the five input arrays as the region finds them, and
the input arrays end unchanged. -/

noncomputable section

open Idealize.ShloMosaic Idealize.ShloMosaic.TcCoe Idealize.SL.Sem
open Idealize.ShloMosaic.Pipeline (Dat)
open Idealize.ShloMosaic.ValueIdx

namespace Cert.KernelIdeal.BnValue

open Cert.KernelIdeal Cert.KernelIdeal.Gen

-- the buffer contents when the region is entered
variable (V : (c : Dev nD) → (b : Ref sig .tc) → Buf (Elt Ideal) ((c : Thread nD τ).loc b))

/-! ## Region 5: the normalisation applied block by block -/

section Region5

/-- The printed index maps of region 5, decided over its 25 grid points: the activations' block and the output's block
    are both row block `t`, column block 0; each of the four parameter rows is its array's one block at every point. -/
theorem idx_facts5 : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The activations' block at point `t` sits at the rows and columns of the output's block at `t`. -/
theorem iblk5_0_at (c : Dev nD) (t : Fin cfg5.N) (j : S2000x256.Idx) :
    iblk5 V c 0 t j = V c (Pipeline.arrRef spec5 0) (((cfg5.win 5).blk t).view.emb j) := by
  obtain ⟨e00, e01, e10, e11, e20, e21, e30, e31, e40, e41, e50, e51⟩ := idx_facts5 t
  show V c (Pipeline.arrRef spec5 0) (((cfg5.win 0).blk t).view.emb j) = V c (Pipeline.arrRef spec5 0) (((cfg5.win 5).blk t).view.emb j)
  refine congrArg _ (funext fun a => Fin.ext ?_)
  match a with
  | ⟨0, _⟩ => show win5_0.index t (0 : Fin 2) * 2000 + 1 * (j 0).val = win5_5.index t (0 : Fin 2) * 2000 + 1 * (j 0).val; rw [e00, e50]
  | ⟨1, _⟩ => show win5_0.index t (1 : Fin 2) * 256 + 1 * (j 1).val = win5_5.index t (1 : Fin 2) * 256 + 1 * (j 1).val; rw [e01, e51]

/-- Parameter row 1's one block is the whole row: read at column q it is the row's entry at the output block's column q. -/
theorem iblk5_1_at (c : Dev nD) (t : Fin cfg5.N) (j : S2000x256.Idx) :
    iblk5 V c 1 t (ix2 (0 : Fin 1) (j 1)) = V c (Pipeline.arrRef spec5 1) (ix2 (0 : Fin 1) ((((cfg5.win 5).blk t).view.emb j) 1)) := by
  obtain ⟨e00, e01, e10, e11, e20, e21, e30, e31, e40, e41, e50, e51⟩ := idx_facts5 t
  show V c (Pipeline.arrRef spec5 1) (((cfg5.win 1).blk t).view.emb (ix2 (0 : Fin 1) (j 1))) = _
  refine congrArg _ (funext fun a => Fin.ext ?_)
  match a with
  | ⟨0, _⟩ => show win5_1.index t (0 : Fin 2) * 1 + 1 * 0 = 0; rw [e10]
  | ⟨1, _⟩ => show win5_1.index t (1 : Fin 2) * 256 + 1 * (j 1).val = win5_5.index t (1 : Fin 2) * 256 + 1 * (j 1).val; rw [e11, e51]

/-- Parameter row 2's one block is the whole row: read at column q it is the row's entry at the output block's column q. -/
theorem iblk5_2_at (c : Dev nD) (t : Fin cfg5.N) (j : S2000x256.Idx) :
    iblk5 V c 2 t (ix2 (0 : Fin 1) (j 1)) = V c (Pipeline.arrRef spec5 2) (ix2 (0 : Fin 1) ((((cfg5.win 5).blk t).view.emb j) 1)) := by
  obtain ⟨e00, e01, e10, e11, e20, e21, e30, e31, e40, e41, e50, e51⟩ := idx_facts5 t
  show V c (Pipeline.arrRef spec5 2) (((cfg5.win 2).blk t).view.emb (ix2 (0 : Fin 1) (j 1))) = _
  refine congrArg _ (funext fun a => Fin.ext ?_)
  match a with
  | ⟨0, _⟩ => show win5_2.index t (0 : Fin 2) * 1 + 1 * 0 = 0; rw [e20]
  | ⟨1, _⟩ => show win5_2.index t (1 : Fin 2) * 256 + 1 * (j 1).val = win5_5.index t (1 : Fin 2) * 256 + 1 * (j 1).val; rw [e21, e51]

/-- Parameter row 3's one block is the whole row: read at column q it is the row's entry at the output block's column q. -/
theorem iblk5_3_at (c : Dev nD) (t : Fin cfg5.N) (j : S2000x256.Idx) :
    iblk5 V c 3 t (ix2 (0 : Fin 1) (j 1)) = V c (Pipeline.arrRef spec5 3) (ix2 (0 : Fin 1) ((((cfg5.win 5).blk t).view.emb j) 1)) := by
  obtain ⟨e00, e01, e10, e11, e20, e21, e30, e31, e40, e41, e50, e51⟩ := idx_facts5 t
  show V c (Pipeline.arrRef spec5 3) (((cfg5.win 3).blk t).view.emb (ix2 (0 : Fin 1) (j 1))) = _
  refine congrArg _ (funext fun a => Fin.ext ?_)
  match a with
  | ⟨0, _⟩ => show win5_3.index t (0 : Fin 2) * 1 + 1 * 0 = 0; rw [e30]
  | ⟨1, _⟩ => show win5_3.index t (1 : Fin 2) * 256 + 1 * (j 1).val = win5_5.index t (1 : Fin 2) * 256 + 1 * (j 1).val; rw [e31, e51]

/-- Parameter row 4's one block is the whole row: read at column q it is the row's entry at the output block's column q. -/
theorem iblk5_4_at (c : Dev nD) (t : Fin cfg5.N) (j : S2000x256.Idx) :
    iblk5 V c 4 t (ix2 (0 : Fin 1) (j 1)) = V c (Pipeline.arrRef spec5 4) (ix2 (0 : Fin 1) ((((cfg5.win 5).blk t).view.emb j) 1)) := by
  obtain ⟨e00, e01, e10, e11, e20, e21, e30, e31, e40, e41, e50, e51⟩ := idx_facts5 t
  show V c (Pipeline.arrRef spec5 4) (((cfg5.win 4).blk t).view.emb (ix2 (0 : Fin 1) (j 1))) = _
  refine congrArg _ (funext fun a => Fin.ext ?_)
  match a with
  | ⟨0, _⟩ => show win5_4.index t (0 : Fin 2) * 1 + 1 * 0 = 0; rw [e40]
  | ⟨1, _⟩ => show win5_4.index t (1 : Fin 2) * 256 + 1 * (j 1).val = win5_5.index t (1 : Fin 2) * 256 + 1 * (j 1).val; rw [e41, e51]

/-- What point `t` writes back is row block `t` of the normalised array: the activations' block sits at the same rows
    as the output's block, and each parameter row is read whole. -/
theorem flushed5_eq (c : Dev nD) (t : Fin cfg5.N) :
    (dat5 (F := Ideal) V c).flushed 5 t = ((cfg5.win 5).blk t).view.read (Elt Ideal)
      (bn (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 V c).after 5 t) = _
  rw [after5_5]
  unfold out5_5
  rw [View.canon_unit_zero zero_offsets]
  simp only [View.ld_unit_zero (S := S2000x256) zero_offsets, View.ld_unit_zero (S := S1x256) zero_offsets]
  funext j
  refine (pay5_apply_idx (iblk5 V c 0 t) (iblk5 V c 4 t) (iblk5 V c 1 t) (iblk5 V c 3 t) (iblk5 V c 2 t) j).trans ?_
  exact bn_of_entries (V c (Pipeline.arrRef spec5 0)) (V c (Pipeline.arrRef spec5 1)) (V c (Pipeline.arrRef spec5 2)) (V c (Pipeline.arrRef spec5 3)) (V c (Pipeline.arrRef spec5 4))
    (((cfg5.win 5).blk t).view.emb j) _ _ _ _ _
    (iblk5_0_at V c t j) (iblk5_1_at V c t j) (iblk5_2_at V c t j) (iblk5_3_at V c t j) (iblk5_4_at V c t j)

/-- An index of the array is in point `t`'s block iff each coordinate is in the block's range on its axis. -/
theorem mem_blk5 (t : Fin cfg5.N) (i : S50000x256.Idx) :
    i ∈ ((cfg5.win 5).blk t).view.set ↔ ∀ a : Fin 2, win5_5.index t a * S2000x256.size a ≤ (i a).val ∧ (i a).val < win5_5.index t a * S2000x256.size a + S2000x256.size a := by
  show i ∈ ((View.whole main_v114).slice (win5_5.rect t)).set ↔ _
  rw [View.set_slice_whole, Rect.mem_set_unit]
  exact Iff.rfl

/-- Row `r` of the array lies in the block of point `r / 2000`: the 25 row blocks of 2000 rows tile the 50000 rows. -/
theorem cover5 (i : S50000x256.Idx) : ∃ t : Fin cfg5.N, (cfg5.win 5).flush t = true ∧ i ∈ ((cfg5.win 5).blk t).view.set := by
  have hi0 : (i 0).val < 50000 := (i 0).isLt
  have hi1 : (i 1).val < 256 := (i 1).isLt
  have hN : grid5.N = 25 := N_5
  have hlt : (i 0).val / 2000 < cfg5.N := Nat.lt_of_lt_of_eq (by omega : (i 0).val / 2000 < 25) hN.symm
  obtain ⟨e00, e01, e10, e11, e20, e21, e30, e31, e40, e41, e50, e51⟩ := idx_facts5 ⟨(i 0).val / 2000, hlt⟩
  refine ⟨⟨(i 0).val / 2000, hlt⟩, flush5_5 _, ?_⟩
  rw [mem_blk5]
  intro a
  match a with
  | ⟨0, _⟩ =>
    show win5_5.index ⟨(i 0).val / 2000, hlt⟩ (0 : Fin 2) * 2000 ≤ (i 0).val ∧ (i 0).val < win5_5.index ⟨(i 0).val / 2000, hlt⟩ (0 : Fin 2) * 2000 + 2000
    rw [e50]; show (i 0).val / 2000 * 2000 ≤ (i 0).val ∧ (i 0).val < (i 0).val / 2000 * 2000 + 2000; omega
  | ⟨1, _⟩ =>
    show win5_5.index ⟨(i 0).val / 2000, hlt⟩ (1 : Fin 2) * 256 ≤ (i 1).val ∧ (i 1).val < win5_5.index ⟨(i 0).val / 2000, hlt⟩ (1 : Fin 2) * 256 + 256
    rw [e51]; omega

/-- THE ARRAY after region 5: the normalisation of the activations by the four parameter rows, all as the region finds them. -/
theorem final5 (c : Dev nD) : (dat5 (F := Ideal) V c).arrAt 5 cfg5.N
    = bn (V c (Pipeline.arrRef spec5 0)) (V c (Pipeline.arrRef spec5 1)) (V c (Pipeline.arrRef spec5 2)) (V c (Pipeline.arrRef spec5 3)) (V c (Pipeline.arrRef spec5 4)) :=
  (dat5 V c).arrAt_eq_of_cover 5 _ (fun t _ => flushed5_eq V c t) cover5

/-- The five input arrays of region 5 end as the region finds them: an input window is never written back. -/
theorem kept5 (c : Dev nD) (w : Fin cfg5.W) (hw : w ≠ 5) : (dat5 (F := Ideal) V c).arrAt w cfg5.N = V c (Pipeline.arrRef spec5 w) := by
  have hin : (cfg5.win w).isOut = false := by
    match w, hw with
    | ⟨0, _⟩, _ => rfl
    | ⟨1, _⟩, _ => rfl
    | ⟨2, _⟩, _ => rfl
    | ⟨3, _⟩, _ => rfl
    | ⟨4, _⟩, _ => rfl
    | ⟨5, _⟩, h => exact absurd rfl h
  exact ((dat5 V c).arrAt_in w hin _).trans (A_eq5 V c w)

end Region5

end Cert.KernelIdeal.BnValue

end
-- ==== Proof.KernelChain3.lean ====
/-
  The third layer of the kernel: from what the buffers hold after the second layer to what they hold after the third.

  The host operations before the third perceptron launch aggregate the second layer's output over the edges and cut
  slice 1 out of each stacked parameter array; the launch leaves the perceptron of the aggregate and its two column
  sums; the host operations after it turn the sums into the column means and variances and place the gain and the
  offset as rows; the normalising launch leaves the normalisation, which is the layer's specification with the variance
  written from the column sums. Buffers no operation writes and no launch owns are carried through unchanged.
-/
import proofs.«159704_j38585986187613_1_alg».proof.Proof.KernelInv
import proofs.«159704_j38585986187613_1_alg».proof.Proof.MlpRegion4
import proofs.«159704_j38585986187613_1_alg».proof.Proof.BnValue5
import proofs.«159704_j38585986187613_1_alg».proof.Proof.BnLayer

set_option maxRecDepth 16384

open scoped BigOperators

noncomputable section

namespace Cert.KernelIdeal.Chain

open Cert.KernelIdeal Cert.KernelIdeal.Gen Idealize.ShloMosaic Idealize.ShloMosaic.TcCoe Idealize.SL.Sem
open Idealize.ShloMosaic.ValueIdx
open Cert.ReferenceIdeal.RefValue (refSrc refDst refFix refAgg256 refW1 refB1 refS2 refS3 row)
open Cert.KernelIdeal.BnValue (bn reshape_row meanVec varVec bn_eq_layer)
open Cert.KernelIdeal.MlpValue4 (Zarr4)
open Cert.Gin

variable (m : (ℓ : Loc nD τ sig) → Buf (Elt Ideal) ℓ) (ρ : Dev nD → PrngReg)

section Layer3

variable (c : Dev nD)

/-! ## The host operations before the perceptron launch -/

/-- The aggregate of the second layer's output over the edges. -/
theorem l3_e96 (h : FVec Ideal S50000x256 .f32) (ei : IVec S2x800000 32)
    (h73 : W8 m ρ c (Proc.devRef .tc main_v73) = h) (h1 : W8 m ρ c (Proc.devRef .tc main_v1) = refSrc ei)
    (h3 : W8 m ρ c (Proc.devRef .tc main_v3) = refDst ei) :
    W9 m ρ c (Proc.devRef .tc main_v96) = refAgg256 h ei := by
  show StableHlo.after hostOps4 (W8 m ρ c) (Proc.devRef .tc main_v96) = _
  after_results_simp
  rw [h73, h1, h3]
  rfl

/-- Slice 1 of the stacked first weights. -/
theorem l3_e75 (w1s : FVec Ideal S2x256x256 .f32) (h9 : W8 m ρ c (Proc.devRef .tc main_arg9) = w1s) :
    W9 m ρ c (Proc.devRef .tc main_v75) = refW1 w1s := by
  show StableHlo.after hostOps4 (W8 m ρ c) (Proc.devRef .tc main_v75) = _
  after_results
  rw [h9]
  rfl

/-- Row 1 of the stacked first biases, as a one-row matrix. -/
theorem l3_e97 (b1s : FVec Ideal S2x256 .f32) (h10 : W8 m ρ c (Proc.devRef .tc main_arg10) = b1s) :
    W9 m ρ c (Proc.devRef .tc main_v97) = row (refB1 b1s) := by
  rw [← reshape_row]
  show StableHlo.after hostOps4 (W8 m ρ c) (Proc.devRef .tc main_v97) = _
  after_results
  rw [h10]
  rfl

/-- Slice 1 of the stacked second weights. -/
theorem l3_e79 (w2s : FVec Ideal S2x256x256 .f32) (h11 : W8 m ρ c (Proc.devRef .tc main_arg11) = w2s) :
    W9 m ρ c (Proc.devRef .tc main_v79) = refW1 w2s := by
  show StableHlo.after hostOps4 (W8 m ρ c) (Proc.devRef .tc main_v79) = _
  after_results
  rw [h11]
  rfl

/-- Row 1 of the stacked second biases, as a one-row matrix. -/
theorem l3_e98 (b2s : FVec Ideal S2x256 .f32) (h12 : W8 m ρ c (Proc.devRef .tc main_arg12) = b2s) :
    W9 m ρ c (Proc.devRef .tc main_v98) = row (refB1 b2s) := by
  rw [← reshape_row]
  show StableHlo.after hostOps4 (W8 m ρ c) (Proc.devRef .tc main_v98) = _
  after_results
  rw [h12]
  rfl

/-- Row 1 of the stacked gains. -/
theorem l3_e83 (gs : FVec Ideal S2x256 .f32) (h13 : W8 m ρ c (Proc.devRef .tc main_arg13) = gs) :
    W9 m ρ c (Proc.devRef .tc main_v83) = refB1 gs := by
  show StableHlo.after hostOps4 (W8 m ρ c) (Proc.devRef .tc main_v83) = _
  after_results
  rw [h13]
  rfl

/-- Row 1 of the stacked offsets. -/
theorem l3_e85 (bs : FVec Ideal S2x256 .f32) (h14 : W8 m ρ c (Proc.devRef .tc main_arg14) = bs) :
    W9 m ρ c (Proc.devRef .tc main_v85) = refB1 bs := by
  show StableHlo.after hostOps4 (W8 m ρ c) (Proc.devRef .tc main_v85) = _
  after_results
  rw [h14]
  rfl

/-- What the first stretch does not write it leaves as it was. -/
theorem l3_keep9_arg2 : W9 m ρ c (Proc.devRef .tc main_arg2) = W8 m ρ c (Proc.devRef .tc main_arg2) := by
  show StableHlo.after hostOps4 (W8 m ρ c) (Proc.devRef .tc main_arg2) = _
  after_results_simp

/-! ## The perceptron launch -/

/-- The launch leaves the perceptron of the arrays it finds, and its two column sums. -/
theorem l3_r99_0 : W10 m ρ c (Proc.devRef .tc main_v99_0) = Zarr4 (V9 m ρ) c :=
  (W10_arr m ρ c 5).trans (Cert.KernelIdeal.MlpValue4.final4_5 (V9 m ρ) c)
theorem l3_r99_1 : W10 m ρ c (Proc.devRef .tc main_v99_1)
    = fun j : S1x256.Idx => colSum (Zarr4 (V9 m ρ) c) 50000 (j 1) :=
  (W10_arr m ρ c 6).trans (Cert.KernelIdeal.MlpValue4.final4_6 (V9 m ρ) c)
theorem l3_r99_2 : W10 m ρ c (Proc.devRef .tc main_v99_2)
    = fun j : S1x256.Idx => colSumSq (Zarr4 (V9 m ρ) c) 50000 (j 1) :=
  (W10_arr m ρ c 7).trans (Cert.KernelIdeal.MlpValue4.final4_7 (V9 m ρ) c)

/-- A buffer the launch does not own is left as it was. -/
theorem l3_keep10_v83 : W10 m ρ c (Proc.devRef .tc main_v83) = W9 m ρ c (Proc.devRef .tc main_v83) :=
  W10_of_ne m ρ c main_v83 (by decide)
theorem l3_keep10_v85 : W10 m ρ c (Proc.devRef .tc main_v85) = W9 m ρ c (Proc.devRef .tc main_v85) :=
  W10_of_ne m ρ c main_v85 (by decide)
theorem l3_keep10_arg2 : W10 m ρ c (Proc.devRef .tc main_arg2) = W9 m ρ c (Proc.devRef .tc main_arg2) :=
  W10_of_ne m ρ c main_arg2 (by decide)

/-! ## The host operations between the two launches -/

/-- The gain and the offset placed as rows, the column means and the column variances as rows. -/
theorem l3_e110 : W11 m ρ c (Proc.devRef .tc main_v110) = row (W10 m ρ c (Proc.devRef .tc main_v83)) := by
  rw [← reshape_row]
  show StableHlo.after hostOps5 (W10 m ρ c) (Proc.devRef .tc main_v110) = _
  after_results
  rfl
theorem l3_e111 : W11 m ρ c (Proc.devRef .tc main_v111) = row (W10 m ρ c (Proc.devRef .tc main_v85)) := by
  rw [← reshape_row]
  show StableHlo.after hostOps5 (W10 m ρ c) (Proc.devRef .tc main_v111) = _
  after_results
  rfl
theorem l3_e112 : W11 m ρ c (Proc.devRef .tc main_v112) = row (meanVec (W10 m ρ c (Proc.devRef .tc main_v99_1))) := by
  rw [← reshape_row]
  show StableHlo.after hostOps5 (W10 m ρ c) (Proc.devRef .tc main_v112) = _
  after_results
  rfl
theorem l3_e113 : W11 m ρ c (Proc.devRef .tc main_v113)
    = row (varVec (W10 m ρ c (Proc.devRef .tc main_v99_1)) (W10 m ρ c (Proc.devRef .tc main_v99_2))) := by
  rw [← reshape_row]
  show StableHlo.after hostOps5 (W10 m ρ c) (Proc.devRef .tc main_v113) = _
  after_results_simp
  rfl

theorem l3_keep11_v99_0 : W11 m ρ c (Proc.devRef .tc main_v99_0) = W10 m ρ c (Proc.devRef .tc main_v99_0) := by
  show StableHlo.after hostOps5 (W10 m ρ c) (Proc.devRef .tc main_v99_0) = _
  after_results_simp
theorem l3_keep11_arg2 : W11 m ρ c (Proc.devRef .tc main_arg2) = W10 m ρ c (Proc.devRef .tc main_arg2) := by
  show StableHlo.after hostOps5 (W10 m ρ c) (Proc.devRef .tc main_arg2) = _
  after_results_simp

/-! ## The normalising launch -/

/-- The launch leaves the normalisation of the arrays it finds. -/
theorem l3_r114 : W12 m ρ c (Proc.devRef .tc main_v114)
    = bn (W11 m ρ c (Proc.devRef .tc main_v99_0)) (W11 m ρ c (Proc.devRef .tc main_v110))
        (W11 m ρ c (Proc.devRef .tc main_v111)) (W11 m ρ c (Proc.devRef .tc main_v112))
        (W11 m ρ c (Proc.devRef .tc main_v113)) :=
  (W12_arr m ρ c 5).trans (Cert.KernelIdeal.BnValue.final5 (V11 m ρ) c)

theorem l3_keep12_arg2 : W12 m ρ c (Proc.devRef .tc main_arg2) = W11 m ρ c (Proc.devRef .tc main_arg2) :=
  W12_of_ne m ρ c main_arg2 (by decide)

/-! ## The layer -/

/-- From the second layer's boundary to the third's. -/
theorem inv12_of_inv8 (h8 : Inv8 m ρ c) : Inv12 m ρ c := by
  obtain ⟨h73, h1, h3, h2, h9, h10, h11, h12, h13, h14⟩ := h8
  refine ⟨?_, ?_⟩
  · -- the layer's output
    rw [l3_r114, l3_keep11_v99_0, l3_r99_0, l3_e110, l3_e111, l3_e112, l3_e113, l3_keep10_v83, l3_keep10_v85, l3_r99_1,
      l3_r99_2]
    unfold Zarr4
    rw [show V9 m ρ c main_v96 = W9 m ρ c (Proc.devRef .tc main_v96) from rfl,
      show V9 m ρ c main_v75 = W9 m ρ c (Proc.devRef .tc main_v75) from rfl,
      show V9 m ρ c main_v97 = W9 m ρ c (Proc.devRef .tc main_v97) from rfl,
      show V9 m ρ c main_v79 = W9 m ρ c (Proc.devRef .tc main_v79) from rfl,
      show V9 m ρ c main_v98 = W9 m ρ c (Proc.devRef .tc main_v98) from rfl,
      l3_e96 m ρ c _ _ h73 h1 h3, l3_e75 m ρ c _ h9, l3_e97 m ρ c _ h10, l3_e79 m ρ c _ h11, l3_e98 m ρ c _ h12,
      l3_e83 m ρ c _ h13, l3_e85 m ρ c _ h14]
    exact bn_eq_layer (K := 256) _ _ _ _ _ _ _ _ _ (fun _ => rfl) (fun _ => rfl)
  · rw [l3_keep12_arg2, l3_keep11_arg2, l3_keep10_arg2, l3_keep9_arg2]; exact h2

end Layer3

end Cert.KernelIdeal.Chain

end
-- ==== Proof.KernelChain4.lean ====
/- The kernel program's last stretch of host operations is the reference network's mean pooling: from the third
   layer's output array and the graph index of each node it computes the per-graph sums of the rows divided by the
   per-graph node counts (at least 1), by the same operations in the same order. -/
import proofs.«159704_j38585986187613_1_alg».proof.Proof.Gen.KernelIdeal.Frame
import proofs.«159704_j38585986187613_1_alg».proof.Proof.RefRunStages
import Idealize.ShloMosaic.Lib.StableHlo.Run

noncomputable section

namespace Cert.KernelIdeal.Chain

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

set_option maxRecDepth 8192 in
set_option maxHeartbeats 1000000 in
/-- After the last stretch the result buffer holds the pooling of what the third layer's output buffer and the
    graph-index argument held before it. -/
theorem pool_eq (c : Dev nD) :
    W13 m ρ c (Proc.devRef .tc main_v126)
      = Cert.ReferenceIdeal.RefValue.refPool (W12 m ρ c (Proc.devRef .tc main_v114))
          (W12 m ρ c (Proc.devRef .tc main_arg2)) := by
  show StableHlo.after hostOps6 _ (Proc.devRef .tc main_v126) = _
  after_results
  rfl

/-- The same with the two buffers' contents named. -/
theorem result_of_inv12 (c : Dev nD) (S : FVec Ideal Cert.ReferenceIdeal.S50000x256 .f32)
    (b : IVec Cert.ReferenceIdeal.S50000 32)
    (h114 : W12 m ρ c (Proc.devRef .tc main_v114) = S) (h2 : W12 m ρ c (Proc.devRef .tc main_arg2) = b) :
    W13 m ρ c (Proc.devRef .tc main_v126) = Cert.ReferenceIdeal.RefValue.refPool S b := by
  rw [pool_eq, h114, h2]

end Cert.KernelIdeal.Chain

end
-- ==== Proof.KernelChain.lean ====
/-
  The idealized kernel's result as a function of its arguments: the buffer contents after each of the three layers are
  carried from one boundary to the next — after a layer, its output array holds the normalised two-layer perceptron of
  the aggregated input in the column-sums spelling, and the edge table's two rows and the later layers' weight stacks
  are as the launch left them — and the last stretch of host operations pools the third layer's output.
-/
import proofs.«159704_j38585986187613_1_alg».proof.Proof.KernelInv
import proofs.«159704_j38585986187613_1_alg».proof.Proof.KernelChain1
import proofs.«159704_j38585986187613_1_alg».proof.Proof.KernelChain2
import proofs.«159704_j38585986187613_1_alg».proof.Proof.KernelChain3
import proofs.«159704_j38585986187613_1_alg».proof.Proof.KernelChain4

noncomputable section

namespace Cert.KernelIdeal.Chain

open Cert.KernelIdeal Cert.KernelIdeal.Gen Idealize.ShloMosaic Idealize.ShloMosaic.TcCoe Idealize.SL.Sem
open Cert.ReferenceIdeal.RefValue (refS3 refPool)

variable (m : (ℓ : Loc nD τ sig) → Buf (Elt Ideal) ℓ) (ρ : Dev nD → PrngReg)

/-- The result buffer after the whole program: the pooling of the third layer's output. -/
theorem result_eq (c : Dev nD) :
    W13 m ρ c (Proc.devRef .tc main_v126)
      = refPool (refS3 (m ((c : Thread nD τ).loc main_arg0)) (m ((c : Thread nD τ).loc main_arg1))
          (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)))
        (m ((c : Thread nD τ).loc main_arg2)) := by
  have h12 : Inv12 m ρ c := inv12_of_inv8 m ρ c (inv8_of_inv4 m ρ c (inv4 m ρ c))
  exact result_of_inv12 m ρ c _ _ h12.1 h12.2

end Cert.KernelIdeal.Chain

end
-- ==== Proof.RefRunOps.lean ====
/- The reference program's @main as a list of its host operations, in order, with the operations of the
   functions it calls (the rectifier, the variance and the selection inside it) written out at each call over
   that call's buffers; @main is the straight line of that list, and every weakly fair execution of it
   terminates with each buffer at the fold of the operations over the launch contents. The list is kept in the
   four consecutive stretches the program is printed in. -/
import proofs.«159704_j38585986187613_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations, the first stretch (85 of them), the called functions' operations inline. -/
abbrev ops0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)),
    binary main_v14 main_arg3 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v18 main_call0_v0 main_v19 (maximumf : (⟨S50000x256, .f32⟩ : BufTy).Contents (Elt F) → (⟨S50000x256, .f32⟩ : BufTy).Contents (Elt F) → (⟨S50000x256, .f32⟩ : BufTy).Contents (Elt F)),
    binary main_v19 main_arg5 main_v20 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v21 (broadcastInDim S1x256 ![1] bcast_S256_S1x256_1 : (⟨S256, .f32⟩ : BufTy).Contents (Elt F) → (⟨S1x256, .f32⟩ : BufTy).Contents (Elt F)),
    unary main_v21 main_v22 (broadcastInDim S50000x256 ![0, 1] bcast_S1x256_S50000x256_0_1 : (⟨S1x256, .f32⟩ : BufTy).Contents (Elt F) → (⟨S50000x256, .f32⟩ : BufTy).Contents (Elt F)),
    binary main_v20 main_v22 main_v23 (addf : (⟨S50000x256, .f32⟩ : BufTy).Contents (Elt F) → (⟨S50000x256, .f32⟩ : BufTy).Contents (Elt F) → (⟨S50000x256, .f32⟩ : BufTy).Contents (Elt F)),
    nullary main_call1_cst (constant S_ .f32 0x00000000#32),
    unary main_call1_cst main_call1_v0 (broadcastInDim S50000x256 ![] bcast_S_S50000x256 : (⟨S_, .f32⟩ : BufTy).Contents (Elt F) → (⟨S50000x256, .f32⟩ : BufTy).Contents (Elt F)),
    binary main_v23 main_call1_v0 main_v24 (maximumf : (⟨S50000x256, .f32⟩ : BufTy).Contents (Elt F) → (⟨S50000x256, .f32⟩ : BufTy).Contents (Elt F) → (⟨S50000x256, .f32⟩ : BufTy).Contents (Elt F)),
    nullary main_cst_1 (constant S_ .f32 0x00000000#32),
    binary main_v24 main_cst_1 main_v25 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)),
    nullary main_c_3 (constantI S_ 32 0#32),
    nullary main_call2_cst (constant S_ .f32 0x00000000#32),
    binary main_v24 main_call2_cst main_call2_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call2_v0 main_call2_v1 (broadcastInDim S1x256 ![1] bcast_S256_S1x256_1 : (⟨S256, .f32⟩ : BufTy).Contents (Elt F) → (⟨S1x256, .f32⟩ : BufTy).Contents (Elt F)),
    nullary main_call2_cst_0 (constant S_ .f32 0x47435000#32),
    unary main_call2_cst_0 main_call2_v2 (broadcastInDim S1x256 ![] bcast_S_S1x256 : (⟨S_, .f32⟩ : BufTy).Contents (Elt F) → (⟨S1x256, .f32⟩ : BufTy).Contents (Elt F)),
    binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    unary main_call2_v3 main_call2_v4 (broadcastInDim S50000x256 ![0, 1] bcast_S1x256_S50000x256_0_1 : (⟨S1x256, .f32⟩ : BufTy).Contents (Elt F) → (⟨S50000x256, .f32⟩ : BufTy).Contents (Elt F)),
    binary main_v24 main_call2_v4 main_call2_v5 (subf : (⟨S50000x256, .f32⟩ : BufTy).Contents (Elt F) → (⟨S50000x256, .f32⟩ : BufTy).Contents (Elt F) → (⟨S50000x256, .f32⟩ : BufTy).Contents (Elt F)),
    binary main_call2_v5 main_call2_v5 main_call2_v6 (mulf : (⟨S50000x256, .f32⟩ : BufTy).Contents (Elt F) → (⟨S50000x256, .f32⟩ : BufTy).Contents (Elt F) → (⟨S50000x256, .f32⟩ : BufTy).Contents (Elt F)),
    unary main_c_3 main_call2_v7 (sitofp .f32 : (⟨S_, .i32⟩ : BufTy).Contents (Elt F) → (⟨S_, .f32⟩ : BufTy).Contents (Elt F)),
    nullary main_call2_cst_1 (constant S_ .f32 0x47435000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call2_v8 main_call2_v10 (broadcastInDim S256 ![] bcast_S_S256 : (⟨S_, .f32⟩ : BufTy).Contents (Elt F) → (⟨S256, .f32⟩ : BufTy).Contents (Elt F)),
    binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    nullary main_call2_cst_3 (constant S_ .f32 0x00000000#32),
    binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S256 ![] bcast_S_S256 : (⟨S_, .f32⟩ : BufTy).Contents (Elt F) → (⟨S256, .f32⟩ : BufTy).Contents (Elt F)),
    ternary main_call2_v12 main_call2_v11 main_call2_call0_v1 main_v28 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v27 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v24 main_v30 main_v31 (subf : (⟨S50000x256, .f32⟩ : BufTy).Contents (Elt F) → (⟨S50000x256, .f32⟩ : BufTy).Contents (Elt F) → (⟨S50000x256, .f32⟩ : BufTy).Contents (Elt F)),
    unary main_arg7 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v33 main_v31 main_v34 (mulf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v35 (broadcastInDim S256 ![] bcast_S_S256 : (⟨S_, .f32⟩ : BufTy).Contents (Elt F) → (⟨S256, .f32⟩ : BufTy).Contents (Elt F)),
    binary main_v28 main_v35 main_v36 (addf : (⟨S256, .f32⟩ : BufTy).Contents (Elt F) → (⟨S256, .f32⟩ : BufTy).Contents (Elt F) → (⟨S256, .f32⟩ : BufTy).Contents (Elt F)),
    unary main_v36 main_v37 (Host.rsqrt : (⟨S256, .f32⟩ : BufTy).Contents (Elt F) → (⟨S256, .f32⟩ : BufTy).Contents (Elt F)),
    unary main_v37 main_v38 (broadcastInDim S1x256 ![1] bcast_S256_S1x256_1 : (⟨S256, .f32⟩ : BufTy).Contents (Elt F) → (⟨S1x256, .f32⟩ : BufTy).Contents (Elt F)),
    unary main_v38 main_v39 (broadcastInDim S50000x256 ![0, 1] bcast_S1x256_S50000x256_0_1 : (⟨S1x256, .f32⟩ : BufTy).Contents (Elt F) → (⟨S50000x256, .f32⟩ : BufTy).Contents (Elt F)),
    binary main_v34 main_v39 main_v40 (mulf : (⟨S50000x256, .f32⟩ : BufTy).Contents (Elt F) → (⟨S50000x256, .f32⟩ : BufTy).Contents (Elt F) → (⟨S50000x256, .f32⟩ : BufTy).Contents (Elt F)),
    unary main_arg8 main_v41 (broadcastInDim S1x256 ![1] bcast_S256_S1x256_1 : (⟨S256, .f32⟩ : BufTy).Contents (Elt F) → (⟨S1x256, .f32⟩ : BufTy).Contents (Elt F)),
    unary main_v41 main_v42 (broadcastInDim S50000x256 ![0, 1] bcast_S1x256_S50000x256_0_1 : (⟨S1x256, .f32⟩ : BufTy).Contents (Elt F) → (⟨S50000x256, .f32⟩ : BufTy).Contents (Elt F)),
    binary main_v40 main_v42 main_v43 (addf : (⟨S50000x256, .f32⟩ : BufTy).Contents (Elt F) → (⟨S50000x256, .f32⟩ : BufTy).Contents (Elt F) → (⟨S50000x256, .f32⟩ : BufTy).Contents (Elt F)),
    unary main_arg9 main_v44 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v44 main_v45 rfl shapeCasts_S1x256x256_S256x256,
    unary main_arg10 main_v46 ((extractStridedSlice S1x256 ![0, 0] · slices_S2x256_S1x256_0_0) : (⟨S2x256, .f32⟩ : BufTy).Contents (Elt F) → (⟨S1x256, .f32⟩ : BufTy).Contents (Elt F)),
    reshape main_v46 main_v47 rfl shapeCasts_S1x256_S256,
    unary main_arg11 main_v48 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v48 main_v49 rfl shapeCasts_S1x256x256_S256x256,
    unary main_arg12 main_v50 ((extractStridedSlice S1x256 ![0, 0] · slices_S2x256_S1x256_0_0) : (⟨S2x256, .f32⟩ : BufTy).Contents (Elt F) → (⟨S1x256, .f32⟩ : BufTy).Contents (Elt F)),
    reshape main_v50 main_v51 rfl shapeCasts_S1x256_S256,
    unary main_arg13 main_v52 ((extractStridedSlice S1x256 ![0, 0] · slices_S2x256_S1x256_0_0) : (⟨S2x256, .f32⟩ : BufTy).Contents (Elt F) → (⟨S1x256, .f32⟩ : BufTy).Contents (Elt F)) ]

/-- @main's operations, the second stretch (85 of them), the called functions' operations inline. -/
abbrev ops1 : List (HloOp τ sig (Elt F)) :=
  [ reshape main_v52 main_v53 rfl shapeCasts_S1x256_S256,
    unary main_arg14 main_v54 ((extractStridedSlice S1x256 ![0, 0] · slices_S2x256_S1x256_0_0) : (⟨S2x256, .f32⟩ : BufTy).Contents (Elt F) → (⟨S1x256, .f32⟩ : BufTy).Contents (Elt F)),
    reshape main_v54 main_v55 rfl shapeCasts_S1x256_S256,
    nullary main_c_5 (constantI S_ 32 0#32),
    unary main_c_5 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v43 main_v61 main_v62 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v63 (broadcastInDim S50000x256 ![] bcast_S_S50000x256 : (⟨S_, .f32⟩ : BufTy).Contents (Elt F) → (⟨S50000x256, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v43 main_v65 main_v66 (addf : (⟨S50000x256, .f32⟩ : BufTy).Contents (Elt F) → (⟨S50000x256, .f32⟩ : BufTy).Contents (Elt F) → (⟨S50000x256, .f32⟩ : BufTy).Contents (Elt F)),
    binary main_v66 main_v45 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v47 main_v68 (broadcastInDim S1x256 ![1] bcast_S256_S1x256_1 : (⟨S256, .f32⟩ : BufTy).Contents (Elt F) → (⟨S1x256, .f32⟩ : BufTy).Contents (Elt F)),
    unary main_v68 main_v69 (broadcastInDim S50000x256 ![0, 1] bcast_S1x256_S50000x256_0_1 : (⟨S1x256, .f32⟩ : BufTy).Contents (Elt F) → (⟨S50000x256, .f32⟩ : BufTy).Contents (Elt F)),
    binary main_v67 main_v69 main_v70 (addf : (⟨S50000x256, .f32⟩ : BufTy).Contents (Elt F) → (⟨S50000x256, .f32⟩ : BufTy).Contents (Elt F) → (⟨S50000x256, .f32⟩ : BufTy).Contents (Elt F)),
    nullary main_call3_cst (constant S_ .f32 0x00000000#32),
    unary main_call3_cst main_call3_v0 (broadcastInDim S50000x256 ![] bcast_S_S50000x256 : (⟨S_, .f32⟩ : BufTy).Contents (Elt F) → (⟨S50000x256, .f32⟩ : BufTy).Contents (Elt F)),
    binary main_v70 main_call3_v0 main_v71 (maximumf : (⟨S50000x256, .f32⟩ : BufTy).Contents (Elt F) → (⟨S50000x256, .f32⟩ : BufTy).Contents (Elt F) → (⟨S50000x256, .f32⟩ : BufTy).Contents (Elt F)),
    binary main_v71 main_v49 main_v72 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v51 main_v73 (broadcastInDim S1x256 ![1] bcast_S256_S1x256_1 : (⟨S256, .f32⟩ : BufTy).Contents (Elt F) → (⟨S1x256, .f32⟩ : BufTy).Contents (Elt F)),
    unary main_v73 main_v74 (broadcastInDim S50000x256 ![0, 1] bcast_S1x256_S50000x256_0_1 : (⟨S1x256, .f32⟩ : BufTy).Contents (Elt F) → (⟨S50000x256, .f32⟩ : BufTy).Contents (Elt F)),
    binary main_v72 main_v74 main_v75 (addf : (⟨S50000x256, .f32⟩ : BufTy).Contents (Elt F) → (⟨S50000x256, .f32⟩ : BufTy).Contents (Elt F) → (⟨S50000x256, .f32⟩ : BufTy).Contents (Elt F)),
    nullary main_call4_cst (constant S_ .f32 0x00000000#32),
    unary main_call4_cst main_call4_v0 (broadcastInDim S50000x256 ![] bcast_S_S50000x256 : (⟨S_, .f32⟩ : BufTy).Contents (Elt F) → (⟨S50000x256, .f32⟩ : BufTy).Contents (Elt F)),
    binary main_v75 main_call4_v0 main_v76 (maximumf : (⟨S50000x256, .f32⟩ : BufTy).Contents (Elt F) → (⟨S50000x256, .f32⟩ : BufTy).Contents (Elt F) → (⟨S50000x256, .f32⟩ : BufTy).Contents (Elt F)),
    nullary main_cst_8 (constant S_ .f32 0x00000000#32),
    binary main_v76 main_cst_8 main_v77 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_9 (constant S_ .f32 0x47435000#32),
    unary main_cst_9 main_v78 (broadcastInDim S256 ![] bcast_S_S256 : (⟨S_, .f32⟩ : BufTy).Contents (Elt F) → (⟨S256, .f32⟩ : BufTy).Contents (Elt F)),
    binary main_v77 main_v78 main_v79 (Host.divf : (⟨S256, .f32⟩ : BufTy).Contents (Elt F) → (⟨S256, .f32⟩ : BufTy).Contents (Elt F) → (⟨S256, .f32⟩ : BufTy).Contents (Elt F)),
    nullary main_c_10 (constantI S_ 32 0#32),
    nullary main_call5_cst (constant S_ .f32 0x00000000#32),
    binary main_v76 main_call5_cst main_call5_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call5_v0 main_call5_v1 (broadcastInDim S1x256 ![1] bcast_S256_S1x256_1 : (⟨S256, .f32⟩ : BufTy).Contents (Elt F) → (⟨S1x256, .f32⟩ : BufTy).Contents (Elt F)),
    nullary main_call5_cst_0 (constant S_ .f32 0x47435000#32),
    unary main_call5_cst_0 main_call5_v2 (broadcastInDim S1x256 ![] bcast_S_S1x256 : (⟨S_, .f32⟩ : BufTy).Contents (Elt F) → (⟨S1x256, .f32⟩ : BufTy).Contents (Elt F)),
    binary main_call5_v1 main_call5_v2 main_call5_v3 (Host.divf : (⟨S1x256, .f32⟩ : BufTy).Contents (Elt F) → (⟨S1x256, .f32⟩ : BufTy).Contents (Elt F) → (⟨S1x256, .f32⟩ : BufTy).Contents (Elt F)),
    unary main_call5_v3 main_call5_v4 (broadcastInDim S50000x256 ![0, 1] bcast_S1x256_S50000x256_0_1 : (⟨S1x256, .f32⟩ : BufTy).Contents (Elt F) → (⟨S50000x256, .f32⟩ : BufTy).Contents (Elt F)),
    binary main_v76 main_call5_v4 main_call5_v5 (subf : (⟨S50000x256, .f32⟩ : BufTy).Contents (Elt F) → (⟨S50000x256, .f32⟩ : BufTy).Contents (Elt F) → (⟨S50000x256, .f32⟩ : BufTy).Contents (Elt F)),
    binary main_call5_v5 main_call5_v5 main_call5_v6 (mulf : (⟨S50000x256, .f32⟩ : BufTy).Contents (Elt F) → (⟨S50000x256, .f32⟩ : BufTy).Contents (Elt F) → (⟨S50000x256, .f32⟩ : BufTy).Contents (Elt F)),
    unary main_c_10 main_call5_v7 (sitofp .f32 : (⟨S_, .i32⟩ : BufTy).Contents (Elt F) → (⟨S_, .f32⟩ : BufTy).Contents (Elt F)),
    nullary main_call5_cst_1 (constant S_ .f32 0x47435000#32),
    binary main_call5_cst_1 main_call5_v7 main_call5_v8 (subf : (⟨S_, .f32⟩ : BufTy).Contents (Elt F) → (⟨S_, .f32⟩ : BufTy).Contents (Elt F) → (⟨S_, .f32⟩ : BufTy).Contents (Elt F)),
    nullary main_call5_cst_2 (constant S_ .f32 0x00000000#32),
    binary main_call5_v6 main_call5_cst_2 main_call5_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call5_v8 main_call5_v10 (broadcastInDim S256 ![] bcast_S_S256 : (⟨S_, .f32⟩ : BufTy).Contents (Elt F) → (⟨S256, .f32⟩ : BufTy).Contents (Elt F)),
    binary main_call5_v9 main_call5_v10 main_call5_v11 (Host.divf : (⟨S256, .f32⟩ : BufTy).Contents (Elt F) → (⟨S256, .f32⟩ : BufTy).Contents (Elt F) → (⟨S256, .f32⟩ : BufTy).Contents (Elt F)),
    nullary main_call5_cst_3 (constant S_ .f32 0x00000000#32),
    binary main_call5_v8 main_call5_cst_3 main_call5_v12 (cmpf .ogt : (⟨S_, .f32⟩ : BufTy).Contents (Elt F) → (⟨S_, .f32⟩ : BufTy).Contents (Elt F) → (⟨S_, .i1⟩ : BufTy).Contents (Elt F)),
    nullary main_call5_cst_4 (constant S_ .f32 0x7FC00000#32),
    unary main_call5_cst_4 main_call5_call0_v0 (id : (⟨S_, .f32⟩ : BufTy).Contents (Elt F) → (⟨S_, .f32⟩ : BufTy).Contents (Elt F)),
    unary main_call5_call0_v0 main_call5_call0_v1 (broadcastInDim S256 ![] bcast_S_S256 : (⟨S_, .f32⟩ : BufTy).Contents (Elt F) → (⟨S256, .f32⟩ : BufTy).Contents (Elt F)),
    ternary main_call5_v12 main_call5_v11 main_call5_call0_v1 main_v80 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v79 main_v81 (broadcastInDim S1x256 ![1] bcast_S256_S1x256_1 : (⟨S256, .f32⟩ : BufTy).Contents (Elt F) → (⟨S1x256, .f32⟩ : BufTy).Contents (Elt F)),
    unary main_v81 main_v82 (broadcastInDim S50000x256 ![0, 1] bcast_S1x256_S50000x256_0_1 : (⟨S1x256, .f32⟩ : BufTy).Contents (Elt F) → (⟨S50000x256, .f32⟩ : BufTy).Contents (Elt F)),
    binary main_v76 main_v82 main_v83 (subf : (⟨S50000x256, .f32⟩ : BufTy).Contents (Elt F) → (⟨S50000x256, .f32⟩ : BufTy).Contents (Elt F) → (⟨S50000x256, .f32⟩ : BufTy).Contents (Elt F)),
    unary main_v53 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v85 main_v83 main_v86 (mulf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v87 (broadcastInDim S256 ![] bcast_S_S256 : (⟨S_, .f32⟩ : BufTy).Contents (Elt F) → (⟨S256, .f32⟩ : BufTy).Contents (Elt F)),
    binary main_v80 main_v87 main_v88 (addf : (⟨S256, .f32⟩ : BufTy).Contents (Elt F) → (⟨S256, .f32⟩ : BufTy).Contents (Elt F) → (⟨S256, .f32⟩ : BufTy).Contents (Elt F)),
    unary main_v88 main_v89 (Host.rsqrt : (⟨S256, .f32⟩ : BufTy).Contents (Elt F) → (⟨S256, .f32⟩ : BufTy).Contents (Elt F)),
    unary main_v89 main_v90 (broadcastInDim S1x256 ![1] bcast_S256_S1x256_1 : (⟨S256, .f32⟩ : BufTy).Contents (Elt F) → (⟨S1x256, .f32⟩ : BufTy).Contents (Elt F)),
    unary main_v90 main_v91 (broadcastInDim S50000x256 ![0, 1] bcast_S1x256_S50000x256_0_1 : (⟨S1x256, .f32⟩ : BufTy).Contents (Elt F) → (⟨S50000x256, .f32⟩ : BufTy).Contents (Elt F)),
    binary main_v86 main_v91 main_v92 (mulf : (⟨S50000x256, .f32⟩ : BufTy).Contents (Elt F) → (⟨S50000x256, .f32⟩ : BufTy).Contents (Elt F) → (⟨S50000x256, .f32⟩ : BufTy).Contents (Elt F)),
    unary main_v55 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v92 main_v94 main_v95 (addf : (⟨S50000x256, .f32⟩ : BufTy).Contents (Elt F) → (⟨S50000x256, .f32⟩ : BufTy).Contents (Elt F) → (⟨S50000x256, .f32⟩ : BufTy).Contents (Elt F)),
    unary main_arg9 main_v96 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v96 main_v97 rfl shapeCasts_S1x256x256_S256x256,
    unary main_arg10 main_v98 ((extractStridedSlice S1x256 ![1, 0] · slices_S2x256_S1x256_1_0) : (⟨S2x256, .f32⟩ : BufTy).Contents (Elt F) → (⟨S1x256, .f32⟩ : BufTy).Contents (Elt F)),
    reshape main_v98 main_v99 rfl shapeCasts_S1x256_S256,
    unary main_arg11 main_v100 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v100 main_v101 rfl shapeCasts_S1x256x256_S256x256,
    unary main_arg12 main_v102 ((extractStridedSlice S1x256 ![1, 0] · slices_S2x256_S1x256_1_0) : (⟨S2x256, .f32⟩ : BufTy).Contents (Elt F) → (⟨S1x256, .f32⟩ : BufTy).Contents (Elt F)),
    reshape main_v102 main_v103 rfl shapeCasts_S1x256_S256,
    unary main_arg13 main_v104 ((extractStridedSlice S1x256 ![1, 0] · slices_S2x256_S1x256_1_0) : (⟨S2x256, .f32⟩ : BufTy).Contents (Elt F) → (⟨S1x256, .f32⟩ : BufTy).Contents (Elt F)),
    reshape main_v104 main_v105 rfl shapeCasts_S1x256_S256 ]

/-- @main's operations, the third stretch (85 of them), the called functions' operations inline. -/
abbrev ops2 : List (HloOp τ sig (Elt F)) :=
  [ unary main_arg14 main_v106 ((extractStridedSlice S1x256 ![1, 0] · slices_S2x256_S1x256_1_0) : (⟨S2x256, .f32⟩ : BufTy).Contents (Elt F) → (⟨S1x256, .f32⟩ : BufTy).Contents (Elt F)),
    reshape main_v106 main_v107 rfl shapeCasts_S1x256_S256,
    nullary main_c_12 (constantI S_ 32 0#32),
    unary main_c_12 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v95 main_v113 main_v114 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v115 (broadcastInDim S50000x256 ![] bcast_S_S50000x256 : (⟨S_, .f32⟩ : BufTy).Contents (Elt F) → (⟨S50000x256, .f32⟩ : BufTy).Contents (Elt F)),
    unary main_v3 main_v116 (broadcastInDim S800000x1 ![0] bcast_S800000_S800000x1_0 : (⟨S800000, .i32⟩ : BufTy).Contents (Elt F) → (⟨S800000x1, .i32⟩ : BufTy).Contents (Elt F)),
    ternary main_v115 main_v116 main_v114 main_v117 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v95 main_v117 main_v118 (addf : (⟨S50000x256, .f32⟩ : BufTy).Contents (Elt F) → (⟨S50000x256, .f32⟩ : BufTy).Contents (Elt F) → (⟨S50000x256, .f32⟩ : BufTy).Contents (Elt F)),
    binary main_v118 main_v97 main_v119 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v99 main_v120 (broadcastInDim S1x256 ![1] bcast_S256_S1x256_1 : (⟨S256, .f32⟩ : BufTy).Contents (Elt F) → (⟨S1x256, .f32⟩ : BufTy).Contents (Elt F)),
    unary main_v120 main_v121 (broadcastInDim S50000x256 ![0, 1] bcast_S1x256_S50000x256_0_1 : (⟨S1x256, .f32⟩ : BufTy).Contents (Elt F) → (⟨S50000x256, .f32⟩ : BufTy).Contents (Elt F)),
    binary main_v119 main_v121 main_v122 (addf : (⟨S50000x256, .f32⟩ : BufTy).Contents (Elt F) → (⟨S50000x256, .f32⟩ : BufTy).Contents (Elt F) → (⟨S50000x256, .f32⟩ : BufTy).Contents (Elt F)),
    nullary main_call6_cst (constant S_ .f32 0x00000000#32),
    unary main_call6_cst main_call6_v0 (broadcastInDim S50000x256 ![] bcast_S_S50000x256 : (⟨S_, .f32⟩ : BufTy).Contents (Elt F) → (⟨S50000x256, .f32⟩ : BufTy).Contents (Elt F)),
    binary main_v122 main_call6_v0 main_v123 (maximumf : (⟨S50000x256, .f32⟩ : BufTy).Contents (Elt F) → (⟨S50000x256, .f32⟩ : BufTy).Contents (Elt F) → (⟨S50000x256, .f32⟩ : BufTy).Contents (Elt F)),
    binary main_v123 main_v101 main_v124 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v103 main_v125 (broadcastInDim S1x256 ![1] bcast_S256_S1x256_1 : (⟨S256, .f32⟩ : BufTy).Contents (Elt F) → (⟨S1x256, .f32⟩ : BufTy).Contents (Elt F)),
    unary main_v125 main_v126 (broadcastInDim S50000x256 ![0, 1] bcast_S1x256_S50000x256_0_1 : (⟨S1x256, .f32⟩ : BufTy).Contents (Elt F) → (⟨S50000x256, .f32⟩ : BufTy).Contents (Elt F)),
    binary main_v124 main_v126 main_v127 (addf : (⟨S50000x256, .f32⟩ : BufTy).Contents (Elt F) → (⟨S50000x256, .f32⟩ : BufTy).Contents (Elt F) → (⟨S50000x256, .f32⟩ : BufTy).Contents (Elt F)),
    nullary main_call7_cst (constant S_ .f32 0x00000000#32),
    unary main_call7_cst main_call7_v0 (broadcastInDim S50000x256 ![] bcast_S_S50000x256 : (⟨S_, .f32⟩ : BufTy).Contents (Elt F) → (⟨S50000x256, .f32⟩ : BufTy).Contents (Elt F)),
    binary main_v127 main_call7_v0 main_v128 (maximumf : (⟨S50000x256, .f32⟩ : BufTy).Contents (Elt F) → (⟨S50000x256, .f32⟩ : BufTy).Contents (Elt F) → (⟨S50000x256, .f32⟩ : BufTy).Contents (Elt F)),
    nullary main_cst_15 (constant S_ .f32 0x00000000#32),
    binary main_v128 main_cst_15 main_v129 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_16 (constant S_ .f32 0x47435000#32),
    unary main_cst_16 main_v130 (broadcastInDim S256 ![] bcast_S_S256 : (⟨S_, .f32⟩ : BufTy).Contents (Elt F) → (⟨S256, .f32⟩ : BufTy).Contents (Elt F)),
    binary main_v129 main_v130 main_v131 (Host.divf : (⟨S256, .f32⟩ : BufTy).Contents (Elt F) → (⟨S256, .f32⟩ : BufTy).Contents (Elt F) → (⟨S256, .f32⟩ : BufTy).Contents (Elt F)),
    nullary main_c_17 (constantI S_ 32 0#32),
    nullary main_call8_cst (constant S_ .f32 0x00000000#32),
    binary main_v128 main_call8_cst main_call8_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call8_v0 main_call8_v1 (broadcastInDim S1x256 ![1] bcast_S256_S1x256_1 : (⟨S256, .f32⟩ : BufTy).Contents (Elt F) → (⟨S1x256, .f32⟩ : BufTy).Contents (Elt F)),
    nullary main_call8_cst_0 (constant S_ .f32 0x47435000#32),
    unary main_call8_cst_0 main_call8_v2 (broadcastInDim S1x256 ![] bcast_S_S1x256 : (⟨S_, .f32⟩ : BufTy).Contents (Elt F) → (⟨S1x256, .f32⟩ : BufTy).Contents (Elt F)),
    binary main_call8_v1 main_call8_v2 main_call8_v3 (Host.divf : (⟨S1x256, .f32⟩ : BufTy).Contents (Elt F) → (⟨S1x256, .f32⟩ : BufTy).Contents (Elt F) → (⟨S1x256, .f32⟩ : BufTy).Contents (Elt F)),
    unary main_call8_v3 main_call8_v4 (broadcastInDim S50000x256 ![0, 1] bcast_S1x256_S50000x256_0_1 : (⟨S1x256, .f32⟩ : BufTy).Contents (Elt F) → (⟨S50000x256, .f32⟩ : BufTy).Contents (Elt F)),
    binary main_v128 main_call8_v4 main_call8_v5 (subf : (⟨S50000x256, .f32⟩ : BufTy).Contents (Elt F) → (⟨S50000x256, .f32⟩ : BufTy).Contents (Elt F) → (⟨S50000x256, .f32⟩ : BufTy).Contents (Elt F)),
    binary main_call8_v5 main_call8_v5 main_call8_v6 (mulf : (⟨S50000x256, .f32⟩ : BufTy).Contents (Elt F) → (⟨S50000x256, .f32⟩ : BufTy).Contents (Elt F) → (⟨S50000x256, .f32⟩ : BufTy).Contents (Elt F)),
    unary main_c_17 main_call8_v7 (sitofp .f32 : (⟨S_, .i32⟩ : BufTy).Contents (Elt F) → (⟨S_, .f32⟩ : BufTy).Contents (Elt F)),
    nullary main_call8_cst_1 (constant S_ .f32 0x47435000#32),
    binary main_call8_cst_1 main_call8_v7 main_call8_v8 (subf : (⟨S_, .f32⟩ : BufTy).Contents (Elt F) → (⟨S_, .f32⟩ : BufTy).Contents (Elt F) → (⟨S_, .f32⟩ : BufTy).Contents (Elt F)),
    nullary main_call8_cst_2 (constant S_ .f32 0x00000000#32),
    binary main_call8_v6 main_call8_cst_2 main_call8_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call8_v8 main_call8_v10 (broadcastInDim S256 ![] bcast_S_S256 : (⟨S_, .f32⟩ : BufTy).Contents (Elt F) → (⟨S256, .f32⟩ : BufTy).Contents (Elt F)),
    binary main_call8_v9 main_call8_v10 main_call8_v11 (Host.divf : (⟨S256, .f32⟩ : BufTy).Contents (Elt F) → (⟨S256, .f32⟩ : BufTy).Contents (Elt F) → (⟨S256, .f32⟩ : BufTy).Contents (Elt F)),
    nullary main_call8_cst_3 (constant S_ .f32 0x00000000#32),
    binary main_call8_v8 main_call8_cst_3 main_call8_v12 (cmpf .ogt : (⟨S_, .f32⟩ : BufTy).Contents (Elt F) → (⟨S_, .f32⟩ : BufTy).Contents (Elt F) → (⟨S_, .i1⟩ : BufTy).Contents (Elt F)),
    nullary main_call8_cst_4 (constant S_ .f32 0x7FC00000#32),
    unary main_call8_cst_4 main_call8_call0_v0 (id : (⟨S_, .f32⟩ : BufTy).Contents (Elt F) → (⟨S_, .f32⟩ : BufTy).Contents (Elt F)),
    unary main_call8_call0_v0 main_call8_call0_v1 (broadcastInDim S256 ![] bcast_S_S256 : (⟨S_, .f32⟩ : BufTy).Contents (Elt F) → (⟨S256, .f32⟩ : BufTy).Contents (Elt F)),
    ternary main_call8_v12 main_call8_v11 main_call8_call0_v1 main_v132 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)),
    unary main_v131 main_v133 (broadcastInDim S1x256 ![1] bcast_S256_S1x256_1 : (⟨S256, .f32⟩ : BufTy).Contents (Elt F) → (⟨S1x256, .f32⟩ : BufTy).Contents (Elt F)),
    unary main_v133 main_v134 (broadcastInDim S50000x256 ![0, 1] bcast_S1x256_S50000x256_0_1 : (⟨S1x256, .f32⟩ : BufTy).Contents (Elt F) → (⟨S50000x256, .f32⟩ : BufTy).Contents (Elt F)),
    binary main_v128 main_v134 main_v135 (subf : (⟨S50000x256, .f32⟩ : BufTy).Contents (Elt F) → (⟨S50000x256, .f32⟩ : BufTy).Contents (Elt F) → (⟨S50000x256, .f32⟩ : BufTy).Contents (Elt F)),
    unary main_v105 main_v136 (broadcastInDim S1x256 ![1] bcast_S256_S1x256_1 : (⟨S256, .f32⟩ : BufTy).Contents (Elt F) → (⟨S1x256, .f32⟩ : BufTy).Contents (Elt F)),
    unary main_v136 main_v137 (broadcastInDim S50000x256 ![0, 1] bcast_S1x256_S50000x256_0_1 : (⟨S1x256, .f32⟩ : BufTy).Contents (Elt F) → (⟨S50000x256, .f32⟩ : BufTy).Contents (Elt F)),
    binary main_v137 main_v135 main_v138 (mulf : (⟨S50000x256, .f32⟩ : BufTy).Contents (Elt F) → (⟨S50000x256, .f32⟩ : BufTy).Contents (Elt F) → (⟨S50000x256, .f32⟩ : BufTy).Contents (Elt F)),
    nullary main_cst_18 (constant S_ .f32 0x3727C5AC#32),
    unary main_cst_18 main_v139 (broadcastInDim S256 ![] bcast_S_S256 : (⟨S_, .f32⟩ : BufTy).Contents (Elt F) → (⟨S256, .f32⟩ : BufTy).Contents (Elt F)),
    binary main_v132 main_v139 main_v140 (addf : (⟨S256, .f32⟩ : BufTy).Contents (Elt F) → (⟨S256, .f32⟩ : BufTy).Contents (Elt F) → (⟨S256, .f32⟩ : BufTy).Contents (Elt F)),
    unary main_v140 main_v141 (Host.rsqrt : (⟨S256, .f32⟩ : BufTy).Contents (Elt F) → (⟨S256, .f32⟩ : BufTy).Contents (Elt F)),
    unary main_v141 main_v142 (broadcastInDim S1x256 ![1] bcast_S256_S1x256_1 : (⟨S256, .f32⟩ : BufTy).Contents (Elt F) → (⟨S1x256, .f32⟩ : BufTy).Contents (Elt F)),
    unary main_v142 main_v143 (broadcastInDim S50000x256 ![0, 1] bcast_S1x256_S50000x256_0_1 : (⟨S1x256, .f32⟩ : BufTy).Contents (Elt F) → (⟨S50000x256, .f32⟩ : BufTy).Contents (Elt F)),
    binary main_v138 main_v143 main_v144 (mulf : (⟨S50000x256, .f32⟩ : BufTy).Contents (Elt F) → (⟨S50000x256, .f32⟩ : BufTy).Contents (Elt F) → (⟨S50000x256, .f32⟩ : BufTy).Contents (Elt F)),
    unary main_v107 main_v145 (broadcastInDim S1x256 ![1] bcast_S256_S1x256_1 : (⟨S256, .f32⟩ : BufTy).Contents (Elt F) → (⟨S1x256, .f32⟩ : BufTy).Contents (Elt F)),
    unary main_v145 main_v146 (broadcastInDim S50000x256 ![0, 1] bcast_S1x256_S50000x256_0_1 : (⟨S1x256, .f32⟩ : BufTy).Contents (Elt F) → (⟨S50000x256, .f32⟩ : BufTy).Contents (Elt F)),
    binary main_v144 main_v146 main_v147 (addf : (⟨S50000x256, .f32⟩ : BufTy).Contents (Elt F) → (⟨S50000x256, .f32⟩ : BufTy).Contents (Elt F) → (⟨S50000x256, .f32⟩ : BufTy).Contents (Elt F)),
    nullary main_cst_19 (constant S_ .f32 0x00000000#32),
    unary main_cst_19 main_v148 (broadcastInDim S512x256 ![] bcast_S_S512x256 : (⟨S_, .f32⟩ : BufTy).Contents (Elt F) → (⟨S512x256, .f32⟩ : BufTy).Contents (Elt F)),
    unary main_arg2 main_v149 (broadcastInDim S50000x1 ![0] bcast_S50000_S50000x1_0 : (⟨S50000, .i32⟩ : BufTy).Contents (Elt F) → (⟨S50000x1, .i32⟩ : BufTy).Contents (Elt F)),
    ternary main_v148 main_v149 main_v147 main_v150 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    nullary main_cst_20 (constant S_ .f32 0x3F800000#32),
    unary main_cst_20 main_v151 (broadcastInDim S50000 ![] bcast_S_S50000 : (⟨S_, .f32⟩ : BufTy).Contents (Elt F) → (⟨S50000, .f32⟩ : BufTy).Contents (Elt F)),
    nullary main_cst_21 (constant S_ .f32 0x00000000#32),
    unary main_cst_21 main_v152 (broadcastInDim S512 ![] bcast_S_S512 : (⟨S_, .f32⟩ : BufTy).Contents (Elt F) → (⟨S512, .f32⟩ : BufTy).Contents (Elt F)),
    unary main_arg2 main_v153 (broadcastInDim S50000x1 ![0] bcast_S50000_S50000x1_0 : (⟨S50000, .i32⟩ : BufTy).Contents (Elt F) → (⟨S50000x1, .i32⟩ : BufTy).Contents (Elt F)),
    ternary main_v152 main_v153 main_v151 main_v154 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_22 (constant S_ .f32 0x3F800000#32) ]

/-- @main's operations, the last stretch (5 of them), the called functions' operations inline. -/
abbrev ops3 : List (HloOp τ sig (Elt F)) :=
  [ unary main_cst_22 main_v155 (broadcastInDim S512 ![] bcast_S_S512 : (⟨S_, .f32⟩ : BufTy).Contents (Elt F) → (⟨S512, .f32⟩ : BufTy).Contents (Elt F)),
    binary main_v154 main_v155 main_v156 (maximumf : (⟨S512, .f32⟩ : BufTy).Contents (Elt F) → (⟨S512, .f32⟩ : BufTy).Contents (Elt F) → (⟨S512, .f32⟩ : BufTy).Contents (Elt F)),
    unary main_v156 main_v157 (broadcastInDim S512x1 ![0] bcast_S512_S512x1_0 : (⟨S512, .f32⟩ : BufTy).Contents (Elt F) → (⟨S512x1, .f32⟩ : BufTy).Contents (Elt F)),
    unary main_v157 main_v158 (broadcastInDim S512x256 ![0, 1] bcast_S512x1_S512x256_0_1 : (⟨S512x1, .f32⟩ : BufTy).Contents (Elt F) → (⟨S512x256, .f32⟩ : BufTy).Contents (Elt F)),
    binary main_v150 main_v158 main_v159 (Host.divf : (⟨S512x256, .f32⟩ : BufTy).Contents (Elt F) → (⟨S512x256, .f32⟩ : BufTy).Contents (Elt F) → (⟨S512x256, .f32⟩ : BufTy).Contents (Elt F)) ]

/-- All of @main's operations, in order. -/
abbrev ops : List (HloOp τ sig (Elt F)) := ops0 ++ (ops1 ++ (ops2 ++ ops3))

set_option maxRecDepth 16384 in
set_option maxHeartbeats 4000000 in
/-- A stretch of @main is the straight line of its operations: the called functions' definitions unfolded at their
    calls, both sides are one chain of steps once sequencing is reassociated. -/
theorem main_part0_eq (c : Dev nD) : main_part0 (F := F) c = seq ops0 := by
  simp only [main_part0, fn_relu.body, fn_var.body, fn_where.body, seq, bind_assoc, pure_bind]
  rfl

set_option maxRecDepth 16384 in
set_option maxHeartbeats 4000000 in
/-- A stretch of @main is the straight line of its operations: the called functions' definitions unfolded at their
    calls, both sides are one chain of steps once sequencing is reassociated. -/
theorem main_part1_eq (c : Dev nD) : main_part1 (F := F) c = seq ops1 := by
  simp only [main_part1, fn_relu.body, fn_var.body, fn_where.body, seq, bind_assoc, pure_bind]
  rfl

set_option maxRecDepth 16384 in
set_option maxHeartbeats 4000000 in
/-- A stretch of @main is the straight line of its operations: the called functions' definitions unfolded at their
    calls, both sides are one chain of steps once sequencing is reassociated. -/
theorem main_part2_eq (c : Dev nD) : main_part2 (F := F) c = seq ops2 := by
  simp only [main_part2, fn_relu.body, fn_var.body, fn_where.body, seq, bind_assoc, pure_bind]
  rfl

/-- The last stretch calls no function: it is the straight line of its operations as printed. -/
theorem main_part3_eq (c : Dev nD) : main_part3 (F := F) c = seq ops3 := rfl

/-- @main is the straight line of all its operations. -/
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., nullary_bufs_sub .., nullary_bufs_sub .., binary_bufs_sub .., unary_bufs_sub .., nullary_bufs_sub ..,
    unary_bufs_sub .., binary_bufs_sub .., unary_bufs_sub .., binary_bufs_sub .., binary_bufs_sub .., unary_bufs_sub ..,
    nullary_bufs_sub .., binary_bufs_sub .., nullary_bufs_sub .., binary_bufs_sub .., unary_bufs_sub .., binary_bufs_sub ..,
    nullary_bufs_sub .., binary_bufs_sub .., nullary_bufs_sub .., unary_bufs_sub .., unary_bufs_sub .., ternary_bufs_sub ..,
    unary_bufs_sub .., unary_bufs_sub .., binary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., reshape_bufs_sub ..,
    unary_bufs_sub .., reshape_bufs_sub .., unary_bufs_sub .., reshape_bufs_sub .., unary_bufs_sub .., reshape_bufs_sub ..,
    unary_bufs_sub ..⟩
theorem ops0_fresh : (ops0 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl⟩

theorem ops1_sub : (ops1 : List (HloOp τ sig (Elt F))).Forall fun op => op.bufs ⊆ tcRefs τ sig :=
  ⟨reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., reshape_bufs_sub .., unary_bufs_sub ..,
    reshape_bufs_sub .., unary_bufs_sub .., reshape_bufs_sub .., unary_bufs_sub .., reshape_bufs_sub .., unary_bufs_sub ..,
    reshape_bufs_sub ..⟩
theorem ops1_fresh : (ops1 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl⟩

theorem ops2_sub : (ops2 : List (HloOp τ sig (Elt F))).Forall fun op => op.bufs ⊆ tcRefs τ sig :=
  ⟨unary_bufs_sub .., reshape_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., nullary_bufs_sub .., unary_bufs_sub .., unary_bufs_sub .., ternary_bufs_sub ..,
    nullary_bufs_sub .., unary_bufs_sub .., nullary_bufs_sub .., unary_bufs_sub .., unary_bufs_sub .., ternary_bufs_sub ..,
    nullary_bufs_sub ..⟩
theorem ops2_fresh : (ops2 : List (HloOp τ sig (Elt F))).Forall fun op => op.fresh = ∅ :=
  ⟨rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl, rfl, rfl, rfl, rfl, rfl,
    rfl⟩

theorem ops3_sub : (ops3 : List (HloOp τ sig (Elt F))).Forall fun op => op.bufs ⊆ tcRefs τ sig :=
  ⟨unary_bufs_sub .., binary_bufs_sub .., unary_bufs_sub .., unary_bufs_sub .., binary_bufs_sub ..⟩
theorem ops3_fresh : (ops3 : List (HloOp τ sig (Elt F))).Forall fun op => op.fresh = ∅ :=
  ⟨rfl, rfl, rfl, rfl, rfl⟩

/-- Every operation touches TensorCore references only. -/
theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- Every operation determines its results. -/
theorem ops_fresh : ∀ op ∈ (ops : List (HloOp τ sig (Elt F))), op.fresh = ∅ := fun op h => by
  simp only [ops, List.mem_append] at h
  rcases h with h | h | h | h
  exacts [List.forall_iff_forall_mem.mp ops0_fresh op h, List.forall_iff_forall_mem.mp ops1_fresh op h,
    List.forall_iff_forall_mem.mp ops2_fresh op h, List.forall_iff_forall_mem.mp ops3_fresh op h]

/-- On every device, for any float values, from any memory with zero counters: every weakly fair execution of
    @main terminates, and every final state has each TensorCore buffer at the operations' fold over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefRunRead.lean ====
/- The reference program's run read back at the ideal instance: its operations cut into the network's stages
   (per layer: aggregation, the two rectified affine maps, the column mean, the column variance, the
   normalisation, the weights' slices; then the pooling), the device's contents after each stage, and for every
   buffer a later stage still reads its value as the named stage functions of the arguments' launch contents. The
   result buffer ends at the whole network applied to the arguments, and no argument buffer is written. -/
import proofs.«159704_j38585986187613_1_alg».proof.Proof.RefRunOps
import proofs.«159704_j38585986187613_1_alg».proof.Proof.RefRunStages
import Idealize.ShloMosaic.Lib.Pipeline.Frame

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 4 of @main: one stage. -/
abbrev c0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- Operations 5 … 18 of @main: one stage. -/
abbrev c1 : List (HloOp τ sig (Elt F)) :=
  [ nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_arg0 main_v13 main_v14 (addf : (⟨S50000x128, .f32⟩ : BufTy).Contents (Elt F) → (⟨S50000x128, .f32⟩ : BufTy).Contents (Elt F) → (⟨S50000x128, .f32⟩ : BufTy).Contents (Elt F)) ]

/-- Operations 19 … 32 of @main: one stage. -/
abbrev c2 : List (HloOp τ sig (Elt F)) :=
  [ binary main_v14 main_arg3 main_v15 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    unary main_arg4 main_v16 (broadcastInDim S1x256 ![1] bcast_S256_S1x256_1 : (⟨S256, .f32⟩ : BufTy).Contents (Elt F) → (⟨S1x256, .f32⟩ : BufTy).Contents (Elt F)),
    unary main_v16 main_v17 (broadcastInDim S50000x256 ![0, 1] bcast_S1x256_S50000x256_0_1 : (⟨S1x256, .f32⟩ : BufTy).Contents (Elt F) → (⟨S50000x256, .f32⟩ : BufTy).Contents (Elt F)),
    binary main_v15 main_v17 main_v18 (addf : (⟨S50000x256, .f32⟩ : BufTy).Contents (Elt F) → (⟨S50000x256, .f32⟩ : BufTy).Contents (Elt F) → (⟨S50000x256, .f32⟩ : BufTy).Contents (Elt F)),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v18 main_call0_v0 main_v19 (maximumf : (⟨S50000x256, .f32⟩ : BufTy).Contents (Elt F) → (⟨S50000x256, .f32⟩ : BufTy).Contents (Elt F) → (⟨S50000x256, .f32⟩ : BufTy).Contents (Elt F)),
    binary main_v19 main_arg5 main_v20 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_arg6 main_v21 (broadcastInDim S1x256 ![1] bcast_S256_S1x256_1 : (⟨S256, .f32⟩ : BufTy).Contents (Elt F) → (⟨S1x256, .f32⟩ : BufTy).Contents (Elt F)),
    unary main_v21 main_v22 (broadcastInDim S50000x256 ![0, 1] bcast_S1x256_S50000x256_0_1 : (⟨S1x256, .f32⟩ : BufTy).Contents (Elt F) → (⟨S50000x256, .f32⟩ : BufTy).Contents (Elt F)),
    binary main_v20 main_v22 main_v23 (addf : (⟨S50000x256, .f32⟩ : BufTy).Contents (Elt F) → (⟨S50000x256, .f32⟩ : BufTy).Contents (Elt F) → (⟨S50000x256, .f32⟩ : BufTy).Contents (Elt F)),
    nullary main_call1_cst (constant S_ .f32 0x00000000#32),
    unary main_call1_cst main_call1_v0 (broadcastInDim S50000x256 ![] bcast_S_S50000x256 : (⟨S_, .f32⟩ : BufTy).Contents (Elt F) → (⟨S50000x256, .f32⟩ : BufTy).Contents (Elt F)),
    binary main_v23 main_call1_v0 main_v24 (maximumf : (⟨S50000x256, .f32⟩ : BufTy).Contents (Elt F) → (⟨S50000x256, .f32⟩ : BufTy).Contents (Elt F) → (⟨S50000x256, .f32⟩ : BufTy).Contents (Elt F)) ]

/-- Operations 33 … 37 of @main: one stage. -/
abbrev c3 : List (HloOp τ sig (Elt F)) :=
  [ nullary main_cst_1 (constant S_ .f32 0x00000000#32),
    binary main_v24 main_cst_1 main_v25 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_2 (constant S_ .f32 0x47435000#32),
    unary main_cst_2 main_v26 (broadcastInDim S256 ![] bcast_S_S256 : (⟨S_, .f32⟩ : BufTy).Contents (Elt F) → (⟨S256, .f32⟩ : BufTy).Contents (Elt F)),
    binary main_v25 main_v26 main_v27 (Host.divf : (⟨S256, .f32⟩ : BufTy).Contents (Elt F) → (⟨S256, .f32⟩ : BufTy).Contents (Elt F) → (⟨S256, .f32⟩ : BufTy).Contents (Elt F)) ]

/-- Operations 38 … 60 of @main: one stage. -/
abbrev c4 : List (HloOp τ sig (Elt F)) :=
  [ nullary main_c_3 (constantI S_ 32 0#32),
    nullary main_call2_cst (constant S_ .f32 0x00000000#32),
    binary main_v24 main_call2_cst main_call2_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call2_v0 main_call2_v1 (broadcastInDim S1x256 ![1] bcast_S256_S1x256_1 : (⟨S256, .f32⟩ : BufTy).Contents (Elt F) → (⟨S1x256, .f32⟩ : BufTy).Contents (Elt F)),
    nullary main_call2_cst_0 (constant S_ .f32 0x47435000#32),
    unary main_call2_cst_0 main_call2_v2 (broadcastInDim S1x256 ![] bcast_S_S1x256 : (⟨S_, .f32⟩ : BufTy).Contents (Elt F) → (⟨S1x256, .f32⟩ : BufTy).Contents (Elt F)),
    binary main_call2_v1 main_call2_v2 main_call2_v3 (Host.divf : (⟨S1x256, .f32⟩ : BufTy).Contents (Elt F) → (⟨S1x256, .f32⟩ : BufTy).Contents (Elt F) → (⟨S1x256, .f32⟩ : BufTy).Contents (Elt F)),
    unary main_call2_v3 main_call2_v4 (broadcastInDim S50000x256 ![0, 1] bcast_S1x256_S50000x256_0_1 : (⟨S1x256, .f32⟩ : BufTy).Contents (Elt F) → (⟨S50000x256, .f32⟩ : BufTy).Contents (Elt F)),
    binary main_v24 main_call2_v4 main_call2_v5 (subf : (⟨S50000x256, .f32⟩ : BufTy).Contents (Elt F) → (⟨S50000x256, .f32⟩ : BufTy).Contents (Elt F) → (⟨S50000x256, .f32⟩ : BufTy).Contents (Elt F)),
    binary main_call2_v5 main_call2_v5 main_call2_v6 (mulf : (⟨S50000x256, .f32⟩ : BufTy).Contents (Elt F) → (⟨S50000x256, .f32⟩ : BufTy).Contents (Elt F) → (⟨S50000x256, .f32⟩ : BufTy).Contents (Elt F)),
    unary main_c_3 main_call2_v7 (sitofp .f32 : (⟨S_, .i32⟩ : BufTy).Contents (Elt F) → (⟨S_, .f32⟩ : BufTy).Contents (Elt F)),
    nullary main_call2_cst_1 (constant S_ .f32 0x47435000#32),
    binary main_call2_cst_1 main_call2_v7 main_call2_v8 (subf : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call2_v8 main_call2_v10 (broadcastInDim S256 ![] bcast_S_S256 : (⟨S_, .f32⟩ : BufTy).Contents (Elt F) → (⟨S256, .f32⟩ : BufTy).Contents (Elt F)),
    binary main_call2_v9 main_call2_v10 main_call2_v11 (Host.divf : (⟨S256, .f32⟩ : BufTy).Contents (Elt F) → (⟨S256, .f32⟩ : BufTy).Contents (Elt F) → (⟨S256, .f32⟩ : BufTy).Contents (Elt F)),
    nullary main_call2_cst_3 (constant S_ .f32 0x00000000#32),
    binary main_call2_v8 main_call2_cst_3 main_call2_v12 (cmpf .ogt : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 (id : (⟨S_, .f32⟩ : BufTy).Contents (Elt F) → (⟨S_, .f32⟩ : BufTy).Contents (Elt F)),
    unary main_call2_call0_v0 main_call2_call0_v1 (broadcastInDim S256 ![] bcast_S_S256 : (⟨S_, .f32⟩ : BufTy).Contents (Elt F) → (⟨S256, .f32⟩ : BufTy).Contents (Elt F)),
    ternary main_call2_v12 main_call2_v11 main_call2_call0_v1 main_v28 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- Operations 61 … 76 of @main: one stage. -/
abbrev c5 : List (HloOp τ sig (Elt F)) :=
  [ unary main_v27 main_v29 (broadcastInDim S1x256 ![1] bcast_S256_S1x256_1 : (⟨S256, .f32⟩ : BufTy).Contents (Elt F) → (⟨S1x256, .f32⟩ : BufTy).Contents (Elt F)),
    unary main_v29 main_v30 (broadcastInDim S50000x256 ![0, 1] bcast_S1x256_S50000x256_0_1 : (⟨S1x256, .f32⟩ : BufTy).Contents (Elt F) → (⟨S50000x256, .f32⟩ : BufTy).Contents (Elt F)),
    binary main_v24 main_v30 main_v31 (subf : (⟨S50000x256, .f32⟩ : BufTy).Contents (Elt F) → (⟨S50000x256, .f32⟩ : BufTy).Contents (Elt F) → (⟨S50000x256, .f32⟩ : BufTy).Contents (Elt F)),
    unary main_arg7 main_v32 (broadcastInDim S1x256 ![1] bcast_S256_S1x256_1 : (⟨S256, .f32⟩ : BufTy).Contents (Elt F) → (⟨S1x256, .f32⟩ : BufTy).Contents (Elt F)),
    unary main_v32 main_v33 (broadcastInDim S50000x256 ![0, 1] bcast_S1x256_S50000x256_0_1 : (⟨S1x256, .f32⟩ : BufTy).Contents (Elt F) → (⟨S50000x256, .f32⟩ : BufTy).Contents (Elt F)),
    binary main_v33 main_v31 main_v34 (mulf : (⟨S50000x256, .f32⟩ : BufTy).Contents (Elt F) → (⟨S50000x256, .f32⟩ : BufTy).Contents (Elt F) → (⟨S50000x256, .f32⟩ : BufTy).Contents (Elt F)),
    nullary main_cst_4 (constant S_ .f32 0x3727C5AC#32),
    unary main_cst_4 main_v35 (broadcastInDim S256 ![] bcast_S_S256 : (⟨S_, .f32⟩ : BufTy).Contents (Elt F) → (⟨S256, .f32⟩ : BufTy).Contents (Elt F)),
    binary main_v28 main_v35 main_v36 (addf : (⟨S256, .f32⟩ : BufTy).Contents (Elt F) → (⟨S256, .f32⟩ : BufTy).Contents (Elt F) → (⟨S256, .f32⟩ : BufTy).Contents (Elt F)),
    unary main_v36 main_v37 (Host.rsqrt : (⟨S256, .f32⟩ : BufTy).Contents (Elt F) → (⟨S256, .f32⟩ : BufTy).Contents (Elt F)),
    unary main_v37 main_v38 (broadcastInDim S1x256 ![1] bcast_S256_S1x256_1 : (⟨S256, .f32⟩ : BufTy).Contents (Elt F) → (⟨S1x256, .f32⟩ : BufTy).Contents (Elt F)),
    unary main_v38 main_v39 (broadcastInDim S50000x256 ![0, 1] bcast_S1x256_S50000x256_0_1 : (⟨S1x256, .f32⟩ : BufTy).Contents (Elt F) → (⟨S50000x256, .f32⟩ : BufTy).Contents (Elt F)),
    binary main_v34 main_v39 main_v40 (mulf : (⟨S50000x256, .f32⟩ : BufTy).Contents (Elt F) → (⟨S50000x256, .f32⟩ : BufTy).Contents (Elt F) → (⟨S50000x256, .f32⟩ : BufTy).Contents (Elt F)),
    unary main_arg8 main_v41 (broadcastInDim S1x256 ![1] bcast_S256_S1x256_1 : (⟨S256, .f32⟩ : BufTy).Contents (Elt F) → (⟨S1x256, .f32⟩ : BufTy).Contents (Elt F)),
    unary main_v41 main_v42 (broadcastInDim S50000x256 ![0, 1] bcast_S1x256_S50000x256_0_1 : (⟨S1x256, .f32⟩ : BufTy).Contents (Elt F) → (⟨S50000x256, .f32⟩ : BufTy).Contents (Elt F)),
    binary main_v40 main_v42 main_v43 (addf : (⟨S50000x256, .f32⟩ : BufTy).Contents (Elt F) → (⟨S50000x256, .f32⟩ : BufTy).Contents (Elt F) → (⟨S50000x256, .f32⟩ : BufTy).Contents (Elt F)) ]

/-- Operations 77 … 88 of @main: one stage. -/
abbrev c6 : List (HloOp τ sig (Elt F)) :=
  [ unary main_arg9 main_v44 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v44 main_v45 rfl shapeCasts_S1x256x256_S256x256,
    unary main_arg10 main_v46 ((extractStridedSlice S1x256 ![0, 0] · slices_S2x256_S1x256_0_0) : (⟨S2x256, .f32⟩ : BufTy).Contents (Elt F) → (⟨S1x256, .f32⟩ : BufTy).Contents (Elt F)),
    reshape main_v46 main_v47 rfl shapeCasts_S1x256_S256,
    unary main_arg11 main_v48 ((extractStridedSlice S1x256x256 ![0, 0, 0] · slices_S2x256x256_S1x256x256_0_0_0) : (⟨S2x256x256, .f32⟩ : BufTy).Contents (Elt F) → (⟨S1x256x256, .f32⟩ : BufTy).Contents (Elt F)),
    reshape main_v48 main_v49 rfl shapeCasts_S1x256x256_S256x256,
    unary main_arg12 main_v50 ((extractStridedSlice S1x256 ![0, 0] · slices_S2x256_S1x256_0_0) : (⟨S2x256, .f32⟩ : BufTy).Contents (Elt F) → (⟨S1x256, .f32⟩ : BufTy).Contents (Elt F)),
    reshape main_v50 main_v51 rfl shapeCasts_S1x256_S256,
    unary main_arg13 main_v52 ((extractStridedSlice S1x256 ![0, 0] · slices_S2x256_S1x256_0_0) : (⟨S2x256, .f32⟩ : BufTy).Contents (Elt F) → (⟨S1x256, .f32⟩ : BufTy).Contents (Elt F)),
    reshape main_v52 main_v53 rfl shapeCasts_S1x256_S256,
    unary main_arg14 main_v54 ((extractStridedSlice S1x256 ![0, 0] · slices_S2x256_S1x256_0_0) : (⟨S2x256, .f32⟩ : BufTy).Contents (Elt F) → (⟨S1x256, .f32⟩ : BufTy).Contents (Elt F)),
    reshape main_v54 main_v55 rfl shapeCasts_S1x256_S256 ]

/-- Operations 89 … 102 of @main: one stage. -/
abbrev c7 : List (HloOp τ sig (Elt F)) :=
  [ nullary main_c_5 (constantI S_ 32 0#32),
    unary main_c_5 main_v56 (broadcastInDim S800000 ![] bcast_S_S800000 : (⟨S_, .i32⟩ : BufTy).Contents (Elt F) → (⟨S800000, .i32⟩ : BufTy).Contents (Elt F)),
    binary main_v1 main_v56 main_v57 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v58 (broadcastInDim S800000 ![] bcast_S_S800000 : (⟨S_, .i32⟩ : BufTy).Contents (Elt F) → (⟨S800000, .i32⟩ : BufTy).Contents (Elt F)),
    binary main_v1 main_v58 main_v59 (addi : (⟨S800000, .i32⟩ : BufTy).Contents (Elt F) → (⟨S800000, .i32⟩ : BufTy).Contents (Elt F) → (⟨S800000, .i32⟩ : BufTy).Contents (Elt F)),
    ternary main_v57 main_v59 main_v1 main_v60 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v60 main_v61 (broadcastInDim S800000x1 ![0] bcast_S800000_S800000x1_0 : (⟨S800000, .i32⟩ : BufTy).Contents (Elt F) → (⟨S800000x1, .i32⟩ : BufTy).Contents (Elt F)),
    binary main_v43 main_v61 main_v62 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_7 (constant S_ .f32 0x00000000#32),
    unary main_cst_7 main_v63 (broadcastInDim S50000x256 ![] bcast_S_S50000x256 : (⟨S_, .f32⟩ : BufTy).Contents (Elt F) → (⟨S50000x256, .f32⟩ : BufTy).Contents (Elt F)),
    unary main_v3 main_v64 (broadcastInDim S800000x1 ![0] bcast_S800000_S800000x1_0 : (⟨S800000, .i32⟩ : BufTy).Contents (Elt F) → (⟨S800000x1, .i32⟩ : BufTy).Contents (Elt F)),
    ternary main_v63 main_v64 main_v62 main_v65 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v43 main_v65 main_v66 (addf : (⟨S50000x256, .f32⟩ : BufTy).Contents (Elt F) → (⟨S50000x256, .f32⟩ : BufTy).Contents (Elt F) → (⟨S50000x256, .f32⟩ : BufTy).Contents (Elt F)) ]

/-- Operations 103 … 116 of @main: one stage. -/
abbrev c8 : List (HloOp τ sig (Elt F)) :=
  [ binary main_v66 main_v45 main_v67 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v47 main_v68 (broadcastInDim S1x256 ![1] bcast_S256_S1x256_1 : (⟨S256, .f32⟩ : BufTy).Contents (Elt F) → (⟨S1x256, .f32⟩ : BufTy).Contents (Elt F)),
    unary main_v68 main_v69 (broadcastInDim S50000x256 ![0, 1] bcast_S1x256_S50000x256_0_1 : (⟨S1x256, .f32⟩ : BufTy).Contents (Elt F) → (⟨S50000x256, .f32⟩ : BufTy).Contents (Elt F)),
    binary main_v67 main_v69 main_v70 (addf : (⟨S50000x256, .f32⟩ : BufTy).Contents (Elt F) → (⟨S50000x256, .f32⟩ : BufTy).Contents (Elt F) → (⟨S50000x256, .f32⟩ : BufTy).Contents (Elt F)),
    nullary main_call3_cst (constant S_ .f32 0x00000000#32),
    unary main_call3_cst main_call3_v0 (broadcastInDim S50000x256 ![] bcast_S_S50000x256 : (⟨S_, .f32⟩ : BufTy).Contents (Elt F) → (⟨S50000x256, .f32⟩ : BufTy).Contents (Elt F)),
    binary main_v70 main_call3_v0 main_v71 (maximumf : (⟨S50000x256, .f32⟩ : BufTy).Contents (Elt F) → (⟨S50000x256, .f32⟩ : BufTy).Contents (Elt F) → (⟨S50000x256, .f32⟩ : BufTy).Contents (Elt F)),
    binary main_v71 main_v49 main_v72 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v51 main_v73 (broadcastInDim S1x256 ![1] bcast_S256_S1x256_1 : (⟨S256, .f32⟩ : BufTy).Contents (Elt F) → (⟨S1x256, .f32⟩ : BufTy).Contents (Elt F)),
    unary main_v73 main_v74 (broadcastInDim S50000x256 ![0, 1] bcast_S1x256_S50000x256_0_1 : (⟨S1x256, .f32⟩ : BufTy).Contents (Elt F) → (⟨S50000x256, .f32⟩ : BufTy).Contents (Elt F)),
    binary main_v72 main_v74 main_v75 (addf : (⟨S50000x256, .f32⟩ : BufTy).Contents (Elt F) → (⟨S50000x256, .f32⟩ : BufTy).Contents (Elt F) → (⟨S50000x256, .f32⟩ : BufTy).Contents (Elt F)),
    nullary main_call4_cst (constant S_ .f32 0x00000000#32),
    unary main_call4_cst main_call4_v0 (broadcastInDim S50000x256 ![] bcast_S_S50000x256 : (⟨S_, .f32⟩ : BufTy).Contents (Elt F) → (⟨S50000x256, .f32⟩ : BufTy).Contents (Elt F)),
    binary main_v75 main_call4_v0 main_v76 (maximumf : (⟨S50000x256, .f32⟩ : BufTy).Contents (Elt F) → (⟨S50000x256, .f32⟩ : BufTy).Contents (Elt F) → (⟨S50000x256, .f32⟩ : BufTy).Contents (Elt F)) ]

/-- Operations 117 … 121 of @main: one stage. -/
abbrev c9 : List (HloOp τ sig (Elt F)) :=
  [ nullary main_cst_8 (constant S_ .f32 0x00000000#32),
    binary main_v76 main_cst_8 main_v77 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_9 (constant S_ .f32 0x47435000#32),
    unary main_cst_9 main_v78 (broadcastInDim S256 ![] bcast_S_S256 : (⟨S_, .f32⟩ : BufTy).Contents (Elt F) → (⟨S256, .f32⟩ : BufTy).Contents (Elt F)),
    binary main_v77 main_v78 main_v79 (Host.divf : (⟨S256, .f32⟩ : BufTy).Contents (Elt F) → (⟨S256, .f32⟩ : BufTy).Contents (Elt F) → (⟨S256, .f32⟩ : BufTy).Contents (Elt F)) ]

/-- Operations 122 … 144 of @main: one stage. -/
abbrev c10 : List (HloOp τ sig (Elt F)) :=
  [ nullary main_c_10 (constantI S_ 32 0#32),
    nullary main_call5_cst (constant S_ .f32 0x00000000#32),
    binary main_v76 main_call5_cst main_call5_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call5_v0 main_call5_v1 (broadcastInDim S1x256 ![1] bcast_S256_S1x256_1 : (⟨S256, .f32⟩ : BufTy).Contents (Elt F) → (⟨S1x256, .f32⟩ : BufTy).Contents (Elt F)),
    nullary main_call5_cst_0 (constant S_ .f32 0x47435000#32),
    unary main_call5_cst_0 main_call5_v2 (broadcastInDim S1x256 ![] bcast_S_S1x256 : (⟨S_, .f32⟩ : BufTy).Contents (Elt F) → (⟨S1x256, .f32⟩ : BufTy).Contents (Elt F)),
    binary main_call5_v1 main_call5_v2 main_call5_v3 (Host.divf : (⟨S1x256, .f32⟩ : BufTy).Contents (Elt F) → (⟨S1x256, .f32⟩ : BufTy).Contents (Elt F) → (⟨S1x256, .f32⟩ : BufTy).Contents (Elt F)),
    unary main_call5_v3 main_call5_v4 (broadcastInDim S50000x256 ![0, 1] bcast_S1x256_S50000x256_0_1 : (⟨S1x256, .f32⟩ : BufTy).Contents (Elt F) → (⟨S50000x256, .f32⟩ : BufTy).Contents (Elt F)),
    binary main_v76 main_call5_v4 main_call5_v5 (subf : (⟨S50000x256, .f32⟩ : BufTy).Contents (Elt F) → (⟨S50000x256, .f32⟩ : BufTy).Contents (Elt F) → (⟨S50000x256, .f32⟩ : BufTy).Contents (Elt F)),
    binary main_call5_v5 main_call5_v5 main_call5_v6 (mulf : (⟨S50000x256, .f32⟩ : BufTy).Contents (Elt F) → (⟨S50000x256, .f32⟩ : BufTy).Contents (Elt F) → (⟨S50000x256, .f32⟩ : BufTy).Contents (Elt F)),
    unary main_c_10 main_call5_v7 (sitofp .f32 : (⟨S_, .i32⟩ : BufTy).Contents (Elt F) → (⟨S_, .f32⟩ : BufTy).Contents (Elt F)),
    nullary main_call5_cst_1 (constant S_ .f32 0x47435000#32),
    binary main_call5_cst_1 main_call5_v7 main_call5_v8 (subf : (⟨S_, .f32⟩ : BufTy).Contents (Elt F) → (⟨S_, .f32⟩ : BufTy).Contents (Elt F) → (⟨S_, .f32⟩ : BufTy).Contents (Elt F)),
    nullary main_call5_cst_2 (constant S_ .f32 0x00000000#32),
    binary main_call5_v6 main_call5_cst_2 main_call5_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call5_v8 main_call5_v10 (broadcastInDim S256 ![] bcast_S_S256 : (⟨S_, .f32⟩ : BufTy).Contents (Elt F) → (⟨S256, .f32⟩ : BufTy).Contents (Elt F)),
    binary main_call5_v9 main_call5_v10 main_call5_v11 (Host.divf : (⟨S256, .f32⟩ : BufTy).Contents (Elt F) → (⟨S256, .f32⟩ : BufTy).Contents (Elt F) → (⟨S256, .f32⟩ : BufTy).Contents (Elt F)),
    nullary main_call5_cst_3 (constant S_ .f32 0x00000000#32),
    binary main_call5_v8 main_call5_cst_3 main_call5_v12 (cmpf .ogt : (⟨S_, .f32⟩ : BufTy).Contents (Elt F) → (⟨S_, .f32⟩ : BufTy).Contents (Elt F) → (⟨S_, .i1⟩ : BufTy).Contents (Elt F)),
    nullary main_call5_cst_4 (constant S_ .f32 0x7FC00000#32),
    unary main_call5_cst_4 main_call5_call0_v0 (id : (⟨S_, .f32⟩ : BufTy).Contents (Elt F) → (⟨S_, .f32⟩ : BufTy).Contents (Elt F)),
    unary main_call5_call0_v0 main_call5_call0_v1 (broadcastInDim S256 ![] bcast_S_S256 : (⟨S_, .f32⟩ : BufTy).Contents (Elt F) → (⟨S256, .f32⟩ : BufTy).Contents (Elt F)),
    ternary main_call5_v12 main_call5_v11 main_call5_call0_v1 main_v80 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- Operations 145 … 160 of @main: one stage. -/
abbrev c11 : List (HloOp τ sig (Elt F)) :=
  [ unary main_v79 main_v81 (broadcastInDim S1x256 ![1] bcast_S256_S1x256_1 : (⟨S256, .f32⟩ : BufTy).Contents (Elt F) → (⟨S1x256, .f32⟩ : BufTy).Contents (Elt F)),
    unary main_v81 main_v82 (broadcastInDim S50000x256 ![0, 1] bcast_S1x256_S50000x256_0_1 : (⟨S1x256, .f32⟩ : BufTy).Contents (Elt F) → (⟨S50000x256, .f32⟩ : BufTy).Contents (Elt F)),
    binary main_v76 main_v82 main_v83 (subf : (⟨S50000x256, .f32⟩ : BufTy).Contents (Elt F) → (⟨S50000x256, .f32⟩ : BufTy).Contents (Elt F) → (⟨S50000x256, .f32⟩ : BufTy).Contents (Elt F)),
    unary main_v53 main_v84 (broadcastInDim S1x256 ![1] bcast_S256_S1x256_1 : (⟨S256, .f32⟩ : BufTy).Contents (Elt F) → (⟨S1x256, .f32⟩ : BufTy).Contents (Elt F)),
    unary main_v84 main_v85 (broadcastInDim S50000x256 ![0, 1] bcast_S1x256_S50000x256_0_1 : (⟨S1x256, .f32⟩ : BufTy).Contents (Elt F) → (⟨S50000x256, .f32⟩ : BufTy).Contents (Elt F)),
    binary main_v85 main_v83 main_v86 (mulf : (⟨S50000x256, .f32⟩ : BufTy).Contents (Elt F) → (⟨S50000x256, .f32⟩ : BufTy).Contents (Elt F) → (⟨S50000x256, .f32⟩ : BufTy).Contents (Elt F)),
    nullary main_cst_11 (constant S_ .f32 0x3727C5AC#32),
    unary main_cst_11 main_v87 (broadcastInDim S256 ![] bcast_S_S256 : (⟨S_, .f32⟩ : BufTy).Contents (Elt F) → (⟨S256, .f32⟩ : BufTy).Contents (Elt F)),
    binary main_v80 main_v87 main_v88 (addf : (⟨S256, .f32⟩ : BufTy).Contents (Elt F) → (⟨S256, .f32⟩ : BufTy).Contents (Elt F) → (⟨S256, .f32⟩ : BufTy).Contents (Elt F)),
    unary main_v88 main_v89 (Host.rsqrt : (⟨S256, .f32⟩ : BufTy).Contents (Elt F) → (⟨S256, .f32⟩ : BufTy).Contents (Elt F)),
    unary main_v89 main_v90 (broadcastInDim S1x256 ![1] bcast_S256_S1x256_1 : (⟨S256, .f32⟩ : BufTy).Contents (Elt F) → (⟨S1x256, .f32⟩ : BufTy).Contents (Elt F)),
    unary main_v90 main_v91 (broadcastInDim S50000x256 ![0, 1] bcast_S1x256_S50000x256_0_1 : (⟨S1x256, .f32⟩ : BufTy).Contents (Elt F) → (⟨S50000x256, .f32⟩ : BufTy).Contents (Elt F)),
    binary main_v86 main_v91 main_v92 (mulf : (⟨S50000x256, .f32⟩ : BufTy).Contents (Elt F) → (⟨S50000x256, .f32⟩ : BufTy).Contents (Elt F) → (⟨S50000x256, .f32⟩ : BufTy).Contents (Elt F)),
    unary main_v55 main_v93 (broadcastInDim S1x256 ![1] bcast_S256_S1x256_1 : (⟨S256, .f32⟩ : BufTy).Contents (Elt F) → (⟨S1x256, .f32⟩ : BufTy).Contents (Elt F)),
    unary main_v93 main_v94 (broadcastInDim S50000x256 ![0, 1] bcast_S1x256_S50000x256_0_1 : (⟨S1x256, .f32⟩ : BufTy).Contents (Elt F) → (⟨S50000x256, .f32⟩ : BufTy).Contents (Elt F)),
    binary main_v92 main_v94 main_v95 (addf : (⟨S50000x256, .f32⟩ : BufTy).Contents (Elt F) → (⟨S50000x256, .f32⟩ : BufTy).Contents (Elt F) → (⟨S50000x256, .f32⟩ : BufTy).Contents (Elt F)) ]

/-- Operations 161 … 172 of @main: one stage. -/
abbrev c12 : List (HloOp τ sig (Elt F)) :=
  [ unary main_arg9 main_v96 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v96 main_v97 rfl shapeCasts_S1x256x256_S256x256,
    unary main_arg10 main_v98 ((extractStridedSlice S1x256 ![1, 0] · slices_S2x256_S1x256_1_0) : (⟨S2x256, .f32⟩ : BufTy).Contents (Elt F) → (⟨S1x256, .f32⟩ : BufTy).Contents (Elt F)),
    reshape main_v98 main_v99 rfl shapeCasts_S1x256_S256,
    unary main_arg11 main_v100 ((extractStridedSlice S1x256x256 ![1, 0, 0] · slices_S2x256x256_S1x256x256_1_0_0) : (⟨S2x256x256, .f32⟩ : BufTy).Contents (Elt F) → (⟨S1x256x256, .f32⟩ : BufTy).Contents (Elt F)),
    reshape main_v100 main_v101 rfl shapeCasts_S1x256x256_S256x256,
    unary main_arg12 main_v102 ((extractStridedSlice S1x256 ![1, 0] · slices_S2x256_S1x256_1_0) : (⟨S2x256, .f32⟩ : BufTy).Contents (Elt F) → (⟨S1x256, .f32⟩ : BufTy).Contents (Elt F)),
    reshape main_v102 main_v103 rfl shapeCasts_S1x256_S256,
    unary main_arg13 main_v104 ((extractStridedSlice S1x256 ![1, 0] · slices_S2x256_S1x256_1_0) : (⟨S2x256, .f32⟩ : BufTy).Contents (Elt F) → (⟨S1x256, .f32⟩ : BufTy).Contents (Elt F)),
    reshape main_v104 main_v105 rfl shapeCasts_S1x256_S256,
    unary main_arg14 main_v106 ((extractStridedSlice S1x256 ![1, 0] · slices_S2x256_S1x256_1_0) : (⟨S2x256, .f32⟩ : BufTy).Contents (Elt F) → (⟨S1x256, .f32⟩ : BufTy).Contents (Elt F)),
    reshape main_v106 main_v107 rfl shapeCasts_S1x256_S256 ]

/-- Operations 173 … 186 of @main: one stage. -/
abbrev c13 : List (HloOp τ sig (Elt F)) :=
  [ nullary main_c_12 (constantI S_ 32 0#32),
    unary main_c_12 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v95 main_v113 main_v114 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_14 (constant S_ .f32 0x00000000#32),
    unary main_cst_14 main_v115 (broadcastInDim S50000x256 ![] bcast_S_S50000x256 : (⟨S_, .f32⟩ : BufTy).Contents (Elt F) → (⟨S50000x256, .f32⟩ : BufTy).Contents (Elt F)),
    unary main_v3 main_v116 (broadcastInDim S800000x1 ![0] bcast_S800000_S800000x1_0 : (⟨S800000, .i32⟩ : BufTy).Contents (Elt F) → (⟨S800000x1, .i32⟩ : BufTy).Contents (Elt F)),
    ternary main_v115 main_v116 main_v114 main_v117 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v95 main_v117 main_v118 (addf : (⟨S50000x256, .f32⟩ : BufTy).Contents (Elt F) → (⟨S50000x256, .f32⟩ : BufTy).Contents (Elt F) → (⟨S50000x256, .f32⟩ : BufTy).Contents (Elt F)) ]

/-- Operations 187 … 200 of @main: one stage. -/
abbrev c14 : List (HloOp τ sig (Elt F)) :=
  [ binary main_v118 main_v97 main_v119 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v99 main_v120 (broadcastInDim S1x256 ![1] bcast_S256_S1x256_1 : (⟨S256, .f32⟩ : BufTy).Contents (Elt F) → (⟨S1x256, .f32⟩ : BufTy).Contents (Elt F)),
    unary main_v120 main_v121 (broadcastInDim S50000x256 ![0, 1] bcast_S1x256_S50000x256_0_1 : (⟨S1x256, .f32⟩ : BufTy).Contents (Elt F) → (⟨S50000x256, .f32⟩ : BufTy).Contents (Elt F)),
    binary main_v119 main_v121 main_v122 (addf : (⟨S50000x256, .f32⟩ : BufTy).Contents (Elt F) → (⟨S50000x256, .f32⟩ : BufTy).Contents (Elt F) → (⟨S50000x256, .f32⟩ : BufTy).Contents (Elt F)),
    nullary main_call6_cst (constant S_ .f32 0x00000000#32),
    unary main_call6_cst main_call6_v0 (broadcastInDim S50000x256 ![] bcast_S_S50000x256 : (⟨S_, .f32⟩ : BufTy).Contents (Elt F) → (⟨S50000x256, .f32⟩ : BufTy).Contents (Elt F)),
    binary main_v122 main_call6_v0 main_v123 (maximumf : (⟨S50000x256, .f32⟩ : BufTy).Contents (Elt F) → (⟨S50000x256, .f32⟩ : BufTy).Contents (Elt F) → (⟨S50000x256, .f32⟩ : BufTy).Contents (Elt F)),
    binary main_v123 main_v101 main_v124 ((fun l r => Host.dotGeneral dot_S50000x256_S256x256_S50000x256_1_0_0_1_n_n none l r) : (⟨S50000x256, .f32⟩ : BufTy).Contents (Elt F) → (⟨S256x256, .f32⟩ : BufTy).Contents (Elt F) → (⟨S50000x256, .f32⟩ : BufTy).Contents (Elt F)),
    unary main_v103 main_v125 (broadcastInDim S1x256 ![1] bcast_S256_S1x256_1 : (⟨S256, .f32⟩ : BufTy).Contents (Elt F) → (⟨S1x256, .f32⟩ : BufTy).Contents (Elt F)),
    unary main_v125 main_v126 (broadcastInDim S50000x256 ![0, 1] bcast_S1x256_S50000x256_0_1 : (⟨S1x256, .f32⟩ : BufTy).Contents (Elt F) → (⟨S50000x256, .f32⟩ : BufTy).Contents (Elt F)),
    binary main_v124 main_v126 main_v127 (addf : (⟨S50000x256, .f32⟩ : BufTy).Contents (Elt F) → (⟨S50000x256, .f32⟩ : BufTy).Contents (Elt F) → (⟨S50000x256, .f32⟩ : BufTy).Contents (Elt F)),
    nullary main_call7_cst (constant S_ .f32 0x00000000#32),
    unary main_call7_cst main_call7_v0 (broadcastInDim S50000x256 ![] bcast_S_S50000x256 : (⟨S_, .f32⟩ : BufTy).Contents (Elt F) → (⟨S50000x256, .f32⟩ : BufTy).Contents (Elt F)),
    binary main_v127 main_call7_v0 main_v128 (maximumf : (⟨S50000x256, .f32⟩ : BufTy).Contents (Elt F) → (⟨S50000x256, .f32⟩ : BufTy).Contents (Elt F) → (⟨S50000x256, .f32⟩ : BufTy).Contents (Elt F)) ]

/-- Operations 201 … 205 of @main: one stage. -/
abbrev c15 : List (HloOp τ sig (Elt F)) :=
  [ nullary main_cst_15 (constant S_ .f32 0x00000000#32),
    binary main_v128 main_cst_15 main_v129 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    nullary main_cst_16 (constant S_ .f32 0x47435000#32),
    unary main_cst_16 main_v130 (broadcastInDim S256 ![] bcast_S_S256 : (⟨S_, .f32⟩ : BufTy).Contents (Elt F) → (⟨S256, .f32⟩ : BufTy).Contents (Elt F)),
    binary main_v129 main_v130 main_v131 (Host.divf : (⟨S256, .f32⟩ : BufTy).Contents (Elt F) → (⟨S256, .f32⟩ : BufTy).Contents (Elt F) → (⟨S256, .f32⟩ : BufTy).Contents (Elt F)) ]

/-- Operations 206 … 228 of @main: one stage. -/
abbrev c16 : List (HloOp τ sig (Elt F)) :=
  [ nullary main_c_17 (constantI S_ 32 0#32),
    nullary main_call8_cst (constant S_ .f32 0x00000000#32),
    binary main_v128 main_call8_cst main_call8_v0 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call8_v0 main_call8_v1 (broadcastInDim S1x256 ![1] bcast_S256_S1x256_1 : (⟨S256, .f32⟩ : BufTy).Contents (Elt F) → (⟨S1x256, .f32⟩ : BufTy).Contents (Elt F)),
    nullary main_call8_cst_0 (constant S_ .f32 0x47435000#32),
    unary main_call8_cst_0 main_call8_v2 (broadcastInDim S1x256 ![] bcast_S_S1x256 : (⟨S_, .f32⟩ : BufTy).Contents (Elt F) → (⟨S1x256, .f32⟩ : BufTy).Contents (Elt F)),
    binary main_call8_v1 main_call8_v2 main_call8_v3 (Host.divf : (⟨S1x256, .f32⟩ : BufTy).Contents (Elt F) → (⟨S1x256, .f32⟩ : BufTy).Contents (Elt F) → (⟨S1x256, .f32⟩ : BufTy).Contents (Elt F)),
    unary main_call8_v3 main_call8_v4 (broadcastInDim S50000x256 ![0, 1] bcast_S1x256_S50000x256_0_1 : (⟨S1x256, .f32⟩ : BufTy).Contents (Elt F) → (⟨S50000x256, .f32⟩ : BufTy).Contents (Elt F)),
    binary main_v128 main_call8_v4 main_call8_v5 (subf : (⟨S50000x256, .f32⟩ : BufTy).Contents (Elt F) → (⟨S50000x256, .f32⟩ : BufTy).Contents (Elt F) → (⟨S50000x256, .f32⟩ : BufTy).Contents (Elt F)),
    binary main_call8_v5 main_call8_v5 main_call8_v6 (mulf : (⟨S50000x256, .f32⟩ : BufTy).Contents (Elt F) → (⟨S50000x256, .f32⟩ : BufTy).Contents (Elt F) → (⟨S50000x256, .f32⟩ : BufTy).Contents (Elt F)),
    unary main_c_17 main_call8_v7 (sitofp .f32 : (⟨S_, .i32⟩ : BufTy).Contents (Elt F) → (⟨S_, .f32⟩ : BufTy).Contents (Elt F)),
    nullary main_call8_cst_1 (constant S_ .f32 0x47435000#32),
    binary main_call8_cst_1 main_call8_v7 main_call8_v8 (subf : (⟨S_, .f32⟩ : BufTy).Contents (Elt F) → (⟨S_, .f32⟩ : BufTy).Contents (Elt F) → (⟨S_, .f32⟩ : BufTy).Contents (Elt F)),
    nullary main_call8_cst_2 (constant S_ .f32 0x00000000#32),
    binary main_call8_v6 main_call8_cst_2 main_call8_v9 ((fun x v => Host.reduceAdd x v reducesTo_S50000x256_S256_d0 h_S_) : (⟨S50000x256, .f32⟩ : BufTy).Contents (Elt F) → (⟨S_, .f32⟩ : BufTy).Contents (Elt F) → (⟨S256, .f32⟩ : BufTy).Contents (Elt F)),
    unary main_call8_v8 main_call8_v10 (broadcastInDim S256 ![] bcast_S_S256 : (⟨S_, .f32⟩ : BufTy).Contents (Elt F) → (⟨S256, .f32⟩ : BufTy).Contents (Elt F)),
    binary main_call8_v9 main_call8_v10 main_call8_v11 (Host.divf : (⟨S256, .f32⟩ : BufTy).Contents (Elt F) → (⟨S256, .f32⟩ : BufTy).Contents (Elt F) → (⟨S256, .f32⟩ : BufTy).Contents (Elt F)),
    nullary main_call8_cst_3 (constant S_ .f32 0x00000000#32),
    binary main_call8_v8 main_call8_cst_3 main_call8_v12 (cmpf .ogt : (⟨S_, .f32⟩ : BufTy).Contents (Elt F) → (⟨S_, .f32⟩ : BufTy).Contents (Elt F) → (⟨S_, .i1⟩ : BufTy).Contents (Elt F)),
    nullary main_call8_cst_4 (constant S_ .f32 0x7FC00000#32),
    unary main_call8_cst_4 main_call8_call0_v0 (id : (⟨S_, .f32⟩ : BufTy).Contents (Elt F) → (⟨S_, .f32⟩ : BufTy).Contents (Elt F)),
    unary main_call8_call0_v0 main_call8_call0_v1 (broadcastInDim S256 ![] bcast_S_S256 : (⟨S_, .f32⟩ : BufTy).Contents (Elt F) → (⟨S256, .f32⟩ : BufTy).Contents (Elt F)),
    ternary main_call8_v12 main_call8_v11 main_call8_call0_v1 main_v132 ((fun p a b => select (broadcastInDim S256 ![] bcast_S_S256 p) a b) : (⟨S_, .i1⟩ : BufTy).Contents (Elt F) → (⟨S256, .f32⟩ : BufTy).Contents (Elt F) → (⟨S256, .f32⟩ : BufTy).Contents (Elt F) → (⟨S256, .f32⟩ : BufTy).Contents (Elt F)) ]

/-- Operations 229 … 244 of @main: one stage. -/
abbrev c17 : List (HloOp τ sig (Elt F)) :=
  [ unary main_v131 main_v133 (broadcastInDim S1x256 ![1] bcast_S256_S1x256_1 : (⟨S256, .f32⟩ : BufTy).Contents (Elt F) → (⟨S1x256, .f32⟩ : BufTy).Contents (Elt F)),
    unary main_v133 main_v134 (broadcastInDim S50000x256 ![0, 1] bcast_S1x256_S50000x256_0_1 : (⟨S1x256, .f32⟩ : BufTy).Contents (Elt F) → (⟨S50000x256, .f32⟩ : BufTy).Contents (Elt F)),
    binary main_v128 main_v134 main_v135 (subf : (⟨S50000x256, .f32⟩ : BufTy).Contents (Elt F) → (⟨S50000x256, .f32⟩ : BufTy).Contents (Elt F) → (⟨S50000x256, .f32⟩ : BufTy).Contents (Elt F)),
    unary main_v105 main_v136 (broadcastInDim S1x256 ![1] bcast_S256_S1x256_1 : (⟨S256, .f32⟩ : BufTy).Contents (Elt F) → (⟨S1x256, .f32⟩ : BufTy).Contents (Elt F)),
    unary main_v136 main_v137 (broadcastInDim S50000x256 ![0, 1] bcast_S1x256_S50000x256_0_1 : (⟨S1x256, .f32⟩ : BufTy).Contents (Elt F) → (⟨S50000x256, .f32⟩ : BufTy).Contents (Elt F)),
    binary main_v137 main_v135 main_v138 (mulf : (⟨S50000x256, .f32⟩ : BufTy).Contents (Elt F) → (⟨S50000x256, .f32⟩ : BufTy).Contents (Elt F) → (⟨S50000x256, .f32⟩ : BufTy).Contents (Elt F)),
    nullary main_cst_18 (constant S_ .f32 0x3727C5AC#32),
    unary main_cst_18 main_v139 (broadcastInDim S256 ![] bcast_S_S256 : (⟨S_, .f32⟩ : BufTy).Contents (Elt F) → (⟨S256, .f32⟩ : BufTy).Contents (Elt F)),
    binary main_v132 main_v139 main_v140 (addf : (⟨S256, .f32⟩ : BufTy).Contents (Elt F) → (⟨S256, .f32⟩ : BufTy).Contents (Elt F) → (⟨S256, .f32⟩ : BufTy).Contents (Elt F)),
    unary main_v140 main_v141 (Host.rsqrt : (⟨S256, .f32⟩ : BufTy).Contents (Elt F) → (⟨S256, .f32⟩ : BufTy).Contents (Elt F)),
    unary main_v141 main_v142 (broadcastInDim S1x256 ![1] bcast_S256_S1x256_1 : (⟨S256, .f32⟩ : BufTy).Contents (Elt F) → (⟨S1x256, .f32⟩ : BufTy).Contents (Elt F)),
    unary main_v142 main_v143 (broadcastInDim S50000x256 ![0, 1] bcast_S1x256_S50000x256_0_1 : (⟨S1x256, .f32⟩ : BufTy).Contents (Elt F) → (⟨S50000x256, .f32⟩ : BufTy).Contents (Elt F)),
    binary main_v138 main_v143 main_v144 (mulf : (⟨S50000x256, .f32⟩ : BufTy).Contents (Elt F) → (⟨S50000x256, .f32⟩ : BufTy).Contents (Elt F) → (⟨S50000x256, .f32⟩ : BufTy).Contents (Elt F)),
    unary main_v107 main_v145 (broadcastInDim S1x256 ![1] bcast_S256_S1x256_1 : (⟨S256, .f32⟩ : BufTy).Contents (Elt F) → (⟨S1x256, .f32⟩ : BufTy).Contents (Elt F)),
    unary main_v145 main_v146 (broadcastInDim S50000x256 ![0, 1] bcast_S1x256_S50000x256_0_1 : (⟨S1x256, .f32⟩ : BufTy).Contents (Elt F) → (⟨S50000x256, .f32⟩ : BufTy).Contents (Elt F)),
    binary main_v144 main_v146 main_v147 (addf : (⟨S50000x256, .f32⟩ : BufTy).Contents (Elt F) → (⟨S50000x256, .f32⟩ : BufTy).Contents (Elt F) → (⟨S50000x256, .f32⟩ : BufTy).Contents (Elt F)) ]

/-- Operations 245 … 260 of @main: one stage. -/
abbrev c18 : List (HloOp τ sig (Elt F)) :=
  [ nullary main_cst_19 (constant S_ .f32 0x00000000#32),
    unary main_cst_19 main_v148 (broadcastInDim S512x256 ![] bcast_S_S512x256 : (⟨S_, .f32⟩ : BufTy).Contents (Elt F) → (⟨S512x256, .f32⟩ : BufTy).Contents (Elt F)),
    unary main_arg2 main_v149 (broadcastInDim S50000x1 ![0] bcast_S50000_S50000x1_0 : (⟨S50000, .i32⟩ : BufTy).Contents (Elt F) → (⟨S50000x1, .i32⟩ : BufTy).Contents (Elt F)),
    ternary main_v148 main_v149 main_v147 main_v150 ((fun x i u => Host.scatterAdd scatter_S512x256_S50000x1_S50000x256_1_0_0_1 x i u) : (⟨S512x256, .f32⟩ : BufTy).Contents (Elt F) → (⟨S50000x1, .i32⟩ : BufTy).Contents (Elt F) → (⟨S50000x256, .f32⟩ : BufTy).Contents (Elt F) → (⟨S512x256, .f32⟩ : BufTy).Contents (Elt F)),
    nullary main_cst_20 (constant S_ .f32 0x3F800000#32),
    unary main_cst_20 main_v151 (broadcastInDim S50000 ![] bcast_S_S50000 : (⟨S_, .f32⟩ : BufTy).Contents (Elt F) → (⟨S50000, .f32⟩ : BufTy).Contents (Elt F)),
    nullary main_cst_21 (constant S_ .f32 0x00000000#32),
    unary main_cst_21 main_v152 (broadcastInDim S512 ![] bcast_S_S512 : (⟨S_, .f32⟩ : BufTy).Contents (Elt F) → (⟨S512, .f32⟩ : BufTy).Contents (Elt F)),
    unary main_arg2 main_v153 (broadcastInDim S50000x1 ![0] bcast_S50000_S50000x1_0 : (⟨S50000, .i32⟩ : BufTy).Contents (Elt F) → (⟨S50000x1, .i32⟩ : BufTy).Contents (Elt F)),
    ternary main_v152 main_v153 main_v151 main_v154 ((fun x i u => Host.scatterAdd scatter_S512_S50000x1_S50000_n_0_0_1 x i u) : (⟨S512, .f32⟩ : BufTy).Contents (Elt F) → (⟨S50000x1, .i32⟩ : BufTy).Contents (Elt F) → (⟨S50000, .f32⟩ : BufTy).Contents (Elt F) → (⟨S512, .f32⟩ : BufTy).Contents (Elt F)),
    nullary main_cst_22 (constant S_ .f32 0x3F800000#32),
    unary main_cst_22 main_v155 (broadcastInDim S512 ![] bcast_S_S512 : (⟨S_, .f32⟩ : BufTy).Contents (Elt F) → (⟨S512, .f32⟩ : BufTy).Contents (Elt F)),
    binary main_v154 main_v155 main_v156 (maximumf : (⟨S512, .f32⟩ : BufTy).Contents (Elt F) → (⟨S512, .f32⟩ : BufTy).Contents (Elt F) → (⟨S512, .f32⟩ : BufTy).Contents (Elt F)),
    unary main_v156 main_v157 (broadcastInDim S512x1 ![0] bcast_S512_S512x1_0 : (⟨S512, .f32⟩ : BufTy).Contents (Elt F) → (⟨S512x1, .f32⟩ : BufTy).Contents (Elt F)),
    unary main_v157 main_v158 (broadcastInDim S512x256 ![0, 1] bcast_S512x1_S512x256_0_1 : (⟨S512x1, .f32⟩ : BufTy).Contents (Elt F) → (⟨S512x256, .f32⟩ : BufTy).Contents (Elt F)),
    binary main_v150 main_v158 main_v159 (Host.divf : (⟨S512x256, .f32⟩ : BufTy).Contents (Elt F) → (⟨S512x256, .f32⟩ : BufTy).Contents (Elt F) → (⟨S512x256, .f32⟩ : BufTy).Contents (Elt F)) ]

/-- The operation list is the stages' lists in order. -/
theorem ops_stages : (ops : List (HloOp τ sig (Elt F))) = c0 ++ (c1 ++ (c2 ++ (c3 ++ (c4 ++ (c5 ++ (c6 ++ (c7 ++ (c8 ++ (c9 ++ (c10 ++ (c11 ++ (c12 ++ (c13 ++ (c14 ++ (c15 ++ (c16 ++ (c17 ++ (c18)))))))))))))))))) := rfl

/-- The device's buffer contents before the first stage. -/
def val0 (V0 : Valuation τ sig (Elt Ideal)) : Valuation τ sig (Elt Ideal) := V0
theorem val0_main_arg0 (V0 : Valuation τ sig (Elt Ideal)) : val0 V0 (no_index (Proc.devRef .tc main_arg0)) = V0 (Proc.devRef .tc main_arg0) := rfl
theorem val0_main_arg1 (V0 : Valuation τ sig (Elt Ideal)) : val0 V0 (no_index (Proc.devRef .tc main_arg1)) = V0 (Proc.devRef .tc main_arg1) := rfl
theorem val0_main_arg2 (V0 : Valuation τ sig (Elt Ideal)) : val0 V0 (no_index (Proc.devRef .tc main_arg2)) = V0 (Proc.devRef .tc main_arg2) := rfl
theorem val0_main_arg3 (V0 : Valuation τ sig (Elt Ideal)) : val0 V0 (no_index (Proc.devRef .tc main_arg3)) = V0 (Proc.devRef .tc main_arg3) := rfl
theorem val0_main_arg4 (V0 : Valuation τ sig (Elt Ideal)) : val0 V0 (no_index (Proc.devRef .tc main_arg4)) = V0 (Proc.devRef .tc main_arg4) := rfl
theorem val0_main_arg5 (V0 : Valuation τ sig (Elt Ideal)) : val0 V0 (no_index (Proc.devRef .tc main_arg5)) = V0 (Proc.devRef .tc main_arg5) := rfl
theorem val0_main_arg6 (V0 : Valuation τ sig (Elt Ideal)) : val0 V0 (no_index (Proc.devRef .tc main_arg6)) = V0 (Proc.devRef .tc main_arg6) := rfl
theorem val0_main_arg7 (V0 : Valuation τ sig (Elt Ideal)) : val0 V0 (no_index (Proc.devRef .tc main_arg7)) = V0 (Proc.devRef .tc main_arg7) := rfl
theorem val0_main_arg8 (V0 : Valuation τ sig (Elt Ideal)) : val0 V0 (no_index (Proc.devRef .tc main_arg8)) = V0 (Proc.devRef .tc main_arg8) := rfl
theorem val0_main_arg9 (V0 : Valuation τ sig (Elt Ideal)) : val0 V0 (no_index (Proc.devRef .tc main_arg9)) = V0 (Proc.devRef .tc main_arg9) := rfl
theorem val0_main_arg10 (V0 : Valuation τ sig (Elt Ideal)) : val0 V0 (no_index (Proc.devRef .tc main_arg10)) = V0 (Proc.devRef .tc main_arg10) := rfl
theorem val0_main_arg11 (V0 : Valuation τ sig (Elt Ideal)) : val0 V0 (no_index (Proc.devRef .tc main_arg11)) = V0 (Proc.devRef .tc main_arg11) := rfl
theorem val0_main_arg12 (V0 : Valuation τ sig (Elt Ideal)) : val0 V0 (no_index (Proc.devRef .tc main_arg12)) = V0 (Proc.devRef .tc main_arg12) := rfl
theorem val0_main_arg13 (V0 : Valuation τ sig (Elt Ideal)) : val0 V0 (no_index (Proc.devRef .tc main_arg13)) = V0 (Proc.devRef .tc main_arg13) := rfl
theorem val0_main_arg14 (V0 : Valuation τ sig (Elt Ideal)) : val0 V0 (no_index (Proc.devRef .tc main_arg14)) = V0 (Proc.devRef .tc main_arg14) := rfl

/-- The device's buffer contents after the first 1 stage. -/
def val1 (V0 : Valuation τ sig (Elt Ideal)) : Valuation τ sig (Elt Ideal) := after (c0 (F := Ideal)) (val0 V0)
/-- The buffers stage 1's operations write. -/
abbrev c0_W : List (Ref sig .tc) := [main_v0, main_v1, main_v2, main_v3]
theorem c0_writes : (c0 : List (HloOp τ sig (Elt Ideal))).Forall fun op => op.writes ⊆ (c0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 1 does not write keeps its contents through it. -/
theorem val1_keep (V0 : Valuation τ sig (Elt Ideal)) (r : Ref sig .tc) (h : r ∉ c0_W) :
    val1 V0 (Proc.devRef .tc r) = val0 V0 (Proc.devRef .tc r) :=
  after_of_writes_sub c0 _ c0_writes h
theorem val1_main_arg0 (V0 : Valuation τ sig (Elt Ideal)) : val1 V0 (no_index (Proc.devRef .tc main_arg0)) = V0 (Proc.devRef .tc main_arg0) :=
  (val1_keep V0 main_arg0 (by decide)).trans (val0_main_arg0 V0)
theorem val1_main_arg1 (V0 : Valuation τ sig (Elt Ideal)) : val1 V0 (no_index (Proc.devRef .tc main_arg1)) = V0 (Proc.devRef .tc main_arg1) :=
  (val1_keep V0 main_arg1 (by decide)).trans (val0_main_arg1 V0)
theorem val1_main_arg2 (V0 : Valuation τ sig (Elt Ideal)) : val1 V0 (no_index (Proc.devRef .tc main_arg2)) = V0 (Proc.devRef .tc main_arg2) :=
  (val1_keep V0 main_arg2 (by decide)).trans (val0_main_arg2 V0)
theorem val1_main_arg3 (V0 : Valuation τ sig (Elt Ideal)) : val1 V0 (no_index (Proc.devRef .tc main_arg3)) = V0 (Proc.devRef .tc main_arg3) :=
  (val1_keep V0 main_arg3 (by decide)).trans (val0_main_arg3 V0)
theorem val1_main_arg4 (V0 : Valuation τ sig (Elt Ideal)) : val1 V0 (no_index (Proc.devRef .tc main_arg4)) = V0 (Proc.devRef .tc main_arg4) :=
  (val1_keep V0 main_arg4 (by decide)).trans (val0_main_arg4 V0)
theorem val1_main_arg5 (V0 : Valuation τ sig (Elt Ideal)) : val1 V0 (no_index (Proc.devRef .tc main_arg5)) = V0 (Proc.devRef .tc main_arg5) :=
  (val1_keep V0 main_arg5 (by decide)).trans (val0_main_arg5 V0)
theorem val1_main_arg6 (V0 : Valuation τ sig (Elt Ideal)) : val1 V0 (no_index (Proc.devRef .tc main_arg6)) = V0 (Proc.devRef .tc main_arg6) :=
  (val1_keep V0 main_arg6 (by decide)).trans (val0_main_arg6 V0)
theorem val1_main_arg7 (V0 : Valuation τ sig (Elt Ideal)) : val1 V0 (no_index (Proc.devRef .tc main_arg7)) = V0 (Proc.devRef .tc main_arg7) :=
  (val1_keep V0 main_arg7 (by decide)).trans (val0_main_arg7 V0)
theorem val1_main_arg8 (V0 : Valuation τ sig (Elt Ideal)) : val1 V0 (no_index (Proc.devRef .tc main_arg8)) = V0 (Proc.devRef .tc main_arg8) :=
  (val1_keep V0 main_arg8 (by decide)).trans (val0_main_arg8 V0)
theorem val1_main_arg9 (V0 : Valuation τ sig (Elt Ideal)) : val1 V0 (no_index (Proc.devRef .tc main_arg9)) = V0 (Proc.devRef .tc main_arg9) :=
  (val1_keep V0 main_arg9 (by decide)).trans (val0_main_arg9 V0)
theorem val1_main_arg10 (V0 : Valuation τ sig (Elt Ideal)) : val1 V0 (no_index (Proc.devRef .tc main_arg10)) = V0 (Proc.devRef .tc main_arg10) :=
  (val1_keep V0 main_arg10 (by decide)).trans (val0_main_arg10 V0)
theorem val1_main_arg11 (V0 : Valuation τ sig (Elt Ideal)) : val1 V0 (no_index (Proc.devRef .tc main_arg11)) = V0 (Proc.devRef .tc main_arg11) :=
  (val1_keep V0 main_arg11 (by decide)).trans (val0_main_arg11 V0)
theorem val1_main_arg12 (V0 : Valuation τ sig (Elt Ideal)) : val1 V0 (no_index (Proc.devRef .tc main_arg12)) = V0 (Proc.devRef .tc main_arg12) :=
  (val1_keep V0 main_arg12 (by decide)).trans (val0_main_arg12 V0)
theorem val1_main_arg13 (V0 : Valuation τ sig (Elt Ideal)) : val1 V0 (no_index (Proc.devRef .tc main_arg13)) = V0 (Proc.devRef .tc main_arg13) :=
  (val1_keep V0 main_arg13 (by decide)).trans (val0_main_arg13 V0)
theorem val1_main_arg14 (V0 : Valuation τ sig (Elt Ideal)) : val1 V0 (no_index (Proc.devRef .tc main_arg14)) = V0 (Proc.devRef .tc main_arg14) :=
  (val1_keep V0 main_arg14 (by decide)).trans (val0_main_arg14 V0)
set_option maxRecDepth 8192 in
set_option maxHeartbeats 2000000 in
theorem val1_main_v1 (V0 : Valuation τ sig (Elt Ideal)) : val1 V0 (no_index (Proc.devRef .tc main_v1)) = refSrc (V0 (Proc.devRef .tc main_arg1)) := by
  unfold val1
  simp only [c0]
  after_results_simp
  simp only [val0_main_arg1] <;> rfl
set_option maxRecDepth 8192 in
set_option maxHeartbeats 2000000 in
theorem val1_main_v3 (V0 : Valuation τ sig (Elt Ideal)) : val1 V0 (no_index (Proc.devRef .tc main_v3)) = refDst (V0 (Proc.devRef .tc main_arg1)) := by
  unfold val1
  simp only [c0]
  after_results_simp
  simp only [val0_main_arg1] <;> rfl

/-- The device's buffer contents after the first 2 stages. -/
def val2 (V0 : Valuation τ sig (Elt Ideal)) : Valuation τ sig (Elt Ideal) := after (c1 (F := Ideal)) (val1 V0)
/-- The buffers stage 2's operations write. -/
abbrev c1_W : List (Ref sig .tc) := [main_c, main_v4, main_v5, main_c_0, main_v6, main_v7, main_v8, main_v9, main_v10, main_cst, main_v11, main_v12, main_v13, main_v14]
theorem c1_writes : (c1 : List (HloOp τ sig (Elt Ideal))).Forall fun op => op.writes ⊆ (c1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 2 does not write keeps its contents through it. -/
theorem val2_keep (V0 : Valuation τ sig (Elt Ideal)) (r : Ref sig .tc) (h : r ∉ c1_W) :
    val2 V0 (Proc.devRef .tc r) = val1 V0 (Proc.devRef .tc r) :=
  after_of_writes_sub c1 _ c1_writes h
theorem val2_main_arg0 (V0 : Valuation τ sig (Elt Ideal)) : val2 V0 (no_index (Proc.devRef .tc main_arg0)) = V0 (Proc.devRef .tc main_arg0) :=
  (val2_keep V0 main_arg0 (by decide)).trans (val1_main_arg0 V0)
theorem val2_main_arg1 (V0 : Valuation τ sig (Elt Ideal)) : val2 V0 (no_index (Proc.devRef .tc main_arg1)) = V0 (Proc.devRef .tc main_arg1) :=
  (val2_keep V0 main_arg1 (by decide)).trans (val1_main_arg1 V0)
theorem val2_main_arg2 (V0 : Valuation τ sig (Elt Ideal)) : val2 V0 (no_index (Proc.devRef .tc main_arg2)) = V0 (Proc.devRef .tc main_arg2) :=
  (val2_keep V0 main_arg2 (by decide)).trans (val1_main_arg2 V0)
theorem val2_main_arg3 (V0 : Valuation τ sig (Elt Ideal)) : val2 V0 (no_index (Proc.devRef .tc main_arg3)) = V0 (Proc.devRef .tc main_arg3) :=
  (val2_keep V0 main_arg3 (by decide)).trans (val1_main_arg3 V0)
theorem val2_main_arg4 (V0 : Valuation τ sig (Elt Ideal)) : val2 V0 (no_index (Proc.devRef .tc main_arg4)) = V0 (Proc.devRef .tc main_arg4) :=
  (val2_keep V0 main_arg4 (by decide)).trans (val1_main_arg4 V0)
theorem val2_main_arg5 (V0 : Valuation τ sig (Elt Ideal)) : val2 V0 (no_index (Proc.devRef .tc main_arg5)) = V0 (Proc.devRef .tc main_arg5) :=
  (val2_keep V0 main_arg5 (by decide)).trans (val1_main_arg5 V0)
theorem val2_main_arg6 (V0 : Valuation τ sig (Elt Ideal)) : val2 V0 (no_index (Proc.devRef .tc main_arg6)) = V0 (Proc.devRef .tc main_arg6) :=
  (val2_keep V0 main_arg6 (by decide)).trans (val1_main_arg6 V0)
theorem val2_main_arg7 (V0 : Valuation τ sig (Elt Ideal)) : val2 V0 (no_index (Proc.devRef .tc main_arg7)) = V0 (Proc.devRef .tc main_arg7) :=
  (val2_keep V0 main_arg7 (by decide)).trans (val1_main_arg7 V0)
theorem val2_main_arg8 (V0 : Valuation τ sig (Elt Ideal)) : val2 V0 (no_index (Proc.devRef .tc main_arg8)) = V0 (Proc.devRef .tc main_arg8) :=
  (val2_keep V0 main_arg8 (by decide)).trans (val1_main_arg8 V0)
theorem val2_main_arg9 (V0 : Valuation τ sig (Elt Ideal)) : val2 V0 (no_index (Proc.devRef .tc main_arg9)) = V0 (Proc.devRef .tc main_arg9) :=
  (val2_keep V0 main_arg9 (by decide)).trans (val1_main_arg9 V0)
theorem val2_main_arg10 (V0 : Valuation τ sig (Elt Ideal)) : val2 V0 (no_index (Proc.devRef .tc main_arg10)) = V0 (Proc.devRef .tc main_arg10) :=
  (val2_keep V0 main_arg10 (by decide)).trans (val1_main_arg10 V0)
theorem val2_main_arg11 (V0 : Valuation τ sig (Elt Ideal)) : val2 V0 (no_index (Proc.devRef .tc main_arg11)) = V0 (Proc.devRef .tc main_arg11) :=
  (val2_keep V0 main_arg11 (by decide)).trans (val1_main_arg11 V0)
theorem val2_main_arg12 (V0 : Valuation τ sig (Elt Ideal)) : val2 V0 (no_index (Proc.devRef .tc main_arg12)) = V0 (Proc.devRef .tc main_arg12) :=
  (val2_keep V0 main_arg12 (by decide)).trans (val1_main_arg12 V0)
theorem val2_main_arg13 (V0 : Valuation τ sig (Elt Ideal)) : val2 V0 (no_index (Proc.devRef .tc main_arg13)) = V0 (Proc.devRef .tc main_arg13) :=
  (val2_keep V0 main_arg13 (by decide)).trans (val1_main_arg13 V0)
theorem val2_main_arg14 (V0 : Valuation τ sig (Elt Ideal)) : val2 V0 (no_index (Proc.devRef .tc main_arg14)) = V0 (Proc.devRef .tc main_arg14) :=
  (val2_keep V0 main_arg14 (by decide)).trans (val1_main_arg14 V0)
theorem val2_main_v1 (V0 : Valuation τ sig (Elt Ideal)) : val2 V0 (no_index (Proc.devRef .tc main_v1)) = refSrc (V0 (Proc.devRef .tc main_arg1)) :=
  (val2_keep V0 main_v1 (by decide)).trans (val1_main_v1 V0)
theorem val2_main_v3 (V0 : Valuation τ sig (Elt Ideal)) : val2 V0 (no_index (Proc.devRef .tc main_v3)) = refDst (V0 (Proc.devRef .tc main_arg1)) :=
  (val2_keep V0 main_v3 (by decide)).trans (val1_main_v3 V0)
set_option maxRecDepth 8192 in
set_option maxHeartbeats 2000000 in
theorem val2_main_v14 (V0 : Valuation τ sig (Elt Ideal)) : val2 V0 (no_index (Proc.devRef .tc main_v14)) = refAgg128 (V0 (Proc.devRef .tc main_arg0)) (V0 (Proc.devRef .tc main_arg1)) := by
  unfold val2
  simp only [c1]
  after_results_simp
  simp only [val1_main_v1, val1_main_v3, val1_main_arg0] <;> rfl

/-- The device's buffer contents after the first 3 stages. -/
def val3 (V0 : Valuation τ sig (Elt Ideal)) : Valuation τ sig (Elt Ideal) := after (c2 (F := Ideal)) (val2 V0)
/-- The buffers stage 3's operations write. -/
abbrev c2_W : List (Ref sig .tc) := [main_v15, main_v16, main_v17, main_v18, main_call0_cst, main_call0_v0, main_v19, main_v20, main_v21, main_v22, main_v23, main_call1_cst, main_call1_v0, main_v24]
theorem c2_writes : (c2 : List (HloOp τ sig (Elt Ideal))).Forall fun op => op.writes ⊆ (c2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 3 does not write keeps its contents through it. -/
theorem val3_keep (V0 : Valuation τ sig (Elt Ideal)) (r : Ref sig .tc) (h : r ∉ c2_W) :
    val3 V0 (Proc.devRef .tc r) = val2 V0 (Proc.devRef .tc r) :=
  after_of_writes_sub c2 _ c2_writes h
theorem val3_main_arg0 (V0 : Valuation τ sig (Elt Ideal)) : val3 V0 (no_index (Proc.devRef .tc main_arg0)) = V0 (Proc.devRef .tc main_arg0) :=
  (val3_keep V0 main_arg0 (by decide)).trans (val2_main_arg0 V0)
theorem val3_main_arg1 (V0 : Valuation τ sig (Elt Ideal)) : val3 V0 (no_index (Proc.devRef .tc main_arg1)) = V0 (Proc.devRef .tc main_arg1) :=
  (val3_keep V0 main_arg1 (by decide)).trans (val2_main_arg1 V0)
theorem val3_main_arg2 (V0 : Valuation τ sig (Elt Ideal)) : val3 V0 (no_index (Proc.devRef .tc main_arg2)) = V0 (Proc.devRef .tc main_arg2) :=
  (val3_keep V0 main_arg2 (by decide)).trans (val2_main_arg2 V0)
theorem val3_main_arg3 (V0 : Valuation τ sig (Elt Ideal)) : val3 V0 (no_index (Proc.devRef .tc main_arg3)) = V0 (Proc.devRef .tc main_arg3) :=
  (val3_keep V0 main_arg3 (by decide)).trans (val2_main_arg3 V0)
theorem val3_main_arg4 (V0 : Valuation τ sig (Elt Ideal)) : val3 V0 (no_index (Proc.devRef .tc main_arg4)) = V0 (Proc.devRef .tc main_arg4) :=
  (val3_keep V0 main_arg4 (by decide)).trans (val2_main_arg4 V0)
theorem val3_main_arg5 (V0 : Valuation τ sig (Elt Ideal)) : val3 V0 (no_index (Proc.devRef .tc main_arg5)) = V0 (Proc.devRef .tc main_arg5) :=
  (val3_keep V0 main_arg5 (by decide)).trans (val2_main_arg5 V0)
theorem val3_main_arg6 (V0 : Valuation τ sig (Elt Ideal)) : val3 V0 (no_index (Proc.devRef .tc main_arg6)) = V0 (Proc.devRef .tc main_arg6) :=
  (val3_keep V0 main_arg6 (by decide)).trans (val2_main_arg6 V0)
theorem val3_main_arg7 (V0 : Valuation τ sig (Elt Ideal)) : val3 V0 (no_index (Proc.devRef .tc main_arg7)) = V0 (Proc.devRef .tc main_arg7) :=
  (val3_keep V0 main_arg7 (by decide)).trans (val2_main_arg7 V0)
theorem val3_main_arg8 (V0 : Valuation τ sig (Elt Ideal)) : val3 V0 (no_index (Proc.devRef .tc main_arg8)) = V0 (Proc.devRef .tc main_arg8) :=
  (val3_keep V0 main_arg8 (by decide)).trans (val2_main_arg8 V0)
theorem val3_main_arg9 (V0 : Valuation τ sig (Elt Ideal)) : val3 V0 (no_index (Proc.devRef .tc main_arg9)) = V0 (Proc.devRef .tc main_arg9) :=
  (val3_keep V0 main_arg9 (by decide)).trans (val2_main_arg9 V0)
theorem val3_main_arg10 (V0 : Valuation τ sig (Elt Ideal)) : val3 V0 (no_index (Proc.devRef .tc main_arg10)) = V0 (Proc.devRef .tc main_arg10) :=
  (val3_keep V0 main_arg10 (by decide)).trans (val2_main_arg10 V0)
theorem val3_main_arg11 (V0 : Valuation τ sig (Elt Ideal)) : val3 V0 (no_index (Proc.devRef .tc main_arg11)) = V0 (Proc.devRef .tc main_arg11) :=
  (val3_keep V0 main_arg11 (by decide)).trans (val2_main_arg11 V0)
theorem val3_main_arg12 (V0 : Valuation τ sig (Elt Ideal)) : val3 V0 (no_index (Proc.devRef .tc main_arg12)) = V0 (Proc.devRef .tc main_arg12) :=
  (val3_keep V0 main_arg12 (by decide)).trans (val2_main_arg12 V0)
theorem val3_main_arg13 (V0 : Valuation τ sig (Elt Ideal)) : val3 V0 (no_index (Proc.devRef .tc main_arg13)) = V0 (Proc.devRef .tc main_arg13) :=
  (val3_keep V0 main_arg13 (by decide)).trans (val2_main_arg13 V0)
theorem val3_main_arg14 (V0 : Valuation τ sig (Elt Ideal)) : val3 V0 (no_index (Proc.devRef .tc main_arg14)) = V0 (Proc.devRef .tc main_arg14) :=
  (val3_keep V0 main_arg14 (by decide)).trans (val2_main_arg14 V0)
theorem val3_main_v1 (V0 : Valuation τ sig (Elt Ideal)) : val3 V0 (no_index (Proc.devRef .tc main_v1)) = refSrc (V0 (Proc.devRef .tc main_arg1)) :=
  (val3_keep V0 main_v1 (by decide)).trans (val2_main_v1 V0)
theorem val3_main_v3 (V0 : Valuation τ sig (Elt Ideal)) : val3 V0 (no_index (Proc.devRef .tc main_v3)) = refDst (V0 (Proc.devRef .tc main_arg1)) :=
  (val3_keep V0 main_v3 (by decide)).trans (val2_main_v3 V0)
set_option maxRecDepth 8192 in
set_option maxHeartbeats 2000000 in
theorem val3_main_v24 (V0 : Valuation τ sig (Elt Ideal)) : val3 V0 (no_index (Proc.devRef .tc main_v24)) = refMlp128 (refAgg128 (V0 (Proc.devRef .tc main_arg0)) (V0 (Proc.devRef .tc main_arg1))) (V0 (Proc.devRef .tc main_arg3)) (V0 (Proc.devRef .tc main_arg4)) (V0 (Proc.devRef .tc main_arg6)) (V0 (Proc.devRef .tc main_arg5)) := by
  unfold val3
  simp only [c2]
  after_results_simp
  simp only [val2_main_arg6, val2_main_arg5, val2_main_arg4, val2_main_arg3, val2_main_v14] <;> rfl

/-- The device's buffer contents after the first 4 stages. -/
def val4 (V0 : Valuation τ sig (Elt Ideal)) : Valuation τ sig (Elt Ideal) := after (c3 (F := Ideal)) (val3 V0)
/-- The buffers stage 4's operations write. -/
abbrev c3_W : List (Ref sig .tc) := [main_cst_1, main_v25, main_cst_2, main_v26, main_v27]
theorem c3_writes : (c3 : List (HloOp τ sig (Elt Ideal))).Forall fun op => op.writes ⊆ (c3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 4 does not write keeps its contents through it. -/
theorem val4_keep (V0 : Valuation τ sig (Elt Ideal)) (r : Ref sig .tc) (h : r ∉ c3_W) :
    val4 V0 (Proc.devRef .tc r) = val3 V0 (Proc.devRef .tc r) :=
  after_of_writes_sub c3 _ c3_writes h
theorem val4_main_arg0 (V0 : Valuation τ sig (Elt Ideal)) : val4 V0 (no_index (Proc.devRef .tc main_arg0)) = V0 (Proc.devRef .tc main_arg0) :=
  (val4_keep V0 main_arg0 (by decide)).trans (val3_main_arg0 V0)
theorem val4_main_arg1 (V0 : Valuation τ sig (Elt Ideal)) : val4 V0 (no_index (Proc.devRef .tc main_arg1)) = V0 (Proc.devRef .tc main_arg1) :=
  (val4_keep V0 main_arg1 (by decide)).trans (val3_main_arg1 V0)
theorem val4_main_arg2 (V0 : Valuation τ sig (Elt Ideal)) : val4 V0 (no_index (Proc.devRef .tc main_arg2)) = V0 (Proc.devRef .tc main_arg2) :=
  (val4_keep V0 main_arg2 (by decide)).trans (val3_main_arg2 V0)
theorem val4_main_arg3 (V0 : Valuation τ sig (Elt Ideal)) : val4 V0 (no_index (Proc.devRef .tc main_arg3)) = V0 (Proc.devRef .tc main_arg3) :=
  (val4_keep V0 main_arg3 (by decide)).trans (val3_main_arg3 V0)
theorem val4_main_arg4 (V0 : Valuation τ sig (Elt Ideal)) : val4 V0 (no_index (Proc.devRef .tc main_arg4)) = V0 (Proc.devRef .tc main_arg4) :=
  (val4_keep V0 main_arg4 (by decide)).trans (val3_main_arg4 V0)
theorem val4_main_arg5 (V0 : Valuation τ sig (Elt Ideal)) : val4 V0 (no_index (Proc.devRef .tc main_arg5)) = V0 (Proc.devRef .tc main_arg5) :=
  (val4_keep V0 main_arg5 (by decide)).trans (val3_main_arg5 V0)
theorem val4_main_arg6 (V0 : Valuation τ sig (Elt Ideal)) : val4 V0 (no_index (Proc.devRef .tc main_arg6)) = V0 (Proc.devRef .tc main_arg6) :=
  (val4_keep V0 main_arg6 (by decide)).trans (val3_main_arg6 V0)
theorem val4_main_arg7 (V0 : Valuation τ sig (Elt Ideal)) : val4 V0 (no_index (Proc.devRef .tc main_arg7)) = V0 (Proc.devRef .tc main_arg7) :=
  (val4_keep V0 main_arg7 (by decide)).trans (val3_main_arg7 V0)
theorem val4_main_arg8 (V0 : Valuation τ sig (Elt Ideal)) : val4 V0 (no_index (Proc.devRef .tc main_arg8)) = V0 (Proc.devRef .tc main_arg8) :=
  (val4_keep V0 main_arg8 (by decide)).trans (val3_main_arg8 V0)
theorem val4_main_arg9 (V0 : Valuation τ sig (Elt Ideal)) : val4 V0 (no_index (Proc.devRef .tc main_arg9)) = V0 (Proc.devRef .tc main_arg9) :=
  (val4_keep V0 main_arg9 (by decide)).trans (val3_main_arg9 V0)
theorem val4_main_arg10 (V0 : Valuation τ sig (Elt Ideal)) : val4 V0 (no_index (Proc.devRef .tc main_arg10)) = V0 (Proc.devRef .tc main_arg10) :=
  (val4_keep V0 main_arg10 (by decide)).trans (val3_main_arg10 V0)
theorem val4_main_arg11 (V0 : Valuation τ sig (Elt Ideal)) : val4 V0 (no_index (Proc.devRef .tc main_arg11)) = V0 (Proc.devRef .tc main_arg11) :=
  (val4_keep V0 main_arg11 (by decide)).trans (val3_main_arg11 V0)
theorem val4_main_arg12 (V0 : Valuation τ sig (Elt Ideal)) : val4 V0 (no_index (Proc.devRef .tc main_arg12)) = V0 (Proc.devRef .tc main_arg12) :=
  (val4_keep V0 main_arg12 (by decide)).trans (val3_main_arg12 V0)
theorem val4_main_arg13 (V0 : Valuation τ sig (Elt Ideal)) : val4 V0 (no_index (Proc.devRef .tc main_arg13)) = V0 (Proc.devRef .tc main_arg13) :=
  (val4_keep V0 main_arg13 (by decide)).trans (val3_main_arg13 V0)
theorem val4_main_arg14 (V0 : Valuation τ sig (Elt Ideal)) : val4 V0 (no_index (Proc.devRef .tc main_arg14)) = V0 (Proc.devRef .tc main_arg14) :=
  (val4_keep V0 main_arg14 (by decide)).trans (val3_main_arg14 V0)
theorem val4_main_v1 (V0 : Valuation τ sig (Elt Ideal)) : val4 V0 (no_index (Proc.devRef .tc main_v1)) = refSrc (V0 (Proc.devRef .tc main_arg1)) :=
  (val4_keep V0 main_v1 (by decide)).trans (val3_main_v1 V0)
theorem val4_main_v3 (V0 : Valuation τ sig (Elt Ideal)) : val4 V0 (no_index (Proc.devRef .tc main_v3)) = refDst (V0 (Proc.devRef .tc main_arg1)) :=
  (val4_keep V0 main_v3 (by decide)).trans (val3_main_v3 V0)
theorem val4_main_v24 (V0 : Valuation τ sig (Elt Ideal)) : val4 V0 (no_index (Proc.devRef .tc main_v24)) = refMlp128 (refAgg128 (V0 (Proc.devRef .tc main_arg0)) (V0 (Proc.devRef .tc main_arg1))) (V0 (Proc.devRef .tc main_arg3)) (V0 (Proc.devRef .tc main_arg4)) (V0 (Proc.devRef .tc main_arg6)) (V0 (Proc.devRef .tc main_arg5)) :=
  (val4_keep V0 main_v24 (by decide)).trans (val3_main_v24 V0)
set_option maxRecDepth 8192 in
set_option maxHeartbeats 2000000 in
theorem val4_main_v27 (V0 : Valuation τ sig (Elt Ideal)) : val4 V0 (no_index (Proc.devRef .tc main_v27)) = refMean (refMlp128 (refAgg128 (V0 (Proc.devRef .tc main_arg0)) (V0 (Proc.devRef .tc main_arg1))) (V0 (Proc.devRef .tc main_arg3)) (V0 (Proc.devRef .tc main_arg4)) (V0 (Proc.devRef .tc main_arg6)) (V0 (Proc.devRef .tc main_arg5))) := by
  unfold val4
  simp only [c3]
  after_results_simp
  simp only [val3_main_v24] <;> rfl

/-- The device's buffer contents after the first 5 stages. -/
def val5 (V0 : Valuation τ sig (Elt Ideal)) : Valuation τ sig (Elt Ideal) := after (c4 (F := Ideal)) (val4 V0)
/-- The buffers stage 5's operations write. -/
abbrev c4_W : List (Ref sig .tc) := [main_c_3, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v28]
theorem c4_writes : (c4 : List (HloOp τ sig (Elt Ideal))).Forall fun op => op.writes ⊆ (c4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 5 does not write keeps its contents through it. -/
theorem val5_keep (V0 : Valuation τ sig (Elt Ideal)) (r : Ref sig .tc) (h : r ∉ c4_W) :
    val5 V0 (Proc.devRef .tc r) = val4 V0 (Proc.devRef .tc r) :=
  after_of_writes_sub c4 _ c4_writes h
theorem val5_main_arg0 (V0 : Valuation τ sig (Elt Ideal)) : val5 V0 (no_index (Proc.devRef .tc main_arg0)) = V0 (Proc.devRef .tc main_arg0) :=
  (val5_keep V0 main_arg0 (by decide)).trans (val4_main_arg0 V0)
theorem val5_main_arg1 (V0 : Valuation τ sig (Elt Ideal)) : val5 V0 (no_index (Proc.devRef .tc main_arg1)) = V0 (Proc.devRef .tc main_arg1) :=
  (val5_keep V0 main_arg1 (by decide)).trans (val4_main_arg1 V0)
theorem val5_main_arg2 (V0 : Valuation τ sig (Elt Ideal)) : val5 V0 (no_index (Proc.devRef .tc main_arg2)) = V0 (Proc.devRef .tc main_arg2) :=
  (val5_keep V0 main_arg2 (by decide)).trans (val4_main_arg2 V0)
theorem val5_main_arg3 (V0 : Valuation τ sig (Elt Ideal)) : val5 V0 (no_index (Proc.devRef .tc main_arg3)) = V0 (Proc.devRef .tc main_arg3) :=
  (val5_keep V0 main_arg3 (by decide)).trans (val4_main_arg3 V0)
theorem val5_main_arg4 (V0 : Valuation τ sig (Elt Ideal)) : val5 V0 (no_index (Proc.devRef .tc main_arg4)) = V0 (Proc.devRef .tc main_arg4) :=
  (val5_keep V0 main_arg4 (by decide)).trans (val4_main_arg4 V0)
theorem val5_main_arg5 (V0 : Valuation τ sig (Elt Ideal)) : val5 V0 (no_index (Proc.devRef .tc main_arg5)) = V0 (Proc.devRef .tc main_arg5) :=
  (val5_keep V0 main_arg5 (by decide)).trans (val4_main_arg5 V0)
theorem val5_main_arg6 (V0 : Valuation τ sig (Elt Ideal)) : val5 V0 (no_index (Proc.devRef .tc main_arg6)) = V0 (Proc.devRef .tc main_arg6) :=
  (val5_keep V0 main_arg6 (by decide)).trans (val4_main_arg6 V0)
theorem val5_main_arg7 (V0 : Valuation τ sig (Elt Ideal)) : val5 V0 (no_index (Proc.devRef .tc main_arg7)) = V0 (Proc.devRef .tc main_arg7) :=
  (val5_keep V0 main_arg7 (by decide)).trans (val4_main_arg7 V0)
theorem val5_main_arg8 (V0 : Valuation τ sig (Elt Ideal)) : val5 V0 (no_index (Proc.devRef .tc main_arg8)) = V0 (Proc.devRef .tc main_arg8) :=
  (val5_keep V0 main_arg8 (by decide)).trans (val4_main_arg8 V0)
theorem val5_main_arg9 (V0 : Valuation τ sig (Elt Ideal)) : val5 V0 (no_index (Proc.devRef .tc main_arg9)) = V0 (Proc.devRef .tc main_arg9) :=
  (val5_keep V0 main_arg9 (by decide)).trans (val4_main_arg9 V0)
theorem val5_main_arg10 (V0 : Valuation τ sig (Elt Ideal)) : val5 V0 (no_index (Proc.devRef .tc main_arg10)) = V0 (Proc.devRef .tc main_arg10) :=
  (val5_keep V0 main_arg10 (by decide)).trans (val4_main_arg10 V0)
theorem val5_main_arg11 (V0 : Valuation τ sig (Elt Ideal)) : val5 V0 (no_index (Proc.devRef .tc main_arg11)) = V0 (Proc.devRef .tc main_arg11) :=
  (val5_keep V0 main_arg11 (by decide)).trans (val4_main_arg11 V0)
theorem val5_main_arg12 (V0 : Valuation τ sig (Elt Ideal)) : val5 V0 (no_index (Proc.devRef .tc main_arg12)) = V0 (Proc.devRef .tc main_arg12) :=
  (val5_keep V0 main_arg12 (by decide)).trans (val4_main_arg12 V0)
theorem val5_main_arg13 (V0 : Valuation τ sig (Elt Ideal)) : val5 V0 (no_index (Proc.devRef .tc main_arg13)) = V0 (Proc.devRef .tc main_arg13) :=
  (val5_keep V0 main_arg13 (by decide)).trans (val4_main_arg13 V0)
theorem val5_main_arg14 (V0 : Valuation τ sig (Elt Ideal)) : val5 V0 (no_index (Proc.devRef .tc main_arg14)) = V0 (Proc.devRef .tc main_arg14) :=
  (val5_keep V0 main_arg14 (by decide)).trans (val4_main_arg14 V0)
theorem val5_main_v1 (V0 : Valuation τ sig (Elt Ideal)) : val5 V0 (no_index (Proc.devRef .tc main_v1)) = refSrc (V0 (Proc.devRef .tc main_arg1)) :=
  (val5_keep V0 main_v1 (by decide)).trans (val4_main_v1 V0)
theorem val5_main_v3 (V0 : Valuation τ sig (Elt Ideal)) : val5 V0 (no_index (Proc.devRef .tc main_v3)) = refDst (V0 (Proc.devRef .tc main_arg1)) :=
  (val5_keep V0 main_v3 (by decide)).trans (val4_main_v3 V0)
theorem val5_main_v24 (V0 : Valuation τ sig (Elt Ideal)) : val5 V0 (no_index (Proc.devRef .tc main_v24)) = refMlp128 (refAgg128 (V0 (Proc.devRef .tc main_arg0)) (V0 (Proc.devRef .tc main_arg1))) (V0 (Proc.devRef .tc main_arg3)) (V0 (Proc.devRef .tc main_arg4)) (V0 (Proc.devRef .tc main_arg6)) (V0 (Proc.devRef .tc main_arg5)) :=
  (val5_keep V0 main_v24 (by decide)).trans (val4_main_v24 V0)
theorem val5_main_v27 (V0 : Valuation τ sig (Elt Ideal)) : val5 V0 (no_index (Proc.devRef .tc main_v27)) = refMean (refMlp128 (refAgg128 (V0 (Proc.devRef .tc main_arg0)) (V0 (Proc.devRef .tc main_arg1))) (V0 (Proc.devRef .tc main_arg3)) (V0 (Proc.devRef .tc main_arg4)) (V0 (Proc.devRef .tc main_arg6)) (V0 (Proc.devRef .tc main_arg5))) :=
  (val5_keep V0 main_v27 (by decide)).trans (val4_main_v27 V0)
set_option maxRecDepth 8192 in
set_option maxHeartbeats 2000000 in
theorem val5_main_v28 (V0 : Valuation τ sig (Elt Ideal)) : val5 V0 (no_index (Proc.devRef .tc main_v28)) = refVar (refMlp128 (refAgg128 (V0 (Proc.devRef .tc main_arg0)) (V0 (Proc.devRef .tc main_arg1))) (V0 (Proc.devRef .tc main_arg3)) (V0 (Proc.devRef .tc main_arg4)) (V0 (Proc.devRef .tc main_arg6)) (V0 (Proc.devRef .tc main_arg5))) := by
  unfold val5
  simp only [c4]
  after_results_simp
  simp only [val4_main_v24] <;> rfl

/-- The device's buffer contents after the first 6 stages. -/
def val6 (V0 : Valuation τ sig (Elt Ideal)) : Valuation τ sig (Elt Ideal) := after (c5 (F := Ideal)) (val5 V0)
/-- The buffers stage 6's operations write. -/
abbrev c5_W : List (Ref sig .tc) := [main_v29, main_v30, main_v31, main_v32, main_v33, main_v34, main_cst_4, main_v35, main_v36, main_v37, main_v38, main_v39, main_v40, main_v41, main_v42, main_v43]
theorem c5_writes : (c5 : List (HloOp τ sig (Elt Ideal))).Forall fun op => op.writes ⊆ (c5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 6 does not write keeps its contents through it. -/
theorem val6_keep (V0 : Valuation τ sig (Elt Ideal)) (r : Ref sig .tc) (h : r ∉ c5_W) :
    val6 V0 (Proc.devRef .tc r) = val5 V0 (Proc.devRef .tc r) :=
  after_of_writes_sub c5 _ c5_writes h
theorem val6_main_arg0 (V0 : Valuation τ sig (Elt Ideal)) : val6 V0 (no_index (Proc.devRef .tc main_arg0)) = V0 (Proc.devRef .tc main_arg0) :=
  (val6_keep V0 main_arg0 (by decide)).trans (val5_main_arg0 V0)
theorem val6_main_arg1 (V0 : Valuation τ sig (Elt Ideal)) : val6 V0 (no_index (Proc.devRef .tc main_arg1)) = V0 (Proc.devRef .tc main_arg1) :=
  (val6_keep V0 main_arg1 (by decide)).trans (val5_main_arg1 V0)
theorem val6_main_arg2 (V0 : Valuation τ sig (Elt Ideal)) : val6 V0 (no_index (Proc.devRef .tc main_arg2)) = V0 (Proc.devRef .tc main_arg2) :=
  (val6_keep V0 main_arg2 (by decide)).trans (val5_main_arg2 V0)
theorem val6_main_arg3 (V0 : Valuation τ sig (Elt Ideal)) : val6 V0 (no_index (Proc.devRef .tc main_arg3)) = V0 (Proc.devRef .tc main_arg3) :=
  (val6_keep V0 main_arg3 (by decide)).trans (val5_main_arg3 V0)
theorem val6_main_arg4 (V0 : Valuation τ sig (Elt Ideal)) : val6 V0 (no_index (Proc.devRef .tc main_arg4)) = V0 (Proc.devRef .tc main_arg4) :=
  (val6_keep V0 main_arg4 (by decide)).trans (val5_main_arg4 V0)
theorem val6_main_arg5 (V0 : Valuation τ sig (Elt Ideal)) : val6 V0 (no_index (Proc.devRef .tc main_arg5)) = V0 (Proc.devRef .tc main_arg5) :=
  (val6_keep V0 main_arg5 (by decide)).trans (val5_main_arg5 V0)
theorem val6_main_arg6 (V0 : Valuation τ sig (Elt Ideal)) : val6 V0 (no_index (Proc.devRef .tc main_arg6)) = V0 (Proc.devRef .tc main_arg6) :=
  (val6_keep V0 main_arg6 (by decide)).trans (val5_main_arg6 V0)
theorem val6_main_arg7 (V0 : Valuation τ sig (Elt Ideal)) : val6 V0 (no_index (Proc.devRef .tc main_arg7)) = V0 (Proc.devRef .tc main_arg7) :=
  (val6_keep V0 main_arg7 (by decide)).trans (val5_main_arg7 V0)
theorem val6_main_arg8 (V0 : Valuation τ sig (Elt Ideal)) : val6 V0 (no_index (Proc.devRef .tc main_arg8)) = V0 (Proc.devRef .tc main_arg8) :=
  (val6_keep V0 main_arg8 (by decide)).trans (val5_main_arg8 V0)
theorem val6_main_arg9 (V0 : Valuation τ sig (Elt Ideal)) : val6 V0 (no_index (Proc.devRef .tc main_arg9)) = V0 (Proc.devRef .tc main_arg9) :=
  (val6_keep V0 main_arg9 (by decide)).trans (val5_main_arg9 V0)
theorem val6_main_arg10 (V0 : Valuation τ sig (Elt Ideal)) : val6 V0 (no_index (Proc.devRef .tc main_arg10)) = V0 (Proc.devRef .tc main_arg10) :=
  (val6_keep V0 main_arg10 (by decide)).trans (val5_main_arg10 V0)
theorem val6_main_arg11 (V0 : Valuation τ sig (Elt Ideal)) : val6 V0 (no_index (Proc.devRef .tc main_arg11)) = V0 (Proc.devRef .tc main_arg11) :=
  (val6_keep V0 main_arg11 (by decide)).trans (val5_main_arg11 V0)
theorem val6_main_arg12 (V0 : Valuation τ sig (Elt Ideal)) : val6 V0 (no_index (Proc.devRef .tc main_arg12)) = V0 (Proc.devRef .tc main_arg12) :=
  (val6_keep V0 main_arg12 (by decide)).trans (val5_main_arg12 V0)
theorem val6_main_arg13 (V0 : Valuation τ sig (Elt Ideal)) : val6 V0 (no_index (Proc.devRef .tc main_arg13)) = V0 (Proc.devRef .tc main_arg13) :=
  (val6_keep V0 main_arg13 (by decide)).trans (val5_main_arg13 V0)
theorem val6_main_arg14 (V0 : Valuation τ sig (Elt Ideal)) : val6 V0 (no_index (Proc.devRef .tc main_arg14)) = V0 (Proc.devRef .tc main_arg14) :=
  (val6_keep V0 main_arg14 (by decide)).trans (val5_main_arg14 V0)
theorem val6_main_v1 (V0 : Valuation τ sig (Elt Ideal)) : val6 V0 (no_index (Proc.devRef .tc main_v1)) = refSrc (V0 (Proc.devRef .tc main_arg1)) :=
  (val6_keep V0 main_v1 (by decide)).trans (val5_main_v1 V0)
theorem val6_main_v3 (V0 : Valuation τ sig (Elt Ideal)) : val6 V0 (no_index (Proc.devRef .tc main_v3)) = refDst (V0 (Proc.devRef .tc main_arg1)) :=
  (val6_keep V0 main_v3 (by decide)).trans (val5_main_v3 V0)
set_option maxRecDepth 8192 in
set_option maxHeartbeats 2000000 in
theorem val6_main_v43 (V0 : Valuation τ sig (Elt Ideal)) : val6 V0 (no_index (Proc.devRef .tc main_v43)) = refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) := by
  unfold val6
  simp only [c5]
  after_results_simp
  simp only [val5_main_arg8, val5_main_v28, val5_main_v27, val5_main_v24, val5_main_arg7] <;> rfl

/-- The device's buffer contents after the first 7 stages. -/
def val7 (V0 : Valuation τ sig (Elt Ideal)) : Valuation τ sig (Elt Ideal) := after (c6 (F := Ideal)) (val6 V0)
/-- The buffers stage 7's operations write. -/
abbrev c6_W : List (Ref sig .tc) := [main_v44, main_v45, main_v46, main_v47, main_v48, main_v49, main_v50, main_v51, main_v52, main_v53, main_v54, main_v55]
theorem c6_writes : (c6 : List (HloOp τ sig (Elt Ideal))).Forall fun op => op.writes ⊆ (c6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 7 does not write keeps its contents through it. -/
theorem val7_keep (V0 : Valuation τ sig (Elt Ideal)) (r : Ref sig .tc) (h : r ∉ c6_W) :
    val7 V0 (Proc.devRef .tc r) = val6 V0 (Proc.devRef .tc r) :=
  after_of_writes_sub c6 _ c6_writes h
theorem val7_main_arg0 (V0 : Valuation τ sig (Elt Ideal)) : val7 V0 (no_index (Proc.devRef .tc main_arg0)) = V0 (Proc.devRef .tc main_arg0) :=
  (val7_keep V0 main_arg0 (by decide)).trans (val6_main_arg0 V0)
theorem val7_main_arg1 (V0 : Valuation τ sig (Elt Ideal)) : val7 V0 (no_index (Proc.devRef .tc main_arg1)) = V0 (Proc.devRef .tc main_arg1) :=
  (val7_keep V0 main_arg1 (by decide)).trans (val6_main_arg1 V0)
theorem val7_main_arg2 (V0 : Valuation τ sig (Elt Ideal)) : val7 V0 (no_index (Proc.devRef .tc main_arg2)) = V0 (Proc.devRef .tc main_arg2) :=
  (val7_keep V0 main_arg2 (by decide)).trans (val6_main_arg2 V0)
theorem val7_main_arg3 (V0 : Valuation τ sig (Elt Ideal)) : val7 V0 (no_index (Proc.devRef .tc main_arg3)) = V0 (Proc.devRef .tc main_arg3) :=
  (val7_keep V0 main_arg3 (by decide)).trans (val6_main_arg3 V0)
theorem val7_main_arg4 (V0 : Valuation τ sig (Elt Ideal)) : val7 V0 (no_index (Proc.devRef .tc main_arg4)) = V0 (Proc.devRef .tc main_arg4) :=
  (val7_keep V0 main_arg4 (by decide)).trans (val6_main_arg4 V0)
theorem val7_main_arg5 (V0 : Valuation τ sig (Elt Ideal)) : val7 V0 (no_index (Proc.devRef .tc main_arg5)) = V0 (Proc.devRef .tc main_arg5) :=
  (val7_keep V0 main_arg5 (by decide)).trans (val6_main_arg5 V0)
theorem val7_main_arg6 (V0 : Valuation τ sig (Elt Ideal)) : val7 V0 (no_index (Proc.devRef .tc main_arg6)) = V0 (Proc.devRef .tc main_arg6) :=
  (val7_keep V0 main_arg6 (by decide)).trans (val6_main_arg6 V0)
theorem val7_main_arg7 (V0 : Valuation τ sig (Elt Ideal)) : val7 V0 (no_index (Proc.devRef .tc main_arg7)) = V0 (Proc.devRef .tc main_arg7) :=
  (val7_keep V0 main_arg7 (by decide)).trans (val6_main_arg7 V0)
theorem val7_main_arg8 (V0 : Valuation τ sig (Elt Ideal)) : val7 V0 (no_index (Proc.devRef .tc main_arg8)) = V0 (Proc.devRef .tc main_arg8) :=
  (val7_keep V0 main_arg8 (by decide)).trans (val6_main_arg8 V0)
theorem val7_main_arg9 (V0 : Valuation τ sig (Elt Ideal)) : val7 V0 (no_index (Proc.devRef .tc main_arg9)) = V0 (Proc.devRef .tc main_arg9) :=
  (val7_keep V0 main_arg9 (by decide)).trans (val6_main_arg9 V0)
theorem val7_main_arg10 (V0 : Valuation τ sig (Elt Ideal)) : val7 V0 (no_index (Proc.devRef .tc main_arg10)) = V0 (Proc.devRef .tc main_arg10) :=
  (val7_keep V0 main_arg10 (by decide)).trans (val6_main_arg10 V0)
theorem val7_main_arg11 (V0 : Valuation τ sig (Elt Ideal)) : val7 V0 (no_index (Proc.devRef .tc main_arg11)) = V0 (Proc.devRef .tc main_arg11) :=
  (val7_keep V0 main_arg11 (by decide)).trans (val6_main_arg11 V0)
theorem val7_main_arg12 (V0 : Valuation τ sig (Elt Ideal)) : val7 V0 (no_index (Proc.devRef .tc main_arg12)) = V0 (Proc.devRef .tc main_arg12) :=
  (val7_keep V0 main_arg12 (by decide)).trans (val6_main_arg12 V0)
theorem val7_main_arg13 (V0 : Valuation τ sig (Elt Ideal)) : val7 V0 (no_index (Proc.devRef .tc main_arg13)) = V0 (Proc.devRef .tc main_arg13) :=
  (val7_keep V0 main_arg13 (by decide)).trans (val6_main_arg13 V0)
theorem val7_main_arg14 (V0 : Valuation τ sig (Elt Ideal)) : val7 V0 (no_index (Proc.devRef .tc main_arg14)) = V0 (Proc.devRef .tc main_arg14) :=
  (val7_keep V0 main_arg14 (by decide)).trans (val6_main_arg14 V0)
theorem val7_main_v1 (V0 : Valuation τ sig (Elt Ideal)) : val7 V0 (no_index (Proc.devRef .tc main_v1)) = refSrc (V0 (Proc.devRef .tc main_arg1)) :=
  (val7_keep V0 main_v1 (by decide)).trans (val6_main_v1 V0)
theorem val7_main_v3 (V0 : Valuation τ sig (Elt Ideal)) : val7 V0 (no_index (Proc.devRef .tc main_v3)) = refDst (V0 (Proc.devRef .tc main_arg1)) :=
  (val7_keep V0 main_v3 (by decide)).trans (val6_main_v3 V0)
theorem val7_main_v43 (V0 : Valuation τ sig (Elt Ideal)) : val7 V0 (no_index (Proc.devRef .tc main_v43)) = refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) :=
  (val7_keep V0 main_v43 (by decide)).trans (val6_main_v43 V0)
set_option maxRecDepth 8192 in
set_option maxHeartbeats 2000000 in
theorem val7_main_v45 (V0 : Valuation τ sig (Elt Ideal)) : val7 V0 (no_index (Proc.devRef .tc main_v45)) = refW0 (V0 (Proc.devRef .tc main_arg9)) := by
  unfold val7
  simp only [c6]
  after_results_simp
  simp only [val6_main_arg9] <;> rfl
set_option maxRecDepth 8192 in
set_option maxHeartbeats 2000000 in
theorem val7_main_v47 (V0 : Valuation τ sig (Elt Ideal)) : val7 V0 (no_index (Proc.devRef .tc main_v47)) = refB0 (V0 (Proc.devRef .tc main_arg10)) := by
  unfold val7
  simp only [c6]
  after_results_simp
  simp only [val6_main_arg10] <;> rfl
set_option maxRecDepth 8192 in
set_option maxHeartbeats 2000000 in
theorem val7_main_v49 (V0 : Valuation τ sig (Elt Ideal)) : val7 V0 (no_index (Proc.devRef .tc main_v49)) = refW0 (V0 (Proc.devRef .tc main_arg11)) := by
  unfold val7
  simp only [c6]
  after_results_simp
  simp only [val6_main_arg11] <;> rfl
set_option maxRecDepth 8192 in
set_option maxHeartbeats 2000000 in
theorem val7_main_v51 (V0 : Valuation τ sig (Elt Ideal)) : val7 V0 (no_index (Proc.devRef .tc main_v51)) = refB0 (V0 (Proc.devRef .tc main_arg12)) := by
  unfold val7
  simp only [c6]
  after_results_simp
  simp only [val6_main_arg12] <;> rfl
set_option maxRecDepth 8192 in
set_option maxHeartbeats 2000000 in
theorem val7_main_v53 (V0 : Valuation τ sig (Elt Ideal)) : val7 V0 (no_index (Proc.devRef .tc main_v53)) = refB0 (V0 (Proc.devRef .tc main_arg13)) := by
  unfold val7
  simp only [c6]
  after_results_simp
  simp only [val6_main_arg13] <;> rfl
set_option maxRecDepth 8192 in
set_option maxHeartbeats 2000000 in
theorem val7_main_v55 (V0 : Valuation τ sig (Elt Ideal)) : val7 V0 (no_index (Proc.devRef .tc main_v55)) = refB0 (V0 (Proc.devRef .tc main_arg14)) := by
  unfold val7
  simp only [c6]
  after_results_simp
  simp only [val6_main_arg14] <;> rfl

/-- The device's buffer contents after the first 8 stages. -/
def val8 (V0 : Valuation τ sig (Elt Ideal)) : Valuation τ sig (Elt Ideal) := after (c7 (F := Ideal)) (val7 V0)
/-- The buffers stage 8's operations write. -/
abbrev c7_W : List (Ref sig .tc) := [main_c_5, main_v56, main_v57, main_c_6, main_v58, main_v59, main_v60, main_v61, main_v62, main_cst_7, main_v63, main_v64, main_v65, main_v66]
theorem c7_writes : (c7 : List (HloOp τ sig (Elt Ideal))).Forall fun op => op.writes ⊆ (c7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 8 does not write keeps its contents through it. -/
theorem val8_keep (V0 : Valuation τ sig (Elt Ideal)) (r : Ref sig .tc) (h : r ∉ c7_W) :
    val8 V0 (Proc.devRef .tc r) = val7 V0 (Proc.devRef .tc r) :=
  after_of_writes_sub c7 _ c7_writes h
theorem val8_main_arg0 (V0 : Valuation τ sig (Elt Ideal)) : val8 V0 (no_index (Proc.devRef .tc main_arg0)) = V0 (Proc.devRef .tc main_arg0) :=
  (val8_keep V0 main_arg0 (by decide)).trans (val7_main_arg0 V0)
theorem val8_main_arg1 (V0 : Valuation τ sig (Elt Ideal)) : val8 V0 (no_index (Proc.devRef .tc main_arg1)) = V0 (Proc.devRef .tc main_arg1) :=
  (val8_keep V0 main_arg1 (by decide)).trans (val7_main_arg1 V0)
theorem val8_main_arg2 (V0 : Valuation τ sig (Elt Ideal)) : val8 V0 (no_index (Proc.devRef .tc main_arg2)) = V0 (Proc.devRef .tc main_arg2) :=
  (val8_keep V0 main_arg2 (by decide)).trans (val7_main_arg2 V0)
theorem val8_main_arg3 (V0 : Valuation τ sig (Elt Ideal)) : val8 V0 (no_index (Proc.devRef .tc main_arg3)) = V0 (Proc.devRef .tc main_arg3) :=
  (val8_keep V0 main_arg3 (by decide)).trans (val7_main_arg3 V0)
theorem val8_main_arg4 (V0 : Valuation τ sig (Elt Ideal)) : val8 V0 (no_index (Proc.devRef .tc main_arg4)) = V0 (Proc.devRef .tc main_arg4) :=
  (val8_keep V0 main_arg4 (by decide)).trans (val7_main_arg4 V0)
theorem val8_main_arg5 (V0 : Valuation τ sig (Elt Ideal)) : val8 V0 (no_index (Proc.devRef .tc main_arg5)) = V0 (Proc.devRef .tc main_arg5) :=
  (val8_keep V0 main_arg5 (by decide)).trans (val7_main_arg5 V0)
theorem val8_main_arg6 (V0 : Valuation τ sig (Elt Ideal)) : val8 V0 (no_index (Proc.devRef .tc main_arg6)) = V0 (Proc.devRef .tc main_arg6) :=
  (val8_keep V0 main_arg6 (by decide)).trans (val7_main_arg6 V0)
theorem val8_main_arg7 (V0 : Valuation τ sig (Elt Ideal)) : val8 V0 (no_index (Proc.devRef .tc main_arg7)) = V0 (Proc.devRef .tc main_arg7) :=
  (val8_keep V0 main_arg7 (by decide)).trans (val7_main_arg7 V0)
theorem val8_main_arg8 (V0 : Valuation τ sig (Elt Ideal)) : val8 V0 (no_index (Proc.devRef .tc main_arg8)) = V0 (Proc.devRef .tc main_arg8) :=
  (val8_keep V0 main_arg8 (by decide)).trans (val7_main_arg8 V0)
theorem val8_main_arg9 (V0 : Valuation τ sig (Elt Ideal)) : val8 V0 (no_index (Proc.devRef .tc main_arg9)) = V0 (Proc.devRef .tc main_arg9) :=
  (val8_keep V0 main_arg9 (by decide)).trans (val7_main_arg9 V0)
theorem val8_main_arg10 (V0 : Valuation τ sig (Elt Ideal)) : val8 V0 (no_index (Proc.devRef .tc main_arg10)) = V0 (Proc.devRef .tc main_arg10) :=
  (val8_keep V0 main_arg10 (by decide)).trans (val7_main_arg10 V0)
theorem val8_main_arg11 (V0 : Valuation τ sig (Elt Ideal)) : val8 V0 (no_index (Proc.devRef .tc main_arg11)) = V0 (Proc.devRef .tc main_arg11) :=
  (val8_keep V0 main_arg11 (by decide)).trans (val7_main_arg11 V0)
theorem val8_main_arg12 (V0 : Valuation τ sig (Elt Ideal)) : val8 V0 (no_index (Proc.devRef .tc main_arg12)) = V0 (Proc.devRef .tc main_arg12) :=
  (val8_keep V0 main_arg12 (by decide)).trans (val7_main_arg12 V0)
theorem val8_main_arg13 (V0 : Valuation τ sig (Elt Ideal)) : val8 V0 (no_index (Proc.devRef .tc main_arg13)) = V0 (Proc.devRef .tc main_arg13) :=
  (val8_keep V0 main_arg13 (by decide)).trans (val7_main_arg13 V0)
theorem val8_main_arg14 (V0 : Valuation τ sig (Elt Ideal)) : val8 V0 (no_index (Proc.devRef .tc main_arg14)) = V0 (Proc.devRef .tc main_arg14) :=
  (val8_keep V0 main_arg14 (by decide)).trans (val7_main_arg14 V0)
theorem val8_main_v1 (V0 : Valuation τ sig (Elt Ideal)) : val8 V0 (no_index (Proc.devRef .tc main_v1)) = refSrc (V0 (Proc.devRef .tc main_arg1)) :=
  (val8_keep V0 main_v1 (by decide)).trans (val7_main_v1 V0)
theorem val8_main_v3 (V0 : Valuation τ sig (Elt Ideal)) : val8 V0 (no_index (Proc.devRef .tc main_v3)) = refDst (V0 (Proc.devRef .tc main_arg1)) :=
  (val8_keep V0 main_v3 (by decide)).trans (val7_main_v3 V0)
theorem val8_main_v45 (V0 : Valuation τ sig (Elt Ideal)) : val8 V0 (no_index (Proc.devRef .tc main_v45)) = refW0 (V0 (Proc.devRef .tc main_arg9)) :=
  (val8_keep V0 main_v45 (by decide)).trans (val7_main_v45 V0)
theorem val8_main_v47 (V0 : Valuation τ sig (Elt Ideal)) : val8 V0 (no_index (Proc.devRef .tc main_v47)) = refB0 (V0 (Proc.devRef .tc main_arg10)) :=
  (val8_keep V0 main_v47 (by decide)).trans (val7_main_v47 V0)
theorem val8_main_v49 (V0 : Valuation τ sig (Elt Ideal)) : val8 V0 (no_index (Proc.devRef .tc main_v49)) = refW0 (V0 (Proc.devRef .tc main_arg11)) :=
  (val8_keep V0 main_v49 (by decide)).trans (val7_main_v49 V0)
theorem val8_main_v51 (V0 : Valuation τ sig (Elt Ideal)) : val8 V0 (no_index (Proc.devRef .tc main_v51)) = refB0 (V0 (Proc.devRef .tc main_arg12)) :=
  (val8_keep V0 main_v51 (by decide)).trans (val7_main_v51 V0)
theorem val8_main_v53 (V0 : Valuation τ sig (Elt Ideal)) : val8 V0 (no_index (Proc.devRef .tc main_v53)) = refB0 (V0 (Proc.devRef .tc main_arg13)) :=
  (val8_keep V0 main_v53 (by decide)).trans (val7_main_v53 V0)
theorem val8_main_v55 (V0 : Valuation τ sig (Elt Ideal)) : val8 V0 (no_index (Proc.devRef .tc main_v55)) = refB0 (V0 (Proc.devRef .tc main_arg14)) :=
  (val8_keep V0 main_v55 (by decide)).trans (val7_main_v55 V0)
set_option maxRecDepth 8192 in
set_option maxHeartbeats 2000000 in
theorem val8_main_v66 (V0 : Valuation τ sig (Elt Ideal)) : val8 V0 (no_index (Proc.devRef .tc main_v66)) = refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) := by
  unfold val8
  simp only [c7]
  after_results_simp
  simp only [val7_main_v1, val7_main_v3, val7_main_v43] <;> rfl

/-- The device's buffer contents after the first 9 stages. -/
def val9 (V0 : Valuation τ sig (Elt Ideal)) : Valuation τ sig (Elt Ideal) := after (c8 (F := Ideal)) (val8 V0)
/-- The buffers stage 9's operations write. -/
abbrev c8_W : List (Ref sig .tc) := [main_v67, main_v68, main_v69, main_v70, main_call3_cst, main_call3_v0, main_v71, main_v72, main_v73, main_v74, main_v75, main_call4_cst, main_call4_v0, main_v76]
theorem c8_writes : (c8 : List (HloOp τ sig (Elt Ideal))).Forall fun op => op.writes ⊆ (c8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 9 does not write keeps its contents through it. -/
theorem val9_keep (V0 : Valuation τ sig (Elt Ideal)) (r : Ref sig .tc) (h : r ∉ c8_W) :
    val9 V0 (Proc.devRef .tc r) = val8 V0 (Proc.devRef .tc r) :=
  after_of_writes_sub c8 _ c8_writes h
theorem val9_main_arg0 (V0 : Valuation τ sig (Elt Ideal)) : val9 V0 (no_index (Proc.devRef .tc main_arg0)) = V0 (Proc.devRef .tc main_arg0) :=
  (val9_keep V0 main_arg0 (by decide)).trans (val8_main_arg0 V0)
theorem val9_main_arg1 (V0 : Valuation τ sig (Elt Ideal)) : val9 V0 (no_index (Proc.devRef .tc main_arg1)) = V0 (Proc.devRef .tc main_arg1) :=
  (val9_keep V0 main_arg1 (by decide)).trans (val8_main_arg1 V0)
theorem val9_main_arg2 (V0 : Valuation τ sig (Elt Ideal)) : val9 V0 (no_index (Proc.devRef .tc main_arg2)) = V0 (Proc.devRef .tc main_arg2) :=
  (val9_keep V0 main_arg2 (by decide)).trans (val8_main_arg2 V0)
theorem val9_main_arg3 (V0 : Valuation τ sig (Elt Ideal)) : val9 V0 (no_index (Proc.devRef .tc main_arg3)) = V0 (Proc.devRef .tc main_arg3) :=
  (val9_keep V0 main_arg3 (by decide)).trans (val8_main_arg3 V0)
theorem val9_main_arg4 (V0 : Valuation τ sig (Elt Ideal)) : val9 V0 (no_index (Proc.devRef .tc main_arg4)) = V0 (Proc.devRef .tc main_arg4) :=
  (val9_keep V0 main_arg4 (by decide)).trans (val8_main_arg4 V0)
theorem val9_main_arg5 (V0 : Valuation τ sig (Elt Ideal)) : val9 V0 (no_index (Proc.devRef .tc main_arg5)) = V0 (Proc.devRef .tc main_arg5) :=
  (val9_keep V0 main_arg5 (by decide)).trans (val8_main_arg5 V0)
theorem val9_main_arg6 (V0 : Valuation τ sig (Elt Ideal)) : val9 V0 (no_index (Proc.devRef .tc main_arg6)) = V0 (Proc.devRef .tc main_arg6) :=
  (val9_keep V0 main_arg6 (by decide)).trans (val8_main_arg6 V0)
theorem val9_main_arg7 (V0 : Valuation τ sig (Elt Ideal)) : val9 V0 (no_index (Proc.devRef .tc main_arg7)) = V0 (Proc.devRef .tc main_arg7) :=
  (val9_keep V0 main_arg7 (by decide)).trans (val8_main_arg7 V0)
theorem val9_main_arg8 (V0 : Valuation τ sig (Elt Ideal)) : val9 V0 (no_index (Proc.devRef .tc main_arg8)) = V0 (Proc.devRef .tc main_arg8) :=
  (val9_keep V0 main_arg8 (by decide)).trans (val8_main_arg8 V0)
theorem val9_main_arg9 (V0 : Valuation τ sig (Elt Ideal)) : val9 V0 (no_index (Proc.devRef .tc main_arg9)) = V0 (Proc.devRef .tc main_arg9) :=
  (val9_keep V0 main_arg9 (by decide)).trans (val8_main_arg9 V0)
theorem val9_main_arg10 (V0 : Valuation τ sig (Elt Ideal)) : val9 V0 (no_index (Proc.devRef .tc main_arg10)) = V0 (Proc.devRef .tc main_arg10) :=
  (val9_keep V0 main_arg10 (by decide)).trans (val8_main_arg10 V0)
theorem val9_main_arg11 (V0 : Valuation τ sig (Elt Ideal)) : val9 V0 (no_index (Proc.devRef .tc main_arg11)) = V0 (Proc.devRef .tc main_arg11) :=
  (val9_keep V0 main_arg11 (by decide)).trans (val8_main_arg11 V0)
theorem val9_main_arg12 (V0 : Valuation τ sig (Elt Ideal)) : val9 V0 (no_index (Proc.devRef .tc main_arg12)) = V0 (Proc.devRef .tc main_arg12) :=
  (val9_keep V0 main_arg12 (by decide)).trans (val8_main_arg12 V0)
theorem val9_main_arg13 (V0 : Valuation τ sig (Elt Ideal)) : val9 V0 (no_index (Proc.devRef .tc main_arg13)) = V0 (Proc.devRef .tc main_arg13) :=
  (val9_keep V0 main_arg13 (by decide)).trans (val8_main_arg13 V0)
theorem val9_main_arg14 (V0 : Valuation τ sig (Elt Ideal)) : val9 V0 (no_index (Proc.devRef .tc main_arg14)) = V0 (Proc.devRef .tc main_arg14) :=
  (val9_keep V0 main_arg14 (by decide)).trans (val8_main_arg14 V0)
theorem val9_main_v1 (V0 : Valuation τ sig (Elt Ideal)) : val9 V0 (no_index (Proc.devRef .tc main_v1)) = refSrc (V0 (Proc.devRef .tc main_arg1)) :=
  (val9_keep V0 main_v1 (by decide)).trans (val8_main_v1 V0)
theorem val9_main_v3 (V0 : Valuation τ sig (Elt Ideal)) : val9 V0 (no_index (Proc.devRef .tc main_v3)) = refDst (V0 (Proc.devRef .tc main_arg1)) :=
  (val9_keep V0 main_v3 (by decide)).trans (val8_main_v3 V0)
theorem val9_main_v53 (V0 : Valuation τ sig (Elt Ideal)) : val9 V0 (no_index (Proc.devRef .tc main_v53)) = refB0 (V0 (Proc.devRef .tc main_arg13)) :=
  (val9_keep V0 main_v53 (by decide)).trans (val8_main_v53 V0)
theorem val9_main_v55 (V0 : Valuation τ sig (Elt Ideal)) : val9 V0 (no_index (Proc.devRef .tc main_v55)) = refB0 (V0 (Proc.devRef .tc main_arg14)) :=
  (val9_keep V0 main_v55 (by decide)).trans (val8_main_v55 V0)
set_option maxRecDepth 8192 in
set_option maxHeartbeats 2000000 in
theorem val9_main_v76 (V0 : Valuation τ sig (Elt Ideal)) : val9 V0 (no_index (Proc.devRef .tc main_v76)) = refMlp256 (refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (refW0 (V0 (Proc.devRef .tc main_arg9))) (refB0 (V0 (Proc.devRef .tc main_arg10))) (refB0 (V0 (Proc.devRef .tc main_arg12))) (refW0 (V0 (Proc.devRef .tc main_arg11))) := by
  unfold val9
  simp only [c8]
  after_results_simp
  simp only [val8_main_v51, val8_main_v49, val8_main_v47, val8_main_v45, val8_main_v66] <;> rfl

/-- The device's buffer contents after the first 10 stages. -/
def val10 (V0 : Valuation τ sig (Elt Ideal)) : Valuation τ sig (Elt Ideal) := after (c9 (F := Ideal)) (val9 V0)
/-- The buffers stage 10's operations write. -/
abbrev c9_W : List (Ref sig .tc) := [main_cst_8, main_v77, main_cst_9, main_v78, main_v79]
theorem c9_writes : (c9 : List (HloOp τ sig (Elt Ideal))).Forall fun op => op.writes ⊆ (c9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 10 does not write keeps its contents through it. -/
theorem val10_keep (V0 : Valuation τ sig (Elt Ideal)) (r : Ref sig .tc) (h : r ∉ c9_W) :
    val10 V0 (Proc.devRef .tc r) = val9 V0 (Proc.devRef .tc r) :=
  after_of_writes_sub c9 _ c9_writes h
theorem val10_main_arg0 (V0 : Valuation τ sig (Elt Ideal)) : val10 V0 (no_index (Proc.devRef .tc main_arg0)) = V0 (Proc.devRef .tc main_arg0) :=
  (val10_keep V0 main_arg0 (by decide)).trans (val9_main_arg0 V0)
theorem val10_main_arg1 (V0 : Valuation τ sig (Elt Ideal)) : val10 V0 (no_index (Proc.devRef .tc main_arg1)) = V0 (Proc.devRef .tc main_arg1) :=
  (val10_keep V0 main_arg1 (by decide)).trans (val9_main_arg1 V0)
theorem val10_main_arg2 (V0 : Valuation τ sig (Elt Ideal)) : val10 V0 (no_index (Proc.devRef .tc main_arg2)) = V0 (Proc.devRef .tc main_arg2) :=
  (val10_keep V0 main_arg2 (by decide)).trans (val9_main_arg2 V0)
theorem val10_main_arg3 (V0 : Valuation τ sig (Elt Ideal)) : val10 V0 (no_index (Proc.devRef .tc main_arg3)) = V0 (Proc.devRef .tc main_arg3) :=
  (val10_keep V0 main_arg3 (by decide)).trans (val9_main_arg3 V0)
theorem val10_main_arg4 (V0 : Valuation τ sig (Elt Ideal)) : val10 V0 (no_index (Proc.devRef .tc main_arg4)) = V0 (Proc.devRef .tc main_arg4) :=
  (val10_keep V0 main_arg4 (by decide)).trans (val9_main_arg4 V0)
theorem val10_main_arg5 (V0 : Valuation τ sig (Elt Ideal)) : val10 V0 (no_index (Proc.devRef .tc main_arg5)) = V0 (Proc.devRef .tc main_arg5) :=
  (val10_keep V0 main_arg5 (by decide)).trans (val9_main_arg5 V0)
theorem val10_main_arg6 (V0 : Valuation τ sig (Elt Ideal)) : val10 V0 (no_index (Proc.devRef .tc main_arg6)) = V0 (Proc.devRef .tc main_arg6) :=
  (val10_keep V0 main_arg6 (by decide)).trans (val9_main_arg6 V0)
theorem val10_main_arg7 (V0 : Valuation τ sig (Elt Ideal)) : val10 V0 (no_index (Proc.devRef .tc main_arg7)) = V0 (Proc.devRef .tc main_arg7) :=
  (val10_keep V0 main_arg7 (by decide)).trans (val9_main_arg7 V0)
theorem val10_main_arg8 (V0 : Valuation τ sig (Elt Ideal)) : val10 V0 (no_index (Proc.devRef .tc main_arg8)) = V0 (Proc.devRef .tc main_arg8) :=
  (val10_keep V0 main_arg8 (by decide)).trans (val9_main_arg8 V0)
theorem val10_main_arg9 (V0 : Valuation τ sig (Elt Ideal)) : val10 V0 (no_index (Proc.devRef .tc main_arg9)) = V0 (Proc.devRef .tc main_arg9) :=
  (val10_keep V0 main_arg9 (by decide)).trans (val9_main_arg9 V0)
theorem val10_main_arg10 (V0 : Valuation τ sig (Elt Ideal)) : val10 V0 (no_index (Proc.devRef .tc main_arg10)) = V0 (Proc.devRef .tc main_arg10) :=
  (val10_keep V0 main_arg10 (by decide)).trans (val9_main_arg10 V0)
theorem val10_main_arg11 (V0 : Valuation τ sig (Elt Ideal)) : val10 V0 (no_index (Proc.devRef .tc main_arg11)) = V0 (Proc.devRef .tc main_arg11) :=
  (val10_keep V0 main_arg11 (by decide)).trans (val9_main_arg11 V0)
theorem val10_main_arg12 (V0 : Valuation τ sig (Elt Ideal)) : val10 V0 (no_index (Proc.devRef .tc main_arg12)) = V0 (Proc.devRef .tc main_arg12) :=
  (val10_keep V0 main_arg12 (by decide)).trans (val9_main_arg12 V0)
theorem val10_main_arg13 (V0 : Valuation τ sig (Elt Ideal)) : val10 V0 (no_index (Proc.devRef .tc main_arg13)) = V0 (Proc.devRef .tc main_arg13) :=
  (val10_keep V0 main_arg13 (by decide)).trans (val9_main_arg13 V0)
theorem val10_main_arg14 (V0 : Valuation τ sig (Elt Ideal)) : val10 V0 (no_index (Proc.devRef .tc main_arg14)) = V0 (Proc.devRef .tc main_arg14) :=
  (val10_keep V0 main_arg14 (by decide)).trans (val9_main_arg14 V0)
theorem val10_main_v1 (V0 : Valuation τ sig (Elt Ideal)) : val10 V0 (no_index (Proc.devRef .tc main_v1)) = refSrc (V0 (Proc.devRef .tc main_arg1)) :=
  (val10_keep V0 main_v1 (by decide)).trans (val9_main_v1 V0)
theorem val10_main_v3 (V0 : Valuation τ sig (Elt Ideal)) : val10 V0 (no_index (Proc.devRef .tc main_v3)) = refDst (V0 (Proc.devRef .tc main_arg1)) :=
  (val10_keep V0 main_v3 (by decide)).trans (val9_main_v3 V0)
theorem val10_main_v53 (V0 : Valuation τ sig (Elt Ideal)) : val10 V0 (no_index (Proc.devRef .tc main_v53)) = refB0 (V0 (Proc.devRef .tc main_arg13)) :=
  (val10_keep V0 main_v53 (by decide)).trans (val9_main_v53 V0)
theorem val10_main_v55 (V0 : Valuation τ sig (Elt Ideal)) : val10 V0 (no_index (Proc.devRef .tc main_v55)) = refB0 (V0 (Proc.devRef .tc main_arg14)) :=
  (val10_keep V0 main_v55 (by decide)).trans (val9_main_v55 V0)
theorem val10_main_v76 (V0 : Valuation τ sig (Elt Ideal)) : val10 V0 (no_index (Proc.devRef .tc main_v76)) = refMlp256 (refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (refW0 (V0 (Proc.devRef .tc main_arg9))) (refB0 (V0 (Proc.devRef .tc main_arg10))) (refB0 (V0 (Proc.devRef .tc main_arg12))) (refW0 (V0 (Proc.devRef .tc main_arg11))) :=
  (val10_keep V0 main_v76 (by decide)).trans (val9_main_v76 V0)
set_option maxRecDepth 8192 in
set_option maxHeartbeats 2000000 in
theorem val10_main_v79 (V0 : Valuation τ sig (Elt Ideal)) : val10 V0 (no_index (Proc.devRef .tc main_v79)) = refMean (refMlp256 (refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (refW0 (V0 (Proc.devRef .tc main_arg9))) (refB0 (V0 (Proc.devRef .tc main_arg10))) (refB0 (V0 (Proc.devRef .tc main_arg12))) (refW0 (V0 (Proc.devRef .tc main_arg11)))) := by
  unfold val10
  simp only [c9]
  after_results_simp
  simp only [val9_main_v76] <;> rfl

/-- The device's buffer contents after the first 11 stages. -/
def val11 (V0 : Valuation τ sig (Elt Ideal)) : Valuation τ sig (Elt Ideal) := after (c10 (F := Ideal)) (val10 V0)
/-- The buffers stage 11's operations write. -/
abbrev c10_W : List (Ref sig .tc) := [main_c_10, main_call5_cst, main_call5_v0, main_call5_v1, main_call5_cst_0, main_call5_v2, main_call5_v3, main_call5_v4, main_call5_v5, main_call5_v6, main_call5_v7, main_call5_cst_1, main_call5_v8, main_call5_cst_2, main_call5_v9, main_call5_v10, main_call5_v11, main_call5_cst_3, main_call5_v12, main_call5_cst_4, main_call5_call0_v0, main_call5_call0_v1, main_v80]
theorem c10_writes : (c10 : List (HloOp τ sig (Elt Ideal))).Forall fun op => op.writes ⊆ (c10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 11 does not write keeps its contents through it. -/
theorem val11_keep (V0 : Valuation τ sig (Elt Ideal)) (r : Ref sig .tc) (h : r ∉ c10_W) :
    val11 V0 (Proc.devRef .tc r) = val10 V0 (Proc.devRef .tc r) :=
  after_of_writes_sub c10 _ c10_writes h
theorem val11_main_arg0 (V0 : Valuation τ sig (Elt Ideal)) : val11 V0 (no_index (Proc.devRef .tc main_arg0)) = V0 (Proc.devRef .tc main_arg0) :=
  (val11_keep V0 main_arg0 (by decide)).trans (val10_main_arg0 V0)
theorem val11_main_arg1 (V0 : Valuation τ sig (Elt Ideal)) : val11 V0 (no_index (Proc.devRef .tc main_arg1)) = V0 (Proc.devRef .tc main_arg1) :=
  (val11_keep V0 main_arg1 (by decide)).trans (val10_main_arg1 V0)
theorem val11_main_arg2 (V0 : Valuation τ sig (Elt Ideal)) : val11 V0 (no_index (Proc.devRef .tc main_arg2)) = V0 (Proc.devRef .tc main_arg2) :=
  (val11_keep V0 main_arg2 (by decide)).trans (val10_main_arg2 V0)
theorem val11_main_arg3 (V0 : Valuation τ sig (Elt Ideal)) : val11 V0 (no_index (Proc.devRef .tc main_arg3)) = V0 (Proc.devRef .tc main_arg3) :=
  (val11_keep V0 main_arg3 (by decide)).trans (val10_main_arg3 V0)
theorem val11_main_arg4 (V0 : Valuation τ sig (Elt Ideal)) : val11 V0 (no_index (Proc.devRef .tc main_arg4)) = V0 (Proc.devRef .tc main_arg4) :=
  (val11_keep V0 main_arg4 (by decide)).trans (val10_main_arg4 V0)
theorem val11_main_arg5 (V0 : Valuation τ sig (Elt Ideal)) : val11 V0 (no_index (Proc.devRef .tc main_arg5)) = V0 (Proc.devRef .tc main_arg5) :=
  (val11_keep V0 main_arg5 (by decide)).trans (val10_main_arg5 V0)
theorem val11_main_arg6 (V0 : Valuation τ sig (Elt Ideal)) : val11 V0 (no_index (Proc.devRef .tc main_arg6)) = V0 (Proc.devRef .tc main_arg6) :=
  (val11_keep V0 main_arg6 (by decide)).trans (val10_main_arg6 V0)
theorem val11_main_arg7 (V0 : Valuation τ sig (Elt Ideal)) : val11 V0 (no_index (Proc.devRef .tc main_arg7)) = V0 (Proc.devRef .tc main_arg7) :=
  (val11_keep V0 main_arg7 (by decide)).trans (val10_main_arg7 V0)
theorem val11_main_arg8 (V0 : Valuation τ sig (Elt Ideal)) : val11 V0 (no_index (Proc.devRef .tc main_arg8)) = V0 (Proc.devRef .tc main_arg8) :=
  (val11_keep V0 main_arg8 (by decide)).trans (val10_main_arg8 V0)
theorem val11_main_arg9 (V0 : Valuation τ sig (Elt Ideal)) : val11 V0 (no_index (Proc.devRef .tc main_arg9)) = V0 (Proc.devRef .tc main_arg9) :=
  (val11_keep V0 main_arg9 (by decide)).trans (val10_main_arg9 V0)
theorem val11_main_arg10 (V0 : Valuation τ sig (Elt Ideal)) : val11 V0 (no_index (Proc.devRef .tc main_arg10)) = V0 (Proc.devRef .tc main_arg10) :=
  (val11_keep V0 main_arg10 (by decide)).trans (val10_main_arg10 V0)
theorem val11_main_arg11 (V0 : Valuation τ sig (Elt Ideal)) : val11 V0 (no_index (Proc.devRef .tc main_arg11)) = V0 (Proc.devRef .tc main_arg11) :=
  (val11_keep V0 main_arg11 (by decide)).trans (val10_main_arg11 V0)
theorem val11_main_arg12 (V0 : Valuation τ sig (Elt Ideal)) : val11 V0 (no_index (Proc.devRef .tc main_arg12)) = V0 (Proc.devRef .tc main_arg12) :=
  (val11_keep V0 main_arg12 (by decide)).trans (val10_main_arg12 V0)
theorem val11_main_arg13 (V0 : Valuation τ sig (Elt Ideal)) : val11 V0 (no_index (Proc.devRef .tc main_arg13)) = V0 (Proc.devRef .tc main_arg13) :=
  (val11_keep V0 main_arg13 (by decide)).trans (val10_main_arg13 V0)
theorem val11_main_arg14 (V0 : Valuation τ sig (Elt Ideal)) : val11 V0 (no_index (Proc.devRef .tc main_arg14)) = V0 (Proc.devRef .tc main_arg14) :=
  (val11_keep V0 main_arg14 (by decide)).trans (val10_main_arg14 V0)
theorem val11_main_v1 (V0 : Valuation τ sig (Elt Ideal)) : val11 V0 (no_index (Proc.devRef .tc main_v1)) = refSrc (V0 (Proc.devRef .tc main_arg1)) :=
  (val11_keep V0 main_v1 (by decide)).trans (val10_main_v1 V0)
theorem val11_main_v3 (V0 : Valuation τ sig (Elt Ideal)) : val11 V0 (no_index (Proc.devRef .tc main_v3)) = refDst (V0 (Proc.devRef .tc main_arg1)) :=
  (val11_keep V0 main_v3 (by decide)).trans (val10_main_v3 V0)
theorem val11_main_v53 (V0 : Valuation τ sig (Elt Ideal)) : val11 V0 (no_index (Proc.devRef .tc main_v53)) = refB0 (V0 (Proc.devRef .tc main_arg13)) :=
  (val11_keep V0 main_v53 (by decide)).trans (val10_main_v53 V0)
theorem val11_main_v55 (V0 : Valuation τ sig (Elt Ideal)) : val11 V0 (no_index (Proc.devRef .tc main_v55)) = refB0 (V0 (Proc.devRef .tc main_arg14)) :=
  (val11_keep V0 main_v55 (by decide)).trans (val10_main_v55 V0)
theorem val11_main_v76 (V0 : Valuation τ sig (Elt Ideal)) : val11 V0 (no_index (Proc.devRef .tc main_v76)) = refMlp256 (refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (refW0 (V0 (Proc.devRef .tc main_arg9))) (refB0 (V0 (Proc.devRef .tc main_arg10))) (refB0 (V0 (Proc.devRef .tc main_arg12))) (refW0 (V0 (Proc.devRef .tc main_arg11))) :=
  (val11_keep V0 main_v76 (by decide)).trans (val10_main_v76 V0)
theorem val11_main_v79 (V0 : Valuation τ sig (Elt Ideal)) : val11 V0 (no_index (Proc.devRef .tc main_v79)) = refMean (refMlp256 (refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (refW0 (V0 (Proc.devRef .tc main_arg9))) (refB0 (V0 (Proc.devRef .tc main_arg10))) (refB0 (V0 (Proc.devRef .tc main_arg12))) (refW0 (V0 (Proc.devRef .tc main_arg11)))) :=
  (val11_keep V0 main_v79 (by decide)).trans (val10_main_v79 V0)
set_option maxRecDepth 8192 in
set_option maxHeartbeats 2000000 in
theorem val11_main_v80 (V0 : Valuation τ sig (Elt Ideal)) : val11 V0 (no_index (Proc.devRef .tc main_v80)) = refVar (refMlp256 (refAgg256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1))) (refW0 (V0 (Proc.devRef .tc main_arg9))) (refB0 (V0 (Proc.devRef .tc main_arg10))) (refB0 (V0 (Proc.devRef .tc main_arg12))) (refW0 (V0 (Proc.devRef .tc main_arg11)))) := by
  unfold val11
  simp only [c10]
  after_results_simp
  simp only [val10_main_v76] <;> rfl

/-- The device's buffer contents after the first 12 stages. -/
def val12 (V0 : Valuation τ sig (Elt Ideal)) : Valuation τ sig (Elt Ideal) := after (c11 (F := Ideal)) (val11 V0)
/-- The buffers stage 12's operations write. -/
abbrev c11_W : List (Ref sig .tc) := [main_v81, main_v82, main_v83, main_v84, main_v85, main_v86, main_cst_11, main_v87, main_v88, main_v89, main_v90, main_v91, main_v92, main_v93, main_v94, main_v95]
theorem c11_writes : (c11 : List (HloOp τ sig (Elt Ideal))).Forall fun op => op.writes ⊆ (c11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 12 does not write keeps its contents through it. -/
theorem val12_keep (V0 : Valuation τ sig (Elt Ideal)) (r : Ref sig .tc) (h : r ∉ c11_W) :
    val12 V0 (Proc.devRef .tc r) = val11 V0 (Proc.devRef .tc r) :=
  after_of_writes_sub c11 _ c11_writes h
theorem val12_main_arg0 (V0 : Valuation τ sig (Elt Ideal)) : val12 V0 (no_index (Proc.devRef .tc main_arg0)) = V0 (Proc.devRef .tc main_arg0) :=
  (val12_keep V0 main_arg0 (by decide)).trans (val11_main_arg0 V0)
theorem val12_main_arg1 (V0 : Valuation τ sig (Elt Ideal)) : val12 V0 (no_index (Proc.devRef .tc main_arg1)) = V0 (Proc.devRef .tc main_arg1) :=
  (val12_keep V0 main_arg1 (by decide)).trans (val11_main_arg1 V0)
theorem val12_main_arg2 (V0 : Valuation τ sig (Elt Ideal)) : val12 V0 (no_index (Proc.devRef .tc main_arg2)) = V0 (Proc.devRef .tc main_arg2) :=
  (val12_keep V0 main_arg2 (by decide)).trans (val11_main_arg2 V0)
theorem val12_main_arg3 (V0 : Valuation τ sig (Elt Ideal)) : val12 V0 (no_index (Proc.devRef .tc main_arg3)) = V0 (Proc.devRef .tc main_arg3) :=
  (val12_keep V0 main_arg3 (by decide)).trans (val11_main_arg3 V0)
theorem val12_main_arg4 (V0 : Valuation τ sig (Elt Ideal)) : val12 V0 (no_index (Proc.devRef .tc main_arg4)) = V0 (Proc.devRef .tc main_arg4) :=
  (val12_keep V0 main_arg4 (by decide)).trans (val11_main_arg4 V0)
theorem val12_main_arg5 (V0 : Valuation τ sig (Elt Ideal)) : val12 V0 (no_index (Proc.devRef .tc main_arg5)) = V0 (Proc.devRef .tc main_arg5) :=
  (val12_keep V0 main_arg5 (by decide)).trans (val11_main_arg5 V0)
theorem val12_main_arg6 (V0 : Valuation τ sig (Elt Ideal)) : val12 V0 (no_index (Proc.devRef .tc main_arg6)) = V0 (Proc.devRef .tc main_arg6) :=
  (val12_keep V0 main_arg6 (by decide)).trans (val11_main_arg6 V0)
theorem val12_main_arg7 (V0 : Valuation τ sig (Elt Ideal)) : val12 V0 (no_index (Proc.devRef .tc main_arg7)) = V0 (Proc.devRef .tc main_arg7) :=
  (val12_keep V0 main_arg7 (by decide)).trans (val11_main_arg7 V0)
theorem val12_main_arg8 (V0 : Valuation τ sig (Elt Ideal)) : val12 V0 (no_index (Proc.devRef .tc main_arg8)) = V0 (Proc.devRef .tc main_arg8) :=
  (val12_keep V0 main_arg8 (by decide)).trans (val11_main_arg8 V0)
theorem val12_main_arg9 (V0 : Valuation τ sig (Elt Ideal)) : val12 V0 (no_index (Proc.devRef .tc main_arg9)) = V0 (Proc.devRef .tc main_arg9) :=
  (val12_keep V0 main_arg9 (by decide)).trans (val11_main_arg9 V0)
theorem val12_main_arg10 (V0 : Valuation τ sig (Elt Ideal)) : val12 V0 (no_index (Proc.devRef .tc main_arg10)) = V0 (Proc.devRef .tc main_arg10) :=
  (val12_keep V0 main_arg10 (by decide)).trans (val11_main_arg10 V0)
theorem val12_main_arg11 (V0 : Valuation τ sig (Elt Ideal)) : val12 V0 (no_index (Proc.devRef .tc main_arg11)) = V0 (Proc.devRef .tc main_arg11) :=
  (val12_keep V0 main_arg11 (by decide)).trans (val11_main_arg11 V0)
theorem val12_main_arg12 (V0 : Valuation τ sig (Elt Ideal)) : val12 V0 (no_index (Proc.devRef .tc main_arg12)) = V0 (Proc.devRef .tc main_arg12) :=
  (val12_keep V0 main_arg12 (by decide)).trans (val11_main_arg12 V0)
theorem val12_main_arg13 (V0 : Valuation τ sig (Elt Ideal)) : val12 V0 (no_index (Proc.devRef .tc main_arg13)) = V0 (Proc.devRef .tc main_arg13) :=
  (val12_keep V0 main_arg13 (by decide)).trans (val11_main_arg13 V0)
theorem val12_main_arg14 (V0 : Valuation τ sig (Elt Ideal)) : val12 V0 (no_index (Proc.devRef .tc main_arg14)) = V0 (Proc.devRef .tc main_arg14) :=
  (val12_keep V0 main_arg14 (by decide)).trans (val11_main_arg14 V0)
theorem val12_main_v1 (V0 : Valuation τ sig (Elt Ideal)) : val12 V0 (no_index (Proc.devRef .tc main_v1)) = refSrc (V0 (Proc.devRef .tc main_arg1)) :=
  (val12_keep V0 main_v1 (by decide)).trans (val11_main_v1 V0)
theorem val12_main_v3 (V0 : Valuation τ sig (Elt Ideal)) : val12 V0 (no_index (Proc.devRef .tc main_v3)) = refDst (V0 (Proc.devRef .tc main_arg1)) :=
  (val12_keep V0 main_v3 (by decide)).trans (val11_main_v3 V0)
set_option maxRecDepth 8192 in
set_option maxHeartbeats 2000000 in
theorem val12_main_v95 (V0 : Valuation τ sig (Elt Ideal)) : val12 V0 (no_index (Proc.devRef .tc main_v95)) = refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14))) := by
  unfold val12
  simp only [c11]
  after_results_simp
  simp only [val11_main_v55, val11_main_v80, val11_main_v79, val11_main_v76, val11_main_v53] <;> rfl

/-- The device's buffer contents after the first 13 stages. -/
def val13 (V0 : Valuation τ sig (Elt Ideal)) : Valuation τ sig (Elt Ideal) := after (c12 (F := Ideal)) (val12 V0)
/-- The buffers stage 13's operations write. -/
abbrev c12_W : List (Ref sig .tc) := [main_v96, main_v97, main_v98, main_v99, main_v100, main_v101, main_v102, main_v103, main_v104, main_v105, main_v106, main_v107]
theorem c12_writes : (c12 : List (HloOp τ sig (Elt Ideal))).Forall fun op => op.writes ⊆ (c12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 13 does not write keeps its contents through it. -/
theorem val13_keep (V0 : Valuation τ sig (Elt Ideal)) (r : Ref sig .tc) (h : r ∉ c12_W) :
    val13 V0 (Proc.devRef .tc r) = val12 V0 (Proc.devRef .tc r) :=
  after_of_writes_sub c12 _ c12_writes h
theorem val13_main_arg0 (V0 : Valuation τ sig (Elt Ideal)) : val13 V0 (no_index (Proc.devRef .tc main_arg0)) = V0 (Proc.devRef .tc main_arg0) :=
  (val13_keep V0 main_arg0 (by decide)).trans (val12_main_arg0 V0)
theorem val13_main_arg1 (V0 : Valuation τ sig (Elt Ideal)) : val13 V0 (no_index (Proc.devRef .tc main_arg1)) = V0 (Proc.devRef .tc main_arg1) :=
  (val13_keep V0 main_arg1 (by decide)).trans (val12_main_arg1 V0)
theorem val13_main_arg2 (V0 : Valuation τ sig (Elt Ideal)) : val13 V0 (no_index (Proc.devRef .tc main_arg2)) = V0 (Proc.devRef .tc main_arg2) :=
  (val13_keep V0 main_arg2 (by decide)).trans (val12_main_arg2 V0)
theorem val13_main_arg3 (V0 : Valuation τ sig (Elt Ideal)) : val13 V0 (no_index (Proc.devRef .tc main_arg3)) = V0 (Proc.devRef .tc main_arg3) :=
  (val13_keep V0 main_arg3 (by decide)).trans (val12_main_arg3 V0)
theorem val13_main_arg4 (V0 : Valuation τ sig (Elt Ideal)) : val13 V0 (no_index (Proc.devRef .tc main_arg4)) = V0 (Proc.devRef .tc main_arg4) :=
  (val13_keep V0 main_arg4 (by decide)).trans (val12_main_arg4 V0)
theorem val13_main_arg5 (V0 : Valuation τ sig (Elt Ideal)) : val13 V0 (no_index (Proc.devRef .tc main_arg5)) = V0 (Proc.devRef .tc main_arg5) :=
  (val13_keep V0 main_arg5 (by decide)).trans (val12_main_arg5 V0)
theorem val13_main_arg6 (V0 : Valuation τ sig (Elt Ideal)) : val13 V0 (no_index (Proc.devRef .tc main_arg6)) = V0 (Proc.devRef .tc main_arg6) :=
  (val13_keep V0 main_arg6 (by decide)).trans (val12_main_arg6 V0)
theorem val13_main_arg7 (V0 : Valuation τ sig (Elt Ideal)) : val13 V0 (no_index (Proc.devRef .tc main_arg7)) = V0 (Proc.devRef .tc main_arg7) :=
  (val13_keep V0 main_arg7 (by decide)).trans (val12_main_arg7 V0)
theorem val13_main_arg8 (V0 : Valuation τ sig (Elt Ideal)) : val13 V0 (no_index (Proc.devRef .tc main_arg8)) = V0 (Proc.devRef .tc main_arg8) :=
  (val13_keep V0 main_arg8 (by decide)).trans (val12_main_arg8 V0)
theorem val13_main_arg9 (V0 : Valuation τ sig (Elt Ideal)) : val13 V0 (no_index (Proc.devRef .tc main_arg9)) = V0 (Proc.devRef .tc main_arg9) :=
  (val13_keep V0 main_arg9 (by decide)).trans (val12_main_arg9 V0)
theorem val13_main_arg10 (V0 : Valuation τ sig (Elt Ideal)) : val13 V0 (no_index (Proc.devRef .tc main_arg10)) = V0 (Proc.devRef .tc main_arg10) :=
  (val13_keep V0 main_arg10 (by decide)).trans (val12_main_arg10 V0)
theorem val13_main_arg11 (V0 : Valuation τ sig (Elt Ideal)) : val13 V0 (no_index (Proc.devRef .tc main_arg11)) = V0 (Proc.devRef .tc main_arg11) :=
  (val13_keep V0 main_arg11 (by decide)).trans (val12_main_arg11 V0)
theorem val13_main_arg12 (V0 : Valuation τ sig (Elt Ideal)) : val13 V0 (no_index (Proc.devRef .tc main_arg12)) = V0 (Proc.devRef .tc main_arg12) :=
  (val13_keep V0 main_arg12 (by decide)).trans (val12_main_arg12 V0)
theorem val13_main_arg13 (V0 : Valuation τ sig (Elt Ideal)) : val13 V0 (no_index (Proc.devRef .tc main_arg13)) = V0 (Proc.devRef .tc main_arg13) :=
  (val13_keep V0 main_arg13 (by decide)).trans (val12_main_arg13 V0)
theorem val13_main_arg14 (V0 : Valuation τ sig (Elt Ideal)) : val13 V0 (no_index (Proc.devRef .tc main_arg14)) = V0 (Proc.devRef .tc main_arg14) :=
  (val13_keep V0 main_arg14 (by decide)).trans (val12_main_arg14 V0)
theorem val13_main_v1 (V0 : Valuation τ sig (Elt Ideal)) : val13 V0 (no_index (Proc.devRef .tc main_v1)) = refSrc (V0 (Proc.devRef .tc main_arg1)) :=
  (val13_keep V0 main_v1 (by decide)).trans (val12_main_v1 V0)
theorem val13_main_v3 (V0 : Valuation τ sig (Elt Ideal)) : val13 V0 (no_index (Proc.devRef .tc main_v3)) = refDst (V0 (Proc.devRef .tc main_arg1)) :=
  (val13_keep V0 main_v3 (by decide)).trans (val12_main_v3 V0)
theorem val13_main_v95 (V0 : Valuation τ sig (Elt Ideal)) : val13 V0 (no_index (Proc.devRef .tc main_v95)) = refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14))) :=
  (val13_keep V0 main_v95 (by decide)).trans (val12_main_v95 V0)
set_option maxRecDepth 8192 in
set_option maxHeartbeats 2000000 in
theorem val13_main_v97 (V0 : Valuation τ sig (Elt Ideal)) : val13 V0 (no_index (Proc.devRef .tc main_v97)) = refW1 (V0 (Proc.devRef .tc main_arg9)) := by
  unfold val13
  simp only [c12]
  after_results_simp
  simp only [val12_main_arg9] <;> rfl
set_option maxRecDepth 8192 in
set_option maxHeartbeats 2000000 in
theorem val13_main_v99 (V0 : Valuation τ sig (Elt Ideal)) : val13 V0 (no_index (Proc.devRef .tc main_v99)) = refB1 (V0 (Proc.devRef .tc main_arg10)) := by
  unfold val13
  simp only [c12]
  after_results_simp
  simp only [val12_main_arg10] <;> rfl
set_option maxRecDepth 8192 in
set_option maxHeartbeats 2000000 in
theorem val13_main_v101 (V0 : Valuation τ sig (Elt Ideal)) : val13 V0 (no_index (Proc.devRef .tc main_v101)) = refW1 (V0 (Proc.devRef .tc main_arg11)) := by
  unfold val13
  simp only [c12]
  after_results_simp
  simp only [val12_main_arg11] <;> rfl
set_option maxRecDepth 8192 in
set_option maxHeartbeats 2000000 in
theorem val13_main_v103 (V0 : Valuation τ sig (Elt Ideal)) : val13 V0 (no_index (Proc.devRef .tc main_v103)) = refB1 (V0 (Proc.devRef .tc main_arg12)) := by
  unfold val13
  simp only [c12]
  after_results_simp
  simp only [val12_main_arg12] <;> rfl
set_option maxRecDepth 8192 in
set_option maxHeartbeats 2000000 in
theorem val13_main_v105 (V0 : Valuation τ sig (Elt Ideal)) : val13 V0 (no_index (Proc.devRef .tc main_v105)) = refB1 (V0 (Proc.devRef .tc main_arg13)) := by
  unfold val13
  simp only [c12]
  after_results_simp
  simp only [val12_main_arg13] <;> rfl
set_option maxRecDepth 8192 in
set_option maxHeartbeats 2000000 in
theorem val13_main_v107 (V0 : Valuation τ sig (Elt Ideal)) : val13 V0 (no_index (Proc.devRef .tc main_v107)) = refB1 (V0 (Proc.devRef .tc main_arg14)) := by
  unfold val13
  simp only [c12]
  after_results_simp
  simp only [val12_main_arg14] <;> rfl

/-- The device's buffer contents after the first 14 stages. -/
def val14 (V0 : Valuation τ sig (Elt Ideal)) : Valuation τ sig (Elt Ideal) := after (c13 (F := Ideal)) (val13 V0)
/-- The buffers stage 14's operations write. -/
abbrev c13_W : List (Ref sig .tc) := [main_c_12, main_v108, main_v109, main_c_13, main_v110, main_v111, main_v112, main_v113, main_v114, main_cst_14, main_v115, main_v116, main_v117, main_v118]
theorem c13_writes : (c13 : List (HloOp τ sig (Elt Ideal))).Forall fun op => op.writes ⊆ (c13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 14 does not write keeps its contents through it. -/
theorem val14_keep (V0 : Valuation τ sig (Elt Ideal)) (r : Ref sig .tc) (h : r ∉ c13_W) :
    val14 V0 (Proc.devRef .tc r) = val13 V0 (Proc.devRef .tc r) :=
  after_of_writes_sub c13 _ c13_writes h
theorem val14_main_arg0 (V0 : Valuation τ sig (Elt Ideal)) : val14 V0 (no_index (Proc.devRef .tc main_arg0)) = V0 (Proc.devRef .tc main_arg0) :=
  (val14_keep V0 main_arg0 (by decide)).trans (val13_main_arg0 V0)
theorem val14_main_arg1 (V0 : Valuation τ sig (Elt Ideal)) : val14 V0 (no_index (Proc.devRef .tc main_arg1)) = V0 (Proc.devRef .tc main_arg1) :=
  (val14_keep V0 main_arg1 (by decide)).trans (val13_main_arg1 V0)
theorem val14_main_arg2 (V0 : Valuation τ sig (Elt Ideal)) : val14 V0 (no_index (Proc.devRef .tc main_arg2)) = V0 (Proc.devRef .tc main_arg2) :=
  (val14_keep V0 main_arg2 (by decide)).trans (val13_main_arg2 V0)
theorem val14_main_arg3 (V0 : Valuation τ sig (Elt Ideal)) : val14 V0 (no_index (Proc.devRef .tc main_arg3)) = V0 (Proc.devRef .tc main_arg3) :=
  (val14_keep V0 main_arg3 (by decide)).trans (val13_main_arg3 V0)
theorem val14_main_arg4 (V0 : Valuation τ sig (Elt Ideal)) : val14 V0 (no_index (Proc.devRef .tc main_arg4)) = V0 (Proc.devRef .tc main_arg4) :=
  (val14_keep V0 main_arg4 (by decide)).trans (val13_main_arg4 V0)
theorem val14_main_arg5 (V0 : Valuation τ sig (Elt Ideal)) : val14 V0 (no_index (Proc.devRef .tc main_arg5)) = V0 (Proc.devRef .tc main_arg5) :=
  (val14_keep V0 main_arg5 (by decide)).trans (val13_main_arg5 V0)
theorem val14_main_arg6 (V0 : Valuation τ sig (Elt Ideal)) : val14 V0 (no_index (Proc.devRef .tc main_arg6)) = V0 (Proc.devRef .tc main_arg6) :=
  (val14_keep V0 main_arg6 (by decide)).trans (val13_main_arg6 V0)
theorem val14_main_arg7 (V0 : Valuation τ sig (Elt Ideal)) : val14 V0 (no_index (Proc.devRef .tc main_arg7)) = V0 (Proc.devRef .tc main_arg7) :=
  (val14_keep V0 main_arg7 (by decide)).trans (val13_main_arg7 V0)
theorem val14_main_arg8 (V0 : Valuation τ sig (Elt Ideal)) : val14 V0 (no_index (Proc.devRef .tc main_arg8)) = V0 (Proc.devRef .tc main_arg8) :=
  (val14_keep V0 main_arg8 (by decide)).trans (val13_main_arg8 V0)
theorem val14_main_arg9 (V0 : Valuation τ sig (Elt Ideal)) : val14 V0 (no_index (Proc.devRef .tc main_arg9)) = V0 (Proc.devRef .tc main_arg9) :=
  (val14_keep V0 main_arg9 (by decide)).trans (val13_main_arg9 V0)
theorem val14_main_arg10 (V0 : Valuation τ sig (Elt Ideal)) : val14 V0 (no_index (Proc.devRef .tc main_arg10)) = V0 (Proc.devRef .tc main_arg10) :=
  (val14_keep V0 main_arg10 (by decide)).trans (val13_main_arg10 V0)
theorem val14_main_arg11 (V0 : Valuation τ sig (Elt Ideal)) : val14 V0 (no_index (Proc.devRef .tc main_arg11)) = V0 (Proc.devRef .tc main_arg11) :=
  (val14_keep V0 main_arg11 (by decide)).trans (val13_main_arg11 V0)
theorem val14_main_arg12 (V0 : Valuation τ sig (Elt Ideal)) : val14 V0 (no_index (Proc.devRef .tc main_arg12)) = V0 (Proc.devRef .tc main_arg12) :=
  (val14_keep V0 main_arg12 (by decide)).trans (val13_main_arg12 V0)
theorem val14_main_arg13 (V0 : Valuation τ sig (Elt Ideal)) : val14 V0 (no_index (Proc.devRef .tc main_arg13)) = V0 (Proc.devRef .tc main_arg13) :=
  (val14_keep V0 main_arg13 (by decide)).trans (val13_main_arg13 V0)
theorem val14_main_arg14 (V0 : Valuation τ sig (Elt Ideal)) : val14 V0 (no_index (Proc.devRef .tc main_arg14)) = V0 (Proc.devRef .tc main_arg14) :=
  (val14_keep V0 main_arg14 (by decide)).trans (val13_main_arg14 V0)
theorem val14_main_v97 (V0 : Valuation τ sig (Elt Ideal)) : val14 V0 (no_index (Proc.devRef .tc main_v97)) = refW1 (V0 (Proc.devRef .tc main_arg9)) :=
  (val14_keep V0 main_v97 (by decide)).trans (val13_main_v97 V0)
theorem val14_main_v99 (V0 : Valuation τ sig (Elt Ideal)) : val14 V0 (no_index (Proc.devRef .tc main_v99)) = refB1 (V0 (Proc.devRef .tc main_arg10)) :=
  (val14_keep V0 main_v99 (by decide)).trans (val13_main_v99 V0)
theorem val14_main_v101 (V0 : Valuation τ sig (Elt Ideal)) : val14 V0 (no_index (Proc.devRef .tc main_v101)) = refW1 (V0 (Proc.devRef .tc main_arg11)) :=
  (val14_keep V0 main_v101 (by decide)).trans (val13_main_v101 V0)
theorem val14_main_v103 (V0 : Valuation τ sig (Elt Ideal)) : val14 V0 (no_index (Proc.devRef .tc main_v103)) = refB1 (V0 (Proc.devRef .tc main_arg12)) :=
  (val14_keep V0 main_v103 (by decide)).trans (val13_main_v103 V0)
theorem val14_main_v105 (V0 : Valuation τ sig (Elt Ideal)) : val14 V0 (no_index (Proc.devRef .tc main_v105)) = refB1 (V0 (Proc.devRef .tc main_arg13)) :=
  (val14_keep V0 main_v105 (by decide)).trans (val13_main_v105 V0)
theorem val14_main_v107 (V0 : Valuation τ sig (Elt Ideal)) : val14 V0 (no_index (Proc.devRef .tc main_v107)) = refB1 (V0 (Proc.devRef .tc main_arg14)) :=
  (val14_keep V0 main_v107 (by decide)).trans (val13_main_v107 V0)
set_option maxRecDepth 8192 in
set_option maxHeartbeats 2000000 in
theorem val14_main_v118 (V0 : Valuation τ sig (Elt Ideal)) : val14 V0 (no_index (Proc.devRef .tc main_v118)) = refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1)) := by
  unfold val14
  simp only [c13]
  after_results_simp
  simp only [val13_main_v1, val13_main_v3, val13_main_v95] <;> rfl

/-- The device's buffer contents after the first 15 stages. -/
def val15 (V0 : Valuation τ sig (Elt Ideal)) : Valuation τ sig (Elt Ideal) := after (c14 (F := Ideal)) (val14 V0)
/-- The buffers stage 15's operations write. -/
abbrev c14_W : List (Ref sig .tc) := [main_v119, main_v120, main_v121, main_v122, main_call6_cst, main_call6_v0, main_v123, main_v124, main_v125, main_v126, main_v127, main_call7_cst, main_call7_v0, main_v128]
theorem c14_writes : (c14 : List (HloOp τ sig (Elt Ideal))).Forall fun op => op.writes ⊆ (c14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 15 does not write keeps its contents through it. -/
theorem val15_keep (V0 : Valuation τ sig (Elt Ideal)) (r : Ref sig .tc) (h : r ∉ c14_W) :
    val15 V0 (Proc.devRef .tc r) = val14 V0 (Proc.devRef .tc r) :=
  after_of_writes_sub c14 _ c14_writes h
theorem val15_main_arg0 (V0 : Valuation τ sig (Elt Ideal)) : val15 V0 (no_index (Proc.devRef .tc main_arg0)) = V0 (Proc.devRef .tc main_arg0) :=
  (val15_keep V0 main_arg0 (by decide)).trans (val14_main_arg0 V0)
theorem val15_main_arg1 (V0 : Valuation τ sig (Elt Ideal)) : val15 V0 (no_index (Proc.devRef .tc main_arg1)) = V0 (Proc.devRef .tc main_arg1) :=
  (val15_keep V0 main_arg1 (by decide)).trans (val14_main_arg1 V0)
theorem val15_main_arg2 (V0 : Valuation τ sig (Elt Ideal)) : val15 V0 (no_index (Proc.devRef .tc main_arg2)) = V0 (Proc.devRef .tc main_arg2) :=
  (val15_keep V0 main_arg2 (by decide)).trans (val14_main_arg2 V0)
theorem val15_main_arg3 (V0 : Valuation τ sig (Elt Ideal)) : val15 V0 (no_index (Proc.devRef .tc main_arg3)) = V0 (Proc.devRef .tc main_arg3) :=
  (val15_keep V0 main_arg3 (by decide)).trans (val14_main_arg3 V0)
theorem val15_main_arg4 (V0 : Valuation τ sig (Elt Ideal)) : val15 V0 (no_index (Proc.devRef .tc main_arg4)) = V0 (Proc.devRef .tc main_arg4) :=
  (val15_keep V0 main_arg4 (by decide)).trans (val14_main_arg4 V0)
theorem val15_main_arg5 (V0 : Valuation τ sig (Elt Ideal)) : val15 V0 (no_index (Proc.devRef .tc main_arg5)) = V0 (Proc.devRef .tc main_arg5) :=
  (val15_keep V0 main_arg5 (by decide)).trans (val14_main_arg5 V0)
theorem val15_main_arg6 (V0 : Valuation τ sig (Elt Ideal)) : val15 V0 (no_index (Proc.devRef .tc main_arg6)) = V0 (Proc.devRef .tc main_arg6) :=
  (val15_keep V0 main_arg6 (by decide)).trans (val14_main_arg6 V0)
theorem val15_main_arg7 (V0 : Valuation τ sig (Elt Ideal)) : val15 V0 (no_index (Proc.devRef .tc main_arg7)) = V0 (Proc.devRef .tc main_arg7) :=
  (val15_keep V0 main_arg7 (by decide)).trans (val14_main_arg7 V0)
theorem val15_main_arg8 (V0 : Valuation τ sig (Elt Ideal)) : val15 V0 (no_index (Proc.devRef .tc main_arg8)) = V0 (Proc.devRef .tc main_arg8) :=
  (val15_keep V0 main_arg8 (by decide)).trans (val14_main_arg8 V0)
theorem val15_main_arg9 (V0 : Valuation τ sig (Elt Ideal)) : val15 V0 (no_index (Proc.devRef .tc main_arg9)) = V0 (Proc.devRef .tc main_arg9) :=
  (val15_keep V0 main_arg9 (by decide)).trans (val14_main_arg9 V0)
theorem val15_main_arg10 (V0 : Valuation τ sig (Elt Ideal)) : val15 V0 (no_index (Proc.devRef .tc main_arg10)) = V0 (Proc.devRef .tc main_arg10) :=
  (val15_keep V0 main_arg10 (by decide)).trans (val14_main_arg10 V0)
theorem val15_main_arg11 (V0 : Valuation τ sig (Elt Ideal)) : val15 V0 (no_index (Proc.devRef .tc main_arg11)) = V0 (Proc.devRef .tc main_arg11) :=
  (val15_keep V0 main_arg11 (by decide)).trans (val14_main_arg11 V0)
theorem val15_main_arg12 (V0 : Valuation τ sig (Elt Ideal)) : val15 V0 (no_index (Proc.devRef .tc main_arg12)) = V0 (Proc.devRef .tc main_arg12) :=
  (val15_keep V0 main_arg12 (by decide)).trans (val14_main_arg12 V0)
theorem val15_main_arg13 (V0 : Valuation τ sig (Elt Ideal)) : val15 V0 (no_index (Proc.devRef .tc main_arg13)) = V0 (Proc.devRef .tc main_arg13) :=
  (val15_keep V0 main_arg13 (by decide)).trans (val14_main_arg13 V0)
theorem val15_main_arg14 (V0 : Valuation τ sig (Elt Ideal)) : val15 V0 (no_index (Proc.devRef .tc main_arg14)) = V0 (Proc.devRef .tc main_arg14) :=
  (val15_keep V0 main_arg14 (by decide)).trans (val14_main_arg14 V0)
theorem val15_main_v105 (V0 : Valuation τ sig (Elt Ideal)) : val15 V0 (no_index (Proc.devRef .tc main_v105)) = refB1 (V0 (Proc.devRef .tc main_arg13)) :=
  (val15_keep V0 main_v105 (by decide)).trans (val14_main_v105 V0)
theorem val15_main_v107 (V0 : Valuation τ sig (Elt Ideal)) : val15 V0 (no_index (Proc.devRef .tc main_v107)) = refB1 (V0 (Proc.devRef .tc main_arg14)) :=
  (val15_keep V0 main_v107 (by decide)).trans (val14_main_v107 V0)
set_option maxRecDepth 8192 in
set_option maxHeartbeats 2000000 in
theorem val15_main_v128 (V0 : Valuation τ sig (Elt Ideal)) : val15 V0 (no_index (Proc.devRef .tc main_v128)) = refMlp256 (refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1))) (refW1 (V0 (Proc.devRef .tc main_arg9))) (refB1 (V0 (Proc.devRef .tc main_arg10))) (refB1 (V0 (Proc.devRef .tc main_arg12))) (refW1 (V0 (Proc.devRef .tc main_arg11))) := by
  unfold val15
  simp only [c14]
  after_results_simp
  simp only [val14_main_v103, val14_main_v101, val14_main_v99, val14_main_v97, val14_main_v118] <;> rfl

/-- The device's buffer contents after the first 16 stages. -/
def val16 (V0 : Valuation τ sig (Elt Ideal)) : Valuation τ sig (Elt Ideal) := after (c15 (F := Ideal)) (val15 V0)
/-- The buffers stage 16's operations write. -/
abbrev c15_W : List (Ref sig .tc) := [main_cst_15, main_v129, main_cst_16, main_v130, main_v131]
theorem c15_writes : (c15 : List (HloOp τ sig (Elt Ideal))).Forall fun op => op.writes ⊆ (c15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 16 does not write keeps its contents through it. -/
theorem val16_keep (V0 : Valuation τ sig (Elt Ideal)) (r : Ref sig .tc) (h : r ∉ c15_W) :
    val16 V0 (Proc.devRef .tc r) = val15 V0 (Proc.devRef .tc r) :=
  after_of_writes_sub c15 _ c15_writes h
theorem val16_main_arg0 (V0 : Valuation τ sig (Elt Ideal)) : val16 V0 (no_index (Proc.devRef .tc main_arg0)) = V0 (Proc.devRef .tc main_arg0) :=
  (val16_keep V0 main_arg0 (by decide)).trans (val15_main_arg0 V0)
theorem val16_main_arg1 (V0 : Valuation τ sig (Elt Ideal)) : val16 V0 (no_index (Proc.devRef .tc main_arg1)) = V0 (Proc.devRef .tc main_arg1) :=
  (val16_keep V0 main_arg1 (by decide)).trans (val15_main_arg1 V0)
theorem val16_main_arg2 (V0 : Valuation τ sig (Elt Ideal)) : val16 V0 (no_index (Proc.devRef .tc main_arg2)) = V0 (Proc.devRef .tc main_arg2) :=
  (val16_keep V0 main_arg2 (by decide)).trans (val15_main_arg2 V0)
theorem val16_main_arg3 (V0 : Valuation τ sig (Elt Ideal)) : val16 V0 (no_index (Proc.devRef .tc main_arg3)) = V0 (Proc.devRef .tc main_arg3) :=
  (val16_keep V0 main_arg3 (by decide)).trans (val15_main_arg3 V0)
theorem val16_main_arg4 (V0 : Valuation τ sig (Elt Ideal)) : val16 V0 (no_index (Proc.devRef .tc main_arg4)) = V0 (Proc.devRef .tc main_arg4) :=
  (val16_keep V0 main_arg4 (by decide)).trans (val15_main_arg4 V0)
theorem val16_main_arg5 (V0 : Valuation τ sig (Elt Ideal)) : val16 V0 (no_index (Proc.devRef .tc main_arg5)) = V0 (Proc.devRef .tc main_arg5) :=
  (val16_keep V0 main_arg5 (by decide)).trans (val15_main_arg5 V0)
theorem val16_main_arg6 (V0 : Valuation τ sig (Elt Ideal)) : val16 V0 (no_index (Proc.devRef .tc main_arg6)) = V0 (Proc.devRef .tc main_arg6) :=
  (val16_keep V0 main_arg6 (by decide)).trans (val15_main_arg6 V0)
theorem val16_main_arg7 (V0 : Valuation τ sig (Elt Ideal)) : val16 V0 (no_index (Proc.devRef .tc main_arg7)) = V0 (Proc.devRef .tc main_arg7) :=
  (val16_keep V0 main_arg7 (by decide)).trans (val15_main_arg7 V0)
theorem val16_main_arg8 (V0 : Valuation τ sig (Elt Ideal)) : val16 V0 (no_index (Proc.devRef .tc main_arg8)) = V0 (Proc.devRef .tc main_arg8) :=
  (val16_keep V0 main_arg8 (by decide)).trans (val15_main_arg8 V0)
theorem val16_main_arg9 (V0 : Valuation τ sig (Elt Ideal)) : val16 V0 (no_index (Proc.devRef .tc main_arg9)) = V0 (Proc.devRef .tc main_arg9) :=
  (val16_keep V0 main_arg9 (by decide)).trans (val15_main_arg9 V0)
theorem val16_main_arg10 (V0 : Valuation τ sig (Elt Ideal)) : val16 V0 (no_index (Proc.devRef .tc main_arg10)) = V0 (Proc.devRef .tc main_arg10) :=
  (val16_keep V0 main_arg10 (by decide)).trans (val15_main_arg10 V0)
theorem val16_main_arg11 (V0 : Valuation τ sig (Elt Ideal)) : val16 V0 (no_index (Proc.devRef .tc main_arg11)) = V0 (Proc.devRef .tc main_arg11) :=
  (val16_keep V0 main_arg11 (by decide)).trans (val15_main_arg11 V0)
theorem val16_main_arg12 (V0 : Valuation τ sig (Elt Ideal)) : val16 V0 (no_index (Proc.devRef .tc main_arg12)) = V0 (Proc.devRef .tc main_arg12) :=
  (val16_keep V0 main_arg12 (by decide)).trans (val15_main_arg12 V0)
theorem val16_main_arg13 (V0 : Valuation τ sig (Elt Ideal)) : val16 V0 (no_index (Proc.devRef .tc main_arg13)) = V0 (Proc.devRef .tc main_arg13) :=
  (val16_keep V0 main_arg13 (by decide)).trans (val15_main_arg13 V0)
theorem val16_main_arg14 (V0 : Valuation τ sig (Elt Ideal)) : val16 V0 (no_index (Proc.devRef .tc main_arg14)) = V0 (Proc.devRef .tc main_arg14) :=
  (val16_keep V0 main_arg14 (by decide)).trans (val15_main_arg14 V0)
theorem val16_main_v105 (V0 : Valuation τ sig (Elt Ideal)) : val16 V0 (no_index (Proc.devRef .tc main_v105)) = refB1 (V0 (Proc.devRef .tc main_arg13)) :=
  (val16_keep V0 main_v105 (by decide)).trans (val15_main_v105 V0)
theorem val16_main_v107 (V0 : Valuation τ sig (Elt Ideal)) : val16 V0 (no_index (Proc.devRef .tc main_v107)) = refB1 (V0 (Proc.devRef .tc main_arg14)) :=
  (val16_keep V0 main_v107 (by decide)).trans (val15_main_v107 V0)
theorem val16_main_v128 (V0 : Valuation τ sig (Elt Ideal)) : val16 V0 (no_index (Proc.devRef .tc main_v128)) = refMlp256 (refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1))) (refW1 (V0 (Proc.devRef .tc main_arg9))) (refB1 (V0 (Proc.devRef .tc main_arg10))) (refB1 (V0 (Proc.devRef .tc main_arg12))) (refW1 (V0 (Proc.devRef .tc main_arg11))) :=
  (val16_keep V0 main_v128 (by decide)).trans (val15_main_v128 V0)
set_option maxRecDepth 8192 in
set_option maxHeartbeats 2000000 in
theorem val16_main_v131 (V0 : Valuation τ sig (Elt Ideal)) : val16 V0 (no_index (Proc.devRef .tc main_v131)) = refMean (refMlp256 (refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1))) (refW1 (V0 (Proc.devRef .tc main_arg9))) (refB1 (V0 (Proc.devRef .tc main_arg10))) (refB1 (V0 (Proc.devRef .tc main_arg12))) (refW1 (V0 (Proc.devRef .tc main_arg11)))) := by
  unfold val16
  simp only [c15]
  after_results_simp
  simp only [val15_main_v128] <;> rfl

/-- The device's buffer contents after the first 17 stages. -/
def val17 (V0 : Valuation τ sig (Elt Ideal)) : Valuation τ sig (Elt Ideal) := after (c16 (F := Ideal)) (val16 V0)
/-- The buffers stage 17's operations write. -/
abbrev c16_W : List (Ref sig .tc) := [main_c_17, main_call8_cst, main_call8_v0, main_call8_v1, main_call8_cst_0, main_call8_v2, main_call8_v3, main_call8_v4, main_call8_v5, main_call8_v6, main_call8_v7, main_call8_cst_1, main_call8_v8, main_call8_cst_2, main_call8_v9, main_call8_v10, main_call8_v11, main_call8_cst_3, main_call8_v12, main_call8_cst_4, main_call8_call0_v0, main_call8_call0_v1, main_v132]
theorem c16_writes : (c16 : List (HloOp τ sig (Elt Ideal))).Forall fun op => op.writes ⊆ (c16_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 17 does not write keeps its contents through it. -/
theorem val17_keep (V0 : Valuation τ sig (Elt Ideal)) (r : Ref sig .tc) (h : r ∉ c16_W) :
    val17 V0 (Proc.devRef .tc r) = val16 V0 (Proc.devRef .tc r) :=
  after_of_writes_sub c16 _ c16_writes h
theorem val17_main_arg0 (V0 : Valuation τ sig (Elt Ideal)) : val17 V0 (no_index (Proc.devRef .tc main_arg0)) = V0 (Proc.devRef .tc main_arg0) :=
  (val17_keep V0 main_arg0 (by decide)).trans (val16_main_arg0 V0)
theorem val17_main_arg1 (V0 : Valuation τ sig (Elt Ideal)) : val17 V0 (no_index (Proc.devRef .tc main_arg1)) = V0 (Proc.devRef .tc main_arg1) :=
  (val17_keep V0 main_arg1 (by decide)).trans (val16_main_arg1 V0)
theorem val17_main_arg2 (V0 : Valuation τ sig (Elt Ideal)) : val17 V0 (no_index (Proc.devRef .tc main_arg2)) = V0 (Proc.devRef .tc main_arg2) :=
  (val17_keep V0 main_arg2 (by decide)).trans (val16_main_arg2 V0)
theorem val17_main_arg3 (V0 : Valuation τ sig (Elt Ideal)) : val17 V0 (no_index (Proc.devRef .tc main_arg3)) = V0 (Proc.devRef .tc main_arg3) :=
  (val17_keep V0 main_arg3 (by decide)).trans (val16_main_arg3 V0)
theorem val17_main_arg4 (V0 : Valuation τ sig (Elt Ideal)) : val17 V0 (no_index (Proc.devRef .tc main_arg4)) = V0 (Proc.devRef .tc main_arg4) :=
  (val17_keep V0 main_arg4 (by decide)).trans (val16_main_arg4 V0)
theorem val17_main_arg5 (V0 : Valuation τ sig (Elt Ideal)) : val17 V0 (no_index (Proc.devRef .tc main_arg5)) = V0 (Proc.devRef .tc main_arg5) :=
  (val17_keep V0 main_arg5 (by decide)).trans (val16_main_arg5 V0)
theorem val17_main_arg6 (V0 : Valuation τ sig (Elt Ideal)) : val17 V0 (no_index (Proc.devRef .tc main_arg6)) = V0 (Proc.devRef .tc main_arg6) :=
  (val17_keep V0 main_arg6 (by decide)).trans (val16_main_arg6 V0)
theorem val17_main_arg7 (V0 : Valuation τ sig (Elt Ideal)) : val17 V0 (no_index (Proc.devRef .tc main_arg7)) = V0 (Proc.devRef .tc main_arg7) :=
  (val17_keep V0 main_arg7 (by decide)).trans (val16_main_arg7 V0)
theorem val17_main_arg8 (V0 : Valuation τ sig (Elt Ideal)) : val17 V0 (no_index (Proc.devRef .tc main_arg8)) = V0 (Proc.devRef .tc main_arg8) :=
  (val17_keep V0 main_arg8 (by decide)).trans (val16_main_arg8 V0)
theorem val17_main_arg9 (V0 : Valuation τ sig (Elt Ideal)) : val17 V0 (no_index (Proc.devRef .tc main_arg9)) = V0 (Proc.devRef .tc main_arg9) :=
  (val17_keep V0 main_arg9 (by decide)).trans (val16_main_arg9 V0)
theorem val17_main_arg10 (V0 : Valuation τ sig (Elt Ideal)) : val17 V0 (no_index (Proc.devRef .tc main_arg10)) = V0 (Proc.devRef .tc main_arg10) :=
  (val17_keep V0 main_arg10 (by decide)).trans (val16_main_arg10 V0)
theorem val17_main_arg11 (V0 : Valuation τ sig (Elt Ideal)) : val17 V0 (no_index (Proc.devRef .tc main_arg11)) = V0 (Proc.devRef .tc main_arg11) :=
  (val17_keep V0 main_arg11 (by decide)).trans (val16_main_arg11 V0)
theorem val17_main_arg12 (V0 : Valuation τ sig (Elt Ideal)) : val17 V0 (no_index (Proc.devRef .tc main_arg12)) = V0 (Proc.devRef .tc main_arg12) :=
  (val17_keep V0 main_arg12 (by decide)).trans (val16_main_arg12 V0)
theorem val17_main_arg13 (V0 : Valuation τ sig (Elt Ideal)) : val17 V0 (no_index (Proc.devRef .tc main_arg13)) = V0 (Proc.devRef .tc main_arg13) :=
  (val17_keep V0 main_arg13 (by decide)).trans (val16_main_arg13 V0)
theorem val17_main_arg14 (V0 : Valuation τ sig (Elt Ideal)) : val17 V0 (no_index (Proc.devRef .tc main_arg14)) = V0 (Proc.devRef .tc main_arg14) :=
  (val17_keep V0 main_arg14 (by decide)).trans (val16_main_arg14 V0)
theorem val17_main_v105 (V0 : Valuation τ sig (Elt Ideal)) : val17 V0 (no_index (Proc.devRef .tc main_v105)) = refB1 (V0 (Proc.devRef .tc main_arg13)) :=
  (val17_keep V0 main_v105 (by decide)).trans (val16_main_v105 V0)
theorem val17_main_v107 (V0 : Valuation τ sig (Elt Ideal)) : val17 V0 (no_index (Proc.devRef .tc main_v107)) = refB1 (V0 (Proc.devRef .tc main_arg14)) :=
  (val17_keep V0 main_v107 (by decide)).trans (val16_main_v107 V0)
theorem val17_main_v128 (V0 : Valuation τ sig (Elt Ideal)) : val17 V0 (no_index (Proc.devRef .tc main_v128)) = refMlp256 (refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1))) (refW1 (V0 (Proc.devRef .tc main_arg9))) (refB1 (V0 (Proc.devRef .tc main_arg10))) (refB1 (V0 (Proc.devRef .tc main_arg12))) (refW1 (V0 (Proc.devRef .tc main_arg11))) :=
  (val17_keep V0 main_v128 (by decide)).trans (val16_main_v128 V0)
theorem val17_main_v131 (V0 : Valuation τ sig (Elt Ideal)) : val17 V0 (no_index (Proc.devRef .tc main_v131)) = refMean (refMlp256 (refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1))) (refW1 (V0 (Proc.devRef .tc main_arg9))) (refB1 (V0 (Proc.devRef .tc main_arg10))) (refB1 (V0 (Proc.devRef .tc main_arg12))) (refW1 (V0 (Proc.devRef .tc main_arg11)))) :=
  (val17_keep V0 main_v131 (by decide)).trans (val16_main_v131 V0)
set_option maxRecDepth 8192 in
set_option maxHeartbeats 2000000 in
theorem val17_main_v132 (V0 : Valuation τ sig (Elt Ideal)) : val17 V0 (no_index (Proc.devRef .tc main_v132)) = refVar (refMlp256 (refAgg256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1))) (refW1 (V0 (Proc.devRef .tc main_arg9))) (refB1 (V0 (Proc.devRef .tc main_arg10))) (refB1 (V0 (Proc.devRef .tc main_arg12))) (refW1 (V0 (Proc.devRef .tc main_arg11)))) := by
  unfold val17
  simp only [c16]
  after_results_simp
  simp only [val16_main_v128] <;> rfl

/-- The device's buffer contents after the first 18 stages. -/
def val18 (V0 : Valuation τ sig (Elt Ideal)) : Valuation τ sig (Elt Ideal) := after (c17 (F := Ideal)) (val17 V0)
/-- The buffers stage 18's operations write. -/
abbrev c17_W : List (Ref sig .tc) := [main_v133, main_v134, main_v135, main_v136, main_v137, main_v138, main_cst_18, main_v139, main_v140, main_v141, main_v142, main_v143, main_v144, main_v145, main_v146, main_v147]
theorem c17_writes : (c17 : List (HloOp τ sig (Elt Ideal))).Forall fun op => op.writes ⊆ (c17_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 18 does not write keeps its contents through it. -/
theorem val18_keep (V0 : Valuation τ sig (Elt Ideal)) (r : Ref sig .tc) (h : r ∉ c17_W) :
    val18 V0 (Proc.devRef .tc r) = val17 V0 (Proc.devRef .tc r) :=
  after_of_writes_sub c17 _ c17_writes h
theorem val18_main_arg0 (V0 : Valuation τ sig (Elt Ideal)) : val18 V0 (no_index (Proc.devRef .tc main_arg0)) = V0 (Proc.devRef .tc main_arg0) :=
  (val18_keep V0 main_arg0 (by decide)).trans (val17_main_arg0 V0)
theorem val18_main_arg1 (V0 : Valuation τ sig (Elt Ideal)) : val18 V0 (no_index (Proc.devRef .tc main_arg1)) = V0 (Proc.devRef .tc main_arg1) :=
  (val18_keep V0 main_arg1 (by decide)).trans (val17_main_arg1 V0)
theorem val18_main_arg2 (V0 : Valuation τ sig (Elt Ideal)) : val18 V0 (no_index (Proc.devRef .tc main_arg2)) = V0 (Proc.devRef .tc main_arg2) :=
  (val18_keep V0 main_arg2 (by decide)).trans (val17_main_arg2 V0)
theorem val18_main_arg3 (V0 : Valuation τ sig (Elt Ideal)) : val18 V0 (no_index (Proc.devRef .tc main_arg3)) = V0 (Proc.devRef .tc main_arg3) :=
  (val18_keep V0 main_arg3 (by decide)).trans (val17_main_arg3 V0)
theorem val18_main_arg4 (V0 : Valuation τ sig (Elt Ideal)) : val18 V0 (no_index (Proc.devRef .tc main_arg4)) = V0 (Proc.devRef .tc main_arg4) :=
  (val18_keep V0 main_arg4 (by decide)).trans (val17_main_arg4 V0)
theorem val18_main_arg5 (V0 : Valuation τ sig (Elt Ideal)) : val18 V0 (no_index (Proc.devRef .tc main_arg5)) = V0 (Proc.devRef .tc main_arg5) :=
  (val18_keep V0 main_arg5 (by decide)).trans (val17_main_arg5 V0)
theorem val18_main_arg6 (V0 : Valuation τ sig (Elt Ideal)) : val18 V0 (no_index (Proc.devRef .tc main_arg6)) = V0 (Proc.devRef .tc main_arg6) :=
  (val18_keep V0 main_arg6 (by decide)).trans (val17_main_arg6 V0)
theorem val18_main_arg7 (V0 : Valuation τ sig (Elt Ideal)) : val18 V0 (no_index (Proc.devRef .tc main_arg7)) = V0 (Proc.devRef .tc main_arg7) :=
  (val18_keep V0 main_arg7 (by decide)).trans (val17_main_arg7 V0)
theorem val18_main_arg8 (V0 : Valuation τ sig (Elt Ideal)) : val18 V0 (no_index (Proc.devRef .tc main_arg8)) = V0 (Proc.devRef .tc main_arg8) :=
  (val18_keep V0 main_arg8 (by decide)).trans (val17_main_arg8 V0)
theorem val18_main_arg9 (V0 : Valuation τ sig (Elt Ideal)) : val18 V0 (no_index (Proc.devRef .tc main_arg9)) = V0 (Proc.devRef .tc main_arg9) :=
  (val18_keep V0 main_arg9 (by decide)).trans (val17_main_arg9 V0)
theorem val18_main_arg10 (V0 : Valuation τ sig (Elt Ideal)) : val18 V0 (no_index (Proc.devRef .tc main_arg10)) = V0 (Proc.devRef .tc main_arg10) :=
  (val18_keep V0 main_arg10 (by decide)).trans (val17_main_arg10 V0)
theorem val18_main_arg11 (V0 : Valuation τ sig (Elt Ideal)) : val18 V0 (no_index (Proc.devRef .tc main_arg11)) = V0 (Proc.devRef .tc main_arg11) :=
  (val18_keep V0 main_arg11 (by decide)).trans (val17_main_arg11 V0)
theorem val18_main_arg12 (V0 : Valuation τ sig (Elt Ideal)) : val18 V0 (no_index (Proc.devRef .tc main_arg12)) = V0 (Proc.devRef .tc main_arg12) :=
  (val18_keep V0 main_arg12 (by decide)).trans (val17_main_arg12 V0)
theorem val18_main_arg13 (V0 : Valuation τ sig (Elt Ideal)) : val18 V0 (no_index (Proc.devRef .tc main_arg13)) = V0 (Proc.devRef .tc main_arg13) :=
  (val18_keep V0 main_arg13 (by decide)).trans (val17_main_arg13 V0)
theorem val18_main_arg14 (V0 : Valuation τ sig (Elt Ideal)) : val18 V0 (no_index (Proc.devRef .tc main_arg14)) = V0 (Proc.devRef .tc main_arg14) :=
  (val18_keep V0 main_arg14 (by decide)).trans (val17_main_arg14 V0)
set_option maxRecDepth 8192 in
set_option maxHeartbeats 2000000 in
theorem val18_main_v147 (V0 : Valuation τ sig (Elt Ideal)) : val18 V0 (no_index (Proc.devRef .tc main_v147)) = refLayer256 (refLayer256 (refLayer128 (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8))) (V0 (Proc.devRef .tc main_arg1)) (refW0 (V0 (Proc.devRef .tc main_arg9))) (refB0 (V0 (Proc.devRef .tc main_arg10))) (refW0 (V0 (Proc.devRef .tc main_arg11))) (refB0 (V0 (Proc.devRef .tc main_arg12))) (refB0 (V0 (Proc.devRef .tc main_arg13))) (refB0 (V0 (Proc.devRef .tc main_arg14)))) (V0 (Proc.devRef .tc main_arg1)) (refW1 (V0 (Proc.devRef .tc main_arg9))) (refB1 (V0 (Proc.devRef .tc main_arg10))) (refW1 (V0 (Proc.devRef .tc main_arg11))) (refB1 (V0 (Proc.devRef .tc main_arg12))) (refB1 (V0 (Proc.devRef .tc main_arg13))) (refB1 (V0 (Proc.devRef .tc main_arg14))) := by
  unfold val18
  simp only [c17]
  after_results_simp
  simp only [val17_main_v107, val17_main_v132, val17_main_v131, val17_main_v128, val17_main_v105] <;> rfl

/-- The device's buffer contents after the first 19 stages. -/
def val19 (V0 : Valuation τ sig (Elt Ideal)) : Valuation τ sig (Elt Ideal) := after (c18 (F := Ideal)) (val18 V0)
/-- The buffers stage 19's operations write. -/
abbrev c18_W : List (Ref sig .tc) := [main_cst_19, main_v148, main_v149, main_v150, main_cst_20, main_v151, main_cst_21, main_v152, main_v153, main_v154, main_cst_22, main_v155, main_v156, main_v157, main_v158, main_v159]
theorem c18_writes : (c18 : List (HloOp τ sig (Elt Ideal))).Forall fun op => op.writes ⊆ (c18_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer stage 19 does not write keeps its contents through it. -/
theorem val19_keep (V0 : Valuation τ sig (Elt Ideal)) (r : Ref sig .tc) (h : r ∉ c18_W) :
    val19 V0 (Proc.devRef .tc r) = val18 V0 (Proc.devRef .tc r) :=
  after_of_writes_sub c18 _ c18_writes h
theorem val19_main_arg0 (V0 : Valuation τ sig (Elt Ideal)) : val19 V0 (no_index (Proc.devRef .tc main_arg0)) = V0 (Proc.devRef .tc main_arg0) :=
  (val19_keep V0 main_arg0 (by decide)).trans (val18_main_arg0 V0)
theorem val19_main_arg1 (V0 : Valuation τ sig (Elt Ideal)) : val19 V0 (no_index (Proc.devRef .tc main_arg1)) = V0 (Proc.devRef .tc main_arg1) :=
  (val19_keep V0 main_arg1 (by decide)).trans (val18_main_arg1 V0)
theorem val19_main_arg2 (V0 : Valuation τ sig (Elt Ideal)) : val19 V0 (no_index (Proc.devRef .tc main_arg2)) = V0 (Proc.devRef .tc main_arg2) :=
  (val19_keep V0 main_arg2 (by decide)).trans (val18_main_arg2 V0)
theorem val19_main_arg3 (V0 : Valuation τ sig (Elt Ideal)) : val19 V0 (no_index (Proc.devRef .tc main_arg3)) = V0 (Proc.devRef .tc main_arg3) :=
  (val19_keep V0 main_arg3 (by decide)).trans (val18_main_arg3 V0)
theorem val19_main_arg4 (V0 : Valuation τ sig (Elt Ideal)) : val19 V0 (no_index (Proc.devRef .tc main_arg4)) = V0 (Proc.devRef .tc main_arg4) :=
  (val19_keep V0 main_arg4 (by decide)).trans (val18_main_arg4 V0)
theorem val19_main_arg5 (V0 : Valuation τ sig (Elt Ideal)) : val19 V0 (no_index (Proc.devRef .tc main_arg5)) = V0 (Proc.devRef .tc main_arg5) :=
  (val19_keep V0 main_arg5 (by decide)).trans (val18_main_arg5 V0)
theorem val19_main_arg6 (V0 : Valuation τ sig (Elt Ideal)) : val19 V0 (no_index (Proc.devRef .tc main_arg6)) = V0 (Proc.devRef .tc main_arg6) :=
  (val19_keep V0 main_arg6 (by decide)).trans (val18_main_arg6 V0)
theorem val19_main_arg7 (V0 : Valuation τ sig (Elt Ideal)) : val19 V0 (no_index (Proc.devRef .tc main_arg7)) = V0 (Proc.devRef .tc main_arg7) :=
  (val19_keep V0 main_arg7 (by decide)).trans (val18_main_arg7 V0)
theorem val19_main_arg8 (V0 : Valuation τ sig (Elt Ideal)) : val19 V0 (no_index (Proc.devRef .tc main_arg8)) = V0 (Proc.devRef .tc main_arg8) :=
  (val19_keep V0 main_arg8 (by decide)).trans (val18_main_arg8 V0)
theorem val19_main_arg9 (V0 : Valuation τ sig (Elt Ideal)) : val19 V0 (no_index (Proc.devRef .tc main_arg9)) = V0 (Proc.devRef .tc main_arg9) :=
  (val19_keep V0 main_arg9 (by decide)).trans (val18_main_arg9 V0)
theorem val19_main_arg10 (V0 : Valuation τ sig (Elt Ideal)) : val19 V0 (no_index (Proc.devRef .tc main_arg10)) = V0 (Proc.devRef .tc main_arg10) :=
  (val19_keep V0 main_arg10 (by decide)).trans (val18_main_arg10 V0)
theorem val19_main_arg11 (V0 : Valuation τ sig (Elt Ideal)) : val19 V0 (no_index (Proc.devRef .tc main_arg11)) = V0 (Proc.devRef .tc main_arg11) :=
  (val19_keep V0 main_arg11 (by decide)).trans (val18_main_arg11 V0)
theorem val19_main_arg12 (V0 : Valuation τ sig (Elt Ideal)) : val19 V0 (no_index (Proc.devRef .tc main_arg12)) = V0 (Proc.devRef .tc main_arg12) :=
  (val19_keep V0 main_arg12 (by decide)).trans (val18_main_arg12 V0)
theorem val19_main_arg13 (V0 : Valuation τ sig (Elt Ideal)) : val19 V0 (no_index (Proc.devRef .tc main_arg13)) = V0 (Proc.devRef .tc main_arg13) :=
  (val19_keep V0 main_arg13 (by decide)).trans (val18_main_arg13 V0)
theorem val19_main_arg14 (V0 : Valuation τ sig (Elt Ideal)) : val19 V0 (no_index (Proc.devRef .tc main_arg14)) = V0 (Proc.devRef .tc main_arg14) :=
  (val19_keep V0 main_arg14 (by decide)).trans (val18_main_arg14 V0)
set_option maxRecDepth 8192 in
set_option maxHeartbeats 2000000 in
theorem val19_main_v159 (V0 : Valuation τ sig (Elt Ideal)) : val19 V0 (no_index (Proc.devRef .tc main_v159)) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  unfold val19
  simp only [c18]
  after_results_simp
  simp only [val18_main_arg2, val18_main_v147] <;> rfl

/-- The fold over all the operations is the contents after the last stage. -/
theorem after_ops (V0 : Valuation τ sig (Elt Ideal)) : after (ops (F := Ideal)) V0 = val19 V0 := by
  rw [ops_stages]
  simp only [after_append]
  rfl

/-- The result buffer ends at the network applied to the arguments' contents. -/
theorem out_eq (V0 : Valuation τ sig (Elt Ideal)) :
    after (ops (F := Ideal)) V0 (Proc.devRef .tc main_v159) = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) := by
  rw [after_ops]; exact val19_main_v159 V0
theorem arg0_eq (V0 : Valuation τ sig (Elt Ideal)) :
    after (ops (F := Ideal)) V0 (Proc.devRef .tc main_arg0) = V0 (Proc.devRef .tc main_arg0) := by
  rw [after_ops]; exact val19_main_arg0 V0
theorem arg1_eq (V0 : Valuation τ sig (Elt Ideal)) :
    after (ops (F := Ideal)) V0 (Proc.devRef .tc main_arg1) = V0 (Proc.devRef .tc main_arg1) := by
  rw [after_ops]; exact val19_main_arg1 V0
theorem arg2_eq (V0 : Valuation τ sig (Elt Ideal)) :
    after (ops (F := Ideal)) V0 (Proc.devRef .tc main_arg2) = V0 (Proc.devRef .tc main_arg2) := by
  rw [after_ops]; exact val19_main_arg2 V0
theorem arg3_eq (V0 : Valuation τ sig (Elt Ideal)) :
    after (ops (F := Ideal)) V0 (Proc.devRef .tc main_arg3) = V0 (Proc.devRef .tc main_arg3) := by
  rw [after_ops]; exact val19_main_arg3 V0
theorem arg4_eq (V0 : Valuation τ sig (Elt Ideal)) :
    after (ops (F := Ideal)) V0 (Proc.devRef .tc main_arg4) = V0 (Proc.devRef .tc main_arg4) := by
  rw [after_ops]; exact val19_main_arg4 V0
theorem arg5_eq (V0 : Valuation τ sig (Elt Ideal)) :
    after (ops (F := Ideal)) V0 (Proc.devRef .tc main_arg5) = V0 (Proc.devRef .tc main_arg5) := by
  rw [after_ops]; exact val19_main_arg5 V0
theorem arg6_eq (V0 : Valuation τ sig (Elt Ideal)) :
    after (ops (F := Ideal)) V0 (Proc.devRef .tc main_arg6) = V0 (Proc.devRef .tc main_arg6) := by
  rw [after_ops]; exact val19_main_arg6 V0
theorem arg7_eq (V0 : Valuation τ sig (Elt Ideal)) :
    after (ops (F := Ideal)) V0 (Proc.devRef .tc main_arg7) = V0 (Proc.devRef .tc main_arg7) := by
  rw [after_ops]; exact val19_main_arg7 V0
theorem arg8_eq (V0 : Valuation τ sig (Elt Ideal)) :
    after (ops (F := Ideal)) V0 (Proc.devRef .tc main_arg8) = V0 (Proc.devRef .tc main_arg8) := by
  rw [after_ops]; exact val19_main_arg8 V0
theorem arg9_eq (V0 : Valuation τ sig (Elt Ideal)) :
    after (ops (F := Ideal)) V0 (Proc.devRef .tc main_arg9) = V0 (Proc.devRef .tc main_arg9) := by
  rw [after_ops]; exact val19_main_arg9 V0
theorem arg10_eq (V0 : Valuation τ sig (Elt Ideal)) :
    after (ops (F := Ideal)) V0 (Proc.devRef .tc main_arg10) = V0 (Proc.devRef .tc main_arg10) := by
  rw [after_ops]; exact val19_main_arg10 V0
theorem arg11_eq (V0 : Valuation τ sig (Elt Ideal)) :
    after (ops (F := Ideal)) V0 (Proc.devRef .tc main_arg11) = V0 (Proc.devRef .tc main_arg11) := by
  rw [after_ops]; exact val19_main_arg11 V0
theorem arg12_eq (V0 : Valuation τ sig (Elt Ideal)) :
    after (ops (F := Ideal)) V0 (Proc.devRef .tc main_arg12) = V0 (Proc.devRef .tc main_arg12) := by
  rw [after_ops]; exact val19_main_arg12 V0
theorem arg13_eq (V0 : Valuation τ sig (Elt Ideal)) :
    after (ops (F := Ideal)) V0 (Proc.devRef .tc main_arg13) = V0 (Proc.devRef .tc main_arg13) := by
  rw [after_ops]; exact val19_main_arg13 V0
theorem arg14_eq (V0 : Valuation τ sig (Elt Ideal)) :
    after (ops (F := Ideal)) V0 (Proc.devRef .tc main_arg14) = V0 (Proc.devRef .tc main_arg14) := by
  rw [after_ops]; exact val19_main_arg14 V0

/-- On every device, from any memory with zero counters: every weakly fair execution of @main at the ideal instance
    terminates with the result buffer at the network applied to the arguments' launch contents, and the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v159).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_after m ρ)

end Cert.ReferenceIdeal.RefValue

end
-- ==== Proof.PreReal.lean ====
/-
  Finite inputs are real inputs.

  The precondition says, of each of the thirteen float arguments, that every entry's absolute value is below +∞, the
  thirteen answers joined by "and". An entry whose absolute value is below +∞ is neither infinity, so it is the reading
  of a real number. The two integer arguments carry no condition.
-/
import proofs.«159704_j38585986187613_1_alg».proof.Pre_finite_inputs
import proofs.«159704_j38585986187613_1_alg».proof.Proof.Stats
import Idealize.ShloMosaic.Lib.ReduceAll

noncomputable section

namespace Cert.Gin.Pre

open Idealize.ShloMosaic Cert.Pre_finite_inputs Cert.Gin.Stats

/-- The shape of rank 0 has one index. -/
instance : Subsingleton S_.Idx := ⟨fun a b => funext fun d => d.elim0⟩

/-- One conjunct of the precondition: "every entry's absolute value is below +∞" answering the true bit makes every
    entry real. -/
theorem all_finite {s : Shape} {axes : List (Fin s.rank)} (x : FVec Ideal s .f32) (dims : Fin S_.rank → Fin s.rank)
    (hb : S_.BroadcastsInDim s dims) (hr : s.ReducesTo axes S_) (hu : 0 < S_.numel) (j : S_.Idx)
    (e : Host.reduce IntOp.andi
        (cmpf .olt (Host.absf x) (broadcastInDim s dims hb (constant (F := Ideal) S_ .f32 0x7F800000#32)))
        (constantI S_ 1 1#1) hr hu j = 1#1) (i : s.Idx) : IsReal (x i) :=
  isReal_of_finite_bit (Host.reduce_andi_all _ _ hr hu j e i)

variable [Facts]

/-- Under the precondition every entry of every float argument is real. -/
theorem inputs_real (a0 : FVec Ideal S50000x128 .f32) (a1 : IVec S2x800000 32) (a2 : IVec S50000 32)
    (a3 : FVec Ideal S128x256 .f32) (a4 : FVec Ideal S256 .f32) (a5 : FVec Ideal S256x256 .f32)
    (a6 a7 a8 : FVec Ideal S256 .f32) (a9 : FVec Ideal S2x256x256 .f32) (a10 : FVec Ideal S2x256 .f32)
    (a11 : FVec Ideal S2x256x256 .f32) (a12 a13 a14 : FVec Ideal S2x256 .f32)
    (h : fn (F := Ideal) a0 a1 a2 a3 a4 a5 a6 a7 a8 a9 a10 a11 a12 a13 a14 = fun _ => 1#1) :
    (∀ i, IsReal (a0 i)) ∧ (∀ i, IsReal (a3 i)) ∧ (∀ i, IsReal (a4 i)) ∧ (∀ i, IsReal (a5 i)) ∧ (∀ i, IsReal (a6 i))
      ∧ (∀ i, IsReal (a7 i)) ∧ (∀ i, IsReal (a8 i)) ∧ (∀ i, IsReal (a9 i)) ∧ (∀ i, IsReal (a10 i))
      ∧ (∀ i, IsReal (a11 i)) ∧ (∀ i, IsReal (a12 i)) ∧ (∀ i, IsReal (a13 i)) ∧ (∀ i, IsReal (a14 i)) := by
  have h0 := congrFun h ValueIdx.ix0
  dsimp only [fn, fn_part1, fn_part2, fn_part3] at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨all_finite a0 _ _ _ _ _ e0, all_finite a3 _ _ _ _ _ e3, all_finite a4 _ _ _ _ _ e4,
    all_finite a5 _ _ _ _ _ e5, all_finite a6 _ _ _ _ _ e6, all_finite a7 _ _ _ _ _ e7, all_finite a8 _ _ _ _ _ e8,
    all_finite a9 _ _ _ _ _ e9, all_finite a10 _ _ _ _ _ e10, all_finite a11 _ _ _ _ _ e11,
    all_finite a12 _ _ _ _ _ e12, all_finite a13 _ _ _ _ _ e13, all_finite a14 _ _ _ _ _ e14⟩

end Cert.Gin.Pre

end
-- ==== Proof.lean ====
/-
  The certificate of a three-layer graph network with mean pooling: the kernel program against its reference.

  Each layer aggregates every node's in-neighbours (the same host operations in both programs), sends each node's row
  through two rectified affine maps, and normalises every column by its mean and variance over the 50000 nodes. The
  kernel computes the two maps and the column sums of the result and of its squares 2000 rows at a time, takes the
  variance as the larger of zero and (mean of squares − squared mean), and normalises in a second launch; the reference
  takes the variance as the mean of the squared deviations. Over the extended reals the two variances agree when every
  entry is a real number, which the precondition (every float input finite) gives, layer after layer: sums, products and
  maxima of reals are real, and the reciprocal square root of a nonnegative real plus a positive real is real. The
  pooling is the same host operations in both programs.

  The kernel's run ends with its result at the fold of its thirteen segments; that fold is read, segment by segment, as
  the pooling of the third layer in the column-sums spelling. The reference's run ends at its composed operations, which
  equal the same pooling once the precondition makes the two spellings of the variance agree.
-/
import proofs.«159704_j38585986187613_1_alg».proof.Defs
import proofs.«159704_j38585986187613_1_alg».proof.Proof.Gen.Kernel.Frame
import proofs.«159704_j38585986187613_1_alg».proof.Proof.Gen.KernelIdeal.Frame
import proofs.«159704_j38585986187613_1_alg».proof.Proof.Gen.ReferenceIdeal
import proofs.«159704_j38585986187613_1_alg».proof.Proof.Gen.Pre_finite_inputs
import proofs.«159704_j38585986187613_1_alg».proof.Proof.KernelRun
import proofs.«159704_j38585986187613_1_alg».proof.Proof.KernelChain
import proofs.«159704_j38585986187613_1_alg».proof.Proof.RefRunRead
import proofs.«159704_j38585986187613_1_alg».proof.Proof.RefChain
import proofs.«159704_j38585986187613_1_alg».proof.Proof.PreReal

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- Both programs end, from memories agreeing on the arguments, at the pooling of the third layer in the column-sums
    spelling of the arguments. -/
theorem algebraic : Cert.algebraic_KernelIdeal_ReferenceIdeal := by
  intro m ρ m' ρ' hpre hagree
  refine ⟨fun c => Cert.ReferenceIdeal.RefValue.refPool
      (Cert.ReferenceIdeal.RefValue.refS3
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg11))
        (m ((c.tc : Thread Cert.KernelIdeal.nD Cert.KernelIdeal.τ).loc Cert.KernelIdeal.main_arg12))
        (m ((c.tc : Thread Cert.KernelIdeal.nD Cert.KernelIdeal.τ).loc Cert.KernelIdeal.main_arg13))
        (m ((c.tc : Thread Cert.KernelIdeal.nD Cert.KernelIdeal.τ).loc Cert.KernelIdeal.main_arg14)))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Chain.result_eq m ρ c), (h c).2⟩)
      (Cert.KernelIdeal.ValueRun.run (F := Ideal) m ρ)
  · refine (θ_run Cert.ReferenceIdeal.defs _ _).mono (fun r h c => ⟨(h c).1.trans ?_, (h c).2⟩)
      (Cert.ReferenceIdeal.RefValue.run m' ρ')
    obtain ⟨e0, e1, e2, e3, e4, e5, e6, e7, e8, e9, e10, e11, e12, e13, e14⟩ := hagree c
    rw [e0, e1, e2, e3, e4, e5, e6, e7, e8, e9, e10, e11, e12, e13, e14]
    exact Cert.ReferenceIdeal.RefValue.refOut_eq_sums _ _ _ _ _ _ _ _ _ _ _ _ _ _ _
      (Cert.Gin.Pre.inputs_real _ _ _ _ _ _ _ _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
